-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256 .f32) (main_arg5 : FVec F S256x128 .f32) (main_arg6 : FVec F S128 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8192x8192 .f32) (main_arg1 : FVec F S8192x8192 .f32) (main_arg2 : FVec F S8192x512 .f32) (main_arg3 : FVec F S512x256 .f32) (main_arg4 : FVec F S256 .f32) (main_arg5 : FVec F S256x128 .f32) (main_arg6 : FVec F S128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S8192x8192 : Shape := ⟨2, ![8192, 8192]⟩
abbrev S8192x512 : Shape := ⟨2, ![8192, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩
abbrev S8192x256 : Shape := ⟨2, ![8192, 256]⟩
abbrev S1024x256 : Shape := ⟨2, ![1024, 256]⟩
abbrev S1x256 : Shape := ⟨2, ![1, 256]⟩
abbrev S8192x128 : Shape := ⟨2, ![8192, 128]⟩
abbrev S1024x128 : Shape := ⟨2, ![1024, 128]⟩
abbrev S1x128 : Shape := ⟨2, ![1, 128]⟩

abbrev nBuf : Space → Nat
  | .hbm => 57
  | .vmem => 27
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S8192x1, .f32⟩
  | .hbm, ⟨8, _⟩ => ⟨S8192x8192, .bf16⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .i1⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S1x256, .f32⟩
  | .hbm, ⟨38, _⟩ => ⟨S8192x256, .f32⟩
  | .hbm, ⟨39, _⟩ => ⟨S8192x256, .f32⟩
  | .hbm, ⟨40, _⟩ => ⟨S_, .f32⟩
  | .hbm, ⟨41, _⟩ => ⟨S8192x256, .f32⟩
  | .hbm, ⟨42, _⟩ => ⟨S8192x256, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S1x128, .f32⟩
  | .hbm, ⟨55, _⟩ => ⟨S8192x128, .f32⟩
  | .hbm, ⟨56, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1024x1024, .bf16⟩
  | .local _ .vmem, ⟨7, _⟩ => ⟨S1024x1024, .bf16⟩
  | .local _ .vmem, ⟨8, _⟩ => ⟨S1024x1, .f32⟩
  | .local _ .vmem, ⟨9, _⟩ => ⟨S1024x1024, .bf16⟩
  | .local _ .vmem, ⟨10, _⟩ => ⟨S1024x1024, .bf16⟩
  | .local _ .vmem, ⟨11, _⟩ => ⟨S1024x256, .f32⟩
  | .local _ .vmem, ⟨12, _⟩ => ⟨S1024x256, .f32⟩
  | .local _ .vmem, ⟨13, _⟩ => ⟨S1024x1, .f32⟩
  | .local _ .vmem, ⟨14, _⟩ => ⟨S1024x1, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x1024, .bf16⟩
  | .local _ .vmem, ⟨19, _⟩ => ⟨S1024x1024, .bf16⟩
  | .local _ .vmem, ⟨20, _⟩ => ⟨S1024x128, .f32⟩
  | .local _ .vmem, ⟨21, _⟩ => ⟨S1024x128, .f32⟩
  | .local _ .vmem, ⟨22, _⟩ => ⟨S1024x1, .f32⟩
  | .local _ .vmem, ⟨23, _⟩ => ⟨S1024x1, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call2_cst : Ref sig .tc := ⟨.hbm, 40, rfl⟩
abbrev main_call2_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S1024x1024_S1024x1024 : S1024x1024.ShapeCasts S1024x1024
  broadcasts_S1024x1_S1024x256 : S1024x1.Broadcasts S1024x256
  shapeCasts_S256_S1x256 : S256.ShapeCasts S1x256
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S8192x1_S8192x128_0_1 : S8192x1.BroadcastsInDim S8192x128 (![0, 1] : Fin 2 → Fin S8192x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1024x1_S1024x128 : S1024x1.Broadcasts S1024x128
  shapeCasts_S128_S1x128 : S128.ShapeCasts S1x128
  bcast_S1x128_S8192x128_0_1 : S1x128.BroadcastsInDim S8192x128 (![0, 1] : Fin 2 → Fin S8192x128.rank)
  dot_S8192x512_S512x256_S8192x256_1_0_0_1_n_n_wf : DotDims.WF S8192x512 S512x256 S8192x256 [1] [0] [0] [1] [] []
  dot_S1024x1024_S1024x256_S1024x256_1_0_0_1_n_n_wf : DotDims.WF S1024x1024 S1024x256 S1024x256 [1] [0] [0] [1] [] []
  dot_S8192x256_S256x128_S8192x128_1_0_0_1_n_n_wf : DotDims.WF S8192x256 S256x128 S8192x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .bf16 = 32 ∨ (Rect.block (s := S8192x8192) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .bf16 = 32 ∨ (Rect.block (s := S8192x8192) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

abbrev win1_0 : Pipeline.Window sig grid1 :=
  Pipeline.Window.ofSpec (Memref.whole main_v0_1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0_1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S1x8192 : Shape := ⟨2, ![1, 8192]⟩
abbrev S8192x256 : Shape := ⟨2, ![8192, 256]⟩
abbrev S1x256 : Shape := ⟨2, ![1, 256]⟩
abbrev S8192x128 : Shape := ⟨2, ![8192, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x1, .i32⟩
  | .hbm, ⟨28, _⟩ => ⟨S8192x2, .i32⟩
  | .hbm, ⟨29, _⟩ => ⟨S_, .f32⟩
  | .hbm, ⟨30, _⟩ => ⟨S8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .i1⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S1x8192, .f32⟩
  | .hbm, ⟨49, _⟩ => ⟨S8192x8192, .f32⟩
  | .hbm, ⟨50, _⟩ => ⟨S8192x8192, .f32⟩
  | .hbm, ⟨51, _⟩ => ⟨S8192x256, .f32⟩
  | .hbm, ⟨52, _⟩ => ⟨S8192x256, .f32⟩
  | .hbm, ⟨53, _⟩ => ⟨S1x256, .f32⟩
  | .hbm, ⟨54, _⟩ => ⟨S8192x256, .f32⟩
  | .hbm, ⟨55, _⟩ => ⟨S8192x256, .f32⟩
  | .hbm, ⟨56, _⟩ => ⟨S_, .f32⟩
  | .hbm, ⟨57, _⟩ => ⟨S8192x256, .f32⟩
  | .hbm, ⟨58, _⟩ => ⟨S8192x256, .f32⟩
  | .hbm, ⟨59, _⟩ => ⟨S8192x128, .f32⟩
  | .hbm, ⟨60, _⟩ => ⟨S8192x128, .f32⟩
  | .hbm, ⟨61, _⟩ => ⟨S1x128, .f32⟩
  | .hbm, ⟨62, _⟩ => ⟨S8192x128, .f32⟩
  | .hbm, ⟨63, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_v22 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call2_cst : Ref sig .tc := ⟨.hbm, 56, rfl⟩
abbrev main_call2_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  scatter_S8192x8192_S8192x2_S8192_n_01_01_1_wf : ScatterDims.WF S8192x8192 S8192x2 S8192 [] [0, 1] [0, 1] 1
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.RefSide.lean ====
/-
  The reference program's frame.  The reference is a host program with no kernel launch: its run, read back as the
  composition of its StableHLO operations, ends with every argument array as it was launched; dropping what the run says
  about the result leaves exactly the frame claim.
-/
import proofs.«130698_j71897752535776_2_alg».proof.Defs
import proofs.«130698_j71897752535776_2_alg».proof.Proof.Gen.ReferenceIdeal.Run
import proofs.«130698_j71897752535776_2_alg».proof.Proof.Gen.ReferenceIdeal.Read
import proofs.«130698_j71897752535776_2_alg».proof.Proof.Gen.Pre_finite_inputs

noncomputable section

open Idealize.ShloMosaic Idealize.ShloMosaic.TcCoe Idealize.SL.Sem

namespace Cert.Proof.RefSide

/-- Every weakly fair execution of the reference terminates without a fault and leaves its seven argument arrays
    unchanged: the generated run with its statement about the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel, so there is nothing for the idealization to preserve. -/
theorem preserves : Cert.preserves_Kernel_KernelIdeal := trivial

end Cert.Proof.RefSide

end
-- ==== Proof.KI.R0Base.lean ====
/-
  Region 0 of the kernel program: row sums of A + β·S, and A + β·S itself staged for the two propagation steps.

  The region's grid is 8 row blocks by 8 column blocks of 1024 x 1024 entries; point t is row block t / 8, column block
  t % 8, the column block moving fastest.  The body keeps a 1024 x 1 accumulator in a scratch buffer that lives across
  the eight points of a row block: it is zeroed when the column block is 0, receives the block's row sums at every
  point, and is copied to the output's 1024 x 1 window when the column block is 7.  So a point is of one of three
  kinds, told apart by two conditions on its coordinates; here are those conditions in closed form over the grid, and
  the memory the body is called with at a point.
-/
import proofs.«130698_j71897752535776_2_alg».proof.Proof.Gen.KernelIdeal.Launch
import proofs.«130698_j71897752535776_2_alg».proof.Proof.Gen.KernelIdeal.Skeleton
import proofs.«130698_j71897752535776_2_alg».proof.Proof.Gen.KernelIdeal.Points
import Idealize.ShloMosaic.Lib.Pipeline.FrameBody
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions the body branches on -/

/-- The body's first branch is taken: the point's column block is 0 (the accumulator is zeroed). -/
abbrev FirstCol (i : grid0.Coords) : Prop :=
  (Scalar.cmpi .ne (Scalar.extui (Scalar.cmpi .eq (BitVec.ofNat 32 (i 1).val) 0#32)) 0#32) = 1#1

/-- Over the 64 points: the column block is 0 exactly when the point's number is a multiple of 8. -/
theorem firstCol_iff : ∀ t : Fin cfg0.N, FirstCol (grid0.coords t) ↔ t.val % 8 = 0 :=
  (by decide +kernel : ∀ t : Fin grid0.N, FirstCol (grid0.coords t) ↔ t.val % 8 = 0)

/-- The body's last branch is taken: the point's column block is 7 (the accumulator is written out). -/
abbrev LastCol (i : grid0.Coords) : Prop := k0_cond2 i = 1#1

/-- Over the 64 points: the column block is 7 exactly when the point's number is 7 modulo 8. -/
theorem lastCol_iff : ∀ t : Fin cfg0.N, LastCol (grid0.coords t) ↔ t.val % 8 = 7 :=
  (by decide +kernel : ∀ t : Fin grid0.N, LastCol (grid0.coords t) ↔ t.val % 8 = 7)

/-! ## The memory the body is called with at a point -/

/-- The staging buffer holding A's block at point `t`. -/
abbrev bufA (t : Fin cfg0.N) : Memref sig .tc .vmem S1024x1024 .f32 := win0_0.stage (cfg0.slots t 0)
abbrev bufA_whole (t : Fin cfg0.N) : (bufA t).IsWhole := hstage0_0 ((cfg0.slots t 0).cast nbuf0_0)
/-- The staging buffer holding S's block at point `t`. -/
abbrev bufS (t : Fin cfg0.N) : Memref sig .tc .vmem S1024x1024 .f32 := win0_1.stage (cfg0.slots t 1)
abbrev bufS_whole (t : Fin cfg0.N) : (bufS t).IsWhole := hstage0_1 ((cfg0.slots t 1).cast nbuf0_1)
/-- The staging buffer of the row-sum output's 1024 x 1 window at point `t`. -/
abbrev bufD (t : Fin cfg0.N) : Memref sig .tc .vmem S1024x1 .f32 := win0_2.stage (cfg0.slots t 2)
abbrev bufD_whole (t : Fin cfg0.N) : (bufD t).IsWhole := hstage0_2 ((cfg0.slots t 2).cast nbuf0_2)
/-- The staging buffer of the staged sum's 1024 x 1024 window at point `t`. -/
abbrev bufT (t : Fin cfg0.N) : Memref sig .tc .vmem S1024x1024 .bf16 := win0_3.stage (cfg0.slots t 3)
abbrev bufT_whole (t : Fin cfg0.N) : (bufT t).IsWhole := hstage0_3 ((cfg0.slots t 3).cast nbuf0_3)
/-- The accumulator: a whole scoped buffer of the kernel's own, the same at every point. -/
abbrev accBuf : Memref sig .tc .vmem S1024x1 .f32 := Memref.whole cc0_scratch0

end Cert.KernelIdeal.R0

end
-- ==== Proof.KI.R0Runs.lean ====
/-
  Region 0's body, run symbolically at each of the three kinds of grid point.

  Each run is a pair: the list of stores the body leaves in every buffer it writes (latest first), and the proof that
  from the buffers held whole the body runs to its end, returns the two input blocks as they were, and leaves each
  written buffer holding those stores over whatever it held before.

  * column block 0: the accumulator, at anything before, is zero-filled and then receives the block's row sums; the
    staged sum's window is written; the row-sum output's window is not touched.
  * column blocks 1 to 6: the same without the zero fill, the accumulator starting from what the point before left.
  * column block 7: as in the middle, and the accumulator is then copied into the row-sum output's window.
-/
import proofs.«130698_j71897752535776_2_alg».proof.Proof.KI.R0Base

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Column block 0: the stores left in the staged sum's window and in the accumulator, and the run. The row-sum
    output's window, at `xd`, is handed back untouched. -/
noncomputable def runFirst (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : FirstCol i) (hc1 : ¬LastCol i)
    (x0 x1 : Vec F S1024x1024 .f32) :
    Σ' (LT : List (View.Piece (Elt F) S1024x1024 .bf16)), { LA : List (View.Piece (Elt F) S1024x1 .f32) //
      ∀ (xd : Vec F S1024x1 .f32) (E : Set ℕ) (K : PUnit → sProp 𝕄),
        iprop(owns (c : Thread nD τ) a2 fullShare x0 ∗ owns (c : Thread nD τ) a3 fullShare x1 ∗ owns (c : Thread nD τ) a4 fullShare xd
            ∗ (∃ d, owns (c : Thread nD τ) a5 fullShare d) ∗ (∃ d, owns (c : Thread nD τ) a6 fullShare d)
            ∗ (iprop(owns (c : Thread nD τ) a2 fullShare x0 ∗ owns (c : Thread nD τ) a3 fullShare x1 ∗ owns (c : Thread nD τ) a4 fullShare xd
                ∗ (∃ f, a5.view.loc (c : Thread nD τ) ↦[a5.view.set]{fullShare} a5.view.writes (Elt F) f LT)
                ∗ (∃ f, a6.view.loc (c : Thread nD τ) ↦[a6.view.set]{fullShare} a6.view.writes (Elt F) f LA)) -∗ K ⟨⟩))
          ⊢ wp frame (wpE (defs₀ (F := F)) Variants.none c none) E (cc0__d_and_atilde_kernel i a2 h2 a3 h3 a4 h4 a5 h5 a6 h6) K } := by
  refine ⟨?_, ?_, fun xd E K => ?run⟩
  case run =>
    simp only [cc0__d_and_atilde_kernel_eq_skeleton]; unfold cc0__d_and_atilde_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := h2.eq_unread hf0; obtain rfl := h3.eq_unread hf1; obtain rfl := h4.eq_unread hf2
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    iexists _; iexact HS

set_option maxHeartbeats 1000000 in
/-- Column blocks 1 to 6: the accumulator comes in at `xs`, what the point before left in it. -/
noncomputable def runMid (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : ¬LastCol i)
    (x0 x1 : Vec F S1024x1024 .f32) (xs : Vec F S1024x1 .f32) :
    Σ' (LT : List (View.Piece (Elt F) S1024x1024 .bf16)), { LA : List (View.Piece (Elt F) S1024x1 .f32) //
      ∀ (xd : Vec F S1024x1 .f32) (E : Set ℕ) (K : PUnit → sProp 𝕄),
        iprop(owns (c : Thread nD τ) a2 fullShare x0 ∗ owns (c : Thread nD τ) a3 fullShare x1 ∗ owns (c : Thread nD τ) a4 fullShare xd
            ∗ (∃ d, owns (c : Thread nD τ) a5 fullShare d) ∗ owns (c : Thread nD τ) a6 fullShare xs
            ∗ (iprop(owns (c : Thread nD τ) a2 fullShare x0 ∗ owns (c : Thread nD τ) a3 fullShare x1 ∗ owns (c : Thread nD τ) a4 fullShare xd
                ∗ (∃ f, a5.view.loc (c : Thread nD τ) ↦[a5.view.set]{fullShare} a5.view.writes (Elt F) f LT)
                ∗ (∃ f, a6.view.loc (c : Thread nD τ) ↦[a6.view.set]{fullShare} a6.view.writes (Elt F) f LA)) -∗ K ⟨⟩))
          ⊢ wp frame (wpE (defs₀ (F := F)) Variants.none c none) E (cc0__d_and_atilde_kernel i a2 h2 a3 h3 a4 h4 a5 h5 a6 h6) K } := by
  refine ⟨?_, ?_, fun xd E K => ?run⟩
  case run =>
    simp only [cc0__d_and_atilde_kernel_eq_skeleton]; unfold cc0__d_and_atilde_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h2.eq_unread hf0; obtain rfl := h3.eq_unread hf1; obtain rfl := h4.eq_unread hf2
    obtain rfl := h6.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    iexists _; iexact HS

set_option maxHeartbeats 1000000 in
/-- Column block 7: as in the middle, and the row-sum output's window, at anything before, receives the accumulator. -/
noncomputable def runLast (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : LastCol i)
    (x0 x1 : Vec F S1024x1024 .f32) (xs : Vec F S1024x1 .f32) :
    Σ' (LD : List (View.Piece (Elt F) S1024x1 .f32)) (LT : List (View.Piece (Elt F) S1024x1024 .bf16)), { LA : List (View.Piece (Elt F) S1024x1 .f32) //
      ∀ (E : Set ℕ) (K : PUnit → sProp 𝕄),
        iprop(owns (c : Thread nD τ) a2 fullShare x0 ∗ owns (c : Thread nD τ) a3 fullShare x1 ∗ (∃ d, owns (c : Thread nD τ) a4 fullShare d)
            ∗ (∃ d, owns (c : Thread nD τ) a5 fullShare d) ∗ owns (c : Thread nD τ) a6 fullShare xs
            ∗ (iprop(owns (c : Thread nD τ) a2 fullShare x0 ∗ owns (c : Thread nD τ) a3 fullShare x1
                ∗ (∃ f, a4.view.loc (c : Thread nD τ) ↦[a4.view.set]{fullShare} a4.view.writes (Elt F) f LD)
                ∗ (∃ f, a5.view.loc (c : Thread nD τ) ↦[a5.view.set]{fullShare} a5.view.writes (Elt F) f LT)
                ∗ (∃ f, a6.view.loc (c : Thread nD τ) ↦[a6.view.set]{fullShare} a6.view.writes (Elt F) f LA)) -∗ K ⟨⟩))
          ⊢ wp frame (wpE (defs₀ (F := F)) Variants.none c none) E (cc0__d_and_atilde_kernel i a2 h2 a3 h3 a4 h4 a5 h5 a6 h6) K } := by
  refine ⟨?_, ?_, ?_, fun E K => ?run⟩
  case run =>
    simp only [cc0__d_and_atilde_kernel_eq_skeleton]; unfold cc0__d_and_atilde_kernel_skel
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := h2.eq_unread hf0; obtain rfl := h3.eq_unread hf1
    obtain rfl := h6.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; iexact H2
    isplitl [H3]
    · iexists _; iexact H3
    iexists _; iexact HS

end Cert.KernelIdeal.R0

end
-- ==== Proof.LibWholeStores.lean ====
/-
  Whole-buffer loads and stores. A kernel body that keeps an accumulator in a buffer reads and writes it through
  the rectangle at zero offsets of the buffer's own extents. Through that rectangle a load reads the contents, a
  store leaves its payload whatever was stored before, and a load after such a store reads the payload. The
  statements are over any view, any value type and any earlier list of stores.
-/
import Idealize.ShloMosaic.Lib.Pipeline.Value
import Idealize.ShloMosaic.Lib.Pipeline.Frame
import Idealize.ShloMosaic.Lib.Pipeline.FrameBody

noncomputable section

namespace Idealize.ShloMosaic.WholeStores

open Idealize.ShloMosaic

variable {Val : EltTy → Type} {S : Shape} {e : EltTy}

/-- After a list of stores whose LAST one goes through the whole rectangle, the buffer reads as that store's
    payload: earlier stores and earlier contents are overwritten. -/
theorem read_writes_whole_last [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole rectangle, after stores the last of which went through the whole rectangle, reads
    that store's payload. -/
theorem readCov_whole_last [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h inb, View.ld_unit_zero h inb]

/-- A load through the whole rectangle of a whole buffer whose contents read as X reads X. -/
theorem readAt_whole_unread {sig : RefSig} {κ : Kind} {sp : Space} {m : Memref sig κ sp S e} (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Idealize.ShloMosaic.WholeStores

end
-- ==== Proof.KI.R0Values.lean ====
/-
  Region 0: what each buffer holds after the body, at each kind of grid point, as a function of what the body found.

  With `x0`, `x1` the blocks of A and S at the point and `xs` what the accumulator held on entry:
  * the staged sum's window ends holding the block of A + β·S in the narrower format (`k0_pay4 x0 x1`), at every point;
  * the accumulator ends holding the block's row sums added to zero at column block 0 (`k0_pay3 x0 x1 k0_pay1`), and
    added to `xs` elsewhere (`k0_pay3 x0 x1 xs`);
  * at column block 7 the row-sum output's window ends holding that same accumulator value.
  Every store of the body goes through the whole rectangle of its buffer, so each buffer reads as its last store's
  payload whatever it held before.
-/
import proofs.«130698_j71897752535776_2_alg».proof.Proof.KI.R0Runs
import proofs.«130698_j71897752535776_2_alg».proof.Proof.LibWholeStores

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.WholeStores

variable {F : FTy → Type} [FloatOps F]

/-- The offsets of a whole rank-2 rectangle are zero on both axes. -/
theorem hz : (![0, 0] : Fin 2 → Nat) = fun _ => 0 := funext fun a => by fin_cases a <;> rfl

/-! ## Column block 0 -/

theorem first_tilde (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : FirstCol i) (hc1 : ¬LastCol i) (x0 x1 : Vec F S1024x1024 .f32)
    (f : a5.view.ty.Contents (Elt F)) :
    a5.view.read (Elt F) (a5.view.writes (Elt F) f (runFirst c i a2 h2 a3 h3 a4 h4 a5 h5 a6 h6 hc0 hc1 x0 x1).1) = k0_pay4 x0 x1 := by
  unfold runFirst; dsimp only
  rw [read_writes_whole_last _ _ hz, readAt_whole_unread h2 hz, readAt_whole_unread h3 hz]

theorem first_acc (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : FirstCol i) (hc1 : ¬LastCol i) (x0 x1 : Vec F S1024x1024 .f32)
    (f : a6.view.ty.Contents (Elt F)) :
    a6.view.read (Elt F) (a6.view.writes (Elt F) f (runFirst c i a2 h2 a3 h3 a4 h4 a5 h5 a6 h6 hc0 hc1 x0 x1).2.1) = k0_pay3 x0 x1 (k0_pay1 (F := F)) := by
  unfold runFirst; dsimp only
  rw [read_writes_whole_last _ _ hz, readAt_whole_unread h2 hz, readAt_whole_unread h3 hz]
  congr 1
  unfold runFirst.sl.v8 runFirst.sl.HS_1
  rw [readCov_whole_last _ hz]

/-! ## Column blocks 1 to 6 -/

theorem mid_tilde (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : ¬LastCol i) (x0 x1 : Vec F S1024x1024 .f32) (xs : Vec F S1024x1 .f32)
    (f : a5.view.ty.Contents (Elt F)) :
    a5.view.read (Elt F) (a5.view.writes (Elt F) f (runMid c i a2 h2 a3 h3 a4 h4 a5 h5 a6 h6 hc0 hc1 x0 x1 xs).1) = k0_pay4 x0 x1 := by
  unfold runMid; dsimp only
  rw [read_writes_whole_last _ _ hz, readAt_whole_unread h2 hz, readAt_whole_unread h3 hz]

theorem mid_acc (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : ¬LastCol i) (x0 x1 : Vec F S1024x1024 .f32) (xs : Vec F S1024x1 .f32)
    (f : a6.view.ty.Contents (Elt F)) :
    a6.view.read (Elt F) (a6.view.writes (Elt F) f (runMid c i a2 h2 a3 h3 a4 h4 a5 h5 a6 h6 hc0 hc1 x0 x1 xs).2.1) = k0_pay3 x0 x1 xs := by
  unfold runMid; dsimp only
  rw [read_writes_whole_last _ _ hz, readAt_whole_unread h2 hz, readAt_whole_unread h3 hz, readAt_whole_unread h6 hz]

/-! ## Column block 7 -/

theorem last_tilde (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : LastCol i) (x0 x1 : Vec F S1024x1024 .f32) (xs : Vec F S1024x1 .f32)
    (f : a5.view.ty.Contents (Elt F)) :
    a5.view.read (Elt F) (a5.view.writes (Elt F) f (runLast c i a2 h2 a3 h3 a4 h4 a5 h5 a6 h6 hc0 hc1 x0 x1 xs).2.1) = k0_pay4 x0 x1 := by
  unfold runLast; dsimp only
  rw [read_writes_whole_last _ _ hz, readAt_whole_unread h2 hz, readAt_whole_unread h3 hz]

theorem last_acc (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : LastCol i) (x0 x1 : Vec F S1024x1024 .f32) (xs : Vec F S1024x1 .f32)
    (f : a6.view.ty.Contents (Elt F)) :
    a6.view.read (Elt F) (a6.view.writes (Elt F) f (runLast c i a2 h2 a3 h3 a4 h4 a5 h5 a6 h6 hc0 hc1 x0 x1 xs).2.2.1) = k0_pay3 x0 x1 xs := by
  unfold runLast; dsimp only
  unfold runLast.sl.HS_1
  rw [read_writes_whole_last _ _ hz, readAt_whole_unread h2 hz, readAt_whole_unread h3 hz, readAt_whole_unread h6 hz]

theorem last_out (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : LastCol i) (x0 x1 : Vec F S1024x1024 .f32) (xs : Vec F S1024x1 .f32)
    (f : a4.view.ty.Contents (Elt F)) :
    a4.view.read (Elt F) (a4.view.writes (Elt F) f (runLast c i a2 h2 a3 h3 a4 h4 a5 h5 a6 h6 hc0 hc1 x0 x1 xs).1) = k0_pay3 x0 x1 xs := by
  unfold runLast; dsimp only
  rw [read_writes_whole_last _ _ hz]
  unfold runLast.sl.v20 runLast.sl.HS_1
  rw [readCov_whole_last _ hz, readAt_whole_unread h2 hz, readAt_whole_unread h3 hz, readAt_whole_unread h6 hz]

end Cert.KernelIdeal.R0

end
-- ==== Proof.KI.R0Data.lean ====
/-
  Region 0: its proof data.

  The region is entered with the TensorCore's buffers at contents `V`.  At point `t` the pipeline stages the blocks of
  A and S (`iblk V c 0 t`, `iblk V c 1 t`: the 1024 x 1024 blocks at row block t / 8, column block t % 8).  The
  accumulator after point `t` is `accAt V c t`: the row sums of that point's block of A + β·S added to zero when the
  column block is 0, and to what the point before left otherwise; so after the last point of a row block it holds the
  sum over the eight column blocks.  The region's invariant is the kernel's scoped buffers and the generator register at
  anything before the first point, and from then on the accumulator at `accAt` of the point before, the other scoped
  buffers and the register at anything.
-/
import proofs.«130698_j71897752535776_2_alg».proof.Proof.KI.R0Values
import Idealize.ShloMosaic.Lib.Pipeline.Frame
import Idealize.ShloMosaic.Lib.Pipeline.FrameBody

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A's staging buffer holds A's block at every point: it is fetched at every point, and an uncut window's fetch
    fills the buffer with the block. -/
theorem beforeA_of {c : Dev nD} (dat : Dat τ (Elt F) Unit ℕ (UR sig nD τ) ℕ cfg0 c) (hA : dat.A 0 = V c (Pipeline.arrRef spec0 0))
    (t : Fin cfg0.N) (d) : dat.before 0 t d = iblk V c 0 t :=
  (dat.before_fetched 0 t (fetch0_0 t) d).trans (by unfold Dat.fetched Dat.blockOf iblk; rw [hA]; try rfl)

/-- S's staging buffer holds S's block at every point. -/
theorem beforeS_of {c : Dev nD} (dat : Dat τ (Elt F) Unit ℕ (UR sig nD τ) ℕ cfg0 c) (hA : dat.A 1 = V c (Pipeline.arrRef spec0 1))
    (t : Fin cfg0.N) (d) : dat.before 1 t d = iblk V c 1 t :=
  (dat.before_fetched 1 t (fetch0_1 t) d).trans (by unfold Dat.fetched Dat.blockOf iblk; rw [hA]; try rfl)

/-! ## The accumulator, point by point -/

/-- What the accumulator holds after the body at point `n`. -/
def accAt (c : Dev nD) : (n : ℕ) → n < cfg0.N → Vec F S1024x1 .f32
  | 0, hn => k0_pay3 (iblk V c 0 ⟨0, hn⟩) (iblk V c 1 ⟨0, hn⟩) (k0_pay1 (F := F))
  | n + 1, hn =>
    if (n + 1) % 8 = 0 then k0_pay3 (iblk V c 0 ⟨n + 1, hn⟩) (iblk V c 1 ⟨n + 1, hn⟩) (k0_pay1 (F := F))
    else k0_pay3 (iblk V c 0 ⟨n + 1, hn⟩) (iblk V c 1 ⟨n + 1, hn⟩) (accAt c n (Nat.lt_of_succ_lt hn))

/-- At a point whose column block is 0 the accumulator restarts from zero. -/
theorem accAt_first (c : Dev nD) (t : Fin cfg0.N) (h : t.val % 8 = 0) :
    accAt V c t.val t.isLt = k0_pay3 (iblk V c 0 t) (iblk V c 1 t) (k0_pay1 (F := F)) := by
  obtain ⟨n, hn⟩ := t
  cases n with
  | zero => rfl
  | succ n => exact if_pos h

/-- At any other point it continues from what the point before left. -/
theorem accAt_next (c : Dev nD) (t : Fin cfg0.N) (h : ¬t.val % 8 = 0) :
    accAt V c t.val t.isLt
      = k0_pay3 (iblk V c 0 t) (iblk V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The core's scoped buffers that are no staging buffer of this region. -/
abbrev scopedSet : Finset (Ref sig .tc) :=
  (Finset.univ.filter fun b : Ref sig .tc => b.isScoped) \ Finset.univ.image (Pipeline.stageRef spec0)

/-- Those of them other than the accumulator — the staging and scratch buffers of the two later regions —, each whole
    at some contents. -/
def others (c : Dev nD) : sProp 𝕄 :=
  bigSep (scopedSet.erase cc0_scratch0)
    fun b => iprop(∃ f : Buf (Elt F) ((c.tc : Thread nD τ).loc b), ((c.tc : Thread nD τ).loc b) ↦{fullShare} f)

/-- The scoped rest is the accumulator at something beside the others. -/
theorem scopedRest_split (c : Dev nD) :
    (Pipeline.scopedRest (Ix := Unit) (Name := ℕ) (U := UR sig nD τ) (Lvl := ℕ) (Val := Elt F) spec0 c : sProp 𝕄)
      = iprop((∃ d, owns (c : Thread nD τ) accBuf fullShare d) ∗ others c) := by
  unfold Pipeline.scopedRest others
  rw [BI.bigSep_erase (i := cc0_scratch0) (by decide)]
  simp only [accBuf, owns_whole]
  rfl

/-- The region's invariant before position `n`. -/
def Phi (c : Dev nD) : (n : ℕ) → n ≤ cfg0.N → sProp 𝕄
  | 0, _ => Pipeline.ΦA spec0 c
  | n + 1, hn => iprop(owns (c : Thread nD τ) accBuf fullShare (accAt V c n hn) ∗ others c ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(owns (c : Thread nD τ) accBuf fullShare (accAt V c n hn) ∗ others c ∗ (∃ r, prngReg c r)) := rfl

theorem Phi_pos (c : Dev nD) (n : ℕ) (h : n ≤ cfg0.N) (hz : n ≠ 0) :
    Phi V c n h = iprop(owns (c : Thread nD τ) accBuf fullShare (accAt V c (n - 1) (by omega)) ∗ others c ∗ (∃ r, prngReg c r)) := by
  cases n with
  | zero => exact absurd rfl hz
  | succ n => rfl

/-- Before the first point: the accumulator at something, the others, the register. -/
theorem PhiA_eq (c : Dev nD) :
    (Pipeline.ΦA spec0 c : sProp 𝕄) = iprop(((∃ d, owns (c : Thread nD τ) accBuf fullShare d) ∗ others c) ∗ (∃ r, prngReg c r)) := by
  unfold Pipeline.ΦA; rw [scopedRest_split]

/-! ## The proof data -/

/-- After the body at point `t`: the inputs' buffers at their blocks, the row-sum output's window at the accumulator's
    value, the staged sum's window at the block of A + β·S; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
    | ⟨3, _⟩ => k0_pay4 (iblk V c 0 t) (iblk V c 1 t)
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = Phi V c t.val (Nat.le_of_lt t.isLt) := by
  dsimp only [dat]; simp only [Fin.coe_castSucc]

theorem after_A (c : Dev nD) (t : Fin cfg0.N) : (dat V c).after 0 t = iblk V c 0 t := by dsimp only [dat]
theorem after_S (c : Dev nD) (t : Fin cfg0.N) : (dat V c).after 1 t = iblk V c 1 t := by dsimp only [dat]
theorem after_D (c : Dev nD) (t : Fin cfg0.N) : (dat V c).after 2 t = accAt V c t.val t.isLt := by dsimp only [dat]
theorem after_T (c : Dev nD) (t : Fin cfg0.N) : (dat V c).after 3 t = k0_pay4 (iblk V c 0 t) (iblk V c 1 t) := by dsimp only [dat]

theorem before_A (c : Dev nD) (t : Fin cfg0.N) (d) : (dat V c).before 0 t d = iblk V c 0 t :=
  beforeA_of V (dat V c) (A_eq V c 0) t d
theorem before_S (c : Dev nD) (t : Fin cfg0.N) (d) : (dat V c).before 1 t d = iblk V c 1 t :=
  beforeS_of V (dat V c) (A_eq V c 1) t d

end Cert.KernelIdeal.R0

end
-- ==== Proof.KI.R0Body.lean ====
/-
  Region 0: the body's obligation to the pipeline, at every grid point.

  At point `t` the pipeline hands the body the invariant, the two input blocks in their staging buffers, and the two
  output windows' staging buffers; the body must return the invariant for the next point, the inputs as they were, and
  each output window either at what the proof data says it holds after the point or, for the row-sum window at a point
  that does not write it back (every column block but 7), as it was.  By cases on the column block: 0 (the accumulator
  restarts; on entry it is at anything at the very first point and at the previous row block's total afterwards), 1 to 6,
  and 7; each case applies its symbolic run and reads the written buffers back as their last stores' payloads.
-/
import proofs.«130698_j71897752535776_2_alg».proof.Proof.KI.R0Data

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle -/

theorem live_A : ∀ t : Fin cfg0.N, cfg0.idle 0 (grid0.coords t) = false := fun _ => rfl
theorem live_S : ∀ t : Fin cfg0.N, cfg0.idle 1 (grid0.coords t) = false := fun _ => rfl
theorem live_T : ∀ t : Fin cfg0.N, cfg0.idle 3 (grid0.coords t) = false := fun _ => rfl
/-- The row-sum window is idle at every point whose column block is not 7, -/
theorem idle_D : ∀ t : Fin cfg0.N, ¬LastCol (grid0.coords t) → cfg0.idle 2 (grid0.coords t) = true := by decide +kernel
/-- live at those whose column block is 7, -/
theorem live_D : ∀ t : Fin cfg0.N, LastCol (grid0.coords t) → cfg0.idle 2 (grid0.coords t) = false := by decide +kernel
/-- and written back only there. -/
theorem noFlush_D (t : Fin cfg0.N) (h : ¬t.val % 8 = 7) : (cfg0.win 2).flush t = false :=
  Bool.eq_false_iff.mpr fun hf => h ((flush0_2 t).mp hf)

/-! ## The obligation at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (bufA t) fullShare ((dat V c).before 0 t d))
    ∗ (∃ d, owns (c : Thread nD τ) (bufS t) fullShare ((dat V c).before 1 t d))
    ∗ (∃ d, owns (c : Thread nD τ) (bufD t) fullShare ((dat V c).before 2 t d))
    ∗ (∃ d, owns (c : Thread nD τ) (bufT t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_A, before_S]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (bufA t) fullShare ((dat V c).after 0 t) from by
    unfold Dat.leavesExact; rw [live_A t], after_A]
  rw [show (dat V c).leavesExact 1 t = owns (c : Thread nD τ) (bufS t) fullShare ((dat V c).after 1 t) from by
    unfold Dat.leavesExact; rw [live_S t], after_S]
  rw [show (dat V c).leavesExact 3 t = owns (c : Thread nD τ) (bufT t) fullShare ((dat V c).after 3 t) from by
    unfold Dat.leavesExact; rw [live_T t], after_T]
  by_cases h0 : t.val % 8 = 0
  · have h7 : ¬t.val % 8 = 7 := by omega
    rw [Dat.leavesExact_idle (dat V c) 2 t (idle_D t (fun h => h7 ((lastCol_iff t).mp h))) (noFlush_D t h7)]
    rw [accAt_first V c t h0]
    by_cases hz : t.val = 0
    · rw [Phi_castSucc V c t, Phi_zero V c _ _ hz, PhiA_eq]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ ((firstCol_iff t).mpr h0) (fun h => h7 ((lastCol_iff t).mp h)) (iblk V c 0 t) (iblk V c 1 t)).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS]
        · unfold owns; iexists _; isplitr
          swap; · iexact HS
          ipureintro; exact first_acc _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact first_tilde _ _ _ _ _ _ _ _ _ _ _ _ _ _ _ _ _
    · rw [Phi_castSucc V c t, Phi_pos V c _ _ hz]
      iintro ⟨⟨HS, Hoth, Hg⟩, Ho, ⟨%d0, H0⟩, ⟨%d1, H1⟩, ⟨%d2, H2⟩, ⟨%d3, H3⟩⟩
      iapply ((runFirst c (grid0.coords t) _ _ _ _ _ _ _ _ _ _ ((firstCol_iff t).mpr h0) (fun h => h7 ((lastCol_iff t).mp h)) (iblk V c 0 t) (iblk V c 1 t)).2.2 _ Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hoth Hg]
      · isplitl [HS]
        · unfold owns; iexists _; isplitr
          swap; · iexact HS
          ipureintro; exact first_acc _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact first_tilde _ _ _ _ _ _ _ _ _ _ _ _ _ _ _ _ _
  · have hz : t.val ≠ 0 := fun h => h0 (by rw [h])
    rw [accAt_next V c t h0]
    rw [Phi_castSucc V c t, Phi_pos V c _ _ hz]
    by_cases h7 : t.val % 8 = 7
    · rw [show (dat V c).leavesExact 2 t = owns (c : Thread nD τ) (bufD t) fullShare ((dat V c).after 2 t) from by
        unfold Dat.leavesExact; rw [live_D t ((lastCol_iff t).mpr h7)], after_D, accAt_next V c t h0]
      iintro ⟨⟨HS, Hoth, Hg⟩, Ho, ⟨%d0, H0⟩, ⟨%d1, H1⟩, ⟨%d2, H2⟩, ⟨%d3, H3⟩⟩
      iapply ((runLast c (grid0.coords t) _ _ _ _ _ _ _ _ _ _ (fun h => h0 ((firstCol_iff t).mp h)) ((lastCol_iff t).mpr h7) (iblk V c 0 t) (iblk V c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hoth Hg]
      · isplitl [HS]
        · unfold owns; iexists _; isplitr
          swap; · iexact HS
          ipureintro; exact last_acc _ _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]
      · unfold owns; iexists _; isplitr
        swap; · iexact H2
        ipureintro; exact last_out _ _ _ _ _ _ _ _ _ _ _ _ _ _ _ _ _ _
      unfold owns; iexists _; isplitr
      swap; · iexact H3
      ipureintro; exact last_tilde _ _ _ _ _ _ _ _ _ _ _ _ _ _ _ _ _ _
    · rw [Dat.leavesExact_idle (dat V c) 2 t (idle_D t (fun h => h7 ((lastCol_iff t).mp h))) (noFlush_D t h7)]
      iintro ⟨⟨HS, Hoth, Hg⟩, Ho, ⟨%d0, H0⟩, ⟨%d1, H1⟩, ⟨%d2, H2⟩, ⟨%d3, H3⟩⟩
      iapply ((runMid c (grid0.coords t) _ _ _ _ _ _ _ _ _ _ (fun h => h0 ((firstCol_iff t).mp h)) (fun h => h7 ((lastCol_iff t).mp h)) (iblk V c 0 t) (iblk V c 1 t) _).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS]
        · unfold owns; iexists _; isplitr
          swap; · iexact HS
          ipureintro; exact mid_acc _ _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact mid_tilde _ _ _ _ _ _ _ _ _ _ _ _ _ _ _ _ _ _

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KI.R1Data.lean ====
/-
  Region 1: its proof data.

  The region multiplies the staged matrix A + β·S (in the narrow format) by a pre-scaled feature matrix of width 256,
  row block by row block.  Its grid is 8 row blocks by 8 column blocks; at point `t` the pipeline stages the matrix's
  1024 x 1024 block at (t / 8, t % 8), the features' 1024 x 256 block at row block t % 8, and the row factor's
  1024 x 1 block at row block t / 8 (fetched when the column block is 0 and kept for the row block's eight points).
  The accumulator after point `t` is `accAt V c t`: that point's block product added to zero when the column block is 0
  and to what the point before left otherwise.  At column block 7 the output's window receives the accumulator scaled
  row by row by the row factor.  The invariant carries the accumulator from point to point.
-/
import proofs.«130698_j71897752535776_2_alg».proof.Proof.Gen.KernelIdeal.Launch
import proofs.«130698_j71897752535776_2_alg».proof.Proof.Gen.KernelIdeal.Skeleton
import proofs.«130698_j71897752535776_2_alg».proof.Proof.Gen.KernelIdeal.Points
import Idealize.ShloMosaic.Lib.Pipeline.Frame
import Idealize.ShloMosaic.Lib.Pipeline.FrameBody
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The matrix's staging buffer holds its block at every point (fetched at every point). -/
theorem beforeM_of {c : Dev nD} (dat : Dat τ (Elt F) Unit ℕ (UR sig nD τ) ℕ cfg1 c) (hA : dat.A 0 = V c (Pipeline.arrRef spec1 0))
    (t : Fin cfg1.N) (d) : dat.before 0 t d = iblk V c 0 t :=
  (dat.before_fetched 0 t (fetch1_0 t) d).trans (by unfold Dat.fetched Dat.blockOf iblk; rw [hA]; try rfl)

/-- The features' staging buffer holds their block at every point (fetched at every point). -/
theorem beforeB_of {c : Dev nD} (dat : Dat τ (Elt F) Unit ℕ (UR sig nD τ) ℕ cfg1 c) (hA : dat.A 1 = V c (Pipeline.arrRef spec1 1))
    (t : Fin cfg1.N) (d) : dat.before 1 t d = iblk V c 1 t :=
  (dat.before_fetched 1 t (fetch1_1 t) d).trans (by unfold Dat.fetched Dat.blockOf iblk; rw [hA]; try rfl)

/-- The row factor's staging buffer holds its block at every point, fetched there or not: where it is not fetched the
    block index has not moved, and the body leaves the block in place. -/
theorem beforeR_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulator, point by point -/

/-- The accumulator: a whole scoped buffer of the kernel's own. -/
abbrev scratchAcc : Memref sig .tc .vmem S1024x256 .f32 := Memref.whole cc1_scratch0

/-- What the accumulator holds after the body at point `n`. -/
def accAt (c : Dev nD) : (n : ℕ) → n < cfg1.N → Vec F S1024x256 .f32
  | 0, hn => k1_pay2 (iblk V c 1 ⟨0, hn⟩) (k1_pay1 (F := F)) (iblk V c 0 ⟨0, hn⟩)
  | n + 1, hn =>
    if (n + 1) % 8 = 0 then k1_pay2 (iblk V c 1 ⟨n + 1, hn⟩) (k1_pay1 (F := F)) (iblk V c 0 ⟨n + 1, hn⟩)
    else k1_pay2 (iblk V c 1 ⟨n + 1, hn⟩) (accAt c n (Nat.lt_of_succ_lt hn)) (iblk V c 0 ⟨n + 1, hn⟩)

/-- At a point whose column block is 0 the accumulator restarts from zero. -/
theorem accAt_first (c : Dev nD) (t : Fin cfg1.N) (h : t.val % 8 = 0) :
    accAt V c t.val t.isLt = k1_pay2 (iblk V c 1 t) (k1_pay1 (F := F)) (iblk V c 0 t) := by
  obtain ⟨n, hn⟩ := t
  cases n with
  | zero => rfl
  | succ n => exact if_pos h

/-- At any other point it continues from what the point before left. -/
theorem accAt_next (c : Dev nD) (t : Fin cfg1.N) (h : ¬t.val % 8 = 0) :
    accAt V c t.val t.isLt
      = k1_pay2 (iblk V c 1 t) (accAt V c (t.val - 1) (Nat.lt_of_le_of_lt (Nat.sub_le _ _) t.isLt)) (iblk V c 0 t) := by
  obtain ⟨n, hn⟩ := t
  cases n with
  | zero => exact absurd (Nat.zero_mod _) h
  | succ n => exact if_neg h

/-! ## The invariant -/

/-- The core's scoped buffers that are no staging buffer of this region. -/
abbrev scopedSet : Finset (Ref sig .tc) :=
  (Finset.univ.filter fun b : Ref sig .tc => b.isScoped) \ Finset.univ.image (Pipeline.stageRef spec1)

/-- Those of them other than the accumulator, each whole at some contents. -/
def others (c : Dev nD) : sProp 𝕄 :=
  bigSep (scopedSet.erase cc1_scratch0)
    fun b => iprop(∃ f : Buf (Elt F) ((c.tc : Thread nD τ).loc b), ((c.tc : Thread nD τ).loc b) ↦{fullShare} f)

/-- The scoped rest is the accumulator at something beside the others. -/
theorem scopedRest_split (c : Dev nD) :
    (Pipeline.scopedRest (Ix := Unit) (Name := ℕ) (U := UR sig nD τ) (Lvl := ℕ) (Val := Elt F) spec1 c : sProp 𝕄)
      = iprop((∃ d, owns (c : Thread nD τ) scratchAcc fullShare d) ∗ others c) := by
  unfold Pipeline.scopedRest others
  rw [BI.bigSep_erase (i := cc1_scratch0) (by decide)]
  simp only [scratchAcc, owns_whole]
  rfl

/-- The region's invariant before position `n`. -/
def Phi (c : Dev nD) : (n : ℕ) → n ≤ cfg1.N → sProp 𝕄
  | 0, _ => Pipeline.ΦA spec1 c
  | n + 1, hn => iprop(owns (c : Thread nD τ) scratchAcc fullShare (accAt V c n hn) ∗ others c ∗ (∃ r, prngReg c r))

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop(owns (c : Thread nD τ) scratchAcc fullShare (accAt V c n hn) ∗ others c ∗ (∃ r, prngReg c r)) := rfl

theorem Phi_pos (c : Dev nD) (n : ℕ) (h : n ≤ cfg1.N) (hz : n ≠ 0) :
    Phi V c n h = iprop(owns (c : Thread nD τ) scratchAcc fullShare (accAt V c (n - 1) (by omega)) ∗ others c ∗ (∃ r, prngReg c r)) := by
  cases n with
  | zero => exact absurd rfl hz
  | succ n => rfl

/-- Before the first point: the accumulator at something, the others, the register. -/
theorem PhiA_eq (c : Dev nD) :
    (Pipeline.ΦA spec1 c : sProp 𝕄) = iprop(((∃ d, owns (c : Thread nD τ) scratchAcc fullShare d) ∗ others c) ∗ (∃ r, prngReg c r)) := by
  unfold Pipeline.ΦA; rw [scopedRest_split]

/-! ## The proof data -/

/-- After the body at point `t`: the three inputs' buffers at their blocks, the output's window at the accumulator
    scaled by the row factor; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay3 (accAt V c t.val t.isLt) (iblk V c 2 t)
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = Phi V c t.val (Nat.le_of_lt t.isLt) := by
  dsimp only [dat]; simp only [Fin.coe_castSucc]

theorem after_M (c : Dev nD) (t : Fin cfg1.N) : (dat V c).after 0 t = iblk V c 0 t := by dsimp only [dat]
theorem after_B (c : Dev nD) (t : Fin cfg1.N) : (dat V c).after 1 t = iblk V c 1 t := by dsimp only [dat]
theorem after_R (c : Dev nD) (t : Fin cfg1.N) : (dat V c).after 2 t = iblk V c 2 t := by dsimp only [dat]
theorem after_O (c : Dev nD) (t : Fin cfg1.N) :
    (dat V c).after 3 t = k1_pay3 (accAt V c t.val t.isLt) (iblk V c 2 t) := by dsimp only [dat]

theorem before_M (c : Dev nD) (t : Fin cfg1.N) (d) : (dat V c).before 0 t d = iblk V c 0 t :=
  beforeM_of V (dat V c) (A_eq V c 0) t d
theorem before_B (c : Dev nD) (t : Fin cfg1.N) (d) : (dat V c).before 1 t d = iblk V c 1 t :=
  beforeB_of V (dat V c) (A_eq V c 1) t d
theorem before_R (c : Dev nD) (t : Fin cfg1.N) (d) : (dat V c).before 2 t d = iblk V c 2 t :=
  beforeR_of V (dat V c) (A_eq V c 2) (after_R V c) t d

end Cert.KernelIdeal.R1

end
-- ==== Proof.KI.R2Data.lean ====
/-
  Region 2: its proof data.

  The region multiplies the staged matrix A + β·S (in the narrow format) by a pre-scaled feature matrix of width 128,
  row block by row block.  Its grid is 8 row blocks by 8 column blocks; at point `t` the pipeline stages the matrix's
  1024 x 1024 block at (t / 8, t % 8), the features' 1024 x 128 block at row block t % 8, and the row factor's
  1024 x 1 block at row block t / 8 (fetched when the column block is 0 and kept for the row block's eight points).
  The accumulator after point `t` is `accAt V c t`: that point's block product added to zero when the column block is 0
  and to what the point before left otherwise.  At column block 7 the output's window receives the accumulator scaled
  row by row by the row factor.  The invariant carries the accumulator from point to point.
-/
import proofs.«130698_j71897752535776_2_alg».proof.Proof.Gen.KernelIdeal.Launch
import proofs.«130698_j71897752535776_2_alg».proof.Proof.Gen.KernelIdeal.Skeleton
import proofs.«130698_j71897752535776_2_alg».proof.Proof.Gen.KernelIdeal.Points
import Idealize.ShloMosaic.Lib.Pipeline.Frame
import Idealize.ShloMosaic.Lib.Pipeline.FrameBody
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The matrix's staging buffer holds its block at every point (fetched at every point). -/
theorem beforeM_of {c : Dev nD} (dat : Dat τ (Elt F) Unit ℕ (UR sig nD τ) ℕ cfg2 c) (hA : dat.A 0 = V c (Pipeline.arrRef spec2 0))
    (t : Fin cfg2.N) (d) : dat.before 0 t d = iblk V c 0 t :=
  (dat.before_fetched 0 t (fetch2_0 t) d).trans (by unfold Dat.fetched Dat.blockOf iblk; rw [hA]; try rfl)

/-- The features' staging buffer holds their block at every point (fetched at every point). -/
theorem beforeB_of {c : Dev nD} (dat : Dat τ (Elt F) Unit ℕ (UR sig nD τ) ℕ cfg2 c) (hA : dat.A 1 = V c (Pipeline.arrRef spec2 1))
    (t : Fin cfg2.N) (d) : dat.before 1 t d = iblk V c 1 t :=
  (dat.before_fetched 1 t (fetch2_1 t) d).trans (by unfold Dat.fetched Dat.blockOf iblk; rw [hA]; try rfl)

/-- The row factor's staging buffer holds its block at every point, fetched there or not: where it is not fetched the
    block index has not moved, and the body leaves the block in place. -/
theorem beforeR_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulator, point by point -/

/-- The accumulator: a whole scoped buffer of the kernel's own. -/
abbrev scratchAcc : Memref sig .tc .vmem S1024x128 .f32 := Memref.whole cc2_scratch0

/-- What the accumulator holds after the body at point `n`. -/
def accAt (c : Dev nD) : (n : ℕ) → n < cfg2.N → Vec F S1024x128 .f32
  | 0, hn => k2_pay2 (iblk V c 1 ⟨0, hn⟩) (k2_pay1 (F := F)) (iblk V c 0 ⟨0, hn⟩)
  | n + 1, hn =>
    if (n + 1) % 8 = 0 then k2_pay2 (iblk V c 1 ⟨n + 1, hn⟩) (k2_pay1 (F := F)) (iblk V c 0 ⟨n + 1, hn⟩)
    else k2_pay2 (iblk V c 1 ⟨n + 1, hn⟩) (accAt c n (Nat.lt_of_succ_lt hn)) (iblk V c 0 ⟨n + 1, hn⟩)

/-- At a point whose column block is 0 the accumulator restarts from zero. -/
theorem accAt_first (c : Dev nD) (t : Fin cfg2.N) (h : t.val % 8 = 0) :
    accAt V c t.val t.isLt = k2_pay2 (iblk V c 1 t) (k2_pay1 (F := F)) (iblk V c 0 t) := by
  obtain ⟨n, hn⟩ := t
  cases n with
  | zero => rfl
  | succ n => exact if_pos h

/-- At any other point it continues from what the point before left. -/
theorem accAt_next (c : Dev nD) (t : Fin cfg2.N) (h : ¬t.val % 8 = 0) :
    accAt V c t.val t.isLt
      = k2_pay2 (iblk V c 1 t) (accAt V c (t.val - 1) (Nat.lt_of_le_of_lt (Nat.sub_le _ _) t.isLt)) (iblk V c 0 t) := by
  obtain ⟨n, hn⟩ := t
  cases n with
  | zero => exact absurd (Nat.zero_mod _) h
  | succ n => exact if_neg h

/-! ## The invariant -/

/-- The core's scoped buffers that are no staging buffer of this region. -/
abbrev scopedSet : Finset (Ref sig .tc) :=
  (Finset.univ.filter fun b : Ref sig .tc => b.isScoped) \ Finset.univ.image (Pipeline.stageRef spec2)

/-- Those of them other than the accumulator, each whole at some contents. -/
def others (c : Dev nD) : sProp 𝕄 :=
  bigSep (scopedSet.erase cc2_scratch0)
    fun b => iprop(∃ f : Buf (Elt F) ((c.tc : Thread nD τ).loc b), ((c.tc : Thread nD τ).loc b) ↦{fullShare} f)

/-- The scoped rest is the accumulator at something beside the others. -/
theorem scopedRest_split (c : Dev nD) :
    (Pipeline.scopedRest (Ix := Unit) (Name := ℕ) (U := UR sig nD τ) (Lvl := ℕ) (Val := Elt F) spec2 c : sProp 𝕄)
      = iprop((∃ d, owns (c : Thread nD τ) scratchAcc fullShare d) ∗ others c) := by
  unfold Pipeline.scopedRest others
  rw [BI.bigSep_erase (i := cc2_scratch0) (by decide)]
  simp only [scratchAcc, owns_whole]
  rfl

/-- The region's invariant before position `n`. -/
def Phi (c : Dev nD) : (n : ℕ) → n ≤ cfg2.N → sProp 𝕄
  | 0, _ => Pipeline.ΦA spec2 c
  | n + 1, hn => iprop(owns (c : Thread nD τ) scratchAcc fullShare (accAt V c n hn) ∗ others c ∗ (∃ r, prngReg c r))

theorem Phi_zero (c : Dev nD) (n : ℕ) (h : n ≤ cfg2.N) (hz : n = 0) : Phi V c n h = Pipeline.ΦA spec2 c := by
  subst hz; rfl

theorem Phi_succ (c : Dev nD) (n : ℕ) (hn : n < cfg2.N) :
    Phi V c (n + 1) hn = iprop(owns (c : Thread nD τ) scratchAcc fullShare (accAt V c n hn) ∗ others c ∗ (∃ r, prngReg c r)) := rfl

theorem Phi_pos (c : Dev nD) (n : ℕ) (h : n ≤ cfg2.N) (hz : n ≠ 0) :
    Phi V c n h = iprop(owns (c : Thread nD τ) scratchAcc fullShare (accAt V c (n - 1) (by omega)) ∗ others c ∗ (∃ r, prngReg c r)) := by
  cases n with
  | zero => exact absurd rfl hz
  | succ n => rfl

/-- Before the first point: the accumulator at something, the others, the register. -/
theorem PhiA_eq (c : Dev nD) :
    (Pipeline.ΦA spec2 c : sProp 𝕄) = iprop(((∃ d, owns (c : Thread nD τ) scratchAcc fullShare d) ∗ others c) ∗ (∃ r, prngReg c r)) := by
  unfold Pipeline.ΦA; rw [scopedRest_split]

/-! ## The proof data -/

/-- After the body at point `t`: the three inputs' buffers at their blocks, the output's window at the accumulator
    scaled by the row factor; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (accAt V c t.val t.isLt) (iblk V c 2 t)
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]

theorem Phi_castSucc (c : Dev nD) (t : Fin cfg2.N) :
    (dat V c).Φ t.castSucc = Phi V c t.val (Nat.le_of_lt t.isLt) := by
  dsimp only [dat]; simp only [Fin.coe_castSucc]

theorem after_M (c : Dev nD) (t : Fin cfg2.N) : (dat V c).after 0 t = iblk V c 0 t := by dsimp only [dat]
theorem after_B (c : Dev nD) (t : Fin cfg2.N) : (dat V c).after 1 t = iblk V c 1 t := by dsimp only [dat]
theorem after_R (c : Dev nD) (t : Fin cfg2.N) : (dat V c).after 2 t = iblk V c 2 t := by dsimp only [dat]
theorem after_O (c : Dev nD) (t : Fin cfg2.N) :
    (dat V c).after 3 t = k2_pay3 (accAt V c t.val t.isLt) (iblk V c 2 t) := by dsimp only [dat]

theorem before_M (c : Dev nD) (t : Fin cfg2.N) (d) : (dat V c).before 0 t d = iblk V c 0 t :=
  beforeM_of V (dat V c) (A_eq V c 0) t d
theorem before_B (c : Dev nD) (t : Fin cfg2.N) (d) : (dat V c).before 1 t d = iblk V c 1 t :=
  beforeB_of V (dat V c) (A_eq V c 1) t d
theorem before_R (c : Dev nD) (t : Fin cfg2.N) (d) : (dat V c).before 2 t d = iblk V c 2 t :=
  beforeR_of V (dat V c) (A_eq V c 2) (after_R V c) t d

end Cert.KernelIdeal.R2

end
-- ==== Proof.KI.Chain.lean ====
/-
  The kernel program from launch to return: what the TensorCore's unscoped buffers hold at each of the thirteen
  boundaries between its items — three kernel regions and nine stretches of host operations.

  A host stretch changes the buffers as the composition of its operations does; a region changes exactly its windows'
  arrays, each output ending at the pipeline's fold of the blocks written back, each input as it was.  No item writes
  an argument of the program: a host stretch writes only its own results, and a region reads an argument through an
  input window or not at all; so each argument's buffer at the last boundary is what was launched.
-/
import proofs.«130698_j71897752535776_2_alg».proof.Proof.KI.R0Body
import proofs.«130698_j71897752535776_2_alg».proof.Proof.KI.R1Data
import proofs.«130698_j71897752535776_2_alg».proof.Proof.KI.R2Data
import proofs.«130698_j71897752535776_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- Region 0's entry contents read at the TensorCore's references. -/
abbrev E0 : (c : Dev nD) → (b : Ref sig .tc) → Buf (Elt F) ((c : Thread nD τ).loc b) := fun c b => W0 m c b
/-- At region 0's exit: its windows' arrays at what the pipeline leaves (an input as entered, an output with its
    write-backs folded), every other buffer as entered. -/
def W1 (c : Dev nD) : Valuation τ sig (Elt F) :=
  Pipeline.withArrays spec0 c (W0 m c) fun w => (R0.dat (E0 m) c).arrAt w cfg0.N
theorem W1_arr (c : Dev nD) (w : Fin cfg0.W) :
    W1 m c (Proc.devRef .tc (Pipeline.arrRef spec0 w)) = (R0.dat (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- Region 0's exit contents read at the TensorCore's references. -/
abbrev X1 : (c : Dev nD) → (b : Ref sig .tc) → Buf (Elt F) ((c : Thread nD τ).loc b) := fun c b => W1 m c b
theorem hF0 (c : Dev nD) (w : Fin cfg0.W) : (R0.dat (E0 m) c).arrAt w cfg0.N = X1 m c (Pipeline.arrRef spec0 w) :=
  (W1_arr m c w).symm
theorem hrest0 (c : Dev nD) : ∀ b, b ∉ Finset.univ.image (Pipeline.arrRef spec0) → X1 m c b = E0 m c b :=
  fun b hb => W1_of_ne m c b fun w e => hb (Finset.mem_image.mpr ⟨w, Finset.mem_univ _, e⟩)
/-- After the host stretch `hostOps1`. -/
abbrev W2 : Dev nD → Valuation τ sig (Elt F) := fun c => StableHlo.after hostOps1 (W1 m c)
theorem W2_of (c : Dev nD) (r : Ref sig .tc) (h : r ∉ hostOps1_W) : W2 m c r = W1 m c r :=
  StableHlo.after_of_writes_sub hostOps1 _ hostOps1_writes h
/-- After the host stretch `hostOps1_1`. -/
abbrev W3 : Dev nD → Valuation τ sig (Elt F) := fun c => StableHlo.after hostOps1_1 (W2 m c)
theorem W3_of (c : Dev nD) (r : Ref sig .tc) (h : r ∉ hostOps1_1_W) : W3 m c r = W2 m c r :=
  StableHlo.after_of_writes_sub hostOps1_1 _ hostOps1_1_writes h
/-- After the host stretch `hostOps1_2`. -/
abbrev W4 : Dev nD → Valuation τ sig (Elt F) := fun c => StableHlo.after hostOps1_2 (W3 m c)
theorem W4_of (c : Dev nD) (r : Ref sig .tc) (h : r ∉ hostOps1_2_W) : W4 m c r = W3 m c r :=
  StableHlo.after_of_writes_sub hostOps1_2 _ hostOps1_2_writes h
/-- After the host stretch `hostOps1_3`. -/
abbrev W5 : Dev nD → Valuation τ sig (Elt F) := fun c => StableHlo.after hostOps1_3 (W4 m c)
theorem W5_of (c : Dev nD) (r : Ref sig .tc) (h : r ∉ hostOps1_3_W) : W5 m c r = W4 m c r :=
  StableHlo.after_of_writes_sub hostOps1_3 _ hostOps1_3_writes h
/-- After the host stretch `hostOps1_4`. -/
abbrev W6 : Dev nD → Valuation τ sig (Elt F) := fun c => StableHlo.after hostOps1_4 (W5 m c)
theorem W6_of (c : Dev nD) (r : Ref sig .tc) (h : r ∉ hostOps1_4_W) : W6 m c r = W5 m c r :=
  StableHlo.after_of_writes_sub hostOps1_4 _ hostOps1_4_writes h
/-- Region 1's entry contents read at the TensorCore's references. -/
abbrev E6 : (c : Dev nD) → (b : Ref sig .tc) → Buf (Elt F) ((c : Thread nD τ).loc b) := fun c b => W6 m c b
/-- At region 1's exit: its windows' arrays at what the pipeline leaves (an input as entered, an output with its
    write-backs folded), every other buffer as entered. -/
def W7 (c : Dev nD) : Valuation τ sig (Elt F) :=
  Pipeline.withArrays spec1 c (W6 m c) fun w => (R1.dat (E6 m) c).arrAt w cfg1.N
theorem W7_arr (c : Dev nD) (w : Fin cfg1.W) :
    W7 m c (Proc.devRef .tc (Pipeline.arrRef spec1 w)) = (R1.dat (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- Region 1's exit contents read at the TensorCore's references. -/
abbrev X7 : (c : Dev nD) → (b : Ref sig .tc) → Buf (Elt F) ((c : Thread nD τ).loc b) := fun c b => W7 m c b
theorem hF1 (c : Dev nD) (w : Fin cfg1.W) : (R1.dat (E6 m) c).arrAt w cfg1.N = X7 m c (Pipeline.arrRef spec1 w) :=
  (W7_arr m c w).symm
theorem hrest1 (c : Dev nD) : ∀ b, b ∉ Finset.univ.image (Pipeline.arrRef spec1) → X7 m c b = E6 m c b :=
  fun b hb => W7_of_ne m c b fun w e => hb (Finset.mem_image.mpr ⟨w, Finset.mem_univ _, e⟩)
/-- After the host stretch `hostOps2`. -/
abbrev W8 : Dev nD → Valuation τ sig (Elt F) := fun c => StableHlo.after hostOps2 (W7 m c)
theorem W8_of (c : Dev nD) (r : Ref sig .tc) (h : r ∉ hostOps2_W) : W8 m c r = W7 m c r :=
  StableHlo.after_of_writes_sub hostOps2 _ hostOps2_writes h
/-- After the host stretch `hostOps2_1`. -/
abbrev W9 : Dev nD → Valuation τ sig (Elt F) := fun c => StableHlo.after hostOps2_1 (W8 m c)
theorem W9_of (c : Dev nD) (r : Ref sig .tc) (h : r ∉ hostOps2_1_W) : W9 m c r = W8 m c r :=
  StableHlo.after_of_writes_sub hostOps2_1 _ hostOps2_1_writes h
/-- After the host stretch `hostOps2_2`. -/
abbrev W10 : Dev nD → Valuation τ sig (Elt F) := fun c => StableHlo.after hostOps2_2 (W9 m c)
theorem W10_of (c : Dev nD) (r : Ref sig .tc) (h : r ∉ hostOps2_2_W) : W10 m c r = W9 m c r :=
  StableHlo.after_of_writes_sub hostOps2_2 _ hostOps2_2_writes h
/-- Region 2's entry contents read at the TensorCore's references. -/
abbrev E10 : (c : Dev nD) → (b : Ref sig .tc) → Buf (Elt F) ((c : Thread nD τ).loc b) := fun c b => W10 m c b
/-- At region 2's exit: its windows' arrays at what the pipeline leaves (an input as entered, an output with its
    write-backs folded), every other buffer as entered. -/
def W11 (c : Dev nD) : Valuation τ sig (Elt F) :=
  Pipeline.withArrays spec2 c (W10 m c) fun w => (R2.dat (E10 m) c).arrAt w cfg2.N
theorem W11_arr (c : Dev nD) (w : Fin cfg2.W) :
    W11 m c (Proc.devRef .tc (Pipeline.arrRef spec2 w)) = (R2.dat (E10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb
/-- Region 2's exit contents read at the TensorCore's references. -/
abbrev X11 : (c : Dev nD) → (b : Ref sig .tc) → Buf (Elt F) ((c : Thread nD τ).loc b) := fun c b => W11 m c b
theorem hF2 (c : Dev nD) (w : Fin cfg2.W) : (R2.dat (E10 m) c).arrAt w cfg2.N = X11 m c (Pipeline.arrRef spec2 w) :=
  (W11_arr m c w).symm
theorem hrest2 (c : Dev nD) : ∀ b, b ∉ Finset.univ.image (Pipeline.arrRef spec2) → X11 m c b = E10 m c b :=
  fun b hb => W11_of_ne m c b fun w e => hb (Finset.mem_image.mpr ⟨w, Finset.mem_univ _, e⟩)
/-- After the host stretch `hostOps3`. -/
abbrev W12 : Dev nD → Valuation τ sig (Elt F) := fun c => StableHlo.after hostOps3 (W11 m c)
theorem W12_of (c : Dev nD) (r : Ref sig .tc) (h : r ∉ hostOps3_W) : W12 m c r = W11 m c r :=
  StableHlo.after_of_writes_sub hostOps3 _ hostOps3_writes h

/-! ## The proof data of the three regions, each at its region's entry contents -/

def pdats : (p : Fin 3) → (c : Dev nD) → Dat τ (Elt F) Unit ℕ (UR sig nD τ) ℕ (Pipeline.pin (pcfgs (F := F)) Gen.adm p) c
  | ⟨0, _⟩ => fun c => R0.dat (E0 m) c
  | ⟨1, _⟩ => fun c => R1.dat (E6 m) c
  | ⟨2, _⟩ => fun c => R2.dat (E10 m) c

/-! ## The arguments end as launched -/

theorem W12_main_arg0 (c : Dev nD) : W12 m c (Proc.devRef .tc main_arg0) = m ((c : Thread nD τ).loc main_arg0) :=
  (W12_of m c main_arg0 (by decide)).trans <|
    (W11_of_ne m c main_arg0 (by decide)).trans <|
    (W10_of m c main_arg0 (by decide)).trans <|
    (W9_of m c main_arg0 (by decide)).trans <|
    (W8_of m c main_arg0 (by decide)).trans <|
    (W7_of_ne m c main_arg0 (by decide)).trans <|
    (W6_of m c main_arg0 (by decide)).trans <|
    (W5_of m c main_arg0 (by decide)).trans <|
    (W4_of m c main_arg0 (by decide)).trans <|
    (W3_of m c main_arg0 (by decide)).trans <|
    (W2_of m c main_arg0 (by decide)).trans <|
    ((W1_arr m c 0).trans (((R0.dat (E0 m) c).arrAt_in 0 rfl _).trans (R0.A_eq (E0 m) c 0))).trans rfl
theorem W12_main_arg1 (c : Dev nD) : W12 m c (Proc.devRef .tc main_arg1) = m ((c : Thread nD τ).loc main_arg1) :=
  (W12_of m c main_arg1 (by decide)).trans <|
    (W11_of_ne m c main_arg1 (by decide)).trans <|
    (W10_of m c main_arg1 (by decide)).trans <|
    (W9_of m c main_arg1 (by decide)).trans <|
    (W8_of m c main_arg1 (by decide)).trans <|
    (W7_of_ne m c main_arg1 (by decide)).trans <|
    (W6_of m c main_arg1 (by decide)).trans <|
    (W5_of m c main_arg1 (by decide)).trans <|
    (W4_of m c main_arg1 (by decide)).trans <|
    (W3_of m c main_arg1 (by decide)).trans <|
    (W2_of m c main_arg1 (by decide)).trans <|
    ((W1_arr m c 1).trans (((R0.dat (E0 m) c).arrAt_in 1 rfl _).trans (R0.A_eq (E0 m) c 1))).trans rfl
theorem W12_main_arg2 (c : Dev nD) : W12 m c (Proc.devRef .tc main_arg2) = m ((c : Thread nD τ).loc main_arg2) :=
  (W12_of m c main_arg2 (by decide)).trans <|
    (W11_of_ne m c main_arg2 (by decide)).trans <|
    (W10_of m c main_arg2 (by decide)).trans <|
    (W9_of m c main_arg2 (by decide)).trans <|
    (W8_of m c main_arg2 (by decide)).trans <|
    (W7_of_ne m c main_arg2 (by decide)).trans <|
    (W6_of m c main_arg2 (by decide)).trans <|
    (W5_of m c main_arg2 (by decide)).trans <|
    (W4_of m c main_arg2 (by decide)).trans <|
    (W3_of m c main_arg2 (by decide)).trans <|
    (W2_of m c main_arg2 (by decide)).trans <|
    (W1_of_ne m c main_arg2 (by decide)).trans rfl
theorem W12_main_arg3 (c : Dev nD) : W12 m c (Proc.devRef .tc main_arg3) = m ((c : Thread nD τ).loc main_arg3) :=
  (W12_of m c main_arg3 (by decide)).trans <|
    (W11_of_ne m c main_arg3 (by decide)).trans <|
    (W10_of m c main_arg3 (by decide)).trans <|
    (W9_of m c main_arg3 (by decide)).trans <|
    (W8_of m c main_arg3 (by decide)).trans <|
    (W7_of_ne m c main_arg3 (by decide)).trans <|
    (W6_of m c main_arg3 (by decide)).trans <|
    (W5_of m c main_arg3 (by decide)).trans <|
    (W4_of m c main_arg3 (by decide)).trans <|
    (W3_of m c main_arg3 (by decide)).trans <|
    (W2_of m c main_arg3 (by decide)).trans <|
    (W1_of_ne m c main_arg3 (by decide)).trans rfl
theorem W12_main_arg4 (c : Dev nD) : W12 m c (Proc.devRef .tc main_arg4) = m ((c : Thread nD τ).loc main_arg4) :=
  (W12_of m c main_arg4 (by decide)).trans <|
    (W11_of_ne m c main_arg4 (by decide)).trans <|
    (W10_of m c main_arg4 (by decide)).trans <|
    (W9_of m c main_arg4 (by decide)).trans <|
    (W8_of m c main_arg4 (by decide)).trans <|
    (W7_of_ne m c main_arg4 (by decide)).trans <|
    (W6_of m c main_arg4 (by decide)).trans <|
    (W5_of m c main_arg4 (by decide)).trans <|
    (W4_of m c main_arg4 (by decide)).trans <|
    (W3_of m c main_arg4 (by decide)).trans <|
    (W2_of m c main_arg4 (by decide)).trans <|
    (W1_of_ne m c main_arg4 (by decide)).trans rfl
theorem W12_main_arg5 (c : Dev nD) : W12 m c (Proc.devRef .tc main_arg5) = m ((c : Thread nD τ).loc main_arg5) :=
  (W12_of m c main_arg5 (by decide)).trans <|
    (W11_of_ne m c main_arg5 (by decide)).trans <|
    (W10_of m c main_arg5 (by decide)).trans <|
    (W9_of m c main_arg5 (by decide)).trans <|
    (W8_of m c main_arg5 (by decide)).trans <|
    (W7_of_ne m c main_arg5 (by decide)).trans <|
    (W6_of m c main_arg5 (by decide)).trans <|
    (W5_of m c main_arg5 (by decide)).trans <|
    (W4_of m c main_arg5 (by decide)).trans <|
    (W3_of m c main_arg5 (by decide)).trans <|
    (W2_of m c main_arg5 (by decide)).trans <|
    (W1_of_ne m c main_arg5 (by decide)).trans rfl
theorem W12_main_arg6 (c : Dev nD) : W12 m c (Proc.devRef .tc main_arg6) = m ((c : Thread nD τ).loc main_arg6) :=
  (W12_of m c main_arg6 (by decide)).trans <|
    (W11_of_ne m c main_arg6 (by decide)).trans <|
    (W10_of m c main_arg6 (by decide)).trans <|
    (W9_of m c main_arg6 (by decide)).trans <|
    (W8_of m c main_arg6 (by decide)).trans <|
    (W7_of_ne m c main_arg6 (by decide)).trans <|
    (W6_of m c main_arg6 (by decide)).trans <|
    (W5_of m c main_arg6 (by decide)).trans <|
    (W4_of m c main_arg6 (by decide)).trans <|
    (W3_of m c main_arg6 (by decide)).trans <|
    (W2_of m c main_arg6 (by decide)).trans <|
    (W1_of_ne m c main_arg6 (by decide)).trans rfl

end Cert.KernelIdeal.Whole

end
-- ==== Proof.KI.R1Base.lean ====
/-
  Region 1 of the kernel program: one propagation step, the staged matrix times a pre-scaled feature matrix of width
  256, each row of the product then scaled by its row factor.

  The region's grid is 8 row blocks by 8 column blocks; point t is row block t / 8, column block t % 8, the column
  block moving fastest.  At a point the body sees a 1024 x 1024 block of the staged matrix, the 1024 x 256 block of
  the features that the column block selects, the 1024 x 1 block of row factors of the row block, and the 1024 x 256
  window of the output of the row block.  It keeps a 1024 x 256 accumulator in a scratch buffer that lives across the
  eight points of a row block: it is zeroed when the column block is 0, receives the product of the two blocks at
  every point, and, multiplied row by row by the row factors, is written to the output's window when the column
  block is 7.  So a point is of one of three kinds, told apart by two conditions on its coordinates; here are those
  conditions in closed form over the grid, and the memory the body is called with at a point.
-/
import proofs.«130698_j71897752535776_2_alg».proof.Proof.Gen.KernelIdeal.Launch
import proofs.«130698_j71897752535776_2_alg».proof.Proof.Gen.KernelIdeal.Skeleton
import proofs.«130698_j71897752535776_2_alg».proof.Proof.Gen.KernelIdeal.Points
import Idealize.ShloMosaic.Lib.Pipeline.FrameBody
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions the body branches on -/

/-- The body's first branch is taken: the point's column block is 0 (the accumulator is zeroed). -/
abbrev FirstCol (i : grid1.Coords) : Prop :=
  (Scalar.cmpi .ne (Scalar.extui (Scalar.cmpi .eq (BitVec.ofNat 32 (i 1).val) 0#32)) 0#32) = 1#1

/-- Over the 64 points: the column block is 0 exactly when the point's number is a multiple of 8. -/
theorem firstCol_iff : ∀ t : Fin cfg1.N, FirstCol (grid1.coords t) ↔ t.val % 8 = 0 :=
  (by decide +kernel : ∀ t : Fin grid1.N, FirstCol (grid1.coords t) ↔ t.val % 8 = 0)

/-- The body's last branch is taken: the point's column block is 7 (the scaled accumulator is written out). -/
abbrev LastCol (i : grid1.Coords) : Prop := k1_cond2 i = 1#1

/-- Over the 64 points: the column block is 7 exactly when the point's number is 7 modulo 8. -/
theorem lastCol_iff : ∀ t : Fin cfg1.N, LastCol (grid1.coords t) ↔ t.val % 8 = 7 :=
  (by decide +kernel : ∀ t : Fin grid1.N, LastCol (grid1.coords t) ↔ t.val % 8 = 7)

/-! ## The memory the body is called with at a point -/

/-- The staging buffer holding the staged matrix's block at point `t`. -/
abbrev bufM (t : Fin cfg1.N) : Memref sig .tc .vmem S1024x1024 .bf16 := win1_0.stage (cfg1.slots t 0)
abbrev bufM_whole (t : Fin cfg1.N) : (bufM t).IsWhole := hstage1_0 ((cfg1.slots t 0).cast nbuf1_0)
/-- The staging buffer holding the features' block at point `t`. -/
abbrev bufH (t : Fin cfg1.N) : Memref sig .tc .vmem S1024x256 .f32 := win1_1.stage (cfg1.slots t 1)
abbrev bufH_whole (t : Fin cfg1.N) : (bufH t).IsWhole := hstage1_1 ((cfg1.slots t 1).cast nbuf1_1)
/-- The staging buffer holding the row factors' 1024 x 1 block at point `t`. -/
abbrev bufR (t : Fin cfg1.N) : Memref sig .tc .vmem S1024x1 .f32 := win1_2.stage (cfg1.slots t 2)
abbrev bufR_whole (t : Fin cfg1.N) : (bufR t).IsWhole := hstage1_2 ((cfg1.slots t 2).cast nbuf1_2)
/-- The staging buffer of the output's 1024 x 256 window at point `t`. -/
abbrev bufO (t : Fin cfg1.N) : Memref sig .tc .vmem S1024x256 .f32 := win1_3.stage (cfg1.slots t 3)
abbrev bufO_whole (t : Fin cfg1.N) : (bufO t).IsWhole := hstage1_3 ((cfg1.slots t 3).cast nbuf1_3)
/-- The accumulator: a whole scoped buffer of the kernel's own, the same at every point. -/
abbrev accBuf : Memref sig .tc .vmem S1024x256 .f32 := Memref.whole cc1_scratch0

end Cert.KernelIdeal.R1

end
-- ==== Proof.KI.R1Runs.lean ====
/-
  Region 1's body, run symbolically at each of the three kinds of grid point.

  Each run is the list of stores the body leaves in every buffer it writes (latest first), with the proof that from
  the buffers held whole the body runs to its end, returns the blocks it only reads as they were, and leaves each
  written buffer holding those stores over whatever it held before.

  * column block 0: the accumulator, at anything before, is zero-filled and then receives the product of the staged
    matrix's block and the features' block; the row factors and the output's window are not touched.
  * column blocks 1 to 6: the same without the zero fill, the accumulator starting from what the point before left.
  * column block 7: as in the middle, and the accumulator, each row multiplied by its row factor, is then written to
    the output's window.
-/
import proofs.«130698_j71897752535776_2_alg».proof.Proof.KI.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Column block 0: the stores left in the accumulator, and the run. The row factors' block, at `x2`, and the
    output's window, at `xd`, are handed back untouched. -/
noncomputable def runFirst (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : FirstCol i) (hc1 : ¬LastCol i)
    (x0 : Vec F S1024x1024 .bf16) (x1 : Vec F S1024x256 .f32) :
    { LA : List (View.Piece (Elt F) S1024x256 .f32) //
      ∀ (x2 : Vec F S1024x1 .f32) (xd : Vec F S1024x256 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xd ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ owns (c : Thread nD τ) a5 fullShare xd
                ∗ (∃ f, a6.view.loc (c : Thread nD τ) ↦[a6.view.set]{fullShare} a6.view.writes (Elt F) f LA)) -∗ K ⟨⟩))
          ⊢ wp frame (wpE (defs₀ (F := F)) Variants.none c none) E (cc1__gcn_matmul_kernel i a2 h2 a3 h3 a4 h4 a5 h5 a6 h6) K } := by
  refine ⟨?_, fun x2 xd E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h2.eq_unread hf0; obtain rfl := h3.eq_unread hf1; obtain rfl := h4.eq_unread hf2
    obtain rfl := h5.eq_unread hf3
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

set_option maxHeartbeats 1000000 in
/-- Column blocks 1 to 6: the accumulator comes in at `xs`, what the point before left in it. -/
noncomputable def runMid (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : ¬FirstCol i) (hc1 : ¬LastCol i)
    (x0 : Vec F S1024x1024 .bf16) (x1 : Vec F S1024x256 .f32) (xs : Vec F S1024x256 .f32) :
    { LA : List (View.Piece (Elt F) S1024x256 .f32) //
      ∀ (x2 : Vec F S1024x1 .f32) (xd : Vec F S1024x256 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xd ∗ owns (c : Thread nD τ) a6 fullShare xs
            ∗ (iprop(owns (c : Thread nD τ) a2 fullShare x0 ∗ owns (c : Thread nD τ) a3 fullShare x1 ∗ owns (c : Thread nD τ) a4 fullShare x2
                ∗ owns (c : Thread nD τ) a5 fullShare xd
                ∗ (∃ f, a6.view.loc (c : Thread nD τ) ↦[a6.view.set]{fullShare} a6.view.writes (Elt F) f LA)) -∗ K ⟨⟩))
          ⊢ wp frame (wpE (defs₀ (F := F)) Variants.none c none) E (cc1__gcn_matmul_kernel i a2 h2 a3 h3 a4 h4 a5 h5 a6 h6) K } := by
  refine ⟨?_, fun x2 xd E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h2.eq_unread hf0; obtain rfl := h3.eq_unread hf1; obtain rfl := h4.eq_unread hf2
    obtain rfl := h5.eq_unread hf3; obtain rfl := h6.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

set_option maxHeartbeats 1000000 in
/-- Column block 7: as in the middle, and the output's window, at anything before, receives the accumulator with each
    row multiplied by its row factor; the row factors' block comes in at `x2`. -/
noncomputable def runLast (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : ¬FirstCol i) (hc1 : LastCol i)
    (x0 : Vec F S1024x1024 .bf16) (x1 : Vec F S1024x256 .f32) (x2 : Vec F S1024x1 .f32) (xs : Vec F S1024x256 .f32) :
    Σ' (LO : List (View.Piece (Elt F) S1024x256 .f32)), { LA : List (View.Piece (Elt F) S1024x256 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ owns (c : Thread nD τ) a6 fullShare xs
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f LO)
                ∗ (∃ f, a6.view.loc (c : Thread nD τ) ↦[a6.view.set]{fullShare} a6.view.writes (Elt F) f LA)) -∗ K ⟨⟩))
          ⊢ wp frame (wpE (defs₀ (F := F)) Variants.none c none) E (cc1__gcn_matmul_kernel i a2 h2 a3 h3 a4 h4 a5 h5 a6 h6) K } := by
  refine ⟨?_, ?_, fun E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h2.eq_unread hf0; obtain rfl := h3.eq_unread hf1; obtain rfl := h4.eq_unread hf2
    obtain rfl := h6.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    iexists _; iexact HS

end Cert.KernelIdeal.R1

end
-- ==== Proof.KI.R1Values.lean ====
/-
  Region 1: what each buffer holds after the body, at each kind of grid point, as a function of what the body found.

  With `x0` the staged matrix's block at the point, `x1` the features' block, `x2` the row factors' block and `xs` what
  the accumulator held on entry:
  * the accumulator ends holding the product of the two blocks added to zero at column block 0
    (`k1_pay2 x1 k1_pay1 x0`), and added to `xs` elsewhere (`k1_pay2 x1 xs x0`);
  * at column block 7 the output's window ends holding that accumulator value with each row multiplied by its row
    factor (`k1_pay3 (k1_pay2 x1 xs x0) x2`).
  Every store of the body goes through the whole rectangle of its buffer, so each buffer reads as its last store's
  payload whatever it held before.
-/
import proofs.«130698_j71897752535776_2_alg».proof.Proof.KI.R1Runs
import proofs.«130698_j71897752535776_2_alg».proof.Proof.LibWholeStores

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.WholeStores

variable {F : FTy → Type} [FloatOps F]

/-- The offsets of a whole rank-2 rectangle are zero on both axes. -/
theorem hz : (![0, 0] : Fin 2 → Nat) = fun _ => 0 := funext fun a => by fin_cases a <;> rfl

/-! ## Column block 0 -/

theorem first_acc (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : FirstCol i) (hc1 : ¬LastCol i)
    (x0 : Vec F S1024x1024 .bf16) (x1 : Vec F S1024x256 .f32) (f : a6.view.ty.Contents (Elt F)) :
    a6.view.read (Elt F) (a6.view.writes (Elt F) f (runFirst c i a2 h2 a3 h3 a4 h4 a5 h5 a6 h6 hc0 hc1 x0 x1).1) = k1_pay2 x1 (k1_pay1 (F := F)) x0 := by
  unfold runFirst; dsimp only
  rw [read_writes_whole_last _ _ hz, readAt_whole_unread h3 hz, readAt_whole_unread h2 hz]
  unfold runFirst.sl.v6 runFirst.sl.HS_1
  rw [readCov_whole_last _ hz]

/-! ## Column blocks 1 to 6 -/

theorem mid_acc (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : ¬FirstCol i) (hc1 : ¬LastCol i)
    (x0 : Vec F S1024x1024 .bf16) (x1 : Vec F S1024x256 .f32) (xs : Vec F S1024x256 .f32) (f : a6.view.ty.Contents (Elt F)) :
    a6.view.read (Elt F) (a6.view.writes (Elt F) f (runMid c i a2 h2 a3 h3 a4 h4 a5 h5 a6 h6 hc0 hc1 x0 x1 xs).1) = k1_pay2 x1 xs x0 := by
  unfold runMid; dsimp only
  rw [read_writes_whole_last _ _ hz, readAt_whole_unread h3 hz, readAt_whole_unread h6 hz, readAt_whole_unread h2 hz]

/-! ## Column block 7 -/

theorem last_acc (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : ¬FirstCol i) (hc1 : LastCol i)
    (x0 : Vec F S1024x1024 .bf16) (x1 : Vec F S1024x256 .f32) (x2 : Vec F S1024x1 .f32) (xs : Vec F S1024x256 .f32) (f : a6.view.ty.Contents (Elt F)) :
    a6.view.read (Elt F) (a6.view.writes (Elt F) f (runLast c i a2 h2 a3 h3 a4 h4 a5 h5 a6 h6 hc0 hc1 x0 x1 x2 xs).2.1) = k1_pay2 x1 xs x0 := by
  unfold runLast; dsimp only
  unfold runLast.sl.HS_1
  rw [read_writes_whole_last _ _ hz, readAt_whole_unread h3 hz, readAt_whole_unread h6 hz, readAt_whole_unread h2 hz]

theorem last_out (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : ¬FirstCol i) (hc1 : LastCol i)
    (x0 : Vec F S1024x1024 .bf16) (x1 : Vec F S1024x256 .f32) (x2 : Vec F S1024x1 .f32) (xs : Vec F S1024x256 .f32) (f : a5.view.ty.Contents (Elt F)) :
    a5.view.read (Elt F) (a5.view.writes (Elt F) f (runLast c i a2 h2 a3 h3 a4 h4 a5 h5 a6 h6 hc0 hc1 x0 x1 x2 xs).1) = k1_pay3 (k1_pay2 x1 xs x0) x2 := by
  unfold runLast; dsimp only
  rw [read_writes_whole_last _ _ hz, readAt_whole_unread h4 hz]
  unfold runLast.sl.v17 runLast.sl.HS_1
  rw [readCov_whole_last _ hz, readAt_whole_unread h3 hz, readAt_whole_unread h6 hz, readAt_whole_unread h2 hz]

end Cert.KernelIdeal.R1

end
-- ==== Proof.KI.R1Body.lean ====
/-
  Region 1: the body's obligation to the pipeline, at every grid point.

  At point `t` the pipeline hands the body the invariant, the three input blocks in their staging buffers, and the
  output window's staging buffer; the body must return the invariant for the next point, the inputs as they were, and
  the output window either at what the proof data says it holds after the point or, at a point that does not write it
  back (every column block but 7), as it was.  By cases on the column block: 0 (the accumulator restarts; on entry it
  is at anything at the very first point and at the previous row block's total afterwards), 1 to 6, and 7; each case
  applies its symbolic run and reads the written buffers back as their last stores' payloads.
-/
import proofs.«130698_j71897752535776_2_alg».proof.Proof.KI.R1Data
import proofs.«130698_j71897752535776_2_alg».proof.Proof.KI.R1Values

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle -/

theorem live_M : ∀ t : Fin cfg1.N, cfg1.idle 0 (grid1.coords t) = false := fun _ => rfl
theorem live_B : ∀ t : Fin cfg1.N, cfg1.idle 1 (grid1.coords t) = false := fun _ => rfl
theorem live_R : ∀ t : Fin cfg1.N, cfg1.idle 2 (grid1.coords t) = false := fun _ => rfl
/-- The output's window is idle at every point whose column block is not 7, -/
theorem idle_O : ∀ t : Fin cfg1.N, ¬LastCol (grid1.coords t) → cfg1.idle 3 (grid1.coords t) = true := by decide +kernel
/-- live at those whose column block is 7, -/
theorem live_O : ∀ t : Fin cfg1.N, LastCol (grid1.coords t) → cfg1.idle 3 (grid1.coords t) = false := by decide +kernel
/-- and written back only there. -/
theorem noFlush_O (t : Fin cfg1.N) (h : ¬t.val % 8 = 7) : (cfg1.win 3).flush t = false :=
  Bool.eq_false_iff.mpr fun hf => h ((flush1_3 t).mp hf)

/-! ## The obligation at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (bufM t) fullShare ((dat V c).before 0 t d))
    ∗ (∃ d, owns (c : Thread nD τ) (bufH t) fullShare ((dat V c).before 1 t d))
    ∗ (∃ d, owns (c : Thread nD τ) (bufR t) fullShare ((dat V c).before 2 t d))
    ∗ (∃ d, owns (c : Thread nD τ) (bufO t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_M, before_B, before_R]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (bufM t) fullShare ((dat V c).after 0 t) from by
    unfold Dat.leavesExact; rw [live_M t], after_M]
  rw [show (dat V c).leavesExact 1 t = owns (c : Thread nD τ) (bufH t) fullShare ((dat V c).after 1 t) from by
    unfold Dat.leavesExact; rw [live_B t], after_B]
  rw [show (dat V c).leavesExact 2 t = owns (c : Thread nD τ) (bufR t) fullShare ((dat V c).after 2 t) from by
    unfold Dat.leavesExact; rw [live_R t], after_R]
  by_cases h0 : t.val % 8 = 0
  · have h7 : ¬t.val % 8 = 7 := by omega
    rw [Dat.leavesExact_idle (dat V c) 3 t (idle_O t (fun h => h7 ((lastCol_iff t).mp h))) (noFlush_O t h7)]
    rw [accAt_first V c t h0]
    by_cases hz : t.val = 0
    · rw [Phi_castSucc V c t, Phi_zero V c _ _ hz, PhiA_eq]
      iintro ⟨⟨⟨HS, Hoth⟩, Hg⟩, Ho, ⟨%d0, H0⟩, ⟨%d1, H1⟩, ⟨%d2, H2⟩, ⟨%d3, H3⟩⟩
      iapply ((runFirst c (grid1.coords t) _ _ _ _ _ _ _ _ _ _ ((firstCol_iff t).mpr h0) (fun h => h7 ((lastCol_iff t).mp h)) (iblk V c 0 t) (iblk V c 1 t)).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS]
        · unfold owns; iexists _; isplitr
          swap; · iexact HS
          ipureintro; exact first_acc _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      iexists _; iexact H3
    · rw [Phi_castSucc V c t, Phi_pos V c _ _ hz]
      iintro ⟨⟨HS, Hoth, Hg⟩, Ho, ⟨%d0, H0⟩, ⟨%d1, H1⟩, ⟨%d2, H2⟩, ⟨%d3, H3⟩⟩
      iapply ((runFirst c (grid1.coords t) _ _ _ _ _ _ _ _ _ _ ((firstCol_iff t).mpr h0) (fun h => h7 ((lastCol_iff t).mp h)) (iblk V c 0 t) (iblk V c 1 t)).2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS]
        · unfold owns; iexists _; isplitr
          swap; · iexact HS
          ipureintro; exact first_acc _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [accAt_next V c t h0]
    rw [Phi_castSucc V c t, Phi_pos V c _ _ hz]
    by_cases h7 : t.val % 8 = 7
    · rw [show (dat V c).leavesExact 3 t = owns (c : Thread nD τ) (bufO t) fullShare ((dat V c).after 3 t) from by
        unfold Dat.leavesExact; rw [live_O t ((lastCol_iff t).mpr h7)], after_O, accAt_next V c t h0]
      iintro ⟨⟨HS, Hoth, Hg⟩, Ho, ⟨%d0, H0⟩, ⟨%d1, H1⟩, ⟨%d2, H2⟩, ⟨%d3, H3⟩⟩
      iapply ((runLast c (grid1.coords t) _ _ _ _ _ _ _ _ _ _ (fun h => h0 ((firstCol_iff t).mp h)) ((lastCol_iff t).mpr h7) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS]
        · unfold owns; iexists _; isplitr
          swap; · iexact HS
          ipureintro; exact last_acc _ _ _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      unfold owns; iexists _; isplitr
      swap; · iexact H3
      ipureintro; exact last_out _ _ _ _ _ _ _ _ _ _ _ _ _ _ _ _ _ _ _
    · rw [Dat.leavesExact_idle (dat V c) 3 t (idle_O t (fun h => h7 ((lastCol_iff t).mp h))) (noFlush_O t h7)]
      iintro ⟨⟨HS, Hoth, Hg⟩, Ho, ⟨%d0, H0⟩, ⟨%d1, H1⟩, ⟨%d2, H2⟩, ⟨%d3, H3⟩⟩
      iapply ((runMid c (grid1.coords t) _ _ _ _ _ _ _ _ _ _ (fun h => h0 ((firstCol_iff t).mp h)) (fun h => h7 ((lastCol_iff t).mp h)) (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS]
        · unfold owns; iexists _; isplitr
          swap; · iexact HS
          ipureintro; exact mid_acc _ _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.KI.R2Base.lean ====
/-
  Region 2 of the kernel program: one propagation step, the staged matrix times a pre-scaled feature matrix of width
  128, each row of the product then scaled by its row factor.

  The region's grid is 8 row blocks by 8 column blocks; point t is row block t / 8, column block t % 8, the column
  block moving fastest.  At a point the body sees a 1024 x 1024 block of the staged matrix, the 1024 x 128 block of
  the features that the column block selects, the 1024 x 1 block of row factors of the row block, and the 1024 x 128
  window of the output of the row block.  It keeps a 1024 x 128 accumulator in a scratch buffer that lives across the
  eight points of a row block: it is zeroed when the column block is 0, receives the product of the two blocks at
  every point, and, multiplied row by row by the row factors, is written to the output's window when the column
  block is 7.  So a point is of one of three kinds, told apart by two conditions on its coordinates; here are those
  conditions in closed form over the grid, and the memory the body is called with at a point.
-/
import proofs.«130698_j71897752535776_2_alg».proof.Proof.Gen.KernelIdeal.Launch
import proofs.«130698_j71897752535776_2_alg».proof.Proof.Gen.KernelIdeal.Skeleton
import proofs.«130698_j71897752535776_2_alg».proof.Proof.Gen.KernelIdeal.Points
import Idealize.ShloMosaic.Lib.Pipeline.FrameBody
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions the body branches on -/

/-- The body's first branch is taken: the point's column block is 0 (the accumulator is zeroed). -/
abbrev FirstCol (i : grid2.Coords) : Prop :=
  (Scalar.cmpi .ne (Scalar.extui (Scalar.cmpi .eq (BitVec.ofNat 32 (i 1).val) 0#32)) 0#32) = 1#1

/-- Over the 64 points: the column block is 0 exactly when the point's number is a multiple of 8. -/
theorem firstCol_iff : ∀ t : Fin cfg2.N, FirstCol (grid2.coords t) ↔ t.val % 8 = 0 :=
  (by decide +kernel : ∀ t : Fin grid2.N, FirstCol (grid2.coords t) ↔ t.val % 8 = 0)

/-- The body's last branch is taken: the point's column block is 7 (the scaled accumulator is written out). -/
abbrev LastCol (i : grid2.Coords) : Prop := k2_cond2 i = 1#1

/-- Over the 64 points: the column block is 7 exactly when the point's number is 7 modulo 8. -/
theorem lastCol_iff : ∀ t : Fin cfg2.N, LastCol (grid2.coords t) ↔ t.val % 8 = 7 :=
  (by decide +kernel : ∀ t : Fin grid2.N, LastCol (grid2.coords t) ↔ t.val % 8 = 7)

/-! ## The memory the body is called with at a point -/

/-- The staging buffer holding the staged matrix's block at point `t`. -/
abbrev bufM (t : Fin cfg2.N) : Memref sig .tc .vmem S1024x1024 .bf16 := win2_0.stage (cfg2.slots t 0)
abbrev bufM_whole (t : Fin cfg2.N) : (bufM t).IsWhole := hstage2_0 ((cfg2.slots t 0).cast nbuf2_0)
/-- The staging buffer holding the features' block at point `t`. -/
abbrev bufH (t : Fin cfg2.N) : Memref sig .tc .vmem S1024x128 .f32 := win2_1.stage (cfg2.slots t 1)
abbrev bufH_whole (t : Fin cfg2.N) : (bufH t).IsWhole := hstage2_1 ((cfg2.slots t 1).cast nbuf2_1)
/-- The staging buffer holding the row factors' 1024 x 1 block at point `t`. -/
abbrev bufR (t : Fin cfg2.N) : Memref sig .tc .vmem S1024x1 .f32 := win2_2.stage (cfg2.slots t 2)
abbrev bufR_whole (t : Fin cfg2.N) : (bufR t).IsWhole := hstage2_2 ((cfg2.slots t 2).cast nbuf2_2)
/-- The staging buffer of the output's 1024 x 128 window at point `t`. -/
abbrev bufO (t : Fin cfg2.N) : Memref sig .tc .vmem S1024x128 .f32 := win2_3.stage (cfg2.slots t 3)
abbrev bufO_whole (t : Fin cfg2.N) : (bufO t).IsWhole := hstage2_3 ((cfg2.slots t 3).cast nbuf2_3)
/-- The accumulator: a whole scoped buffer of the kernel's own, the same at every point. -/
abbrev accBuf : Memref sig .tc .vmem S1024x128 .f32 := Memref.whole cc2_scratch0

end Cert.KernelIdeal.R2

end
-- ==== Proof.KI.R2Runs.lean ====
/-
  Region 2's body, run symbolically at each of the three kinds of grid point.

  Each run is the list of stores the body leaves in every buffer it writes (latest first), with the proof that from
  the buffers held whole the body runs to its end, returns the blocks it only reads as they were, and leaves each
  written buffer holding those stores over whatever it held before.

  * column block 0: the accumulator, at anything before, is zero-filled and then receives the product of the staged
    matrix's block and the features' block; the row factors and the output's window are not touched.
  * column blocks 1 to 6: the same without the zero fill, the accumulator starting from what the point before left.
  * column block 7: as in the middle, and the accumulator, each row multiplied by its row factor, is then written to
    the output's window.
-/
import proofs.«130698_j71897752535776_2_alg».proof.Proof.KI.R2Base

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Column block 0: the stores left in the accumulator, and the run. The row factors' block, at `x2`, and the
    output's window, at `xd`, are handed back untouched. -/
noncomputable def runFirst (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : FirstCol i) (hc1 : ¬LastCol i)
    (x0 : Vec F S1024x1024 .bf16) (x1 : Vec F S1024x128 .f32) :
    { LA : List (View.Piece (Elt F) S1024x128 .f32) //
      ∀ (x2 : Vec F S1024x1 .f32) (xd : Vec F S1024x128 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xd ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ owns (c : Thread nD τ) a5 fullShare xd
                ∗ (∃ f, a6.view.loc (c : Thread nD τ) ↦[a6.view.set]{fullShare} a6.view.writes (Elt F) f LA)) -∗ K ⟨⟩))
          ⊢ wp frame (wpE (defs₀ (F := F)) Variants.none c none) E (cc2__gcn_matmul_kernel i a2 h2 a3 h3 a4 h4 a5 h5 a6 h6) K } := by
  refine ⟨?_, fun x2 xd E K => ?run⟩
  case run =>
    simp only [cc2__gcn_matmul_kernel_eq_skeleton]; unfold cc2__gcn_matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h2.eq_unread hf0; obtain rfl := h3.eq_unread hf1; obtain rfl := h4.eq_unread hf2
    obtain rfl := h5.eq_unread hf3
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

set_option maxHeartbeats 1000000 in
/-- Column blocks 1 to 6: the accumulator comes in at `xs`, what the point before left in it. -/
noncomputable def runMid (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : ¬FirstCol i) (hc1 : ¬LastCol i)
    (x0 : Vec F S1024x1024 .bf16) (x1 : Vec F S1024x128 .f32) (xs : Vec F S1024x128 .f32) :
    { LA : List (View.Piece (Elt F) S1024x128 .f32) //
      ∀ (x2 : Vec F S1024x1 .f32) (xd : Vec F S1024x128 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xd ∗ owns (c : Thread nD τ) a6 fullShare xs
            ∗ (iprop(owns (c : Thread nD τ) a2 fullShare x0 ∗ owns (c : Thread nD τ) a3 fullShare x1 ∗ owns (c : Thread nD τ) a4 fullShare x2
                ∗ owns (c : Thread nD τ) a5 fullShare xd
                ∗ (∃ f, a6.view.loc (c : Thread nD τ) ↦[a6.view.set]{fullShare} a6.view.writes (Elt F) f LA)) -∗ K ⟨⟩))
          ⊢ wp frame (wpE (defs₀ (F := F)) Variants.none c none) E (cc2__gcn_matmul_kernel i a2 h2 a3 h3 a4 h4 a5 h5 a6 h6) K } := by
  refine ⟨?_, fun x2 xd E K => ?run⟩
  case run =>
    simp only [cc2__gcn_matmul_kernel_eq_skeleton]; unfold cc2__gcn_matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h2.eq_unread hf0; obtain rfl := h3.eq_unread hf1; obtain rfl := h4.eq_unread hf2
    obtain rfl := h5.eq_unread hf3; obtain rfl := h6.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

set_option maxHeartbeats 1000000 in
/-- Column block 7: as in the middle, and the output's window, at anything before, receives the accumulator with each
    row multiplied by its row factor; the row factors' block comes in at `x2`. -/
noncomputable def runLast (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : ¬FirstCol i) (hc1 : LastCol i)
    (x0 : Vec F S1024x1024 .bf16) (x1 : Vec F S1024x128 .f32) (x2 : Vec F S1024x1 .f32) (xs : Vec F S1024x128 .f32) :
    Σ' (LO : List (View.Piece (Elt F) S1024x128 .f32)), { LA : List (View.Piece (Elt F) S1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ owns (c : Thread nD τ) a6 fullShare xs
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f LO)
                ∗ (∃ f, a6.view.loc (c : Thread nD τ) ↦[a6.view.set]{fullShare} a6.view.writes (Elt F) f LA)) -∗ K ⟨⟩))
          ⊢ wp frame (wpE (defs₀ (F := F)) Variants.none c none) E (cc2__gcn_matmul_kernel i a2 h2 a3 h3 a4 h4 a5 h5 a6 h6) K } := by
  refine ⟨?_, ?_, fun E K => ?run⟩
  case run =>
    simp only [cc2__gcn_matmul_kernel_eq_skeleton]; unfold cc2__gcn_matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h2.eq_unread hf0; obtain rfl := h3.eq_unread hf1; obtain rfl := h4.eq_unread hf2
    obtain rfl := h6.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    iexists _; iexact HS

end Cert.KernelIdeal.R2

end
-- ==== Proof.KI.R2Values.lean ====
/-
  Region 2: what each buffer holds after the body, at each kind of grid point, as a function of what the body found.

  With `x0` the staged matrix's block at the point, `x1` the features' block, `x2` the row factors' block and `xs` what
  the accumulator held on entry:
  * the accumulator ends holding the product of the two blocks added to zero at column block 0
    (`k2_pay2 x1 k2_pay1 x0`), and added to `xs` elsewhere (`k2_pay2 x1 xs x0`);
  * at column block 7 the output's window ends holding that accumulator value with each row multiplied by its row
    factor (`k2_pay3 (k2_pay2 x1 xs x0) x2`).
  Every store of the body goes through the whole rectangle of its buffer, so each buffer reads as its last store's
  payload whatever it held before.
-/
import proofs.«130698_j71897752535776_2_alg».proof.Proof.KI.R2Runs
import proofs.«130698_j71897752535776_2_alg».proof.Proof.LibWholeStores

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.WholeStores

variable {F : FTy → Type} [FloatOps F]

/-- The offsets of a whole rank-2 rectangle are zero on both axes. -/
theorem hz : (![0, 0] : Fin 2 → Nat) = fun _ => 0 := funext fun a => by fin_cases a <;> rfl

/-! ## Column block 0 -/

theorem first_acc (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : FirstCol i) (hc1 : ¬LastCol i)
    (x0 : Vec F S1024x1024 .bf16) (x1 : Vec F S1024x128 .f32) (f : a6.view.ty.Contents (Elt F)) :
    a6.view.read (Elt F) (a6.view.writes (Elt F) f (runFirst c i a2 h2 a3 h3 a4 h4 a5 h5 a6 h6 hc0 hc1 x0 x1).1) = k2_pay2 x1 (k2_pay1 (F := F)) x0 := by
  unfold runFirst; dsimp only
  rw [read_writes_whole_last _ _ hz, readAt_whole_unread h3 hz, readAt_whole_unread h2 hz]
  unfold runFirst.sl.v6 runFirst.sl.HS_1
  rw [readCov_whole_last _ hz]

/-! ## Column blocks 1 to 6 -/

theorem mid_acc (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : ¬FirstCol i) (hc1 : ¬LastCol i)
    (x0 : Vec F S1024x1024 .bf16) (x1 : Vec F S1024x128 .f32) (xs : Vec F S1024x128 .f32) (f : a6.view.ty.Contents (Elt F)) :
    a6.view.read (Elt F) (a6.view.writes (Elt F) f (runMid c i a2 h2 a3 h3 a4 h4 a5 h5 a6 h6 hc0 hc1 x0 x1 xs).1) = k2_pay2 x1 xs x0 := by
  unfold runMid; dsimp only
  rw [read_writes_whole_last _ _ hz, readAt_whole_unread h3 hz, readAt_whole_unread h6 hz, readAt_whole_unread h2 hz]

/-! ## Column block 7 -/

theorem last_acc (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : ¬FirstCol i) (hc1 : LastCol i)
    (x0 : Vec F S1024x1024 .bf16) (x1 : Vec F S1024x128 .f32) (x2 : Vec F S1024x1 .f32) (xs : Vec F S1024x128 .f32) (f : a6.view.ty.Contents (Elt F)) :
    a6.view.read (Elt F) (a6.view.writes (Elt F) f (runLast c i a2 h2 a3 h3 a4 h4 a5 h5 a6 h6 hc0 hc1 x0 x1 x2 xs).2.1) = k2_pay2 x1 xs x0 := by
  unfold runLast; dsimp only
  unfold runLast.sl.HS_1
  rw [read_writes_whole_last _ _ hz, readAt_whole_unread h3 hz, readAt_whole_unread h6 hz, readAt_whole_unread h2 hz]

theorem last_out (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : ¬FirstCol i) (hc1 : LastCol i)
    (x0 : Vec F S1024x1024 .bf16) (x1 : Vec F S1024x128 .f32) (x2 : Vec F S1024x1 .f32) (xs : Vec F S1024x128 .f32) (f : a5.view.ty.Contents (Elt F)) :
    a5.view.read (Elt F) (a5.view.writes (Elt F) f (runLast c i a2 h2 a3 h3 a4 h4 a5 h5 a6 h6 hc0 hc1 x0 x1 x2 xs).1) = k2_pay3 (k2_pay2 x1 xs x0) x2 := by
  unfold runLast; dsimp only
  rw [read_writes_whole_last _ _ hz, readAt_whole_unread h4 hz]
  unfold runLast.sl.v17 runLast.sl.HS_1
  rw [readCov_whole_last _ hz, readAt_whole_unread h3 hz, readAt_whole_unread h6 hz, readAt_whole_unread h2 hz]

end Cert.KernelIdeal.R2

end
-- ==== Proof.KI.R2Body.lean ====
/-
  Region 2: the body's obligation to the pipeline, at every grid point.

  At point `t` the pipeline hands the body the invariant, the three input blocks in their staging buffers, and the
  output window's staging buffer; the body must return the invariant for the next point, the inputs as they were, and
  the output window either at what the proof data says it holds after the point or, at a point that does not write it
  back (every column block but 7), as it was.  By cases on the column block: 0 (the accumulator restarts; on entry it
  is at anything at the very first point and at the previous row block's total afterwards), 1 to 6, and 7; each case
  applies its symbolic run and reads the written buffers back as their last stores' payloads.
-/
import proofs.«130698_j71897752535776_2_alg».proof.Proof.KI.R2Data
import proofs.«130698_j71897752535776_2_alg».proof.Proof.KI.R2Values

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle -/

theorem live_M : ∀ t : Fin cfg2.N, cfg2.idle 0 (grid2.coords t) = false := fun _ => rfl
theorem live_B : ∀ t : Fin cfg2.N, cfg2.idle 1 (grid2.coords t) = false := fun _ => rfl
theorem live_R : ∀ t : Fin cfg2.N, cfg2.idle 2 (grid2.coords t) = false := fun _ => rfl
/-- The output's window is idle at every point whose column block is not 7, -/
theorem idle_O : ∀ t : Fin cfg2.N, ¬LastCol (grid2.coords t) → cfg2.idle 3 (grid2.coords t) = true := by decide +kernel
/-- live at those whose column block is 7, -/
theorem live_O : ∀ t : Fin cfg2.N, LastCol (grid2.coords t) → cfg2.idle 3 (grid2.coords t) = false := by decide +kernel
/-- and written back only there. -/
theorem noFlush_O (t : Fin cfg2.N) (h : ¬t.val % 8 = 7) : (cfg2.win 3).flush t = false :=
  Bool.eq_false_iff.mpr fun hf => h ((flush2_3 t).mp hf)

/-! ## The obligation at a generic point -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (bufM t) fullShare ((dat V c).before 0 t d))
    ∗ (∃ d, owns (c : Thread nD τ) (bufH t) fullShare ((dat V c).before 1 t d))
    ∗ (∃ d, owns (c : Thread nD τ) (bufR t) fullShare ((dat V c).before 2 t d))
    ∗ (∃ d, owns (c : Thread nD τ) (bufO t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_M, before_B, before_R]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (bufM t) fullShare ((dat V c).after 0 t) from by
    unfold Dat.leavesExact; rw [live_M t], after_M]
  rw [show (dat V c).leavesExact 1 t = owns (c : Thread nD τ) (bufH t) fullShare ((dat V c).after 1 t) from by
    unfold Dat.leavesExact; rw [live_B t], after_B]
  rw [show (dat V c).leavesExact 2 t = owns (c : Thread nD τ) (bufR t) fullShare ((dat V c).after 2 t) from by
    unfold Dat.leavesExact; rw [live_R t], after_R]
  by_cases h0 : t.val % 8 = 0
  · have h7 : ¬t.val % 8 = 7 := by omega
    rw [Dat.leavesExact_idle (dat V c) 3 t (idle_O t (fun h => h7 ((lastCol_iff t).mp h))) (noFlush_O t h7)]
    rw [accAt_first V c t h0]
    by_cases hz : t.val = 0
    · rw [Phi_castSucc V c t, Phi_zero V c _ _ hz, PhiA_eq]
      iintro ⟨⟨⟨HS, Hoth⟩, Hg⟩, Ho, ⟨%d0, H0⟩, ⟨%d1, H1⟩, ⟨%d2, H2⟩, ⟨%d3, H3⟩⟩
      iapply ((runFirst c (grid2.coords t) _ _ _ _ _ _ _ _ _ _ ((firstCol_iff t).mpr h0) (fun h => h7 ((lastCol_iff t).mp h)) (iblk V c 0 t) (iblk V c 1 t)).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS]
        · unfold owns; iexists _; isplitr
          swap; · iexact HS
          ipureintro; exact first_acc _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      iexists _; iexact H3
    · rw [Phi_castSucc V c t, Phi_pos V c _ _ hz]
      iintro ⟨⟨HS, Hoth, Hg⟩, Ho, ⟨%d0, H0⟩, ⟨%d1, H1⟩, ⟨%d2, H2⟩, ⟨%d3, H3⟩⟩
      iapply ((runFirst c (grid2.coords t) _ _ _ _ _ _ _ _ _ _ ((firstCol_iff t).mpr h0) (fun h => h7 ((lastCol_iff t).mp h)) (iblk V c 0 t) (iblk V c 1 t)).2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS]
        · unfold owns; iexists _; isplitr
          swap; · iexact HS
          ipureintro; exact first_acc _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [accAt_next V c t h0]
    rw [Phi_castSucc V c t, Phi_pos V c _ _ hz]
    by_cases h7 : t.val % 8 = 7
    · rw [show (dat V c).leavesExact 3 t = owns (c : Thread nD τ) (bufO t) fullShare ((dat V c).after 3 t) from by
        unfold Dat.leavesExact; rw [live_O t ((lastCol_iff t).mpr h7)], after_O, accAt_next V c t h0]
      iintro ⟨⟨HS, Hoth, Hg⟩, Ho, ⟨%d0, H0⟩, ⟨%d1, H1⟩, ⟨%d2, H2⟩, ⟨%d3, H3⟩⟩
      iapply ((runLast c (grid2.coords t) _ _ _ _ _ _ _ _ _ _ (fun h => h0 ((firstCol_iff t).mp h)) ((lastCol_iff t).mpr h7) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS]
        · unfold owns; iexists _; isplitr
          swap; · iexact HS
          ipureintro; exact last_acc _ _ _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      unfold owns; iexists _; isplitr
      swap; · iexact H3
      ipureintro; exact last_out _ _ _ _ _ _ _ _ _ _ _ _ _ _ _ _ _ _ _
    · rw [Dat.leavesExact_idle (dat V c) 3 t (idle_O t (fun h => h7 ((lastCol_iff t).mp h))) (noFlush_O t h7)]
      iintro ⟨⟨HS, Hoth, Hg⟩, Ho, ⟨%d0, H0⟩, ⟨%d1, H1⟩, ⟨%d2, H2⟩, ⟨%d3, H3⟩⟩
      iapply ((runMid c (grid2.coords t) _ _ _ _ _ _ _ _ _ _ (fun h => h0 ((firstCol_iff t).mp h)) (fun h => h7 ((lastCol_iff t).mp h)) (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS]
        · unfold owns; iexists _; isplitr
          swap; · iexact HS
          ipureintro; exact mid_acc _ _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.R2

end
-- ==== Proof.KI.Segs.lean ====
/-
  The kernel program as a list of segments, and its run.

  Between two items a core holds every unscoped buffer at that boundary's contents, beside its generator register at
  some state and a record that it owes no other core anything.  A host stretch takes the buffers from one boundary's
  contents to the next by the composition of its operations.  A region takes them through its pipeline: its arrays are
  split out, the body's obligation holds at every grid point, and the arrays come back at their exit contents.  The
  program is the run of these twelve segments in order; so every weakly fair execution terminates without a fault, and
  in the final state every unscoped buffer holds the last boundary's contents.
-/
import proofs.«130698_j71897752535776_2_alg».proof.Proof.KI.Chain
import proofs.«130698_j71897752535776_2_alg».proof.Proof.KI.R1Body
import proofs.«130698_j71897752535776_2_alg».proof.Proof.KI.R2Body

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)

/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-! ## The regions as segments -/

-- a library lemma stated over the pinned configuration unifies with the printed one only when unification may unfold plain
-- definitions in a metavariable's type
set_option backward.isDefEq.respectTransparency.types false in
/-- Region 0 over the thread state: entered with every unscoped buffer at the contents of boundary 0, left with them
    at boundary 1.  Its windows' arrays are split out of the unscoped buffers on entry and joined back at their exit
    contents; the generator register and the scoped buffers go into the invariant and come back, the accumulator's
    final contents forgotten; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E0 m) c).loose
  hwaits := Pipeline.hwaits_of_owed_zero _ _ _ _ L lv 0 fun _ _ => rfl
  pre c := iprop(StableHlo.held (c : Thread nD τ) (Pipeline.ucRefs τ sig) (W0 m c) ∗ Rst c)
  post c := iprop(StableHlo.held (c : Thread nD τ) (Pipeline.ucRefs τ sig) (W1 m c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    have hN : (Fin.last cfg0.N).val ≠ 0 := by rw [Fin.val_last]; have : cfg0.N = 64 := N_0; omega
    rw [Pipeline.ownSems0_none,
      show (pdats m 0 c).Φ (Fin.last _) = R0.Phi (E0 m) c (Fin.last cfg0.N).val (Nat.le_of_lt_succ (Fin.last cfg0.N).isLt) from rfl,
      R0.Phi_pos (E0 m) c _ _ hN]
    iintro ⟨HS, Hoth, Hg⟩
    isplitl [Hg]; · iexact Hg
    isplitr; · iempintro
    iapply (show (iprop((∃ d, owns (c : Thread nD τ) R0.accBuf fullShare d) ∗ R0.others c) : sProp 𝕄)
        ⊢ Pipeline.scopedRest spec0 c from by rw [R0.scopedRest_split])
    isplitl [HS]; · iexists _; iexact HS
    iexact Hoth
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (X1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered with every unscoped buffer at the contents of boundary 6, left with them
    at boundary 7.  Its windows' arrays are split out of the unscoped buffers on entry and joined back at their exit
    contents; the generator register and the scoped buffers go into the invariant and come back, the accumulator's
    final contents forgotten; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E6 m) c).loose
  hwaits := Pipeline.hwaits_of_owed_zero _ _ _ _ L lv 1 fun _ _ => rfl
  pre c := iprop(StableHlo.held (c : Thread nD τ) (Pipeline.ucRefs τ sig) (W6 m c) ∗ Rst c)
  post c := iprop(StableHlo.held (c : Thread nD τ) (Pipeline.ucRefs τ sig) (W7 m c) ∗ Rst c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    have hN : (Fin.last cfg1.N).val ≠ 0 := by rw [Fin.val_last]; have : cfg1.N = 64 := N_1; omega
    rw [Pipeline.ownSems0_none,
      show (pdats m 1 c).Φ (Fin.last _) = R1.Phi (E6 m) c (Fin.last cfg1.N).val (Nat.le_of_lt_succ (Fin.last cfg1.N).isLt) from rfl,
      R1.Phi_pos (E6 m) c _ _ hN]
    iintro ⟨HS, Hoth, Hg⟩
    isplitl [Hg]; · iexact Hg
    isplitr; · iempintro
    iapply (show (iprop((∃ d, owns (c : Thread nD τ) R1.scratchAcc fullShare d) ∗ R1.others c) : sProp 𝕄)
        ⊢ Pipeline.scopedRest spec1 c from by rw [R1.scopedRest_split])
    isplitl [HS]; · iexists _; iexact HS
    iexact Hoth
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E6 m c) (X7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state: entered with every unscoped buffer at the contents of boundary 10, left with them
    at boundary 11.  Its windows' arrays are split out of the unscoped buffers on entry and joined back at their exit
    contents; the generator register and the scoped buffers go into the invariant and come back, the accumulator's
    final contents forgotten; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (E10 m) c).loose
  hwaits := Pipeline.hwaits_of_owed_zero _ _ _ _ L lv 2 fun _ _ => rfl
  pre c := iprop(StableHlo.held (c : Thread nD τ) (Pipeline.ucRefs τ sig) (W10 m c) ∗ Rst c)
  post c := iprop(StableHlo.held (c : Thread nD τ) (Pipeline.ucRefs τ sig) (W11 m c) ∗ Rst c)
  X c := iprop(∃ r, prngReg c r)
  Y c := iprop(∃ r, prngReg c r)
  Z c := Pipeline.unscopedRest (Ix := Unit) (Name := ℕ) (U := UR sig nD τ) (Lvl := ℕ) spec2 c (E10 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    have hN : (Fin.last cfg2.N).val ≠ 0 := by rw [Fin.val_last]; have : cfg2.N = 64 := N_2; omega
    rw [Pipeline.ownSems0_none,
      show (pdats m 2 c).Φ (Fin.last _) = R2.Phi (E10 m) c (Fin.last cfg2.N).val (Nat.le_of_lt_succ (Fin.last cfg2.N).isLt) from rfl,
      R2.Phi_pos (E10 m) c _ _ hN]
    iintro ⟨HS, Hoth, Hg⟩
    isplitl [Hg]; · iexact Hg
    isplitr; · iempintro
    iapply (show (iprop((∃ d, owns (c : Thread nD τ) R2.scratchAcc fullShare d) ∗ R2.others c) : sProp 𝕄)
        ⊢ Pipeline.scopedRest spec2 c from by rw [R2.scopedRest_split])
    isplitl [HS]; · iexists _; iexact HS
    iexact Hoth
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E10 m c) (X11 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) Gen.adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m),
    .host (hseg hostOps2 hostOps2_sub hostOps2_fresh (W7 m)),
    .host (hseg hostOps2_1 hostOps2_1_sub hostOps2_1_fresh (W8 m)),
    .host (hseg hostOps2_2 hostOps2_2_sub hostOps2_2_fresh (W9 m)),
    .region (reg2 m),
    .host (hseg hostOps3 hostOps3_sub hostOps3_fresh (W11 m)) ]

theorem main_run (c : Dev nD) : main (F := F) c = Pipeline.Seg.run (segs m) := (main_chain c).trans (by chain_rfl)

set_option backward.isDefEq.respectTransparency.types false in
/-- Every weakly fair execution of the program terminates without a fault, and in the final state every unscoped buffer
    of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => iprop(StableHlo.held (c : Thread nD τ) (Pipeline.ucRefs τ sig) (W12 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W12 m c) ∗ Rst c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.KernelIdeal.Whole

end
-- ==== Proof.KI.Frame.lean ====
/-
  What the kernel program's run says about its arguments and its result.

  The run ends with every unscoped buffer at the last boundary's contents.  Each of the seven arguments reaches that
  boundary as launched, which is the program's frame; the result buffer holds the last host stretch's final value.
-/
import proofs.«130698_j71897752535776_2_alg».proof.Proof.KI.Segs

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every weakly fair execution terminates without a fault and leaves the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_arg0) (Finset.mem_filter.mpr ⟨StableHlo.devRef_mem_tcRefs main_arg0, by decide⟩)).trans (W12_main_arg0 m c),
      (h c (Proc.devRef .tc main_arg1) (Finset.mem_filter.mpr ⟨StableHlo.devRef_mem_tcRefs main_arg1, by decide⟩)).trans (W12_main_arg1 m c),
      (h c (Proc.devRef .tc main_arg2) (Finset.mem_filter.mpr ⟨StableHlo.devRef_mem_tcRefs main_arg2, by decide⟩)).trans (W12_main_arg2 m c),
      (h c (Proc.devRef .tc main_arg3) (Finset.mem_filter.mpr ⟨StableHlo.devRef_mem_tcRefs main_arg3, by decide⟩)).trans (W12_main_arg3 m c),
      (h c (Proc.devRef .tc main_arg4) (Finset.mem_filter.mpr ⟨StableHlo.devRef_mem_tcRefs main_arg4, by decide⟩)).trans (W12_main_arg4 m c),
      (h c (Proc.devRef .tc main_arg5) (Finset.mem_filter.mpr ⟨StableHlo.devRef_mem_tcRefs main_arg5, by decide⟩)).trans (W12_main_arg5 m c),
      (h c (Proc.devRef .tc main_arg6) (Finset.mem_filter.mpr ⟨StableHlo.devRef_mem_tcRefs main_arg6, by decide⟩)).trans (W12_main_arg6 m c)⟩) (run_all m ρ)

/-- The same run, with the result buffer's final contents named. -/
theorem result_run : θ_run defs (onTc (τ := τ) (main (F := F))) ⟨m, fun _ => 0, ρ⟩ (fun r => ∀ c : Dev nD,
      r.2.mem ((c.tc : Thread nD τ).loc main_v35) = W12 m c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c (Proc.devRef .tc main_v35) (Finset.mem_filter.mpr ⟨StableHlo.devRef_mem_tcRefs main_v35, by decide⟩),
      (h c (Proc.devRef .tc main_arg0) (Finset.mem_filter.mpr ⟨StableHlo.devRef_mem_tcRefs main_arg0, by decide⟩)).trans (W12_main_arg0 m c),
      (h c (Proc.devRef .tc main_arg1) (Finset.mem_filter.mpr ⟨StableHlo.devRef_mem_tcRefs main_arg1, by decide⟩)).trans (W12_main_arg1 m c),
      (h c (Proc.devRef .tc main_arg2) (Finset.mem_filter.mpr ⟨StableHlo.devRef_mem_tcRefs main_arg2, by decide⟩)).trans (W12_main_arg2 m c),
      (h c (Proc.devRef .tc main_arg3) (Finset.mem_filter.mpr ⟨StableHlo.devRef_mem_tcRefs main_arg3, by decide⟩)).trans (W12_main_arg3 m c),
      (h c (Proc.devRef .tc main_arg4) (Finset.mem_filter.mpr ⟨StableHlo.devRef_mem_tcRefs main_arg4, by decide⟩)).trans (W12_main_arg4 m c),
      (h c (Proc.devRef .tc main_arg5) (Finset.mem_filter.mpr ⟨StableHlo.devRef_mem_tcRefs main_arg5, by decide⟩)).trans (W12_main_arg5 m c),
      (h c (Proc.devRef .tc main_arg6) (Finset.mem_filter.mpr ⟨StableHlo.devRef_mem_tcRefs main_arg6, by decide⟩)).trans (W12_main_arg6 m c)⟩) (run_all m ρ)

end Cert.KernelIdeal.Whole

end
-- ==== Proof.KB.R0Base.lean ====
/-
  Region 0 of the kernel program: row sums of A + β·S, and A + β·S itself staged for the two propagation steps.

  The region's grid is 8 row blocks by 8 column blocks of 1024 x 1024 entries; point t is row block t / 8, column block
  t % 8, the column block moving fastest.  The body keeps a 1024 x 1 accumulator in a scratch buffer that lives across
  the eight points of a row block: it is zeroed when the column block is 0, receives the block's row sums at every
  point, and is copied to the output's 1024 x 1 window when the column block is 7.  So a point is of one of three
  kinds, told apart by two conditions on its coordinates; here are those conditions in closed form over the grid, and
  the memory the body is called with at a point.
-/
import proofs.«130698_j71897752535776_2_alg».proof.Proof.Gen.Kernel.Launch
import proofs.«130698_j71897752535776_2_alg».proof.Proof.Gen.Kernel.Skeleton
import proofs.«130698_j71897752535776_2_alg».proof.Proof.Gen.Kernel.Points
import Idealize.ShloMosaic.Lib.Pipeline.FrameBody
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions the body branches on -/

/-- The body's first branch is taken: the point's column block is 0 (the accumulator is zeroed). -/
abbrev FirstCol (i : grid0.Coords) : Prop :=
  (Scalar.cmpi .ne (Scalar.extui (Scalar.cmpi .eq (BitVec.ofNat 32 (i 1).val) 0#32)) 0#32) = 1#1

/-- Over the 64 points: the column block is 0 exactly when the point's number is a multiple of 8. -/
theorem firstCol_iff : ∀ t : Fin cfg0.N, FirstCol (grid0.coords t) ↔ t.val % 8 = 0 :=
  (by decide +kernel : ∀ t : Fin grid0.N, FirstCol (grid0.coords t) ↔ t.val % 8 = 0)

/-- The body's last branch is taken: the point's column block is 7 (the accumulator is written out). -/
abbrev LastCol (i : grid0.Coords) : Prop := k0_cond2 i = 1#1

/-- Over the 64 points: the column block is 7 exactly when the point's number is 7 modulo 8. -/
theorem lastCol_iff : ∀ t : Fin cfg0.N, LastCol (grid0.coords t) ↔ t.val % 8 = 7 :=
  (by decide +kernel : ∀ t : Fin grid0.N, LastCol (grid0.coords t) ↔ t.val % 8 = 7)

/-! ## The memory the body is called with at a point -/

/-- The staging buffer holding A's block at point `t`. -/
abbrev bufA (t : Fin cfg0.N) : Memref sig .tc .vmem S1024x1024 .f32 := win0_0.stage (cfg0.slots t 0)
abbrev bufA_whole (t : Fin cfg0.N) : (bufA t).IsWhole := hstage0_0 ((cfg0.slots t 0).cast nbuf0_0)
/-- The staging buffer holding S's block at point `t`. -/
abbrev bufS (t : Fin cfg0.N) : Memref sig .tc .vmem S1024x1024 .f32 := win0_1.stage (cfg0.slots t 1)
abbrev bufS_whole (t : Fin cfg0.N) : (bufS t).IsWhole := hstage0_1 ((cfg0.slots t 1).cast nbuf0_1)
/-- The staging buffer of the row-sum output's 1024 x 1 window at point `t`. -/
abbrev bufD (t : Fin cfg0.N) : Memref sig .tc .vmem S1024x1 .f32 := win0_2.stage (cfg0.slots t 2)
abbrev bufD_whole (t : Fin cfg0.N) : (bufD t).IsWhole := hstage0_2 ((cfg0.slots t 2).cast nbuf0_2)
/-- The staging buffer of the staged sum's 1024 x 1024 window at point `t`. -/
abbrev bufT (t : Fin cfg0.N) : Memref sig .tc .vmem S1024x1024 .bf16 := win0_3.stage (cfg0.slots t 3)
abbrev bufT_whole (t : Fin cfg0.N) : (bufT t).IsWhole := hstage0_3 ((cfg0.slots t 3).cast nbuf0_3)
/-- The accumulator: a whole scoped buffer of the kernel's own, the same at every point. -/
abbrev accBuf : Memref sig .tc .vmem S1024x1 .f32 := Memref.whole cc0_scratch0

end Cert.Kernel.R0

end
-- ==== Proof.KB.R0Runs.lean ====
/-
  Region 0's body, run symbolically at each of the three kinds of grid point.

  Each run is a pair: the list of stores the body leaves in every buffer it writes (latest first), and the proof that
  from the buffers held whole the body runs to its end, returns the two input blocks as they were, and leaves each
  written buffer holding those stores over whatever it held before.

  * column block 0: the accumulator, at anything before, is zero-filled and then receives the block's row sums; the
    staged sum's window is written; the row-sum output's window is not touched.
  * column blocks 1 to 6: the same without the zero fill, the accumulator starting from what the point before left.
  * column block 7: as in the middle, and the accumulator is then copied into the row-sum output's window.
-/
import proofs.«130698_j71897752535776_2_alg».proof.Proof.KB.R0Base

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Column block 0: the stores left in the staged sum's window and in the accumulator, and the run. The row-sum
    output's window, at `xd`, is handed back untouched. -/
noncomputable def runFirst (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : FirstCol i) (hc1 : ¬LastCol i)
    (x0 x1 : Vec F S1024x1024 .f32) :
    Σ' (LT : List (View.Piece (Elt F) S1024x1024 .bf16)), { LA : List (View.Piece (Elt F) S1024x1 .f32) //
      ∀ (xd : Vec F S1024x1 .f32) (E : Set ℕ) (K : PUnit → sProp 𝕄),
        iprop(owns (c : Thread nD τ) a2 fullShare x0 ∗ owns (c : Thread nD τ) a3 fullShare x1 ∗ owns (c : Thread nD τ) a4 fullShare xd
            ∗ (∃ d, owns (c : Thread nD τ) a5 fullShare d) ∗ (∃ d, owns (c : Thread nD τ) a6 fullShare d)
            ∗ (iprop(owns (c : Thread nD τ) a2 fullShare x0 ∗ owns (c : Thread nD τ) a3 fullShare x1 ∗ owns (c : Thread nD τ) a4 fullShare xd
                ∗ (∃ f, a5.view.loc (c : Thread nD τ) ↦[a5.view.set]{fullShare} a5.view.writes (Elt F) f LT)
                ∗ (∃ f, a6.view.loc (c : Thread nD τ) ↦[a6.view.set]{fullShare} a6.view.writes (Elt F) f LA)) -∗ K ⟨⟩))
          ⊢ wp frame (wpE (defs₀ (F := F)) Variants.none c none) E (cc0__d_and_atilde_kernel i a2 h2 a3 h3 a4 h4 a5 h5 a6 h6) K } := by
  refine ⟨?_, ?_, fun xd E K => ?run⟩
  case run =>
    simp only [cc0__d_and_atilde_kernel_eq_skeleton]; unfold cc0__d_and_atilde_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := h2.eq_unread hf0; obtain rfl := h3.eq_unread hf1; obtain rfl := h4.eq_unread hf2
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    iexists _; iexact HS

set_option maxHeartbeats 1000000 in
/-- Column blocks 1 to 6: the accumulator comes in at `xs`, what the point before left in it. -/
noncomputable def runMid (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : ¬LastCol i)
    (x0 x1 : Vec F S1024x1024 .f32) (xs : Vec F S1024x1 .f32) :
    Σ' (LT : List (View.Piece (Elt F) S1024x1024 .bf16)), { LA : List (View.Piece (Elt F) S1024x1 .f32) //
      ∀ (xd : Vec F S1024x1 .f32) (E : Set ℕ) (K : PUnit → sProp 𝕄),
        iprop(owns (c : Thread nD τ) a2 fullShare x0 ∗ owns (c : Thread nD τ) a3 fullShare x1 ∗ owns (c : Thread nD τ) a4 fullShare xd
            ∗ (∃ d, owns (c : Thread nD τ) a5 fullShare d) ∗ owns (c : Thread nD τ) a6 fullShare xs
            ∗ (iprop(owns (c : Thread nD τ) a2 fullShare x0 ∗ owns (c : Thread nD τ) a3 fullShare x1 ∗ owns (c : Thread nD τ) a4 fullShare xd
                ∗ (∃ f, a5.view.loc (c : Thread nD τ) ↦[a5.view.set]{fullShare} a5.view.writes (Elt F) f LT)
                ∗ (∃ f, a6.view.loc (c : Thread nD τ) ↦[a6.view.set]{fullShare} a6.view.writes (Elt F) f LA)) -∗ K ⟨⟩))
          ⊢ wp frame (wpE (defs₀ (F := F)) Variants.none c none) E (cc0__d_and_atilde_kernel i a2 h2 a3 h3 a4 h4 a5 h5 a6 h6) K } := by
  refine ⟨?_, ?_, fun xd E K => ?run⟩
  case run =>
    simp only [cc0__d_and_atilde_kernel_eq_skeleton]; unfold cc0__d_and_atilde_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h2.eq_unread hf0; obtain rfl := h3.eq_unread hf1; obtain rfl := h4.eq_unread hf2
    obtain rfl := h6.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    iexists _; iexact HS

set_option maxHeartbeats 1000000 in
/-- Column block 7: as in the middle, and the row-sum output's window, at anything before, receives the accumulator. -/
noncomputable def runLast (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : LastCol i)
    (x0 x1 : Vec F S1024x1024 .f32) (xs : Vec F S1024x1 .f32) :
    Σ' (LD : List (View.Piece (Elt F) S1024x1 .f32)) (LT : List (View.Piece (Elt F) S1024x1024 .bf16)), { LA : List (View.Piece (Elt F) S1024x1 .f32) //
      ∀ (E : Set ℕ) (K : PUnit → sProp 𝕄),
        iprop(owns (c : Thread nD τ) a2 fullShare x0 ∗ owns (c : Thread nD τ) a3 fullShare x1 ∗ (∃ d, owns (c : Thread nD τ) a4 fullShare d)
            ∗ (∃ d, owns (c : Thread nD τ) a5 fullShare d) ∗ owns (c : Thread nD τ) a6 fullShare xs
            ∗ (iprop(owns (c : Thread nD τ) a2 fullShare x0 ∗ owns (c : Thread nD τ) a3 fullShare x1
                ∗ (∃ f, a4.view.loc (c : Thread nD τ) ↦[a4.view.set]{fullShare} a4.view.writes (Elt F) f LD)
                ∗ (∃ f, a5.view.loc (c : Thread nD τ) ↦[a5.view.set]{fullShare} a5.view.writes (Elt F) f LT)
                ∗ (∃ f, a6.view.loc (c : Thread nD τ) ↦[a6.view.set]{fullShare} a6.view.writes (Elt F) f LA)) -∗ K ⟨⟩))
          ⊢ wp frame (wpE (defs₀ (F := F)) Variants.none c none) E (cc0__d_and_atilde_kernel i a2 h2 a3 h3 a4 h4 a5 h5 a6 h6) K } := by
  refine ⟨?_, ?_, ?_, fun E K => ?run⟩
  case run =>
    simp only [cc0__d_and_atilde_kernel_eq_skeleton]; unfold cc0__d_and_atilde_kernel_skel
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := h2.eq_unread hf0; obtain rfl := h3.eq_unread hf1
    obtain rfl := h6.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; iexact H2
    isplitl [H3]
    · iexists _; iexact H3
    iexists _; iexact HS

end Cert.Kernel.R0

end
-- ==== Proof.KB.R0Values.lean ====
/-
  Region 0: what each buffer holds after the body, at each kind of grid point, as a function of what the body found.

  With `x0`, `x1` the blocks of A and S at the point and `xs` what the accumulator held on entry:
  * the staged sum's window ends holding the block of A + β·S in the narrower format (`k0_pay4 x0 x1`), at every point;
  * the accumulator ends holding the block's row sums added to zero at column block 0 (`k0_pay3 x0 x1 k0_pay1`), and
    added to `xs` elsewhere (`k0_pay3 x0 x1 xs`);
  * at column block 7 the row-sum output's window ends holding that same accumulator value.
  Every store of the body goes through the whole rectangle of its buffer, so each buffer reads as its last store's
  payload whatever it held before.
-/
import proofs.«130698_j71897752535776_2_alg».proof.Proof.KB.R0Runs
import proofs.«130698_j71897752535776_2_alg».proof.Proof.LibWholeStores

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.WholeStores

variable {F : FTy → Type} [FloatOps F]

/-- The offsets of a whole rank-2 rectangle are zero on both axes. -/
theorem hz : (![0, 0] : Fin 2 → Nat) = fun _ => 0 := funext fun a => by fin_cases a <;> rfl

/-! ## Column block 0 -/

theorem first_tilde (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : FirstCol i) (hc1 : ¬LastCol i) (x0 x1 : Vec F S1024x1024 .f32)
    (f : a5.view.ty.Contents (Elt F)) :
    a5.view.read (Elt F) (a5.view.writes (Elt F) f (runFirst c i a2 h2 a3 h3 a4 h4 a5 h5 a6 h6 hc0 hc1 x0 x1).1) = k0_pay4 x0 x1 := by
  unfold runFirst; dsimp only
  rw [read_writes_whole_last _ _ hz, readAt_whole_unread h2 hz, readAt_whole_unread h3 hz]

theorem first_acc (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : FirstCol i) (hc1 : ¬LastCol i) (x0 x1 : Vec F S1024x1024 .f32)
    (f : a6.view.ty.Contents (Elt F)) :
    a6.view.read (Elt F) (a6.view.writes (Elt F) f (runFirst c i a2 h2 a3 h3 a4 h4 a5 h5 a6 h6 hc0 hc1 x0 x1).2.1) = k0_pay3 x0 x1 (k0_pay1 (F := F)) := by
  unfold runFirst; dsimp only
  rw [read_writes_whole_last _ _ hz, readAt_whole_unread h2 hz, readAt_whole_unread h3 hz]
  congr 1
  unfold runFirst.sl.v8 runFirst.sl.HS_1
  rw [readCov_whole_last _ hz]

/-! ## Column blocks 1 to 6 -/

theorem mid_tilde (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : ¬LastCol i) (x0 x1 : Vec F S1024x1024 .f32) (xs : Vec F S1024x1 .f32)
    (f : a5.view.ty.Contents (Elt F)) :
    a5.view.read (Elt F) (a5.view.writes (Elt F) f (runMid c i a2 h2 a3 h3 a4 h4 a5 h5 a6 h6 hc0 hc1 x0 x1 xs).1) = k0_pay4 x0 x1 := by
  unfold runMid; dsimp only
  rw [read_writes_whole_last _ _ hz, readAt_whole_unread h2 hz, readAt_whole_unread h3 hz]

theorem mid_acc (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : ¬LastCol i) (x0 x1 : Vec F S1024x1024 .f32) (xs : Vec F S1024x1 .f32)
    (f : a6.view.ty.Contents (Elt F)) :
    a6.view.read (Elt F) (a6.view.writes (Elt F) f (runMid c i a2 h2 a3 h3 a4 h4 a5 h5 a6 h6 hc0 hc1 x0 x1 xs).2.1) = k0_pay3 x0 x1 xs := by
  unfold runMid; dsimp only
  rw [read_writes_whole_last _ _ hz, readAt_whole_unread h2 hz, readAt_whole_unread h3 hz, readAt_whole_unread h6 hz]

/-! ## Column block 7 -/

theorem last_tilde (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : LastCol i) (x0 x1 : Vec F S1024x1024 .f32) (xs : Vec F S1024x1 .f32)
    (f : a5.view.ty.Contents (Elt F)) :
    a5.view.read (Elt F) (a5.view.writes (Elt F) f (runLast c i a2 h2 a3 h3 a4 h4 a5 h5 a6 h6 hc0 hc1 x0 x1 xs).2.1) = k0_pay4 x0 x1 := by
  unfold runLast; dsimp only
  rw [read_writes_whole_last _ _ hz, readAt_whole_unread h2 hz, readAt_whole_unread h3 hz]

theorem last_acc (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : LastCol i) (x0 x1 : Vec F S1024x1024 .f32) (xs : Vec F S1024x1 .f32)
    (f : a6.view.ty.Contents (Elt F)) :
    a6.view.read (Elt F) (a6.view.writes (Elt F) f (runLast c i a2 h2 a3 h3 a4 h4 a5 h5 a6 h6 hc0 hc1 x0 x1 xs).2.2.1) = k0_pay3 x0 x1 xs := by
  unfold runLast; dsimp only
  unfold runLast.sl.HS_1
  rw [read_writes_whole_last _ _ hz, readAt_whole_unread h2 hz, readAt_whole_unread h3 hz, readAt_whole_unread h6 hz]

theorem last_out (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1024 .bf16) (h5 : a5.IsWhole)
    (a6 : Memref sig .tc .vmem S1024x1 .f32) (h6 : a6.IsWhole) (hc0 : ¬FirstCol i) (hc1 : LastCol i) (x0 x1 : Vec F S1024x1024 .f32) (xs : Vec F S1024x1 .f32)
    (f : a4.view.ty.Contents (Elt F)) :
    a4.view.read (Elt F) (a4.view.writes (Elt F) f (runLast c i a2 h2 a3 h3 a4 h4 a5 h5 a6 h6 hc0 hc1 x0 x1 xs).1) = k0_pay3 x0 x1 xs := by
  unfold runLast; dsimp only
  rw [read_writes_whole_last _ _ hz]
  unfold runLast.sl.v20 runLast.sl.HS_1
  rw [readCov_whole_last _ hz, readAt_whole_unread h2 hz, readAt_whole_unread h3 hz, readAt_whole_unread h6 hz]

end Cert.Kernel.R0

end
-- ==== Proof.KB.R0Data.lean ====
/-
  Region 0: its proof data.

  The region is entered with the TensorCore's buffers at contents `V`.  At point `t` the pipeline stages the blocks of
  A and S (`iblk V c 0 t`, `iblk V c 1 t`: the 1024 x 1024 blocks at row block t / 8, column block t % 8).  The
  accumulator after point `t` is `accAt V c t`: the row sums of that point's block of A + β·S added to zero when the
  column block is 0, and to what the point before left otherwise; so after the last point of a row block it holds the
  sum over the eight column blocks.  The region's invariant is the kernel's scoped buffers and the generator register at
  anything before the first point, and from then on the accumulator at `accAt` of the point before, the other scoped
  buffers and the register at anything.
-/
import proofs.«130698_j71897752535776_2_alg».proof.Proof.KB.R0Values
import Idealize.ShloMosaic.Lib.Pipeline.Frame
import Idealize.ShloMosaic.Lib.Pipeline.FrameBody

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A's staging buffer holds A's block at every point: it is fetched at every point, and an uncut window's fetch
    fills the buffer with the block. -/
theorem beforeA_of {c : Dev nD} (dat : Dat τ (Elt F) Unit ℕ (UR sig nD τ) ℕ cfg0 c) (hA : dat.A 0 = V c (Pipeline.arrRef spec0 0))
    (t : Fin cfg0.N) (d) : dat.before 0 t d = iblk V c 0 t :=
  (dat.before_fetched 0 t (fetch0_0 t) d).trans (by unfold Dat.fetched Dat.blockOf iblk; rw [hA]; try rfl)

/-- S's staging buffer holds S's block at every point. -/
theorem beforeS_of {c : Dev nD} (dat : Dat τ (Elt F) Unit ℕ (UR sig nD τ) ℕ cfg0 c) (hA : dat.A 1 = V c (Pipeline.arrRef spec0 1))
    (t : Fin cfg0.N) (d) : dat.before 1 t d = iblk V c 1 t :=
  (dat.before_fetched 1 t (fetch0_1 t) d).trans (by unfold Dat.fetched Dat.blockOf iblk; rw [hA]; try rfl)

/-! ## The accumulator, point by point -/

/-- What the accumulator holds after the body at point `n`. -/
def accAt (c : Dev nD) : (n : ℕ) → n < cfg0.N → Vec F S1024x1 .f32
  | 0, hn => k0_pay3 (iblk V c 0 ⟨0, hn⟩) (iblk V c 1 ⟨0, hn⟩) (k0_pay1 (F := F))
  | n + 1, hn =>
    if (n + 1) % 8 = 0 then k0_pay3 (iblk V c 0 ⟨n + 1, hn⟩) (iblk V c 1 ⟨n + 1, hn⟩) (k0_pay1 (F := F))
    else k0_pay3 (iblk V c 0 ⟨n + 1, hn⟩) (iblk V c 1 ⟨n + 1, hn⟩) (accAt c n (Nat.lt_of_succ_lt hn))

/-- At a point whose column block is 0 the accumulator restarts from zero. -/
theorem accAt_first (c : Dev nD) (t : Fin cfg0.N) (h : t.val % 8 = 0) :
    accAt V c t.val t.isLt = k0_pay3 (iblk V c 0 t) (iblk V c 1 t) (k0_pay1 (F := F)) := by
  obtain ⟨n, hn⟩ := t
  cases n with
  | zero => rfl
  | succ n => exact if_pos h

/-- At any other point it continues from what the point before left. -/
theorem accAt_next (c : Dev nD) (t : Fin cfg0.N) (h : ¬t.val % 8 = 0) :
    accAt V c t.val t.isLt
      = k0_pay3 (iblk V c 0 t) (iblk V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The core's scoped buffers that are no staging buffer of this region. -/
abbrev scopedSet : Finset (Ref sig .tc) :=
  (Finset.univ.filter fun b : Ref sig .tc => b.isScoped) \ Finset.univ.image (Pipeline.stageRef spec0)

/-- Those of them other than the accumulator — the staging and scratch buffers of the two later regions —, each whole
    at some contents. -/
def others (c : Dev nD) : sProp 𝕄 :=
  bigSep (scopedSet.erase cc0_scratch0)
    fun b => iprop(∃ f : Buf (Elt F) ((c.tc : Thread nD τ).loc b), ((c.tc : Thread nD τ).loc b) ↦{fullShare} f)

/-- The scoped rest is the accumulator at something beside the others. -/
theorem scopedRest_split (c : Dev nD) :
    (Pipeline.scopedRest (Ix := Unit) (Name := ℕ) (U := UR sig nD τ) (Lvl := ℕ) (Val := Elt F) spec0 c : sProp 𝕄)
      = iprop((∃ d, owns (c : Thread nD τ) accBuf fullShare d) ∗ others c) := by
  unfold Pipeline.scopedRest others
  rw [BI.bigSep_erase (i := cc0_scratch0) (by decide)]
  simp only [accBuf, owns_whole]
  rfl

/-- The region's invariant before position `n`. -/
def Phi (c : Dev nD) : (n : ℕ) → n ≤ cfg0.N → sProp 𝕄
  | 0, _ => Pipeline.ΦA spec0 c
  | n + 1, hn => iprop(owns (c : Thread nD τ) accBuf fullShare (accAt V c n hn) ∗ others c ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(owns (c : Thread nD τ) accBuf fullShare (accAt V c n hn) ∗ others c ∗ (∃ r, prngReg c r)) := rfl

theorem Phi_pos (c : Dev nD) (n : ℕ) (h : n ≤ cfg0.N) (hz : n ≠ 0) :
    Phi V c n h = iprop(owns (c : Thread nD τ) accBuf fullShare (accAt V c (n - 1) (by omega)) ∗ others c ∗ (∃ r, prngReg c r)) := by
  cases n with
  | zero => exact absurd rfl hz
  | succ n => rfl

/-- Before the first point: the accumulator at something, the others, the register. -/
theorem PhiA_eq (c : Dev nD) :
    (Pipeline.ΦA spec0 c : sProp 𝕄) = iprop(((∃ d, owns (c : Thread nD τ) accBuf fullShare d) ∗ others c) ∗ (∃ r, prngReg c r)) := by
  unfold Pipeline.ΦA; rw [scopedRest_split]

/-! ## The proof data -/

/-- After the body at point `t`: the inputs' buffers at their blocks, the row-sum output's window at the accumulator's
    value, the staged sum's window at the block of A + β·S; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
    | ⟨3, _⟩ => k0_pay4 (iblk V c 0 t) (iblk V c 1 t)
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = Phi V c t.val (Nat.le_of_lt t.isLt) := by
  dsimp only [dat]; simp only [Fin.coe_castSucc]

theorem after_A (c : Dev nD) (t : Fin cfg0.N) : (dat V c).after 0 t = iblk V c 0 t := by dsimp only [dat]
theorem after_S (c : Dev nD) (t : Fin cfg0.N) : (dat V c).after 1 t = iblk V c 1 t := by dsimp only [dat]
theorem after_D (c : Dev nD) (t : Fin cfg0.N) : (dat V c).after 2 t = accAt V c t.val t.isLt := by dsimp only [dat]
theorem after_T (c : Dev nD) (t : Fin cfg0.N) : (dat V c).after 3 t = k0_pay4 (iblk V c 0 t) (iblk V c 1 t) := by dsimp only [dat]

theorem before_A (c : Dev nD) (t : Fin cfg0.N) (d) : (dat V c).before 0 t d = iblk V c 0 t :=
  beforeA_of V (dat V c) (A_eq V c 0) t d
theorem before_S (c : Dev nD) (t : Fin cfg0.N) (d) : (dat V c).before 1 t d = iblk V c 1 t :=
  beforeS_of V (dat V c) (A_eq V c 1) t d

end Cert.Kernel.R0

end
-- ==== Proof.KB.R0Body.lean ====
/-
  Region 0: the body's obligation to the pipeline, at every grid point.

  At point `t` the pipeline hands the body the invariant, the two input blocks in their staging buffers, and the two
  output windows' staging buffers; the body must return the invariant for the next point, the inputs as they were, and
  each output window either at what the proof data says it holds after the point or, for the row-sum window at a point
  that does not write it back (every column block but 7), as it was.  By cases on the column block: 0 (the accumulator
  restarts; on entry it is at anything at the very first point and at the previous row block's total afterwards), 1 to 6,
  and 7; each case applies its symbolic run and reads the written buffers back as their last stores' payloads.
-/
import proofs.«130698_j71897752535776_2_alg».proof.Proof.KB.R0Data

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle -/

theorem live_A : ∀ t : Fin cfg0.N, cfg0.idle 0 (grid0.coords t) = false := fun _ => rfl
theorem live_S : ∀ t : Fin cfg0.N, cfg0.idle 1 (grid0.coords t) = false := fun _ => rfl
theorem live_T : ∀ t : Fin cfg0.N, cfg0.idle 3 (grid0.coords t) = false := fun _ => rfl
/-- The row-sum window is idle at every point whose column block is not 7, -/
theorem idle_D : ∀ t : Fin cfg0.N, ¬LastCol (grid0.coords t) → cfg0.idle 2 (grid0.coords t) = true := by decide +kernel
/-- live at those whose column block is 7, -/
theorem live_D : ∀ t : Fin cfg0.N, LastCol (grid0.coords t) → cfg0.idle 2 (grid0.coords t) = false := by decide +kernel
/-- and written back only there. -/
theorem noFlush_D (t : Fin cfg0.N) (h : ¬t.val % 8 = 7) : (cfg0.win 2).flush t = false :=
  Bool.eq_false_iff.mpr fun hf => h ((flush0_2 t).mp hf)

/-! ## The obligation at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (bufA t) fullShare ((dat V c).before 0 t d))
    ∗ (∃ d, owns (c : Thread nD τ) (bufS t) fullShare ((dat V c).before 1 t d))
    ∗ (∃ d, owns (c : Thread nD τ) (bufD t) fullShare ((dat V c).before 2 t d))
    ∗ (∃ d, owns (c : Thread nD τ) (bufT t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_A, before_S]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (bufA t) fullShare ((dat V c).after 0 t) from by
    unfold Dat.leavesExact; rw [live_A t], after_A]
  rw [show (dat V c).leavesExact 1 t = owns (c : Thread nD τ) (bufS t) fullShare ((dat V c).after 1 t) from by
    unfold Dat.leavesExact; rw [live_S t], after_S]
  rw [show (dat V c).leavesExact 3 t = owns (c : Thread nD τ) (bufT t) fullShare ((dat V c).after 3 t) from by
    unfold Dat.leavesExact; rw [live_T t], after_T]
  by_cases h0 : t.val % 8 = 0
  · have h7 : ¬t.val % 8 = 7 := by omega
    rw [Dat.leavesExact_idle (dat V c) 2 t (idle_D t (fun h => h7 ((lastCol_iff t).mp h))) (noFlush_D t h7)]
    rw [accAt_first V c t h0]
    by_cases hz : t.val = 0
    · rw [Phi_castSucc V c t, Phi_zero V c _ _ hz, PhiA_eq]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ ((firstCol_iff t).mpr h0) (fun h => h7 ((lastCol_iff t).mp h)) (iblk V c 0 t) (iblk V c 1 t)).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS]
        · unfold owns; iexists _; isplitr
          swap; · iexact HS
          ipureintro; exact first_acc _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact first_tilde _ _ _ _ _ _ _ _ _ _ _ _ _ _ _ _ _
    · rw [Phi_castSucc V c t, Phi_pos V c _ _ hz]
      iintro ⟨⟨HS, Hoth, Hg⟩, Ho, ⟨%d0, H0⟩, ⟨%d1, H1⟩, ⟨%d2, H2⟩, ⟨%d3, H3⟩⟩
      iapply ((runFirst c (grid0.coords t) _ _ _ _ _ _ _ _ _ _ ((firstCol_iff t).mpr h0) (fun h => h7 ((lastCol_iff t).mp h)) (iblk V c 0 t) (iblk V c 1 t)).2.2 _ Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hoth Hg]
      · isplitl [HS]
        · unfold owns; iexists _; isplitr
          swap; · iexact HS
          ipureintro; exact first_acc _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact first_tilde _ _ _ _ _ _ _ _ _ _ _ _ _ _ _ _ _
  · have hz : t.val ≠ 0 := fun h => h0 (by rw [h])
    rw [accAt_next V c t h0]
    rw [Phi_castSucc V c t, Phi_pos V c _ _ hz]
    by_cases h7 : t.val % 8 = 7
    · rw [show (dat V c).leavesExact 2 t = owns (c : Thread nD τ) (bufD t) fullShare ((dat V c).after 2 t) from by
        unfold Dat.leavesExact; rw [live_D t ((lastCol_iff t).mpr h7)], after_D, accAt_next V c t h0]
      iintro ⟨⟨HS, Hoth, Hg⟩, Ho, ⟨%d0, H0⟩, ⟨%d1, H1⟩, ⟨%d2, H2⟩, ⟨%d3, H3⟩⟩
      iapply ((runLast c (grid0.coords t) _ _ _ _ _ _ _ _ _ _ (fun h => h0 ((firstCol_iff t).mp h)) ((lastCol_iff t).mpr h7) (iblk V c 0 t) (iblk V c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hoth Hg]
      · isplitl [HS]
        · unfold owns; iexists _; isplitr
          swap; · iexact HS
          ipureintro; exact last_acc _ _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]
      · unfold owns; iexists _; isplitr
        swap; · iexact H2
        ipureintro; exact last_out _ _ _ _ _ _ _ _ _ _ _ _ _ _ _ _ _ _
      unfold owns; iexists _; isplitr
      swap; · iexact H3
      ipureintro; exact last_tilde _ _ _ _ _ _ _ _ _ _ _ _ _ _ _ _ _ _
    · rw [Dat.leavesExact_idle (dat V c) 2 t (idle_D t (fun h => h7 ((lastCol_iff t).mp h))) (noFlush_D t h7)]
      iintro ⟨⟨HS, Hoth, Hg⟩, Ho, ⟨%d0, H0⟩, ⟨%d1, H1⟩, ⟨%d2, H2⟩, ⟨%d3, H3⟩⟩
      iapply ((runMid c (grid0.coords t) _ _ _ _ _ _ _ _ _ _ (fun h => h0 ((firstCol_iff t).mp h)) (fun h => h7 ((lastCol_iff t).mp h)) (iblk V c 0 t) (iblk V c 1 t) _).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS]
        · unfold owns; iexists _; isplitr
          swap; · iexact HS
          ipureintro; exact mid_acc _ _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact mid_tilde _ _ _ _ _ _ _ _ _ _ _ _ _ _ _ _ _ _

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.KB.R1Data.lean ====
/-
  Region 1: its proof data.

  The region multiplies the staged matrix A + β·S (in the narrow format) by a pre-scaled feature matrix of width 256,
  row block by row block.  Its grid is 8 row blocks by 8 column blocks; at point `t` the pipeline stages the matrix's
  1024 x 1024 block at (t / 8, t % 8), the features' 1024 x 256 block at row block t % 8, and the row factor's
  1024 x 1 block at row block t / 8 (fetched when the column block is 0 and kept for the row block's eight points).
  The accumulator after point `t` is `accAt V c t`: that point's block product added to zero when the column block is 0
  and to what the point before left otherwise.  At column block 7 the output's window receives the accumulator scaled
  row by row by the row factor.  The invariant carries the accumulator from point to point.
-/
import proofs.«130698_j71897752535776_2_alg».proof.Proof.Gen.Kernel.Launch
import proofs.«130698_j71897752535776_2_alg».proof.Proof.Gen.Kernel.Skeleton
import proofs.«130698_j71897752535776_2_alg».proof.Proof.Gen.Kernel.Points
import Idealize.ShloMosaic.Lib.Pipeline.Frame
import Idealize.ShloMosaic.Lib.Pipeline.FrameBody
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The matrix's staging buffer holds its block at every point (fetched at every point). -/
theorem beforeM_of {c : Dev nD} (dat : Dat τ (Elt F) Unit ℕ (UR sig nD τ) ℕ cfg1 c) (hA : dat.A 0 = V c (Pipeline.arrRef spec1 0))
    (t : Fin cfg1.N) (d) : dat.before 0 t d = iblk V c 0 t :=
  (dat.before_fetched 0 t (fetch1_0 t) d).trans (by unfold Dat.fetched Dat.blockOf iblk; rw [hA]; try rfl)

/-- The features' staging buffer holds their block at every point (fetched at every point). -/
theorem beforeB_of {c : Dev nD} (dat : Dat τ (Elt F) Unit ℕ (UR sig nD τ) ℕ cfg1 c) (hA : dat.A 1 = V c (Pipeline.arrRef spec1 1))
    (t : Fin cfg1.N) (d) : dat.before 1 t d = iblk V c 1 t :=
  (dat.before_fetched 1 t (fetch1_1 t) d).trans (by unfold Dat.fetched Dat.blockOf iblk; rw [hA]; try rfl)

/-- The row factor's staging buffer holds its block at every point, fetched there or not: where it is not fetched the
    block index has not moved, and the body leaves the block in place. -/
theorem beforeR_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulator, point by point -/

/-- The accumulator: a whole scoped buffer of the kernel's own. -/
abbrev scratchAcc : Memref sig .tc .vmem S1024x256 .f32 := Memref.whole cc1_scratch0

/-- What the accumulator holds after the body at point `n`. -/
def accAt (c : Dev nD) : (n : ℕ) → n < cfg1.N → Vec F S1024x256 .f32
  | 0, hn => k1_pay2 (iblk V c 1 ⟨0, hn⟩) (k1_pay1 (F := F)) (iblk V c 0 ⟨0, hn⟩)
  | n + 1, hn =>
    if (n + 1) % 8 = 0 then k1_pay2 (iblk V c 1 ⟨n + 1, hn⟩) (k1_pay1 (F := F)) (iblk V c 0 ⟨n + 1, hn⟩)
    else k1_pay2 (iblk V c 1 ⟨n + 1, hn⟩) (accAt c n (Nat.lt_of_succ_lt hn)) (iblk V c 0 ⟨n + 1, hn⟩)

/-- At a point whose column block is 0 the accumulator restarts from zero. -/
theorem accAt_first (c : Dev nD) (t : Fin cfg1.N) (h : t.val % 8 = 0) :
    accAt V c t.val t.isLt = k1_pay2 (iblk V c 1 t) (k1_pay1 (F := F)) (iblk V c 0 t) := by
  obtain ⟨n, hn⟩ := t
  cases n with
  | zero => rfl
  | succ n => exact if_pos h

/-- At any other point it continues from what the point before left. -/
theorem accAt_next (c : Dev nD) (t : Fin cfg1.N) (h : ¬t.val % 8 = 0) :
    accAt V c t.val t.isLt
      = k1_pay2 (iblk V c 1 t) (accAt V c (t.val - 1) (Nat.lt_of_le_of_lt (Nat.sub_le _ _) t.isLt)) (iblk V c 0 t) := by
  obtain ⟨n, hn⟩ := t
  cases n with
  | zero => exact absurd (Nat.zero_mod _) h
  | succ n => exact if_neg h

/-! ## The invariant -/

/-- The core's scoped buffers that are no staging buffer of this region. -/
abbrev scopedSet : Finset (Ref sig .tc) :=
  (Finset.univ.filter fun b : Ref sig .tc => b.isScoped) \ Finset.univ.image (Pipeline.stageRef spec1)

/-- Those of them other than the accumulator, each whole at some contents. -/
def others (c : Dev nD) : sProp 𝕄 :=
  bigSep (scopedSet.erase cc1_scratch0)
    fun b => iprop(∃ f : Buf (Elt F) ((c.tc : Thread nD τ).loc b), ((c.tc : Thread nD τ).loc b) ↦{fullShare} f)

/-- The scoped rest is the accumulator at something beside the others. -/
theorem scopedRest_split (c : Dev nD) :
    (Pipeline.scopedRest (Ix := Unit) (Name := ℕ) (U := UR sig nD τ) (Lvl := ℕ) (Val := Elt F) spec1 c : sProp 𝕄)
      = iprop((∃ d, owns (c : Thread nD τ) scratchAcc fullShare d) ∗ others c) := by
  unfold Pipeline.scopedRest others
  rw [BI.bigSep_erase (i := cc1_scratch0) (by decide)]
  simp only [scratchAcc, owns_whole]
  rfl

/-- The region's invariant before position `n`. -/
def Phi (c : Dev nD) : (n : ℕ) → n ≤ cfg1.N → sProp 𝕄
  | 0, _ => Pipeline.ΦA spec1 c
  | n + 1, hn => iprop(owns (c : Thread nD τ) scratchAcc fullShare (accAt V c n hn) ∗ others c ∗ (∃ r, prngReg c r))

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop(owns (c : Thread nD τ) scratchAcc fullShare (accAt V c n hn) ∗ others c ∗ (∃ r, prngReg c r)) := rfl

theorem Phi_pos (c : Dev nD) (n : ℕ) (h : n ≤ cfg1.N) (hz : n ≠ 0) :
    Phi V c n h = iprop(owns (c : Thread nD τ) scratchAcc fullShare (accAt V c (n - 1) (by omega)) ∗ others c ∗ (∃ r, prngReg c r)) := by
  cases n with
  | zero => exact absurd rfl hz
  | succ n => rfl

/-- Before the first point: the accumulator at something, the others, the register. -/
theorem PhiA_eq (c : Dev nD) :
    (Pipeline.ΦA spec1 c : sProp 𝕄) = iprop(((∃ d, owns (c : Thread nD τ) scratchAcc fullShare d) ∗ others c) ∗ (∃ r, prngReg c r)) := by
  unfold Pipeline.ΦA; rw [scopedRest_split]

/-! ## The proof data -/

/-- After the body at point `t`: the three inputs' buffers at their blocks, the output's window at the accumulator
    scaled by the row factor; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay3 (accAt V c t.val t.isLt) (iblk V c 2 t)
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = Phi V c t.val (Nat.le_of_lt t.isLt) := by
  dsimp only [dat]; simp only [Fin.coe_castSucc]

theorem after_M (c : Dev nD) (t : Fin cfg1.N) : (dat V c).after 0 t = iblk V c 0 t := by dsimp only [dat]
theorem after_B (c : Dev nD) (t : Fin cfg1.N) : (dat V c).after 1 t = iblk V c 1 t := by dsimp only [dat]
theorem after_R (c : Dev nD) (t : Fin cfg1.N) : (dat V c).after 2 t = iblk V c 2 t := by dsimp only [dat]
theorem after_O (c : Dev nD) (t : Fin cfg1.N) :
    (dat V c).after 3 t = k1_pay3 (accAt V c t.val t.isLt) (iblk V c 2 t) := by dsimp only [dat]

theorem before_M (c : Dev nD) (t : Fin cfg1.N) (d) : (dat V c).before 0 t d = iblk V c 0 t :=
  beforeM_of V (dat V c) (A_eq V c 0) t d
theorem before_B (c : Dev nD) (t : Fin cfg1.N) (d) : (dat V c).before 1 t d = iblk V c 1 t :=
  beforeB_of V (dat V c) (A_eq V c 1) t d
theorem before_R (c : Dev nD) (t : Fin cfg1.N) (d) : (dat V c).before 2 t d = iblk V c 2 t :=
  beforeR_of V (dat V c) (A_eq V c 2) (after_R V c) t d

end Cert.Kernel.R1

end
-- ==== Proof.KB.R2Data.lean ====
/-
  Region 2: its proof data.

  The region multiplies the staged matrix A + β·S (in the narrow format) by a pre-scaled feature matrix of width 128,
  row block by row block.  Its grid is 8 row blocks by 8 column blocks; at point `t` the pipeline stages the matrix's
  1024 x 1024 block at (t / 8, t % 8), the features' 1024 x 128 block at row block t % 8, and the row factor's
  1024 x 1 block at row block t / 8 (fetched when the column block is 0 and kept for the row block's eight points).
  The accumulator after point `t` is `accAt V c t`: that point's block product added to zero when the column block is 0
  and to what the point before left otherwise.  At column block 7 the output's window receives the accumulator scaled
  row by row by the row factor.  The invariant carries the accumulator from point to point.
-/
import proofs.«130698_j71897752535776_2_alg».proof.Proof.Gen.Kernel.Launch
import proofs.«130698_j71897752535776_2_alg».proof.Proof.Gen.Kernel.Skeleton
import proofs.«130698_j71897752535776_2_alg».proof.Proof.Gen.Kernel.Points
import Idealize.ShloMosaic.Lib.Pipeline.Frame
import Idealize.ShloMosaic.Lib.Pipeline.FrameBody
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The matrix's staging buffer holds its block at every point (fetched at every point). -/
theorem beforeM_of {c : Dev nD} (dat : Dat τ (Elt F) Unit ℕ (UR sig nD τ) ℕ cfg2 c) (hA : dat.A 0 = V c (Pipeline.arrRef spec2 0))
    (t : Fin cfg2.N) (d) : dat.before 0 t d = iblk V c 0 t :=
  (dat.before_fetched 0 t (fetch2_0 t) d).trans (by unfold Dat.fetched Dat.blockOf iblk; rw [hA]; try rfl)

/-- The features' staging buffer holds their block at every point (fetched at every point). -/
theorem beforeB_of {c : Dev nD} (dat : Dat τ (Elt F) Unit ℕ (UR sig nD τ) ℕ cfg2 c) (hA : dat.A 1 = V c (Pipeline.arrRef spec2 1))
    (t : Fin cfg2.N) (d) : dat.before 1 t d = iblk V c 1 t :=
  (dat.before_fetched 1 t (fetch2_1 t) d).trans (by unfold Dat.fetched Dat.blockOf iblk; rw [hA]; try rfl)

/-- The row factor's staging buffer holds its block at every point, fetched there or not: where it is not fetched the
    block index has not moved, and the body leaves the block in place. -/
theorem beforeR_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulator, point by point -/

/-- The accumulator: a whole scoped buffer of the kernel's own. -/
abbrev scratchAcc : Memref sig .tc .vmem S1024x128 .f32 := Memref.whole cc2_scratch0

/-- What the accumulator holds after the body at point `n`. -/
def accAt (c : Dev nD) : (n : ℕ) → n < cfg2.N → Vec F S1024x128 .f32
  | 0, hn => k2_pay2 (iblk V c 1 ⟨0, hn⟩) (k2_pay1 (F := F)) (iblk V c 0 ⟨0, hn⟩)
  | n + 1, hn =>
    if (n + 1) % 8 = 0 then k2_pay2 (iblk V c 1 ⟨n + 1, hn⟩) (k2_pay1 (F := F)) (iblk V c 0 ⟨n + 1, hn⟩)
    else k2_pay2 (iblk V c 1 ⟨n + 1, hn⟩) (accAt c n (Nat.lt_of_succ_lt hn)) (iblk V c 0 ⟨n + 1, hn⟩)

/-- At a point whose column block is 0 the accumulator restarts from zero. -/
theorem accAt_first (c : Dev nD) (t : Fin cfg2.N) (h : t.val % 8 = 0) :
    accAt V c t.val t.isLt = k2_pay2 (iblk V c 1 t) (k2_pay1 (F := F)) (iblk V c 0 t) := by
  obtain ⟨n, hn⟩ := t
  cases n with
  | zero => rfl
  | succ n => exact if_pos h

/-- At any other point it continues from what the point before left. -/
theorem accAt_next (c : Dev nD) (t : Fin cfg2.N) (h : ¬t.val % 8 = 0) :
    accAt V c t.val t.isLt
      = k2_pay2 (iblk V c 1 t) (accAt V c (t.val - 1) (Nat.lt_of_le_of_lt (Nat.sub_le _ _) t.isLt)) (iblk V c 0 t) := by
  obtain ⟨n, hn⟩ := t
  cases n with
  | zero => exact absurd (Nat.zero_mod _) h
  | succ n => exact if_neg h

/-! ## The invariant -/

/-- The core's scoped buffers that are no staging buffer of this region. -/
abbrev scopedSet : Finset (Ref sig .tc) :=
  (Finset.univ.filter fun b : Ref sig .tc => b.isScoped) \ Finset.univ.image (Pipeline.stageRef spec2)

/-- Those of them other than the accumulator, each whole at some contents. -/
def others (c : Dev nD) : sProp 𝕄 :=
  bigSep (scopedSet.erase cc2_scratch0)
    fun b => iprop(∃ f : Buf (Elt F) ((c.tc : Thread nD τ).loc b), ((c.tc : Thread nD τ).loc b) ↦{fullShare} f)

/-- The scoped rest is the accumulator at something beside the others. -/
theorem scopedRest_split (c : Dev nD) :
    (Pipeline.scopedRest (Ix := Unit) (Name := ℕ) (U := UR sig nD τ) (Lvl := ℕ) (Val := Elt F) spec2 c : sProp 𝕄)
      = iprop((∃ d, owns (c : Thread nD τ) scratchAcc fullShare d) ∗ others c) := by
  unfold Pipeline.scopedRest others
  rw [BI.bigSep_erase (i := cc2_scratch0) (by decide)]
  simp only [scratchAcc, owns_whole]
  rfl

/-- The region's invariant before position `n`. -/
def Phi (c : Dev nD) : (n : ℕ) → n ≤ cfg2.N → sProp 𝕄
  | 0, _ => Pipeline.ΦA spec2 c
  | n + 1, hn => iprop(owns (c : Thread nD τ) scratchAcc fullShare (accAt V c n hn) ∗ others c ∗ (∃ r, prngReg c r))

theorem Phi_zero (c : Dev nD) (n : ℕ) (h : n ≤ cfg2.N) (hz : n = 0) : Phi V c n h = Pipeline.ΦA spec2 c := by
  subst hz; rfl

theorem Phi_succ (c : Dev nD) (n : ℕ) (hn : n < cfg2.N) :
    Phi V c (n + 1) hn = iprop(owns (c : Thread nD τ) scratchAcc fullShare (accAt V c n hn) ∗ others c ∗ (∃ r, prngReg c r)) := rfl

theorem Phi_pos (c : Dev nD) (n : ℕ) (h : n ≤ cfg2.N) (hz : n ≠ 0) :
    Phi V c n h = iprop(owns (c : Thread nD τ) scratchAcc fullShare (accAt V c (n - 1) (by omega)) ∗ others c ∗ (∃ r, prngReg c r)) := by
  cases n with
  | zero => exact absurd rfl hz
  | succ n => rfl

/-- Before the first point: the accumulator at something, the others, the register. -/
theorem PhiA_eq (c : Dev nD) :
    (Pipeline.ΦA spec2 c : sProp 𝕄) = iprop(((∃ d, owns (c : Thread nD τ) scratchAcc fullShare d) ∗ others c) ∗ (∃ r, prngReg c r)) := by
  unfold Pipeline.ΦA; rw [scopedRest_split]

/-! ## The proof data -/

/-- After the body at point `t`: the three inputs' buffers at their blocks, the output's window at the accumulator
    scaled by the row factor; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (accAt V c t.val t.isLt) (iblk V c 2 t)
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]

theorem Phi_castSucc (c : Dev nD) (t : Fin cfg2.N) :
    (dat V c).Φ t.castSucc = Phi V c t.val (Nat.le_of_lt t.isLt) := by
  dsimp only [dat]; simp only [Fin.coe_castSucc]

theorem after_M (c : Dev nD) (t : Fin cfg2.N) : (dat V c).after 0 t = iblk V c 0 t := by dsimp only [dat]
theorem after_B (c : Dev nD) (t : Fin cfg2.N) : (dat V c).after 1 t = iblk V c 1 t := by dsimp only [dat]
theorem after_R (c : Dev nD) (t : Fin cfg2.N) : (dat V c).after 2 t = iblk V c 2 t := by dsimp only [dat]
theorem after_O (c : Dev nD) (t : Fin cfg2.N) :
    (dat V c).after 3 t = k2_pay3 (accAt V c t.val t.isLt) (iblk V c 2 t) := by dsimp only [dat]

theorem before_M (c : Dev nD) (t : Fin cfg2.N) (d) : (dat V c).before 0 t d = iblk V c 0 t :=
  beforeM_of V (dat V c) (A_eq V c 0) t d
theorem before_B (c : Dev nD) (t : Fin cfg2.N) (d) : (dat V c).before 1 t d = iblk V c 1 t :=
  beforeB_of V (dat V c) (A_eq V c 1) t d
theorem before_R (c : Dev nD) (t : Fin cfg2.N) (d) : (dat V c).before 2 t d = iblk V c 2 t :=
  beforeR_of V (dat V c) (A_eq V c 2) (after_R V c) t d

end Cert.Kernel.R2

end
-- ==== Proof.KB.Chain.lean ====
/-
  The kernel program from launch to return: what the TensorCore's unscoped buffers hold at each of the thirteen
  boundaries between its items — three kernel regions and nine stretches of host operations.

  A host stretch changes the buffers as the composition of its operations does; a region changes exactly its windows'
  arrays, each output ending at the pipeline's fold of the blocks written back, each input as it was.  No item writes
  an argument of the program: a host stretch writes only its own results, and a region reads an argument through an
  input window or not at all; so each argument's buffer at the last boundary is what was launched.
-/
import proofs.«130698_j71897752535776_2_alg».proof.Proof.KB.R0Body
import proofs.«130698_j71897752535776_2_alg».proof.Proof.KB.R1Data
import proofs.«130698_j71897752535776_2_alg».proof.Proof.KB.R2Data
import proofs.«130698_j71897752535776_2_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- Region 0's entry contents read at the TensorCore's references. -/
abbrev E0 : (c : Dev nD) → (b : Ref sig .tc) → Buf (Elt F) ((c : Thread nD τ).loc b) := fun c b => W0 m c b
/-- At region 0's exit: its windows' arrays at what the pipeline leaves (an input as entered, an output with its
    write-backs folded), every other buffer as entered. -/
def W1 (c : Dev nD) : Valuation τ sig (Elt F) :=
  Pipeline.withArrays spec0 c (W0 m c) fun w => (R0.dat (E0 m) c).arrAt w cfg0.N
theorem W1_arr (c : Dev nD) (w : Fin cfg0.W) :
    W1 m c (Proc.devRef .tc (Pipeline.arrRef spec0 w)) = (R0.dat (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- Region 0's exit contents read at the TensorCore's references. -/
abbrev X1 : (c : Dev nD) → (b : Ref sig .tc) → Buf (Elt F) ((c : Thread nD τ).loc b) := fun c b => W1 m c b
theorem hF0 (c : Dev nD) (w : Fin cfg0.W) : (R0.dat (E0 m) c).arrAt w cfg0.N = X1 m c (Pipeline.arrRef spec0 w) :=
  (W1_arr m c w).symm
theorem hrest0 (c : Dev nD) : ∀ b, b ∉ Finset.univ.image (Pipeline.arrRef spec0) → X1 m c b = E0 m c b :=
  fun b hb => W1_of_ne m c b fun w e => hb (Finset.mem_image.mpr ⟨w, Finset.mem_univ _, e⟩)
/-- After the host stretch `hostOps1`. -/
abbrev W2 : Dev nD → Valuation τ sig (Elt F) := fun c => StableHlo.after hostOps1 (W1 m c)
theorem W2_of (c : Dev nD) (r : Ref sig .tc) (h : r ∉ hostOps1_W) : W2 m c r = W1 m c r :=
  StableHlo.after_of_writes_sub hostOps1 _ hostOps1_writes h
/-- After the host stretch `hostOps1_1`. -/
abbrev W3 : Dev nD → Valuation τ sig (Elt F) := fun c => StableHlo.after hostOps1_1 (W2 m c)
theorem W3_of (c : Dev nD) (r : Ref sig .tc) (h : r ∉ hostOps1_1_W) : W3 m c r = W2 m c r :=
  StableHlo.after_of_writes_sub hostOps1_1 _ hostOps1_1_writes h
/-- After the host stretch `hostOps1_2`. -/
abbrev W4 : Dev nD → Valuation τ sig (Elt F) := fun c => StableHlo.after hostOps1_2 (W3 m c)
theorem W4_of (c : Dev nD) (r : Ref sig .tc) (h : r ∉ hostOps1_2_W) : W4 m c r = W3 m c r :=
  StableHlo.after_of_writes_sub hostOps1_2 _ hostOps1_2_writes h
/-- After the host stretch `hostOps1_3`. -/
abbrev W5 : Dev nD → Valuation τ sig (Elt F) := fun c => StableHlo.after hostOps1_3 (W4 m c)
theorem W5_of (c : Dev nD) (r : Ref sig .tc) (h : r ∉ hostOps1_3_W) : W5 m c r = W4 m c r :=
  StableHlo.after_of_writes_sub hostOps1_3 _ hostOps1_3_writes h
/-- After the host stretch `hostOps1_4`. -/
abbrev W6 : Dev nD → Valuation τ sig (Elt F) := fun c => StableHlo.after hostOps1_4 (W5 m c)
theorem W6_of (c : Dev nD) (r : Ref sig .tc) (h : r ∉ hostOps1_4_W) : W6 m c r = W5 m c r :=
  StableHlo.after_of_writes_sub hostOps1_4 _ hostOps1_4_writes h
/-- Region 1's entry contents read at the TensorCore's references. -/
abbrev E6 : (c : Dev nD) → (b : Ref sig .tc) → Buf (Elt F) ((c : Thread nD τ).loc b) := fun c b => W6 m c b
/-- At region 1's exit: its windows' arrays at what the pipeline leaves (an input as entered, an output with its
    write-backs folded), every other buffer as entered. -/
def W7 (c : Dev nD) : Valuation τ sig (Elt F) :=
  Pipeline.withArrays spec1 c (W6 m c) fun w => (R1.dat (E6 m) c).arrAt w cfg1.N
theorem W7_arr (c : Dev nD) (w : Fin cfg1.W) :
    W7 m c (Proc.devRef .tc (Pipeline.arrRef spec1 w)) = (R1.dat (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- Region 1's exit contents read at the TensorCore's references. -/
abbrev X7 : (c : Dev nD) → (b : Ref sig .tc) → Buf (Elt F) ((c : Thread nD τ).loc b) := fun c b => W7 m c b
theorem hF1 (c : Dev nD) (w : Fin cfg1.W) : (R1.dat (E6 m) c).arrAt w cfg1.N = X7 m c (Pipeline.arrRef spec1 w) :=
  (W7_arr m c w).symm
theorem hrest1 (c : Dev nD) : ∀ b, b ∉ Finset.univ.image (Pipeline.arrRef spec1) → X7 m c b = E6 m c b :=
  fun b hb => W7_of_ne m c b fun w e => hb (Finset.mem_image.mpr ⟨w, Finset.mem_univ _, e⟩)
/-- After the host stretch `hostOps2`. -/
abbrev W8 : Dev nD → Valuation τ sig (Elt F) := fun c => StableHlo.after hostOps2 (W7 m c)
theorem W8_of (c : Dev nD) (r : Ref sig .tc) (h : r ∉ hostOps2_W) : W8 m c r = W7 m c r :=
  StableHlo.after_of_writes_sub hostOps2 _ hostOps2_writes h
/-- After the host stretch `hostOps2_1`. -/
abbrev W9 : Dev nD → Valuation τ sig (Elt F) := fun c => StableHlo.after hostOps2_1 (W8 m c)
theorem W9_of (c : Dev nD) (r : Ref sig .tc) (h : r ∉ hostOps2_1_W) : W9 m c r = W8 m c r :=
  StableHlo.after_of_writes_sub hostOps2_1 _ hostOps2_1_writes h
/-- After the host stretch `hostOps2_2`. -/
abbrev W10 : Dev nD → Valuation τ sig (Elt F) := fun c => StableHlo.after hostOps2_2 (W9 m c)
theorem W10_of (c : Dev nD) (r : Ref sig .tc) (h : r ∉ hostOps2_2_W) : W10 m c r = W9 m c r :=
  StableHlo.after_of_writes_sub hostOps2_2 _ hostOps2_2_writes h
/-- Region 2's entry contents read at the TensorCore's references. -/
abbrev E10 : (c : Dev nD) → (b : Ref sig .tc) → Buf (Elt F) ((c : Thread nD τ).loc b) := fun c b => W10 m c b
/-- At region 2's exit: its windows' arrays at what the pipeline leaves (an input as entered, an output with its
    write-backs folded), every other buffer as entered. -/
def W11 (c : Dev nD) : Valuation τ sig (Elt F) :=
  Pipeline.withArrays spec2 c (W10 m c) fun w => (R2.dat (E10 m) c).arrAt w cfg2.N
theorem W11_arr (c : Dev nD) (w : Fin cfg2.W) :
    W11 m c (Proc.devRef .tc (Pipeline.arrRef spec2 w)) = (R2.dat (E10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb
/-- Region 2's exit contents read at the TensorCore's references. -/
abbrev X11 : (c : Dev nD) → (b : Ref sig .tc) → Buf (Elt F) ((c : Thread nD τ).loc b) := fun c b => W11 m c b
theorem hF2 (c : Dev nD) (w : Fin cfg2.W) : (R2.dat (E10 m) c).arrAt w cfg2.N = X11 m c (Pipeline.arrRef spec2 w) :=
  (W11_arr m c w).symm
theorem hrest2 (c : Dev nD) : ∀ b, b ∉ Finset.univ.image (Pipeline.arrRef spec2) → X11 m c b = E10 m c b :=
  fun b hb => W11_of_ne m c b fun w e => hb (Finset.mem_image.mpr ⟨w, Finset.mem_univ _, e⟩)
/-- After the host stretch `hostOps3`. -/
abbrev W12 : Dev nD → Valuation τ sig (Elt F) := fun c => StableHlo.after hostOps3 (W11 m c)
theorem W12_of (c : Dev nD) (r : Ref sig .tc) (h : r ∉ hostOps3_W) : W12 m c r = W11 m c r :=
  StableHlo.after_of_writes_sub hostOps3 _ hostOps3_writes h

/-! ## The proof data of the three regions, each at its region's entry contents -/

def pdats : (p : Fin 3) → (c : Dev nD) → Dat τ (Elt F) Unit ℕ (UR sig nD τ) ℕ (Pipeline.pin (pcfgs (F := F)) Gen.adm p) c
  | ⟨0, _⟩ => fun c => R0.dat (E0 m) c
  | ⟨1, _⟩ => fun c => R1.dat (E6 m) c
  | ⟨2, _⟩ => fun c => R2.dat (E10 m) c

/-! ## The arguments end as launched -/

theorem W12_main_arg0 (c : Dev nD) : W12 m c (Proc.devRef .tc main_arg0) = m ((c : Thread nD τ).loc main_arg0) :=
  (W12_of m c main_arg0 (by decide)).trans <|
    (W11_of_ne m c main_arg0 (by decide)).trans <|
    (W10_of m c main_arg0 (by decide)).trans <|
    (W9_of m c main_arg0 (by decide)).trans <|
    (W8_of m c main_arg0 (by decide)).trans <|
    (W7_of_ne m c main_arg0 (by decide)).trans <|
    (W6_of m c main_arg0 (by decide)).trans <|
    (W5_of m c main_arg0 (by decide)).trans <|
    (W4_of m c main_arg0 (by decide)).trans <|
    (W3_of m c main_arg0 (by decide)).trans <|
    (W2_of m c main_arg0 (by decide)).trans <|
    ((W1_arr m c 0).trans (((R0.dat (E0 m) c).arrAt_in 0 rfl _).trans (R0.A_eq (E0 m) c 0))).trans rfl
theorem W12_main_arg1 (c : Dev nD) : W12 m c (Proc.devRef .tc main_arg1) = m ((c : Thread nD τ).loc main_arg1) :=
  (W12_of m c main_arg1 (by decide)).trans <|
    (W11_of_ne m c main_arg1 (by decide)).trans <|
    (W10_of m c main_arg1 (by decide)).trans <|
    (W9_of m c main_arg1 (by decide)).trans <|
    (W8_of m c main_arg1 (by decide)).trans <|
    (W7_of_ne m c main_arg1 (by decide)).trans <|
    (W6_of m c main_arg1 (by decide)).trans <|
    (W5_of m c main_arg1 (by decide)).trans <|
    (W4_of m c main_arg1 (by decide)).trans <|
    (W3_of m c main_arg1 (by decide)).trans <|
    (W2_of m c main_arg1 (by decide)).trans <|
    ((W1_arr m c 1).trans (((R0.dat (E0 m) c).arrAt_in 1 rfl _).trans (R0.A_eq (E0 m) c 1))).trans rfl
theorem W12_main_arg2 (c : Dev nD) : W12 m c (Proc.devRef .tc main_arg2) = m ((c : Thread nD τ).loc main_arg2) :=
  (W12_of m c main_arg2 (by decide)).trans <|
    (W11_of_ne m c main_arg2 (by decide)).trans <|
    (W10_of m c main_arg2 (by decide)).trans <|
    (W9_of m c main_arg2 (by decide)).trans <|
    (W8_of m c main_arg2 (by decide)).trans <|
    (W7_of_ne m c main_arg2 (by decide)).trans <|
    (W6_of m c main_arg2 (by decide)).trans <|
    (W5_of m c main_arg2 (by decide)).trans <|
    (W4_of m c main_arg2 (by decide)).trans <|
    (W3_of m c main_arg2 (by decide)).trans <|
    (W2_of m c main_arg2 (by decide)).trans <|
    (W1_of_ne m c main_arg2 (by decide)).trans rfl
theorem W12_main_arg3 (c : Dev nD) : W12 m c (Proc.devRef .tc main_arg3) = m ((c : Thread nD τ).loc main_arg3) :=
  (W12_of m c main_arg3 (by decide)).trans <|
    (W11_of_ne m c main_arg3 (by decide)).trans <|
    (W10_of m c main_arg3 (by decide)).trans <|
    (W9_of m c main_arg3 (by decide)).trans <|
    (W8_of m c main_arg3 (by decide)).trans <|
    (W7_of_ne m c main_arg3 (by decide)).trans <|
    (W6_of m c main_arg3 (by decide)).trans <|
    (W5_of m c main_arg3 (by decide)).trans <|
    (W4_of m c main_arg3 (by decide)).trans <|
    (W3_of m c main_arg3 (by decide)).trans <|
    (W2_of m c main_arg3 (by decide)).trans <|
    (W1_of_ne m c main_arg3 (by decide)).trans rfl
theorem W12_main_arg4 (c : Dev nD) : W12 m c (Proc.devRef .tc main_arg4) = m ((c : Thread nD τ).loc main_arg4) :=
  (W12_of m c main_arg4 (by decide)).trans <|
    (W11_of_ne m c main_arg4 (by decide)).trans <|
    (W10_of m c main_arg4 (by decide)).trans <|
    (W9_of m c main_arg4 (by decide)).trans <|
    (W8_of m c main_arg4 (by decide)).trans <|
    (W7_of_ne m c main_arg4 (by decide)).trans <|
    (W6_of m c main_arg4 (by decide)).trans <|
    (W5_of m c main_arg4 (by decide)).trans <|
    (W4_of m c main_arg4 (by decide)).trans <|
    (W3_of m c main_arg4 (by decide)).trans <|
    (W2_of m c main_arg4 (by decide)).trans <|
    (W1_of_ne m c main_arg4 (by decide)).trans rfl
theorem W12_main_arg5 (c : Dev nD) : W12 m c (Proc.devRef .tc main_arg5) = m ((c : Thread nD τ).loc main_arg5) :=
  (W12_of m c main_arg5 (by decide)).trans <|
    (W11_of_ne m c main_arg5 (by decide)).trans <|
    (W10_of m c main_arg5 (by decide)).trans <|
    (W9_of m c main_arg5 (by decide)).trans <|
    (W8_of m c main_arg5 (by decide)).trans <|
    (W7_of_ne m c main_arg5 (by decide)).trans <|
    (W6_of m c main_arg5 (by decide)).trans <|
    (W5_of m c main_arg5 (by decide)).trans <|
    (W4_of m c main_arg5 (by decide)).trans <|
    (W3_of m c main_arg5 (by decide)).trans <|
    (W2_of m c main_arg5 (by decide)).trans <|
    (W1_of_ne m c main_arg5 (by decide)).trans rfl
theorem W12_main_arg6 (c : Dev nD) : W12 m c (Proc.devRef .tc main_arg6) = m ((c : Thread nD τ).loc main_arg6) :=
  (W12_of m c main_arg6 (by decide)).trans <|
    (W11_of_ne m c main_arg6 (by decide)).trans <|
    (W10_of m c main_arg6 (by decide)).trans <|
    (W9_of m c main_arg6 (by decide)).trans <|
    (W8_of m c main_arg6 (by decide)).trans <|
    (W7_of_ne m c main_arg6 (by decide)).trans <|
    (W6_of m c main_arg6 (by decide)).trans <|
    (W5_of m c main_arg6 (by decide)).trans <|
    (W4_of m c main_arg6 (by decide)).trans <|
    (W3_of m c main_arg6 (by decide)).trans <|
    (W2_of m c main_arg6 (by decide)).trans <|
    (W1_of_ne m c main_arg6 (by decide)).trans rfl

end Cert.Kernel.Whole

end
-- ==== Proof.KB.R1Base.lean ====
/-
  Region 1 of the kernel program: one propagation step, the staged matrix times a pre-scaled feature matrix of width
  256, each row of the product then scaled by its row factor.

  The region's grid is 8 row blocks by 8 column blocks; point t is row block t / 8, column block t % 8, the column
  block moving fastest.  At a point the body sees a 1024 x 1024 block of the staged matrix, the 1024 x 256 block of
  the features that the column block selects, the 1024 x 1 block of row factors of the row block, and the 1024 x 256
  window of the output of the row block.  It keeps a 1024 x 256 accumulator in a scratch buffer that lives across the
  eight points of a row block: it is zeroed when the column block is 0, receives the product of the two blocks at
  every point, and, multiplied row by row by the row factors, is written to the output's window when the column
  block is 7.  So a point is of one of three kinds, told apart by two conditions on its coordinates; here are those
  conditions in closed form over the grid, and the memory the body is called with at a point.
-/
import proofs.«130698_j71897752535776_2_alg».proof.Proof.Gen.Kernel.Launch
import proofs.«130698_j71897752535776_2_alg».proof.Proof.Gen.Kernel.Skeleton
import proofs.«130698_j71897752535776_2_alg».proof.Proof.Gen.Kernel.Points
import Idealize.ShloMosaic.Lib.Pipeline.FrameBody
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions the body branches on -/

/-- The body's first branch is taken: the point's column block is 0 (the accumulator is zeroed). -/
abbrev FirstCol (i : grid1.Coords) : Prop :=
  (Scalar.cmpi .ne (Scalar.extui (Scalar.cmpi .eq (BitVec.ofNat 32 (i 1).val) 0#32)) 0#32) = 1#1

/-- Over the 64 points: the column block is 0 exactly when the point's number is a multiple of 8. -/
theorem firstCol_iff : ∀ t : Fin cfg1.N, FirstCol (grid1.coords t) ↔ t.val % 8 = 0 :=
  (by decide +kernel : ∀ t : Fin grid1.N, FirstCol (grid1.coords t) ↔ t.val % 8 = 0)

/-- The body's last branch is taken: the point's column block is 7 (the scaled accumulator is written out). -/
abbrev LastCol (i : grid1.Coords) : Prop := k1_cond2 i = 1#1

/-- Over the 64 points: the column block is 7 exactly when the point's number is 7 modulo 8. -/
theorem lastCol_iff : ∀ t : Fin cfg1.N, LastCol (grid1.coords t) ↔ t.val % 8 = 7 :=
  (by decide +kernel : ∀ t : Fin grid1.N, LastCol (grid1.coords t) ↔ t.val % 8 = 7)

/-! ## The memory the body is called with at a point -/

/-- The staging buffer holding the staged matrix's block at point `t`. -/
abbrev bufM (t : Fin cfg1.N) : Memref sig .tc .vmem S1024x1024 .bf16 := win1_0.stage (cfg1.slots t 0)
abbrev bufM_whole (t : Fin cfg1.N) : (bufM t).IsWhole := hstage1_0 ((cfg1.slots t 0).cast nbuf1_0)
/-- The staging buffer holding the features' block at point `t`. -/
abbrev bufH (t : Fin cfg1.N) : Memref sig .tc .vmem S1024x256 .f32 := win1_1.stage (cfg1.slots t 1)
abbrev bufH_whole (t : Fin cfg1.N) : (bufH t).IsWhole := hstage1_1 ((cfg1.slots t 1).cast nbuf1_1)
/-- The staging buffer holding the row factors' 1024 x 1 block at point `t`. -/
abbrev bufR (t : Fin cfg1.N) : Memref sig .tc .vmem S1024x1 .f32 := win1_2.stage (cfg1.slots t 2)
abbrev bufR_whole (t : Fin cfg1.N) : (bufR t).IsWhole := hstage1_2 ((cfg1.slots t 2).cast nbuf1_2)
/-- The staging buffer of the output's 1024 x 256 window at point `t`. -/
abbrev bufO (t : Fin cfg1.N) : Memref sig .tc .vmem S1024x256 .f32 := win1_3.stage (cfg1.slots t 3)
abbrev bufO_whole (t : Fin cfg1.N) : (bufO t).IsWhole := hstage1_3 ((cfg1.slots t 3).cast nbuf1_3)
/-- The accumulator: a whole scoped buffer of the kernel's own, the same at every point. -/
abbrev accBuf : Memref sig .tc .vmem S1024x256 .f32 := Memref.whole cc1_scratch0

end Cert.Kernel.R1

end
-- ==== Proof.KB.R1Runs.lean ====
/-
  Region 1's body, run symbolically at each of the three kinds of grid point.

  Each run is the list of stores the body leaves in every buffer it writes (latest first), with the proof that from
  the buffers held whole the body runs to its end, returns the blocks it only reads as they were, and leaves each
  written buffer holding those stores over whatever it held before.

  * column block 0: the accumulator, at anything before, is zero-filled and then receives the product of the staged
    matrix's block and the features' block; the row factors and the output's window are not touched.
  * column blocks 1 to 6: the same without the zero fill, the accumulator starting from what the point before left.
  * column block 7: as in the middle, and the accumulator, each row multiplied by its row factor, is then written to
    the output's window.
-/
import proofs.«130698_j71897752535776_2_alg».proof.Proof.KB.R1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Column block 0: the stores left in the accumulator, and the run. The row factors' block, at `x2`, and the
    output's window, at `xd`, are handed back untouched. -/
noncomputable def runFirst (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : FirstCol i) (hc1 : ¬LastCol i)
    (x0 : Vec F S1024x1024 .bf16) (x1 : Vec F S1024x256 .f32) :
    { LA : List (View.Piece (Elt F) S1024x256 .f32) //
      ∀ (x2 : Vec F S1024x1 .f32) (xd : Vec F S1024x256 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xd ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ owns (c : Thread nD τ) a5 fullShare xd
                ∗ (∃ f, a6.view.loc (c : Thread nD τ) ↦[a6.view.set]{fullShare} a6.view.writes (Elt F) f LA)) -∗ K ⟨⟩))
          ⊢ wp frame (wpE (defs₀ (F := F)) Variants.none c none) E (cc1__gcn_matmul_kernel i a2 h2 a3 h3 a4 h4 a5 h5 a6 h6) K } := by
  refine ⟨?_, fun x2 xd E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h2.eq_unread hf0; obtain rfl := h3.eq_unread hf1; obtain rfl := h4.eq_unread hf2
    obtain rfl := h5.eq_unread hf3
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

set_option maxHeartbeats 1000000 in
/-- Column blocks 1 to 6: the accumulator comes in at `xs`, what the point before left in it. -/
noncomputable def runMid (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : ¬FirstCol i) (hc1 : ¬LastCol i)
    (x0 : Vec F S1024x1024 .bf16) (x1 : Vec F S1024x256 .f32) (xs : Vec F S1024x256 .f32) :
    { LA : List (View.Piece (Elt F) S1024x256 .f32) //
      ∀ (x2 : Vec F S1024x1 .f32) (xd : Vec F S1024x256 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xd ∗ owns (c : Thread nD τ) a6 fullShare xs
            ∗ (iprop(owns (c : Thread nD τ) a2 fullShare x0 ∗ owns (c : Thread nD τ) a3 fullShare x1 ∗ owns (c : Thread nD τ) a4 fullShare x2
                ∗ owns (c : Thread nD τ) a5 fullShare xd
                ∗ (∃ f, a6.view.loc (c : Thread nD τ) ↦[a6.view.set]{fullShare} a6.view.writes (Elt F) f LA)) -∗ K ⟨⟩))
          ⊢ wp frame (wpE (defs₀ (F := F)) Variants.none c none) E (cc1__gcn_matmul_kernel i a2 h2 a3 h3 a4 h4 a5 h5 a6 h6) K } := by
  refine ⟨?_, fun x2 xd E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h2.eq_unread hf0; obtain rfl := h3.eq_unread hf1; obtain rfl := h4.eq_unread hf2
    obtain rfl := h5.eq_unread hf3; obtain rfl := h6.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

set_option maxHeartbeats 1000000 in
/-- Column block 7: as in the middle, and the output's window, at anything before, receives the accumulator with each
    row multiplied by its row factor; the row factors' block comes in at `x2`. -/
noncomputable def runLast (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : ¬FirstCol i) (hc1 : LastCol i)
    (x0 : Vec F S1024x1024 .bf16) (x1 : Vec F S1024x256 .f32) (x2 : Vec F S1024x1 .f32) (xs : Vec F S1024x256 .f32) :
    Σ' (LO : List (View.Piece (Elt F) S1024x256 .f32)), { LA : List (View.Piece (Elt F) S1024x256 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ owns (c : Thread nD τ) a6 fullShare xs
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f LO)
                ∗ (∃ f, a6.view.loc (c : Thread nD τ) ↦[a6.view.set]{fullShare} a6.view.writes (Elt F) f LA)) -∗ K ⟨⟩))
          ⊢ wp frame (wpE (defs₀ (F := F)) Variants.none c none) E (cc1__gcn_matmul_kernel i a2 h2 a3 h3 a4 h4 a5 h5 a6 h6) K } := by
  refine ⟨?_, ?_, fun E K => ?run⟩
  case run =>
    simp only [cc1__gcn_matmul_kernel_eq_skeleton]; unfold cc1__gcn_matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h2.eq_unread hf0; obtain rfl := h3.eq_unread hf1; obtain rfl := h4.eq_unread hf2
    obtain rfl := h6.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    iexists _; iexact HS

end Cert.Kernel.R1

end
-- ==== Proof.KB.R1Values.lean ====
/-
  Region 1: what each buffer holds after the body, at each kind of grid point, as a function of what the body found.

  With `x0` the staged matrix's block at the point, `x1` the features' block, `x2` the row factors' block and `xs` what
  the accumulator held on entry:
  * the accumulator ends holding the product of the two blocks added to zero at column block 0
    (`k1_pay2 x1 k1_pay1 x0`), and added to `xs` elsewhere (`k1_pay2 x1 xs x0`);
  * at column block 7 the output's window ends holding that accumulator value with each row multiplied by its row
    factor (`k1_pay3 (k1_pay2 x1 xs x0) x2`).
  Every store of the body goes through the whole rectangle of its buffer, so each buffer reads as its last store's
  payload whatever it held before.
-/
import proofs.«130698_j71897752535776_2_alg».proof.Proof.KB.R1Runs
import proofs.«130698_j71897752535776_2_alg».proof.Proof.LibWholeStores

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.WholeStores

variable {F : FTy → Type} [FloatOps F]

/-- The offsets of a whole rank-2 rectangle are zero on both axes. -/
theorem hz : (![0, 0] : Fin 2 → Nat) = fun _ => 0 := funext fun a => by fin_cases a <;> rfl

/-! ## Column block 0 -/

theorem first_acc (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : FirstCol i) (hc1 : ¬LastCol i)
    (x0 : Vec F S1024x1024 .bf16) (x1 : Vec F S1024x256 .f32) (f : a6.view.ty.Contents (Elt F)) :
    a6.view.read (Elt F) (a6.view.writes (Elt F) f (runFirst c i a2 h2 a3 h3 a4 h4 a5 h5 a6 h6 hc0 hc1 x0 x1).1) = k1_pay2 x1 (k1_pay1 (F := F)) x0 := by
  unfold runFirst; dsimp only
  rw [read_writes_whole_last _ _ hz, readAt_whole_unread h3 hz, readAt_whole_unread h2 hz]
  unfold runFirst.sl.v6 runFirst.sl.HS_1
  rw [readCov_whole_last _ hz]

/-! ## Column blocks 1 to 6 -/

theorem mid_acc (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : ¬FirstCol i) (hc1 : ¬LastCol i)
    (x0 : Vec F S1024x1024 .bf16) (x1 : Vec F S1024x256 .f32) (xs : Vec F S1024x256 .f32) (f : a6.view.ty.Contents (Elt F)) :
    a6.view.read (Elt F) (a6.view.writes (Elt F) f (runMid c i a2 h2 a3 h3 a4 h4 a5 h5 a6 h6 hc0 hc1 x0 x1 xs).1) = k1_pay2 x1 xs x0 := by
  unfold runMid; dsimp only
  rw [read_writes_whole_last _ _ hz, readAt_whole_unread h3 hz, readAt_whole_unread h6 hz, readAt_whole_unread h2 hz]

/-! ## Column block 7 -/

theorem last_acc (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : ¬FirstCol i) (hc1 : LastCol i)
    (x0 : Vec F S1024x1024 .bf16) (x1 : Vec F S1024x256 .f32) (x2 : Vec F S1024x1 .f32) (xs : Vec F S1024x256 .f32) (f : a6.view.ty.Contents (Elt F)) :
    a6.view.read (Elt F) (a6.view.writes (Elt F) f (runLast c i a2 h2 a3 h3 a4 h4 a5 h5 a6 h6 hc0 hc1 x0 x1 x2 xs).2.1) = k1_pay2 x1 xs x0 := by
  unfold runLast; dsimp only
  unfold runLast.sl.HS_1
  rw [read_writes_whole_last _ _ hz, readAt_whole_unread h3 hz, readAt_whole_unread h6 hz, readAt_whole_unread h2 hz]

theorem last_out (c : Dev nD) (i : grid1.Coords)
    (a2 : Memref sig .tc .vmem S1024x1024 .bf16) (h2 : a2.IsWhole) (a3 : Memref sig .tc .vmem S1024x256 .f32) (h3 : a3.IsWhole)
    (a4 : Memref sig .tc .vmem S1024x1 .f32) (h4 : a4.IsWhole) (a5 : Memref sig .tc .vmem S1024x256 .f32) (h5 : a5.IsWhole)
    (a6 : Memref sig .tc .vmem S1024x256 .f32) (h6 : a6.IsWhole) (hc0 : ¬FirstCol i) (hc1 : LastCol i)
    (x0 : Vec F S1024x1024 .bf16) (x1 : Vec F S1024x256 .f32) (x2 : Vec F S1024x1 .f32) (xs : Vec F S1024x256 .f32) (f : a5.view.ty.Contents (Elt F)) :
    a5.view.read (Elt F) (a5.view.writes (Elt F) f (runLast c i a2 h2 a3 h3 a4 h4 a5 h5 a6 h6 hc0 hc1 x0 x1 x2 xs).1) = k1_pay3 (k1_pay2 x1 xs x0) x2 := by
  unfold runLast; dsimp only
  rw [read_writes_whole_last _ _ hz, readAt_whole_unread h4 hz]
  unfold runLast.sl.v17 runLast.sl.HS_1
  rw [readCov_whole_last _ hz, readAt_whole_unread h3 hz, readAt_whole_unread h6 hz, readAt_whole_unread h2 hz]

end Cert.Kernel.R1

end
-- ==== Proof.KB.R1Body.lean ====
/-
  Region 1: the body's obligation to the pipeline, at every grid point.

  At point `t` the pipeline hands the body the invariant, the three input blocks in their staging buffers, and the
  output window's staging buffer; the body must return the invariant for the next point, the inputs as they were, and
  the output window either at what the proof data says it holds after the point or, at a point that does not write it
  back (every column block but 7), as it was.  By cases on the column block: 0 (the accumulator restarts; on entry it
  is at anything at the very first point and at the previous row block's total afterwards), 1 to 6, and 7; each case
  applies its symbolic run and reads the written buffers back as their last stores' payloads.
-/
import proofs.«130698_j71897752535776_2_alg».proof.Proof.KB.R1Data
import proofs.«130698_j71897752535776_2_alg».proof.Proof.KB.R1Values

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle -/

theorem live_M : ∀ t : Fin cfg1.N, cfg1.idle 0 (grid1.coords t) = false := fun _ => rfl
theorem live_B : ∀ t : Fin cfg1.N, cfg1.idle 1 (grid1.coords t) = false := fun _ => rfl
theorem live_R : ∀ t : Fin cfg1.N, cfg1.idle 2 (grid1.coords t) = false := fun _ => rfl
/-- The output's window is idle at every point whose column block is not 7, -/
theorem idle_O : ∀ t : Fin cfg1.N, ¬LastCol (grid1.coords t) → cfg1.idle 3 (grid1.coords t) = true := by decide +kernel
/-- live at those whose column block is 7, -/
theorem live_O : ∀ t : Fin cfg1.N, LastCol (grid1.coords t) → cfg1.idle 3 (grid1.coords t) = false := by decide +kernel
/-- and written back only there. -/
theorem noFlush_O (t : Fin cfg1.N) (h : ¬t.val % 8 = 7) : (cfg1.win 3).flush t = false :=
  Bool.eq_false_iff.mpr fun hf => h ((flush1_3 t).mp hf)

/-! ## The obligation at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (bufM t) fullShare ((dat V c).before 0 t d))
    ∗ (∃ d, owns (c : Thread nD τ) (bufH t) fullShare ((dat V c).before 1 t d))
    ∗ (∃ d, owns (c : Thread nD τ) (bufR t) fullShare ((dat V c).before 2 t d))
    ∗ (∃ d, owns (c : Thread nD τ) (bufO t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_M, before_B, before_R]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (bufM t) fullShare ((dat V c).after 0 t) from by
    unfold Dat.leavesExact; rw [live_M t], after_M]
  rw [show (dat V c).leavesExact 1 t = owns (c : Thread nD τ) (bufH t) fullShare ((dat V c).after 1 t) from by
    unfold Dat.leavesExact; rw [live_B t], after_B]
  rw [show (dat V c).leavesExact 2 t = owns (c : Thread nD τ) (bufR t) fullShare ((dat V c).after 2 t) from by
    unfold Dat.leavesExact; rw [live_R t], after_R]
  by_cases h0 : t.val % 8 = 0
  · have h7 : ¬t.val % 8 = 7 := by omega
    rw [Dat.leavesExact_idle (dat V c) 3 t (idle_O t (fun h => h7 ((lastCol_iff t).mp h))) (noFlush_O t h7)]
    rw [accAt_first V c t h0]
    by_cases hz : t.val = 0
    · rw [Phi_castSucc V c t, Phi_zero V c _ _ hz, PhiA_eq]
      iintro ⟨⟨⟨HS, Hoth⟩, Hg⟩, Ho, ⟨%d0, H0⟩, ⟨%d1, H1⟩, ⟨%d2, H2⟩, ⟨%d3, H3⟩⟩
      iapply ((runFirst c (grid1.coords t) _ _ _ _ _ _ _ _ _ _ ((firstCol_iff t).mpr h0) (fun h => h7 ((lastCol_iff t).mp h)) (iblk V c 0 t) (iblk V c 1 t)).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS]
        · unfold owns; iexists _; isplitr
          swap; · iexact HS
          ipureintro; exact first_acc _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      iexists _; iexact H3
    · rw [Phi_castSucc V c t, Phi_pos V c _ _ hz]
      iintro ⟨⟨HS, Hoth, Hg⟩, Ho, ⟨%d0, H0⟩, ⟨%d1, H1⟩, ⟨%d2, H2⟩, ⟨%d3, H3⟩⟩
      iapply ((runFirst c (grid1.coords t) _ _ _ _ _ _ _ _ _ _ ((firstCol_iff t).mpr h0) (fun h => h7 ((lastCol_iff t).mp h)) (iblk V c 0 t) (iblk V c 1 t)).2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS]
        · unfold owns; iexists _; isplitr
          swap; · iexact HS
          ipureintro; exact first_acc _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [accAt_next V c t h0]
    rw [Phi_castSucc V c t, Phi_pos V c _ _ hz]
    by_cases h7 : t.val % 8 = 7
    · rw [show (dat V c).leavesExact 3 t = owns (c : Thread nD τ) (bufO t) fullShare ((dat V c).after 3 t) from by
        unfold Dat.leavesExact; rw [live_O t ((lastCol_iff t).mpr h7)], after_O, accAt_next V c t h0]
      iintro ⟨⟨HS, Hoth, Hg⟩, Ho, ⟨%d0, H0⟩, ⟨%d1, H1⟩, ⟨%d2, H2⟩, ⟨%d3, H3⟩⟩
      iapply ((runLast c (grid1.coords t) _ _ _ _ _ _ _ _ _ _ (fun h => h0 ((firstCol_iff t).mp h)) ((lastCol_iff t).mpr h7) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS]
        · unfold owns; iexists _; isplitr
          swap; · iexact HS
          ipureintro; exact last_acc _ _ _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      unfold owns; iexists _; isplitr
      swap; · iexact H3
      ipureintro; exact last_out _ _ _ _ _ _ _ _ _ _ _ _ _ _ _ _ _ _ _
    · rw [Dat.leavesExact_idle (dat V c) 3 t (idle_O t (fun h => h7 ((lastCol_iff t).mp h))) (noFlush_O t h7)]
      iintro ⟨⟨HS, Hoth, Hg⟩, Ho, ⟨%d0, H0⟩, ⟨%d1, H1⟩, ⟨%d2, H2⟩, ⟨%d3, H3⟩⟩
      iapply ((runMid c (grid1.coords t) _ _ _ _ _ _ _ _ _ _ (fun h => h0 ((firstCol_iff t).mp h)) (fun h => h7 ((lastCol_iff t).mp h)) (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS]
        · unfold owns; iexists _; isplitr
          swap; · iexact HS
          ipureintro; exact mid_acc _ _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.KB.R2Base.lean ====
/-
  Region 2 of the kernel program: one propagation step, the staged matrix times a pre-scaled feature matrix of width
  128, each row of the product then scaled by its row factor.

  The region's grid is 8 row blocks by 8 column blocks; point t is row block t / 8, column block t % 8, the column
  block moving fastest.  At a point the body sees a 1024 x 1024 block of the staged matrix, the 1024 x 128 block of
  the features that the column block selects, the 1024 x 1 block of row factors of the row block, and the 1024 x 128
  window of the output of the row block.  It keeps a 1024 x 128 accumulator in a scratch buffer that lives across the
  eight points of a row block: it is zeroed when the column block is 0, receives the product of the two blocks at
  every point, and, multiplied row by row by the row factors, is written to the output's window when the column
  block is 7.  So a point is of one of three kinds, told apart by two conditions on its coordinates; here are those
  conditions in closed form over the grid, and the memory the body is called with at a point.
-/
import proofs.«130698_j71897752535776_2_alg».proof.Proof.Gen.Kernel.Launch
import proofs.«130698_j71897752535776_2_alg».proof.Proof.Gen.Kernel.Skeleton
import proofs.«130698_j71897752535776_2_alg».proof.Proof.Gen.Kernel.Points
import Idealize.ShloMosaic.Lib.Pipeline.FrameBody
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions the body branches on -/

/-- The body's first branch is taken: the point's column block is 0 (the accumulator is zeroed). -/
abbrev FirstCol (i : grid2.Coords) : Prop :=
  (Scalar.cmpi .ne (Scalar.extui (Scalar.cmpi .eq (BitVec.ofNat 32 (i 1).val) 0#32)) 0#32) = 1#1

/-- Over the 64 points: the column block is 0 exactly when the point's number is a multiple of 8. -/
theorem firstCol_iff : ∀ t : Fin cfg2.N, FirstCol (grid2.coords t) ↔ t.val % 8 = 0 :=
  (by decide +kernel : ∀ t : Fin grid2.N, FirstCol (grid2.coords t) ↔ t.val % 8 = 0)

/-- The body's last branch is taken: the point's column block is 7 (the scaled accumulator is written out). -/
abbrev LastCol (i : grid2.Coords) : Prop := k2_cond2 i = 1#1

/-- Over the 64 points: the column block is 7 exactly when the point's number is 7 modulo 8. -/
theorem lastCol_iff : ∀ t : Fin cfg2.N, LastCol (grid2.coords t) ↔ t.val % 8 = 7 :=
  (by decide +kernel : ∀ t : Fin grid2.N, LastCol (grid2.coords t) ↔ t.val % 8 = 7)

/-! ## The memory the body is called with at a point -/

/-- The staging buffer holding the staged matrix's block at point `t`. -/
abbrev bufM (t : Fin cfg2.N) : Memref sig .tc .vmem S1024x1024 .bf16 := win2_0.stage (cfg2.slots t 0)
abbrev bufM_whole (t : Fin cfg2.N) : (bufM t).IsWhole := hstage2_0 ((cfg2.slots t 0).cast nbuf2_0)
/-- The staging buffer holding the features' block at point `t`. -/
abbrev bufH (t : Fin cfg2.N) : Memref sig .tc .vmem S1024x128 .f32 := win2_1.stage (cfg2.slots t 1)
abbrev bufH_whole (t : Fin cfg2.N) : (bufH t).IsWhole := hstage2_1 ((cfg2.slots t 1).cast nbuf2_1)
/-- The staging buffer holding the row factors' 1024 x 1 block at point `t`. -/
abbrev bufR (t : Fin cfg2.N) : Memref sig .tc .vmem S1024x1 .f32 := win2_2.stage (cfg2.slots t 2)
abbrev bufR_whole (t : Fin cfg2.N) : (bufR t).IsWhole := hstage2_2 ((cfg2.slots t 2).cast nbuf2_2)
/-- The staging buffer of the output's 1024 x 128 window at point `t`. -/
abbrev bufO (t : Fin cfg2.N) : Memref sig .tc .vmem S1024x128 .f32 := win2_3.stage (cfg2.slots t 3)
abbrev bufO_whole (t : Fin cfg2.N) : (bufO t).IsWhole := hstage2_3 ((cfg2.slots t 3).cast nbuf2_3)
/-- The accumulator: a whole scoped buffer of the kernel's own, the same at every point. -/
abbrev accBuf : Memref sig .tc .vmem S1024x128 .f32 := Memref.whole cc2_scratch0

end Cert.Kernel.R2

end
-- ==== Proof.KB.R2Runs.lean ====
/-
  Region 2's body, run symbolically at each of the three kinds of grid point.

  Each run is the list of stores the body leaves in every buffer it writes (latest first), with the proof that from
  the buffers held whole the body runs to its end, returns the blocks it only reads as they were, and leaves each
  written buffer holding those stores over whatever it held before.

  * column block 0: the accumulator, at anything before, is zero-filled and then receives the product of the staged
    matrix's block and the features' block; the row factors and the output's window are not touched.
  * column blocks 1 to 6: the same without the zero fill, the accumulator starting from what the point before left.
  * column block 7: as in the middle, and the accumulator, each row multiplied by its row factor, is then written to
    the output's window.
-/
import proofs.«130698_j71897752535776_2_alg».proof.Proof.KB.R2Base

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Column block 0: the stores left in the accumulator, and the run. The row factors' block, at `x2`, and the
    output's window, at `xd`, are handed back untouched. -/
noncomputable def runFirst (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : FirstCol i) (hc1 : ¬LastCol i)
    (x0 : Vec F S1024x1024 .bf16) (x1 : Vec F S1024x128 .f32) :
    { LA : List (View.Piece (Elt F) S1024x128 .f32) //
      ∀ (x2 : Vec F S1024x1 .f32) (xd : Vec F S1024x128 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xd ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ owns (c : Thread nD τ) a5 fullShare xd
                ∗ (∃ f, a6.view.loc (c : Thread nD τ) ↦[a6.view.set]{fullShare} a6.view.writes (Elt F) f LA)) -∗ K ⟨⟩))
          ⊢ wp frame (wpE (defs₀ (F := F)) Variants.none c none) E (cc2__gcn_matmul_kernel i a2 h2 a3 h3 a4 h4 a5 h5 a6 h6) K } := by
  refine ⟨?_, fun x2 xd E K => ?run⟩
  case run =>
    simp only [cc2__gcn_matmul_kernel_eq_skeleton]; unfold cc2__gcn_matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h2.eq_unread hf0; obtain rfl := h3.eq_unread hf1; obtain rfl := h4.eq_unread hf2
    obtain rfl := h5.eq_unread hf3
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

set_option maxHeartbeats 1000000 in
/-- Column blocks 1 to 6: the accumulator comes in at `xs`, what the point before left in it. -/
noncomputable def runMid (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : ¬FirstCol i) (hc1 : ¬LastCol i)
    (x0 : Vec F S1024x1024 .bf16) (x1 : Vec F S1024x128 .f32) (xs : Vec F S1024x128 .f32) :
    { LA : List (View.Piece (Elt F) S1024x128 .f32) //
      ∀ (x2 : Vec F S1024x1 .f32) (xd : Vec F S1024x128 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xd ∗ owns (c : Thread nD τ) a6 fullShare xs
            ∗ (iprop(owns (c : Thread nD τ) a2 fullShare x0 ∗ owns (c : Thread nD τ) a3 fullShare x1 ∗ owns (c : Thread nD τ) a4 fullShare x2
                ∗ owns (c : Thread nD τ) a5 fullShare xd
                ∗ (∃ f, a6.view.loc (c : Thread nD τ) ↦[a6.view.set]{fullShare} a6.view.writes (Elt F) f LA)) -∗ K ⟨⟩))
          ⊢ wp frame (wpE (defs₀ (F := F)) Variants.none c none) E (cc2__gcn_matmul_kernel i a2 h2 a3 h3 a4 h4 a5 h5 a6 h6) K } := by
  refine ⟨?_, fun x2 xd E K => ?run⟩
  case run =>
    simp only [cc2__gcn_matmul_kernel_eq_skeleton]; unfold cc2__gcn_matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h2.eq_unread hf0; obtain rfl := h3.eq_unread hf1; obtain rfl := h4.eq_unread hf2
    obtain rfl := h5.eq_unread hf3; obtain rfl := h6.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact HS

set_option maxHeartbeats 1000000 in
/-- Column block 7: as in the middle, and the output's window, at anything before, receives the accumulator with each
    row multiplied by its row factor; the row factors' block comes in at `x2`. -/
noncomputable def runLast (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : ¬FirstCol i) (hc1 : LastCol i)
    (x0 : Vec F S1024x1024 .bf16) (x1 : Vec F S1024x128 .f32) (x2 : Vec F S1024x1 .f32) (xs : Vec F S1024x128 .f32) :
    Σ' (LO : List (View.Piece (Elt F) S1024x128 .f32)), { LA : List (View.Piece (Elt F) S1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ owns (c : Thread nD τ) a6 fullShare xs
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f LO)
                ∗ (∃ f, a6.view.loc (c : Thread nD τ) ↦[a6.view.set]{fullShare} a6.view.writes (Elt F) f LA)) -∗ K ⟨⟩))
          ⊢ wp frame (wpE (defs₀ (F := F)) Variants.none c none) E (cc2__gcn_matmul_kernel i a2 h2 a3 h3 a4 h4 a5 h5 a6 h6) K } := by
  refine ⟨?_, ?_, fun E K => ?run⟩
  case run =>
    simp only [cc2__gcn_matmul_kernel_eq_skeleton]; unfold cc2__gcn_matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h2.eq_unread hf0; obtain rfl := h3.eq_unread hf1; obtain rfl := h4.eq_unread hf2
    obtain rfl := h6.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    iexists _; iexact HS

end Cert.Kernel.R2

end
-- ==== Proof.KB.R2Values.lean ====
/-
  Region 2: what each buffer holds after the body, at each kind of grid point, as a function of what the body found.

  With `x0` the staged matrix's block at the point, `x1` the features' block, `x2` the row factors' block and `xs` what
  the accumulator held on entry:
  * the accumulator ends holding the product of the two blocks added to zero at column block 0
    (`k2_pay2 x1 k2_pay1 x0`), and added to `xs` elsewhere (`k2_pay2 x1 xs x0`);
  * at column block 7 the output's window ends holding that accumulator value with each row multiplied by its row
    factor (`k2_pay3 (k2_pay2 x1 xs x0) x2`).
  Every store of the body goes through the whole rectangle of its buffer, so each buffer reads as its last store's
  payload whatever it held before.
-/
import proofs.«130698_j71897752535776_2_alg».proof.Proof.KB.R2Runs
import proofs.«130698_j71897752535776_2_alg».proof.Proof.LibWholeStores

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.WholeStores

variable {F : FTy → Type} [FloatOps F]

/-- The offsets of a whole rank-2 rectangle are zero on both axes. -/
theorem hz : (![0, 0] : Fin 2 → Nat) = fun _ => 0 := funext fun a => by fin_cases a <;> rfl

/-! ## Column block 0 -/

theorem first_acc (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : FirstCol i) (hc1 : ¬LastCol i)
    (x0 : Vec F S1024x1024 .bf16) (x1 : Vec F S1024x128 .f32) (f : a6.view.ty.Contents (Elt F)) :
    a6.view.read (Elt F) (a6.view.writes (Elt F) f (runFirst c i a2 h2 a3 h3 a4 h4 a5 h5 a6 h6 hc0 hc1 x0 x1).1) = k2_pay2 x1 (k2_pay1 (F := F)) x0 := by
  unfold runFirst; dsimp only
  rw [read_writes_whole_last _ _ hz, readAt_whole_unread h3 hz, readAt_whole_unread h2 hz]
  unfold runFirst.sl.v6 runFirst.sl.HS_1
  rw [readCov_whole_last _ hz]

/-! ## Column blocks 1 to 6 -/

theorem mid_acc (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : ¬FirstCol i) (hc1 : ¬LastCol i)
    (x0 : Vec F S1024x1024 .bf16) (x1 : Vec F S1024x128 .f32) (xs : Vec F S1024x128 .f32) (f : a6.view.ty.Contents (Elt F)) :
    a6.view.read (Elt F) (a6.view.writes (Elt F) f (runMid c i a2 h2 a3 h3 a4 h4 a5 h5 a6 h6 hc0 hc1 x0 x1 xs).1) = k2_pay2 x1 xs x0 := by
  unfold runMid; dsimp only
  rw [read_writes_whole_last _ _ hz, readAt_whole_unread h3 hz, readAt_whole_unread h6 hz, readAt_whole_unread h2 hz]

/-! ## Column block 7 -/

theorem last_acc (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : ¬FirstCol i) (hc1 : LastCol i)
    (x0 : Vec F S1024x1024 .bf16) (x1 : Vec F S1024x128 .f32) (x2 : Vec F S1024x1 .f32) (xs : Vec F S1024x128 .f32) (f : a6.view.ty.Contents (Elt F)) :
    a6.view.read (Elt F) (a6.view.writes (Elt F) f (runLast c i a2 h2 a3 h3 a4 h4 a5 h5 a6 h6 hc0 hc1 x0 x1 x2 xs).2.1) = k2_pay2 x1 xs x0 := by
  unfold runLast; dsimp only
  unfold runLast.sl.HS_1
  rw [read_writes_whole_last _ _ hz, readAt_whole_unread h3 hz, readAt_whole_unread h6 hz, readAt_whole_unread h2 hz]

theorem last_out (c : Dev nD) (i : grid2.Coords)
    (a2 : Memref sig .tc .vmem S1024x1024 .bf16) (h2 : a2.IsWhole) (a3 : Memref sig .tc .vmem S1024x128 .f32) (h3 : a3.IsWhole)
    (a4 : Memref sig .tc .vmem S1024x1 .f32) (h4 : a4.IsWhole) (a5 : Memref sig .tc .vmem S1024x128 .f32) (h5 : a5.IsWhole)
    (a6 : Memref sig .tc .vmem S1024x128 .f32) (h6 : a6.IsWhole) (hc0 : ¬FirstCol i) (hc1 : LastCol i)
    (x0 : Vec F S1024x1024 .bf16) (x1 : Vec F S1024x128 .f32) (x2 : Vec F S1024x1 .f32) (xs : Vec F S1024x128 .f32) (f : a5.view.ty.Contents (Elt F)) :
    a5.view.read (Elt F) (a5.view.writes (Elt F) f (runLast c i a2 h2 a3 h3 a4 h4 a5 h5 a6 h6 hc0 hc1 x0 x1 x2 xs).1) = k2_pay3 (k2_pay2 x1 xs x0) x2 := by
  unfold runLast; dsimp only
  rw [read_writes_whole_last _ _ hz, readAt_whole_unread h4 hz]
  unfold runLast.sl.v17 runLast.sl.HS_1
  rw [readCov_whole_last _ hz, readAt_whole_unread h3 hz, readAt_whole_unread h6 hz, readAt_whole_unread h2 hz]

end Cert.Kernel.R2

end
-- ==== Proof.KB.R2Body.lean ====
/-
  Region 2: the body's obligation to the pipeline, at every grid point.

  At point `t` the pipeline hands the body the invariant, the three input blocks in their staging buffers, and the
  output window's staging buffer; the body must return the invariant for the next point, the inputs as they were, and
  the output window either at what the proof data says it holds after the point or, at a point that does not write it
  back (every column block but 7), as it was.  By cases on the column block: 0 (the accumulator restarts; on entry it
  is at anything at the very first point and at the previous row block's total afterwards), 1 to 6, and 7; each case
  applies its symbolic run and reads the written buffers back as their last stores' payloads.
-/
import proofs.«130698_j71897752535776_2_alg».proof.Proof.KB.R2Data
import proofs.«130698_j71897752535776_2_alg».proof.Proof.KB.R2Values

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle -/

theorem live_M : ∀ t : Fin cfg2.N, cfg2.idle 0 (grid2.coords t) = false := fun _ => rfl
theorem live_B : ∀ t : Fin cfg2.N, cfg2.idle 1 (grid2.coords t) = false := fun _ => rfl
theorem live_R : ∀ t : Fin cfg2.N, cfg2.idle 2 (grid2.coords t) = false := fun _ => rfl
/-- The output's window is idle at every point whose column block is not 7, -/
theorem idle_O : ∀ t : Fin cfg2.N, ¬LastCol (grid2.coords t) → cfg2.idle 3 (grid2.coords t) = true := by decide +kernel
/-- live at those whose column block is 7, -/
theorem live_O : ∀ t : Fin cfg2.N, LastCol (grid2.coords t) → cfg2.idle 3 (grid2.coords t) = false := by decide +kernel
/-- and written back only there. -/
theorem noFlush_O (t : Fin cfg2.N) (h : ¬t.val % 8 = 7) : (cfg2.win 3).flush t = false :=
  Bool.eq_false_iff.mpr fun hf => h ((flush2_3 t).mp hf)

/-! ## The obligation at a generic point -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (bufM t) fullShare ((dat V c).before 0 t d))
    ∗ (∃ d, owns (c : Thread nD τ) (bufH t) fullShare ((dat V c).before 1 t d))
    ∗ (∃ d, owns (c : Thread nD τ) (bufR t) fullShare ((dat V c).before 2 t d))
    ∗ (∃ d, owns (c : Thread nD τ) (bufO t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_M, before_B, before_R]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (bufM t) fullShare ((dat V c).after 0 t) from by
    unfold Dat.leavesExact; rw [live_M t], after_M]
  rw [show (dat V c).leavesExact 1 t = owns (c : Thread nD τ) (bufH t) fullShare ((dat V c).after 1 t) from by
    unfold Dat.leavesExact; rw [live_B t], after_B]
  rw [show (dat V c).leavesExact 2 t = owns (c : Thread nD τ) (bufR t) fullShare ((dat V c).after 2 t) from by
    unfold Dat.leavesExact; rw [live_R t], after_R]
  by_cases h0 : t.val % 8 = 0
  · have h7 : ¬t.val % 8 = 7 := by omega
    rw [Dat.leavesExact_idle (dat V c) 3 t (idle_O t (fun h => h7 ((lastCol_iff t).mp h))) (noFlush_O t h7)]
    rw [accAt_first V c t h0]
    by_cases hz : t.val = 0
    · rw [Phi_castSucc V c t, Phi_zero V c _ _ hz, PhiA_eq]
      iintro ⟨⟨⟨HS, Hoth⟩, Hg⟩, Ho, ⟨%d0, H0⟩, ⟨%d1, H1⟩, ⟨%d2, H2⟩, ⟨%d3, H3⟩⟩
      iapply ((runFirst c (grid2.coords t) _ _ _ _ _ _ _ _ _ _ ((firstCol_iff t).mpr h0) (fun h => h7 ((lastCol_iff t).mp h)) (iblk V c 0 t) (iblk V c 1 t)).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS]
        · unfold owns; iexists _; isplitr
          swap; · iexact HS
          ipureintro; exact first_acc _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      iexists _; iexact H3
    · rw [Phi_castSucc V c t, Phi_pos V c _ _ hz]
      iintro ⟨⟨HS, Hoth, Hg⟩, Ho, ⟨%d0, H0⟩, ⟨%d1, H1⟩, ⟨%d2, H2⟩, ⟨%d3, H3⟩⟩
      iapply ((runFirst c (grid2.coords t) _ _ _ _ _ _ _ _ _ _ ((firstCol_iff t).mpr h0) (fun h => h7 ((lastCol_iff t).mp h)) (iblk V c 0 t) (iblk V c 1 t)).2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS]
        · unfold owns; iexists _; isplitr
          swap; · iexact HS
          ipureintro; exact first_acc _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [accAt_next V c t h0]
    rw [Phi_castSucc V c t, Phi_pos V c _ _ hz]
    by_cases h7 : t.val % 8 = 7
    · rw [show (dat V c).leavesExact 3 t = owns (c : Thread nD τ) (bufO t) fullShare ((dat V c).after 3 t) from by
        unfold Dat.leavesExact; rw [live_O t ((lastCol_iff t).mpr h7)], after_O, accAt_next V c t h0]
      iintro ⟨⟨HS, Hoth, Hg⟩, Ho, ⟨%d0, H0⟩, ⟨%d1, H1⟩, ⟨%d2, H2⟩, ⟨%d3, H3⟩⟩
      iapply ((runLast c (grid2.coords t) _ _ _ _ _ _ _ _ _ _ (fun h => h0 ((firstCol_iff t).mp h)) ((lastCol_iff t).mpr h7) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS]
        · unfold owns; iexists _; isplitr
          swap; · iexact HS
          ipureintro; exact last_acc _ _ _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      unfold owns; iexists _; isplitr
      swap; · iexact H3
      ipureintro; exact last_out _ _ _ _ _ _ _ _ _ _ _ _ _ _ _ _ _ _ _
    · rw [Dat.leavesExact_idle (dat V c) 3 t (idle_O t (fun h => h7 ((lastCol_iff t).mp h))) (noFlush_O t h7)]
      iintro ⟨⟨HS, Hoth, Hg⟩, Ho, ⟨%d0, H0⟩, ⟨%d1, H1⟩, ⟨%d2, H2⟩, ⟨%d3, H3⟩⟩
      iapply ((runMid c (grid2.coords t) _ _ _ _ _ _ _ _ _ _ (fun h => h0 ((firstCol_iff t).mp h)) (fun h => h7 ((lastCol_iff t).mp h)) (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS]
        · unfold owns; iexists _; isplitr
          swap; · iexact HS
          ipureintro; exact mid_acc _ _ _ _ _ _ _ _ _ _ _ _ _ _ _ _ _ _
        isplitl [Hoth]; · iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.R2

end
-- ==== Proof.KB.Segs.lean ====
/-
  The kernel program as a list of segments, and its run.

  Between two items a core holds every unscoped buffer at that boundary's contents, beside its generator register at
  some state and a record that it owes no other core anything.  A host stretch takes the buffers from one boundary's
  contents to the next by the composition of its operations.  A region takes them through its pipeline: its arrays are
  split out, the body's obligation holds at every grid point, and the arrays come back at their exit contents.  The
  program is the run of these twelve segments in order; so every weakly fair execution terminates without a fault, and
  in the final state every unscoped buffer holds the last boundary's contents.
-/
import proofs.«130698_j71897752535776_2_alg».proof.Proof.KB.Chain
import proofs.«130698_j71897752535776_2_alg».proof.Proof.KB.R1Body
import proofs.«130698_j71897752535776_2_alg».proof.Proof.KB.R2Body

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)

/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-! ## The regions as segments -/

-- a library lemma stated over the pinned configuration unifies with the printed one only when unification may unfold plain
-- definitions in a metavariable's type
set_option backward.isDefEq.respectTransparency.types false in
/-- Region 0 over the thread state: entered with every unscoped buffer at the contents of boundary 0, left with them
    at boundary 1.  Its windows' arrays are split out of the unscoped buffers on entry and joined back at their exit
    contents; the generator register and the scoped buffers go into the invariant and come back, the accumulator's
    final contents forgotten; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E0 m) c).loose
  hwaits := Pipeline.hwaits_of_owed_zero _ _ _ _ L lv 0 fun _ _ => rfl
  pre c := iprop(StableHlo.held (c : Thread nD τ) (Pipeline.ucRefs τ sig) (W0 m c) ∗ Rst c)
  post c := iprop(StableHlo.held (c : Thread nD τ) (Pipeline.ucRefs τ sig) (W1 m c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    have hN : (Fin.last cfg0.N).val ≠ 0 := by rw [Fin.val_last]; have : cfg0.N = 64 := N_0; omega
    rw [Pipeline.ownSems0_none,
      show (pdats m 0 c).Φ (Fin.last _) = R0.Phi (E0 m) c (Fin.last cfg0.N).val (Nat.le_of_lt_succ (Fin.last cfg0.N).isLt) from rfl,
      R0.Phi_pos (E0 m) c _ _ hN]
    iintro ⟨HS, Hoth, Hg⟩
    isplitl [Hg]; · iexact Hg
    isplitr; · iempintro
    iapply (show (iprop((∃ d, owns (c : Thread nD τ) R0.accBuf fullShare d) ∗ R0.others c) : sProp 𝕄)
        ⊢ Pipeline.scopedRest spec0 c from by rw [R0.scopedRest_split])
    isplitl [HS]; · iexists _; iexact HS
    iexact Hoth
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (X1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered with every unscoped buffer at the contents of boundary 6, left with them
    at boundary 7.  Its windows' arrays are split out of the unscoped buffers on entry and joined back at their exit
    contents; the generator register and the scoped buffers go into the invariant and come back, the accumulator's
    final contents forgotten; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E6 m) c).loose
  hwaits := Pipeline.hwaits_of_owed_zero _ _ _ _ L lv 1 fun _ _ => rfl
  pre c := iprop(StableHlo.held (c : Thread nD τ) (Pipeline.ucRefs τ sig) (W6 m c) ∗ Rst c)
  post c := iprop(StableHlo.held (c : Thread nD τ) (Pipeline.ucRefs τ sig) (W7 m c) ∗ Rst c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    have hN : (Fin.last cfg1.N).val ≠ 0 := by rw [Fin.val_last]; have : cfg1.N = 64 := N_1; omega
    rw [Pipeline.ownSems0_none,
      show (pdats m 1 c).Φ (Fin.last _) = R1.Phi (E6 m) c (Fin.last cfg1.N).val (Nat.le_of_lt_succ (Fin.last cfg1.N).isLt) from rfl,
      R1.Phi_pos (E6 m) c _ _ hN]
    iintro ⟨HS, Hoth, Hg⟩
    isplitl [Hg]; · iexact Hg
    isplitr; · iempintro
    iapply (show (iprop((∃ d, owns (c : Thread nD τ) R1.scratchAcc fullShare d) ∗ R1.others c) : sProp 𝕄)
        ⊢ Pipeline.scopedRest spec1 c from by rw [R1.scopedRest_split])
    isplitl [HS]; · iexists _; iexact HS
    iexact Hoth
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E6 m c) (X7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state: entered with every unscoped buffer at the contents of boundary 10, left with them
    at boundary 11.  Its windows' arrays are split out of the unscoped buffers on entry and joined back at their exit
    contents; the generator register and the scoped buffers go into the invariant and come back, the accumulator's
    final contents forgotten; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (E10 m) c).loose
  hwaits := Pipeline.hwaits_of_owed_zero _ _ _ _ L lv 2 fun _ _ => rfl
  pre c := iprop(StableHlo.held (c : Thread nD τ) (Pipeline.ucRefs τ sig) (W10 m c) ∗ Rst c)
  post c := iprop(StableHlo.held (c : Thread nD τ) (Pipeline.ucRefs τ sig) (W11 m c) ∗ Rst c)
  X c := iprop(∃ r, prngReg c r)
  Y c := iprop(∃ r, prngReg c r)
  Z c := Pipeline.unscopedRest (Ix := Unit) (Name := ℕ) (U := UR sig nD τ) (Lvl := ℕ) spec2 c (E10 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    have hN : (Fin.last cfg2.N).val ≠ 0 := by rw [Fin.val_last]; have : cfg2.N = 64 := N_2; omega
    rw [Pipeline.ownSems0_none,
      show (pdats m 2 c).Φ (Fin.last _) = R2.Phi (E10 m) c (Fin.last cfg2.N).val (Nat.le_of_lt_succ (Fin.last cfg2.N).isLt) from rfl,
      R2.Phi_pos (E10 m) c _ _ hN]
    iintro ⟨HS, Hoth, Hg⟩
    isplitl [Hg]; · iexact Hg
    isplitr; · iempintro
    iapply (show (iprop((∃ d, owns (c : Thread nD τ) R2.scratchAcc fullShare d) ∗ R2.others c) : sProp 𝕄)
        ⊢ Pipeline.scopedRest spec2 c from by rw [R2.scopedRest_split])
    isplitl [HS]; · iexists _; iexact HS
    iexact Hoth
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E10 m c) (X11 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) Gen.adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m),
    .host (hseg hostOps2 hostOps2_sub hostOps2_fresh (W7 m)),
    .host (hseg hostOps2_1 hostOps2_1_sub hostOps2_1_fresh (W8 m)),
    .host (hseg hostOps2_2 hostOps2_2_sub hostOps2_2_fresh (W9 m)),
    .region (reg2 m),
    .host (hseg hostOps3 hostOps3_sub hostOps3_fresh (W11 m)) ]

theorem main_run (c : Dev nD) : main (F := F) c = Pipeline.Seg.run (segs m) := (main_chain c).trans (by chain_rfl)

set_option backward.isDefEq.respectTransparency.types false in
/-- Every weakly fair execution of the program terminates without a fault, and in the final state every unscoped buffer
    of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => iprop(StableHlo.held (c : Thread nD τ) (Pipeline.ucRefs τ sig) (W12 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W12 m c) ∗ Rst c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.Kernel.Whole

end
-- ==== Proof.KB.Frame.lean ====
/-
  What the kernel program's run says about its arguments and its result.

  The run ends with every unscoped buffer at the last boundary's contents.  Each of the seven arguments reaches that
  boundary as launched, which is the program's frame; the result buffer holds the last host stretch's final value.
-/
import proofs.«130698_j71897752535776_2_alg».proof.Proof.KB.Segs

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every weakly fair execution terminates without a fault and leaves the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_arg0) (Finset.mem_filter.mpr ⟨StableHlo.devRef_mem_tcRefs main_arg0, by decide⟩)).trans (W12_main_arg0 m c),
      (h c (Proc.devRef .tc main_arg1) (Finset.mem_filter.mpr ⟨StableHlo.devRef_mem_tcRefs main_arg1, by decide⟩)).trans (W12_main_arg1 m c),
      (h c (Proc.devRef .tc main_arg2) (Finset.mem_filter.mpr ⟨StableHlo.devRef_mem_tcRefs main_arg2, by decide⟩)).trans (W12_main_arg2 m c),
      (h c (Proc.devRef .tc main_arg3) (Finset.mem_filter.mpr ⟨StableHlo.devRef_mem_tcRefs main_arg3, by decide⟩)).trans (W12_main_arg3 m c),
      (h c (Proc.devRef .tc main_arg4) (Finset.mem_filter.mpr ⟨StableHlo.devRef_mem_tcRefs main_arg4, by decide⟩)).trans (W12_main_arg4 m c),
      (h c (Proc.devRef .tc main_arg5) (Finset.mem_filter.mpr ⟨StableHlo.devRef_mem_tcRefs main_arg5, by decide⟩)).trans (W12_main_arg5 m c),
      (h c (Proc.devRef .tc main_arg6) (Finset.mem_filter.mpr ⟨StableHlo.devRef_mem_tcRefs main_arg6, by decide⟩)).trans (W12_main_arg6 m c)⟩) (run_all m ρ)

/-- The same run, with the result buffer's final contents named. -/
theorem result_run : θ_run defs (onTc (τ := τ) (main (F := F))) ⟨m, fun _ => 0, ρ⟩ (fun r => ∀ c : Dev nD,
      r.2.mem ((c.tc : Thread nD τ).loc main_v35) = W12 m c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c (Proc.devRef .tc main_v35) (Finset.mem_filter.mpr ⟨StableHlo.devRef_mem_tcRefs main_v35, by decide⟩),
      (h c (Proc.devRef .tc main_arg0) (Finset.mem_filter.mpr ⟨StableHlo.devRef_mem_tcRefs main_arg0, by decide⟩)).trans (W12_main_arg0 m c),
      (h c (Proc.devRef .tc main_arg1) (Finset.mem_filter.mpr ⟨StableHlo.devRef_mem_tcRefs main_arg1, by decide⟩)).trans (W12_main_arg1 m c),
      (h c (Proc.devRef .tc main_arg2) (Finset.mem_filter.mpr ⟨StableHlo.devRef_mem_tcRefs main_arg2, by decide⟩)).trans (W12_main_arg2 m c),
      (h c (Proc.devRef .tc main_arg3) (Finset.mem_filter.mpr ⟨StableHlo.devRef_mem_tcRefs main_arg3, by decide⟩)).trans (W12_main_arg3 m c),
      (h c (Proc.devRef .tc main_arg4) (Finset.mem_filter.mpr ⟨StableHlo.devRef_mem_tcRefs main_arg4, by decide⟩)).trans (W12_main_arg4 m c),
      (h c (Proc.devRef .tc main_arg5) (Finset.mem_filter.mpr ⟨StableHlo.devRef_mem_tcRefs main_arg5, by decide⟩)).trans (W12_main_arg5 m c),
      (h c (Proc.devRef .tc main_arg6) (Finset.mem_filter.mpr ⟨StableHlo.devRef_mem_tcRefs main_arg6, by decide⟩)).trans (W12_main_arg6 m c)⟩) (run_all m ρ)

end Cert.Kernel.Whole

end
-- ==== Proof.Ref.Spec.lean ====
/-
  The reference's result as one closed formula over its seven arguments.

  With `β` the single-precision word nearest 0.8 and `ε` the one nearest 1e-8, at the exact values:
    tilde(i, j)  = A(i, j) + β · S(i, j)                      the blended adjacency
    adj(i, j)    = tilde(i, j) + (ε if i = j, else 0)          shifted on the diagonal
    deg(i)       = Σ_j adj(i, j)                               the row sums
    dis(i)       = invSqrtOrZero(deg(i))                       deg^(-1/2), or zero where that power is infinite
    norm(i, j)   = (dis(i) · adj(i, j)) · dis(j)               the symmetrically normalised adjacency
    xw(k, c)     = Σ_t x(k, t) · W1(t, c)
    layer1(i, c) = Σ_k norm(i, k) · xw(k, c) + b1(c)
    hidden(i, c) = max(layer1(i, c), 0)
    hw(k, c)     = Σ_t hidden(k, t) · W2(t, c)
    out(i, c)    = Σ_k norm(i, k) · hw(k, c) + b2(c).
  Sums are finite sums of extended reals (commutative and associative); products and sums are the extended reals'.
-/
import Idealize.ShloMosaic.PureOps.Ideal
import Idealize.ShloMosaic.Lib.ValueIdx

noncomputable section

open scoped BigOperators

namespace Cert.Proof.RefSpec

open Idealize.ShloMosaic Idealize.ShloMosaic.ValueIdx

/-- The blend weight `β`: the single-precision word nearest 0.8. -/
abbrev beta : EReal := Ideal.ofBits .f32 0x3F4CCCCD#32

/-- The diagonal shift `ε`: the single-precision word nearest 1e-8. -/
abbrev eps : EReal := Ideal.ofBits .f32 0x322BCC77#32

/-- `d ↦ d^(-1/2)`, replaced by zero where that power is infinite in magnitude — on one element, the chain the program
    applies: the power by the word of -0.5; its absolute value compared for equality with the word of +∞; the choice of
    the zero word where they are equal and of the power where they are not. -/
def invSqrtOrZero (d : EReal) : EReal :=
  Scalar.select
    (FloatOps.cmpf (F := Ideal) (φ := .f32) .oeq
      (FloatOps.hostAbsf (F := Ideal) (φ := .f32)
        (FloatOps.hostPowf (F := Ideal) (φ := .f32) d (FloatOps.ofBits (F := Ideal) .f32 0xBF000000#32)))
      (FloatOps.ofBits (F := Ideal) .f32 0x7F800000#32))
    (FloatOps.ofBits (F := Ideal) .f32 0x00000000#32)
    (FloatOps.hostPowf (F := Ideal) (φ := .f32) d (FloatOps.ofBits (F := Ideal) .f32 0xBF000000#32))

/-- The same chain spelt with the extended reals' own operations: the power `Ideal.pow`, the absolute value
    `max p (-p)`, the comparison `Ideal.cmp`. -/
theorem invSqrtOrZero_eq (d : EReal) :
    invSqrtOrZero d
      = Scalar.select
          (Ideal.cmp .oeq
            (max (Ideal.pow d (Ideal.ofBits .f32 0xBF000000#32)) (-(Ideal.pow d (Ideal.ofBits .f32 0xBF000000#32))))
            (Ideal.ofBits .f32 0x7F800000#32))
          (Ideal.ofBits .f32 0x00000000#32)
          (Ideal.pow d (Ideal.ofBits .f32 0xBF000000#32)) := rfl

section
variable (A S : FVec Ideal ⟨2, ![8192, 8192]⟩ .f32) (x : FVec Ideal ⟨2, ![8192, 512]⟩ .f32)
  (W1 : FVec Ideal ⟨2, ![512, 256]⟩ .f32) (b1 : FVec Ideal ⟨1, ![256]⟩ .f32)
  (W2 : FVec Ideal ⟨2, ![256, 128]⟩ .f32) (b2 : FVec Ideal ⟨1, ![128]⟩ .f32)

/-- The blended adjacency `A + β · S` at `(i, j)`. -/
def tilde (i j : Fin 8192) : EReal := A (ix2 i j) + beta * S (ix2 i j)

/-- The blended adjacency with `ε` added on the diagonal, at `(i, j)`. -/
def adj (i j : Fin 8192) : EReal := tilde A S i j + (if i = j then eps else 0)

/-- The degree of row `i`: the sum of its shifted entries. -/
def deg (i : Fin 8192) : EReal := ∑ j : Fin 8192, adj A S i j

/-- The inverse square root of the degree of row `i`, zero where it is infinite. -/
def dis (i : Fin 8192) : EReal := invSqrtOrZero (deg A S i)

/-- The symmetrically normalised adjacency at `(i, j)`: row scaling first, then column scaling. -/
def norm (i j : Fin 8192) : EReal := (dis A S i * adj A S i j) * dis A S j

/-- The features times the first weights, at `(k, c)`. -/
def xw (k : Fin 8192) (c : Fin 256) : EReal := ∑ t : Fin 512, x (ix2 k t) * W1 (ix2 t c)

/-- The first layer before its activation, at `(i, c)`. -/
def layer1 (i : Fin 8192) (c : Fin 256) : EReal := (∑ k : Fin 8192, norm A S i k * xw x W1 k c) + b1 (ix1 c)

/-- The first layer after its activation (the positive part), at `(i, c)`. -/
def hidden (i : Fin 8192) (c : Fin 256) : EReal := max (layer1 A S x W1 b1 i c) 0

/-- The hidden features times the second weights, at `(k, c)`. -/
def hw (k : Fin 8192) (c : Fin 128) : EReal := ∑ t : Fin 256, hidden A S x W1 b1 k t * W2 (ix2 t c)

/-- The result at `(i, c)`. -/
def outAt (i : Fin 8192) (c : Fin 128) : EReal := (∑ k : Fin 8192, norm A S i k * hw A S x W1 b1 W2 k c) + b2 (ix1 c)

/-- THE RESULT, as an array: its entry at an index is `outAt` at the index's two coordinates. -/
def out : FVec Ideal ⟨2, ![8192, 128]⟩ .f32 := fun idx => outAt A S x W1 b1 W2 b2 (idx 0) (idx 1)

/-- The result read at explicit coordinates. -/
theorem out_ix2 (i : Fin 8192) (c : Fin 128) : out A S x W1 b1 W2 b2 (ix2 i c) = outAt A S x W1 b1 W2 b2 i c := rfl

end

end Cert.Proof.RefSpec

end
-- ==== Proof.KI.KerSpec.lean ====
/-
  The kernel program's result as one closed formula over its seven arguments, in the kernel's own arrangement.

  With `tilde`, `xw`, `β`, `ε` and `invSqrtOrZero` as for the reference:
    deg(i)       = Σ_j tilde(i, j) + ε                          the row sums of the blend, the diagonal's ε added once
    dis(i)       = invSqrtOrZero(deg(i))
    step(Y)(i,c) = (Σ_j tilde(i, j) · (dis(j) · Y(j, c))) · dis(i) + (ε · (dis(i) · dis(i))) · Y(i, c)
                                                                 one propagation: the input scaled, the plain product,
                                                                 the output scaled, the diagonal's share added last
    layer1(i, c) = step(xw)(i, c) + b1(c);   hidden = max(layer1, 0);   hw(k, c) = Σ_t hidden(k, t) · W2(t, c)
    out(i, c)    = step(hw)(i, c) + b2(c).
  Every product and sum is written in the order the program's operations perform it.
-/
import proofs.«130698_j71897752535776_2_alg».proof.Proof.Ref.Spec

noncomputable section

open scoped BigOperators

namespace Cert.Proof.KerSpec

open Idealize.ShloMosaic Idealize.ShloMosaic.ValueIdx
open Cert.Proof.RefSpec (beta eps invSqrtOrZero tilde xw)

section
variable (A S : FVec Ideal ⟨2, ![8192, 8192]⟩ .f32) (x : FVec Ideal ⟨2, ![8192, 512]⟩ .f32)
  (W1 : FVec Ideal ⟨2, ![512, 256]⟩ .f32) (b1 : FVec Ideal ⟨1, ![256]⟩ .f32)
  (W2 : FVec Ideal ⟨2, ![256, 128]⟩ .f32) (b2 : FVec Ideal ⟨1, ![128]⟩ .f32)

/-- The degree of row `i` as the kernel forms it: the blend's row sum, then `ε`. -/
def deg (i : Fin 8192) : EReal := (∑ j : Fin 8192, tilde A S i j) + eps

/-- The inverse square root of the degree of row `i`, zero where it is infinite. -/
def dis (i : Fin 8192) : EReal := invSqrtOrZero (deg A S i)

/-- One propagation step applied to a feature matrix `Y` with `n` columns, at `(i, c)`. -/
def step {n : ℕ} (Y : Fin 8192 → Fin n → EReal) (i : Fin 8192) (c : Fin n) : EReal :=
  (∑ j : Fin 8192, tilde A S i j * (dis A S j * Y j c)) * dis A S i + (eps * (dis A S i * dis A S i)) * Y i c

/-- The first layer before its activation, at `(i, c)`. -/
def layer1 (i : Fin 8192) (c : Fin 256) : EReal := step A S (xw x W1) i c + b1 (ix1 c)

/-- The first layer after its activation (the positive part), at `(i, c)`. -/
def hidden (i : Fin 8192) (c : Fin 256) : EReal := max (layer1 A S x W1 b1 i c) 0

/-- The hidden features times the second weights, at `(k, c)`. -/
def hw (k : Fin 8192) (c : Fin 128) : EReal := ∑ t : Fin 256, hidden A S x W1 b1 k t * W2 (ix2 t c)

/-- The result at `(i, c)`. -/
def outAt (i : Fin 8192) (c : Fin 128) : EReal := step A S (hw A S x W1 b1 W2) i c + b2 (ix1 c)

/-- The result as an array. -/
def out : FVec Ideal ⟨2, ![8192, 128]⟩ .f32 := fun idx => outAt A S x W1 b1 W2 b2 (idx 0) (idx 1)

theorem out_ix2 (i : Fin 8192) (c : Fin 128) : out A S x W1 b1 W2 b2 (ix2 i c) = outAt A S x W1 b1 W2 b2 i c := rfl

end

end Cert.Proof.KerSpec

end
-- ==== Proof.LibPairScatter.lean ====
/-
  Entries accumulated through a table of (row, column) index pairs, read at an index.

  A table of `R` pairs of integer words, held as an `R × 2` array, names one entry `(row, column)` of an `N × M` array for
  each of `R` positions: the word in column 0 is the row, the word in column 1 the column. Accumulating a length-`R`
  vector of updates through it adds update `k` into entry `(word k 0, word k 1)` of the operand when both words, read as
  SIGNED integers, lie inside the array (`0 ≤ row < N`, `0 ≤ column < M`), and drops it otherwise: nothing is clamped.
  At the exact values the accumulated array holds, at `(i, j)`, the operand's entry plus the sum of the updates over the
  positions whose pair of words names `(i, j)`. For any extents; a printed record with these lists is
  `pairScatterDims` of its well-formedness fact by reflexivity.
-/
import Idealize.ShloMosaic.PureOps.Ideal
import Idealize.ShloMosaic.Lib.ValueIdx
import Idealize.ShloMosaic.Lib.Pipeline.Value

noncomputable section

open scoped BigOperators

namespace Cert.Lib.PairScatter

open Idealize.ShloMosaic Idealize.ShloMosaic.ValueIdx

variable {N M R w : Nat}

/-! ## Small facts about indices -/

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Two rank-2 indices are equal exactly when their coordinates are. -/
theorem ix2_inj {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- Axis 0 is one of the two axes `[0, 1]`. -/
theorem zero_mem_axes : (0 : Fin 2) ∈ ([0, 1] : List (Fin 2)) := by decide

/-- Axis 1 is one of the two axes `[0, 1]`. -/
theorem one_mem_axes : (1 : Fin 2) ∈ ([0, 1] : List (Fin 2)) := by decide

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## The entry a position names -/

/-- The word the table holds for position `k` in column `c` (0: the row, 1: the column), read as a signed integer. -/
def wordInt (idx : IVec ⟨2, ![R, 2]⟩ w) (k : Fin R) (c : Fin 2) : Int := (idx (ix2 k c)).toInt

/-- The entry position `k`'s update lands on: the pair of its two words read signed, when the first lies in `[0, N)`
    and the second in `[0, M)`; none otherwise (the update is dropped, nothing is clamped). -/
def target (N M : Nat) (idx : IVec ⟨2, ![R, 2]⟩ w) (k : Fin R) : Option (Fin N × Fin M) :=
  if h : (0 ≤ wordInt idx k 0 ∧ wordInt idx k 0 < (N : Int)) ∧ (0 ≤ wordInt idx k 1 ∧ wordInt idx k 1 < (M : Int)) then
    some (⟨(wordInt idx k 0).toNat, by omega⟩, ⟨(wordInt idx k 1).toNat, by omega⟩)
  else none

/-- Position `k` names entry `(i, j)` exactly when its two words, read signed, are `i` and `j`. -/
theorem target_eq_some_iff (idx : IVec ⟨2, ![R, 2]⟩ w) (k : Fin R) (i : Fin N) (j : Fin M) :
    target N M idx k = some (i, j) ↔ wordInt idx k 0 = (i.val : Int) ∧ wordInt idx k 1 = (j.val : Int) := by
  unfold target
  constructor
  · intro h
    split at h
    · rename_i hr
      have hp := Option.some.inj h
      have h1 : (wordInt idx k 0).toNat = i.val := congrArg (fun p : Fin N × Fin M => p.1.val) hp
      have h2 : (wordInt idx k 1).toNat = j.val := congrArg (fun p : Fin N × Fin M => p.2.val) hp
      omega
    · exact absurd h (by simp)
  · rintro ⟨h0, h1⟩
    have hi := i.isLt
    have hj := j.isLt
    rw [dif_pos (by omega)]
    refine congrArg some (Prod.ext (Fin.ext ?_) (Fin.ext ?_))
    · show (wordInt idx k 0).toNat = i.val
      omega
    · show (wordInt idx k 1).toNat = j.val
      omega

/-! ## The accumulation -/

/-- The dimension numbers of an accumulation of a length-`R` vector into `[N, M]` through an `R × 2` table of
    (row, column) words: no window axis, both operand axes inserted, table column `c` naming operand axis `c`. -/
abbrev pairScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section PairScatter
variable (wf : ScatterDims.WF ⟨2, ![N, M]⟩ ⟨2, ![R, 2]⟩ ⟨1, ![R]⟩ [] [0, 1] [0, 1] 1)

/-- The start on the row axis is the table's column-0 word. -/
theorem pairScatter_start0 (idx : IVec ⟨2, ![R, 2]⟩ w) (k : Fin R) :
    (pairScatterDims N M R wf).start (ix1 k) idx 0 = wordInt idx k 0 := by
  unfold ScatterDims.start
  rw [dif_pos (show (0 : Fin 2) ∈ (pairScatterDims N M R wf).scatterDimsToOperandDims from zero_mem_axes)]
  have hsi : (pairScatterDims N M R wf).siIdx (ix1 k) ⟨List.idxOf (0 : Fin 2) (pairScatterDims N M R wf).scatterDimsToOperandDims,
      List.idxOf_lt_length_iff.2 zero_mem_axes⟩ = ix2 k (0 : Fin 2) := by
    funext b; refine Fin.ext ?_
    match b with
    | ⟨0, _⟩ => rfl
    | ⟨1, _⟩ => rfl
  rw [hsi]
  rfl

/-- The start on the column axis is the table's column-1 word. -/
theorem pairScatter_start1 (idx : IVec ⟨2, ![R, 2]⟩ w) (k : Fin R) :
    (pairScatterDims N M R wf).start (ix1 k) idx 1 = wordInt idx k 1 := by
  unfold ScatterDims.start
  rw [dif_pos (show (1 : Fin 2) ∈ (pairScatterDims N M R wf).scatterDimsToOperandDims from one_mem_axes)]
  have hsi : (pairScatterDims N M R wf).siIdx (ix1 k) ⟨List.idxOf (1 : Fin 2) (pairScatterDims N M R wf).scatterDimsToOperandDims,
      List.idxOf_lt_length_iff.2 one_mem_axes⟩ = ix2 k (1 : Fin 2) := by
    funext b; refine Fin.ext ?_
    match b with
    | ⟨0, _⟩ => rfl
    | ⟨1, _⟩ => rfl
  rw [hsi]
  rfl

/-- Both operand axes are inserted: the window coordinate is zero on each. -/
theorem pairScatter_window (k : Fin R) (a : Fin 2) : (pairScatterDims N M R wf).window (ix1 k) a = 0 := by
  unfold ScatterDims.window
  rw [dif_neg]
  intro h
  refine (mem_kept _ _).mp h ?_
  match a with
  | ⟨0, _⟩ => exact zero_mem_axes
  | ⟨1, _⟩ => exact one_mem_axes

/-- Where update `k` lands: at the entry its pair of words names, nowhere when a word is out of range. -/
theorem pairScatter_resultIdx (idx : IVec ⟨2, ![R, 2]⟩ w) (k : Fin R) :
    (pairScatterDims N M R wf).resultIdx? (ix1 k) idx = (target N M idx k).map fun p => ix2 p.1 p.2 := by
  unfold ScatterDims.resultIdx? target
  by_cases h : (0 ≤ wordInt idx k 0 ∧ wordInt idx k 0 < (N : Int)) ∧ (0 ≤ wordInt idx k 1 ∧ wordInt idx k 1 < (M : Int))
  · have hall : ∀ a, 0 ≤ (pairScatterDims N M R wf).start (ix1 k) idx a + (pairScatterDims N M R wf).window (ix1 k) a
        ∧ (pairScatterDims N M R wf).start (ix1 k) idx a + (pairScatterDims N M R wf).window (ix1 k) a
          < ((⟨2, ![N, M]⟩ : Shape).size a : Int) := by
      intro a
      match a with
      | ⟨0, _⟩ =>
        rw [show (⟨0, _⟩ : Fin 2) = 0 from rfl, pairScatter_start0, pairScatter_window]
        show 0 ≤ wordInt idx k 0 + ((0 : Nat) : Int) ∧ wordInt idx k 0 + ((0 : Nat) : Int) < (N : Int)
        omega
      | ⟨1, _⟩ =>
        rw [show (⟨1, _⟩ : Fin 2) = 1 from rfl, pairScatter_start1, pairScatter_window]
        show 0 ≤ wordInt idx k 1 + ((0 : Nat) : Int) ∧ wordInt idx k 1 + ((0 : Nat) : Int) < (M : Int)
        omega
    rw [dif_pos hall, dif_pos h, Option.map_some]
    congr 1
    funext a
    refine Fin.ext ?_
    match a with
    | ⟨0, _⟩ =>
      show ((pairScatterDims N M R wf).start (ix1 k) idx 0 + (pairScatterDims N M R wf).window (ix1 k) 0).toNat
        = (wordInt idx k 0).toNat
      rw [pairScatter_start0, pairScatter_window]
      simp
    | ⟨1, _⟩ =>
      show ((pairScatterDims N M R wf).start (ix1 k) idx 1 + (pairScatterDims N M R wf).window (ix1 k) 1).toNat
        = (wordInt idx k 1).toNat
      rw [pairScatter_start1, pairScatter_window]
      simp
  · rw [dif_neg h, Option.map_none, dif_neg]
    intro hall
    apply h
    have h0 := hall 0
    have h1 := hall 1
    rw [pairScatter_start0, pairScatter_window] at h0
    rw [pairScatter_start1, pairScatter_window] at h1
    have h0' : 0 ≤ wordInt idx k 0 + ((0 : Nat) : Int) ∧ wordInt idx k 0 + ((0 : Nat) : Int) < (N : Int) := h0
    have h1' : 0 ≤ wordInt idx k 1 + ((0 : Nat) : Int) ∧ wordInt idx k 1 + ((0 : Nat) : Int) < (M : Int) := h1
    omega

/-- THE ACCUMULATION AT `(i, j)`, at the exact values: the operand's entry plus the updates over the positions `k`
    whose pair of words names `(i, j)`. -/
theorem pairScatterAdd_apply {φ : FTy} (x : FVec Ideal ⟨2, ![N, M]⟩ φ) (idx : IVec ⟨2, ![R, 2]⟩ w)
    (upd : FVec Ideal ⟨1, ![R]⟩ φ) (i : Fin N) (j : Fin M) :
    Host.scatterAdd (pairScatterDims N M R wf) x idx upd (ix2 i j)
      = x (ix2 i j) + ∑ k ∈ Finset.univ.filter (fun k => target N M idx k = some (i, j)), upd (ix1 k) := by
  show Ideal.hostScatterAdd (pairScatterDims N M R wf) x idx upd (ix2 i j) = _
  unfold Ideal.hostScatterAdd
  congr 1
  rw [Finset.sum_filter, sum_idx1, Finset.sum_filter]
  refine Finset.sum_congr rfl fun k _ => ?_
  simp only [pairScatter_resultIdx]
  cases ht : target N M idx k with
  | none => simp
  | some p =>
    obtain ⟨a, b⟩ := p
    simp only [Option.map_some, Option.some.injEq, ix2_inj, Prod.mk.injEq]

/-- The same, the positions named by their words: those whose column-0 word is `i` and column-1 word is `j`,
    both read signed. -/
theorem pairScatterAdd_apply_words {φ : FTy} (x : FVec Ideal ⟨2, ![N, M]⟩ φ) (idx : IVec ⟨2, ![R, 2]⟩ w)
    (upd : FVec Ideal ⟨1, ![R]⟩ φ) (i : Fin N) (j : Fin M) :
    Host.scatterAdd (pairScatterDims N M R wf) x idx upd (ix2 i j)
      = x (ix2 i j) + ∑ k ∈ Finset.univ.filter
          (fun k => wordInt idx k 0 = (i.val : Int) ∧ wordInt idx k 1 = (j.val : Int)), upd (ix1 k) := by
  rw [pairScatterAdd_apply wf x idx upd i j]
  congr 2
  exact Finset.filter_congr fun k _ => target_eq_some_iff idx k i j

/-- When every position `k` of the table holds the pair `(k, k)` (each word read signed is its own position) and the
    table is as long as the array is wide and tall, update `i` alone lands on the diagonal entry `(i, i)` and nothing
    lands off the diagonal. -/
theorem pairScatterAdd_diag {φ : FTy} (wf' : ScatterDims.WF ⟨2, ![N, N]⟩ ⟨2, ![N, 2]⟩ ⟨1, ![N]⟩ [] [0, 1] [0, 1] 1)
    (x : FVec Ideal ⟨2, ![N, N]⟩ φ) (idx : IVec ⟨2, ![N, 2]⟩ w) (upd : FVec Ideal ⟨1, ![N]⟩ φ)
    (hidx : ∀ (k : Fin N) (c : Fin 2), wordInt idx k c = (k.val : Int)) (i j : Fin N) :
    Host.scatterAdd (pairScatterDims N N N wf') x idx upd (ix2 i j)
      = x (ix2 i j) + (if i = j then upd (ix1 i) else 0) := by
  rw [pairScatterAdd_apply_words wf' x idx upd i j]
  congr 1
  by_cases hij : i = j
  · subst hij
    rw [if_pos rfl]
    have hf : (Finset.univ.filter fun k : Fin N => wordInt idx k 0 = (i.val : Int) ∧ wordInt idx k 1 = (i.val : Int))
        = {i} := by
      ext k
      simp only [Finset.mem_filter, Finset.mem_univ, true_and, Finset.mem_singleton, hidx]
      constructor
      · rintro ⟨h, _⟩
        exact Fin.ext (by omega)
      · rintro rfl
        exact ⟨rfl, rfl⟩
    rw [hf, Finset.sum_singleton]
  · rw [if_neg hij]
    refine Finset.sum_eq_zero fun k hk => ?_
    simp only [Finset.mem_filter, Finset.mem_univ, true_and, hidx] at hk
    exact absurd (Fin.ext (by omega)) hij

end PairScatter

end Cert.Lib.PairScatter

end
-- ==== Proof.Ref.Diag.lean ====
/-
  The diagonal update of the reference, read at an entry.

  The reference adds a small constant to the diagonal of the blended adjacency by an accumulation through a table of
  index pairs: position `k` of the table holds the pair `(k, k)` — both columns are the counting vector `0, 1, …`,
  each passed through a "negative index wraps" choice that never fires, a counting number being nonnegative. Hence
  update `i` alone lands on the entry `(i, i)`, and the accumulated array is the blended adjacency plus the constant on
  the diagonal and nothing elsewhere.
-/
import proofs.«130698_j71897752535776_2_alg».proof.Proof.Gen.ReferenceIdeal.Read
import proofs.«130698_j71897752535776_2_alg».proof.Proof.LibPairScatter

noncomputable section

open scoped BigOperators

namespace Cert.Proof.RefDiag

open Cert.ReferenceIdeal Cert.ReferenceIdeal.Gen Cert.ReferenceIdeal.Read
open Idealize.ShloMosaic Idealize.ShloMosaic.ValueIdx Cert.Lib.PairScatter

variable {F : FTy → Type} [FloatOps F]

/-- A counting number below 8192, as a 32-bit word read signed, is itself. -/
theorem toInt_ofNat_of_lt (n : Nat) (h : n < 8192) : (BitVec.ofNat 32 n).toInt = (n : Int) := by
  rw [BitVec.toInt_eq_toNat_cond, BitVec.toNat_ofNat, Nat.mod_eq_of_lt (by omega)]
  split <;> omega

/-- A counting number below 8192 is not negative as a signed 32-bit word. -/
theorem cmpi_slt_ofNat_zero (n : Nat) (h : n < 8192) : IntOp.cmpi .slt (BitVec.ofNat 32 n) 0#32 = 0#1 := by
  show BitVec.ofBool ((BitVec.ofNat 32 n).slt 0#32) = 0#1
  have : (BitVec.ofNat 32 n).slt 0#32 = false := by
    rw [BitVec.slt, toInt_ofNat_of_lt n h]
    simp
  rw [this]
  rfl

/-- The first column's source vector at `k`: the word of `k` (the wrap never fires). -/
theorem val_main_v8_ix1 (k : Fin 8192) : val_main_v8 (F := F) (ix1 k) = BitVec.ofNat 32 k.val := by
  rw [val_main_v8_apply, val_main_v5_apply, val_main_v3_apply, val_main_v4_apply, val_main_c_apply]
  show Scalar.select (IntOp.cmpi .slt (BitVec.ofNat 32 k.val) 0#32) _ _ = _
  rw [cmpi_slt_ofNat_zero k.val k.isLt, select_zero]

/-- The second column's source vector at `k`: the word of `k` (the wrap never fires). -/
theorem val_main_v13_ix1 (k : Fin 8192) : val_main_v13 (F := F) (ix1 k) = BitVec.ofNat 32 k.val := by
  rw [val_main_v13_apply, val_main_v10_apply, val_main_v3_apply, val_main_v9_apply, val_main_c_1_apply]
  show Scalar.select (IntOp.cmpi .slt (BitVec.ofNat 32 k.val) 0#32) _ _ = _
  rw [cmpi_slt_ofNat_zero k.val k.isLt, select_zero]

/-- THE TABLE, first column: position `k` holds the word of `k`. -/
theorem table_col0 (k : Fin 8192) : val_main_v16 (F := F) (ix2 k (0 : Fin 2)) = BitVec.ofNat 32 k.val := by
  unfold val_main_v16
  refine (concatenate_pair_apply_left (1 : Fin 2) (val_main_v14 (F := F)) (val_main_v15 (F := F))
    concatenates_S8192x1_S8192x1_S8192x2_d1 (ix2 k (0 : Fin 2)) rfl (ix2 k (0 : Fin 1)) ?_).trans ?_
  · intro b
    match b with
    | ⟨0, _⟩ => rfl
    | ⟨1, _⟩ => rfl
  · rw [val_main_v14_apply]
    have e : idx_main_v14 (ix2 k (0 : Fin 1)) = ix1 k :=
      funext fun a => Fin.ext (by match a with | ⟨0, _⟩ => rfl)
    rw [e, val_main_v8_ix1]

/-- THE TABLE, second column: position `k` holds the word of `k`. -/
theorem table_col1 (k : Fin 8192) : val_main_v16 (F := F) (ix2 k (1 : Fin 2)) = BitVec.ofNat 32 k.val := by
  unfold val_main_v16
  refine (concatenate_pair_apply_right (1 : Fin 2) (val_main_v14 (F := F)) (val_main_v15 (F := F))
    concatenates_S8192x1_S8192x1_S8192x2_d1 (ix2 k (1 : Fin 2)) rfl rfl (ix2 k (0 : Fin 1)) ?_ ?_).trans ?_
  · intro b hb
    match b with
    | ⟨0, _⟩ => rfl
    | ⟨1, _⟩ => exact absurd rfl hb
  · rfl
  · rw [val_main_v15_apply]
    have e : idx_main_v15 (ix2 k (0 : Fin 1)) = ix1 k :=
      funext fun a => Fin.ext (by match a with | ⟨0, _⟩ => rfl)
    rw [e, val_main_v13_ix1]

/-- Both words of position `k`, read signed, are `k`. -/
theorem table_wordInt (k : Fin 8192) (c : Fin 2) : wordInt (val_main_v16 (F := F)) k c = (k.val : Int) := by
  unfold wordInt
  match c with
  | ⟨0, _⟩ => rw [show (⟨0, _⟩ : Fin 2) = 0 from rfl, table_col0, toInt_ofNat_of_lt k.val k.isLt]
  | ⟨1, _⟩ => rw [show (⟨1, _⟩ : Fin 2) = 1 from rfl, table_col1, toInt_ofNat_of_lt k.val k.isLt]

/-- Every update is the small constant. -/
theorem val_main_v17_ix1 (k : Fin 8192) :
    val_main_v17 (F := Ideal) (ix1 k) = Ideal.ofBits .f32 0x322BCC77#32 := by
  rw [val_main_v17_apply, val_main_cst_3_apply]
  rfl

/-- THE DIAGONAL UPDATE AT `(i, j)`: the blended adjacency's entry, plus the small constant when `i = j`. -/
theorem val_main_v18_ix2 (x0 x1 : FVec Ideal S8192x8192 .f32) (i j : Fin 8192) :
    val_main_v18 (F := Ideal) x0 x1 (ix2 i j)
      = val_main_v2 (F := Ideal) x0 x1 (ix2 i j) + (if i = j then Ideal.ofBits .f32 0x322BCC77#32 else 0) := by
  unfold val_main_v18
  generalize val_main_v2 (F := Ideal) x0 x1 = y
  refine (pairScatterAdd_diag (N := 8192) scatter_S8192x8192_S8192x2_S8192_n_01_01_1_wf y (val_main_v16 (F := Ideal))
    (val_main_v17 (F := Ideal)) (fun k c => table_wordInt k c) i j).trans ?_
  rw [val_main_v17_ix1]

end Cert.Proof.RefDiag

end
-- ==== Proof.Ref.Norm.lean ====
/-
  The normalised adjacency of the reference, stage by stage, read at explicit coordinates.

  The blend A + β · S; the blend shifted by ε on the diagonal; its row sums (the degrees); the guarded inverse square
  root of each degree; and the entry (dis(i) · adj(i, j)) · dis(j) of the normalised adjacency. Each stage of the
  program, read at an index, is the corresponding piece of the closed formula.
-/
import proofs.«130698_j71897752535776_2_alg».proof.Proof.Gen.ReferenceIdeal.Read
import proofs.«130698_j71897752535776_2_alg».proof.Proof.Ref.Diag
import proofs.«130698_j71897752535776_2_alg».proof.Proof.Ref.Spec

noncomputable section

open scoped BigOperators

namespace Cert.Proof.RefSpec

open Cert.ReferenceIdeal Cert.ReferenceIdeal.Gen Cert.ReferenceIdeal.Read
open Idealize.ShloMosaic Idealize.ShloMosaic.ValueIdx

variable (A S : FVec Ideal S8192x8192 .f32)

/-- The program's blend `A + β · S` at `(i, j)` is the formula's. -/
theorem ref_tilde (i j : Fin 8192) : val_main_v2 (F := Ideal) A S (ix2 i j) = tilde A S i j := by
  rw [val_main_v2_apply, val_main_v1_apply, val_main_v0_apply, val_main_cst_apply]
  rfl

/-- The program's diagonal update at `(i, j)` is the formula's shifted adjacency. -/
theorem ref_adj (i j : Fin 8192) : val_main_v18 (F := Ideal) A S (ix2 i j) = adj A S i j := by
  rw [Cert.Proof.RefDiag.val_main_v18_ix2, ref_tilde]
  rfl

/-- The program's row sum at `i` is the formula's degree: the sum starts from the zero word, which is zero. -/
theorem ref_deg (i : Fin 8192) : val_main_v19 (F := Ideal) A S (ix1 i) = deg A S i := by
  rw [val_main_v19_apply, val_main_cst_4_apply, Ideal.ofBits_def, Ideal.ofBits_zero_f32, zero_add]
  unfold deg
  refine Finset.sum_congr rfl fun k _ => ?_
  have e : idx_main_v19 (ix1 i) k = ix2 i k :=
    funext fun a => Fin.ext (by match a with | ⟨0, _⟩ => rfl | ⟨1, _⟩ => rfl)
  rw [e, ref_adj]

/-- The program's guarded inverse square root at `i` is the formula's. -/
theorem ref_dis (i : Fin 8192) : val_main_v23 (F := Ideal) A S (ix1 i) = dis A S i := by
  rw [val_main_v23_apply, val_main_v22_apply, val_main_call0_v0_apply, val_main_call0_v1_apply,
    val_main_call0_cst_apply, val_main_call1_v1_apply, val_main_call1_v0_apply, val_main_cst_6_apply,
    val_main_v21_apply, val_main_v20_apply, val_main_cst_5_apply, ref_deg]
  rfl

/-- The program's normalised adjacency at `(i, j)` is the formula's: the row factor, the entry, the column factor. -/
theorem ref_norm (i j : Fin 8192) : val_main_v29 (F := Ideal) A S (ix2 i j) = norm A S i j := by
  rw [val_main_v29_apply, val_main_v26_apply, val_main_v25_apply, val_main_v24_apply, val_main_v28_apply,
    val_main_v27_apply]
  have e1 : idx_main_v24 (idx_main_v25 (ix2 i j)) = ix1 i :=
    funext fun a => Fin.ext (by match a with | ⟨0, _⟩ => rfl)
  have e2 : idx_main_v27 (idx_main_v28 (ix2 i j)) = ix1 j :=
    funext fun a => Fin.ext (by match a with | ⟨0, _⟩ => rfl)
  rw [e1, e2, ref_dis, ref_dis, ref_adj]
  rfl

end Cert.Proof.RefSpec

end
-- ==== Proof.Ref.Xw.lean ====
/-
  The features times the first weights, read at explicit coordinates: entry (k, c) is the sum over the 512 features t
  of x(k, t) · W1(t, c).
-/
import proofs.«130698_j71897752535776_2_alg».proof.Proof.Gen.ReferenceIdeal.Read
import proofs.«130698_j71897752535776_2_alg».proof.Proof.Ref.Spec

noncomputable section

open scoped BigOperators

namespace Cert.Proof.RefSpec

open Cert.ReferenceIdeal Cert.ReferenceIdeal.Gen Cert.ReferenceIdeal.Read
open Idealize.ShloMosaic Idealize.ShloMosaic.ValueIdx

/-- The program's first product at `(k, c)` is the formula's: the contraction over the 512 features. -/
theorem ref_xw (x : FVec Ideal S8192x512 .f32) (W1 : FVec Ideal S512x256 .f32) (k : Fin 8192) (c : Fin 256) :
    val_main_v30 (F := Ideal) x W1 (ix2 k c) = xw x W1 k c := by
  rw [val_main_v30_apply]
  unfold xw
  refine Finset.sum_congr rfl fun t _ => ?_
  have el : lidx_main_v30 (ix2 k c) t = ix2 k t :=
    funext fun a => Fin.ext (by match a with | ⟨0, _⟩ => rfl | ⟨1, _⟩ => rfl)
  have er : ridx_main_v30 (ix2 k c) t = ix2 t c :=
    funext fun a => Fin.ext (by match a with | ⟨0, _⟩ => rfl | ⟨1, _⟩ => rfl)
  rw [el, er]

end Cert.Proof.RefSpec

end
-- ==== Proof.Ref.Layer1.lean ====
/-
  The first layer of the reference, read at explicit coordinates: entry (i, c) before the activation is the sum over
  the 8192 nodes k of norm(i, k) · xw(k, c), plus the bias b1(c); after it, the maximum of that and zero.
-/
import proofs.«130698_j71897752535776_2_alg».proof.Proof.Gen.ReferenceIdeal.Read
import proofs.«130698_j71897752535776_2_alg».proof.Proof.Ref.Norm
import proofs.«130698_j71897752535776_2_alg».proof.Proof.Ref.Xw

noncomputable section

open scoped BigOperators

namespace Cert.Proof.RefSpec

open Cert.ReferenceIdeal Cert.ReferenceIdeal.Gen Cert.ReferenceIdeal.Read
open Idealize.ShloMosaic Idealize.ShloMosaic.ValueIdx

variable (A S : FVec Ideal S8192x8192 .f32) (x : FVec Ideal S8192x512 .f32) (W1 : FVec Ideal S512x256 .f32)
  (b1 : FVec Ideal S256 .f32)

/-- The program's first layer before its activation, at `(i, c)`, is the formula's. -/
theorem ref_layer1 (i : Fin 8192) (c : Fin 256) :
    val_main_v34 (F := Ideal) A S x W1 b1 (ix2 i c) = layer1 A S x W1 b1 i c := by
  rw [val_main_v34_apply, val_main_v31_apply, val_main_v33_apply, val_main_v32_apply]
  have eb : idx_main_v32 (idx_main_v33 (ix2 i c)) = ix1 c :=
    funext fun a => Fin.ext (by match a with | ⟨0, _⟩ => rfl)
  rw [eb, Ideal.addf_def]
  unfold layer1
  refine congrArg (· + b1 (ix1 c)) (Finset.sum_congr rfl fun k _ => ?_)
  have el : lidx_main_v31 (ix2 i c) k = ix2 i k :=
    funext fun a => Fin.ext (by match a with | ⟨0, _⟩ => rfl | ⟨1, _⟩ => rfl)
  have er : ridx_main_v31 (ix2 i c) k = ix2 k c :=
    funext fun a => Fin.ext (by match a with | ⟨0, _⟩ => rfl | ⟨1, _⟩ => rfl)
  rw [el, er, ref_norm, ref_xw]

/-- The program's first layer after its activation, at `(i, c)`, is the formula's: the maximum with the zero word. -/
theorem ref_hidden (i : Fin 8192) (c : Fin 256) :
    val_main_v35 (F := Ideal) A S x W1 b1 (ix2 i c) = hidden A S x W1 b1 i c := by
  rw [val_main_v35_apply, val_main_call2_v0_apply, val_main_call2_cst_apply, ref_layer1, Ideal.maximumf_def,
    Ideal.ofBits_def, Ideal.ofBits_zero_f32]
  rfl

end Cert.Proof.RefSpec

end
-- ==== Proof.Ref.Layer2.lean ====
/-
  The second layer of the reference, read at explicit coordinates: the hidden features times the second weights,
  hw(k, c) = Σ_t hidden(k, t) · W2(t, c), and the result out(i, c) = Σ_k norm(i, k) · hw(k, c) + b2(c).
-/
import proofs.«130698_j71897752535776_2_alg».proof.Proof.Gen.ReferenceIdeal.Read
import proofs.«130698_j71897752535776_2_alg».proof.Proof.Ref.Norm
import proofs.«130698_j71897752535776_2_alg».proof.Proof.Ref.Layer1

noncomputable section

open scoped BigOperators

namespace Cert.Proof.RefSpec

open Cert.ReferenceIdeal Cert.ReferenceIdeal.Gen Cert.ReferenceIdeal.Read
open Idealize.ShloMosaic Idealize.ShloMosaic.ValueIdx

variable (A S : FVec Ideal S8192x8192 .f32) (x : FVec Ideal S8192x512 .f32) (W1 : FVec Ideal S512x256 .f32)
  (b1 : FVec Ideal S256 .f32) (W2 : FVec Ideal S256x128 .f32) (b2 : FVec Ideal S128 .f32)

/-- The program's second product at `(k, c)` is the formula's: the contraction over the 256 hidden features. -/
theorem ref_hw (k : Fin 8192) (c : Fin 128) :
    val_main_v36 (F := Ideal) A S x W1 b1 W2 (ix2 k c) = hw A S x W1 b1 W2 k c := by
  rw [val_main_v36_apply]
  unfold hw
  refine Finset.sum_congr rfl fun t _ => ?_
  have el : lidx_main_v36 (ix2 k c) t = ix2 k t :=
    funext fun a => Fin.ext (by match a with | ⟨0, _⟩ => rfl | ⟨1, _⟩ => rfl)
  have er : ridx_main_v36 (ix2 k c) t = ix2 t c :=
    funext fun a => Fin.ext (by match a with | ⟨0, _⟩ => rfl | ⟨1, _⟩ => rfl)
  rw [el, er, ref_hidden]

/-- The program's result at `(i, c)` is the formula's. -/
theorem ref_outAt (i : Fin 8192) (c : Fin 128) :
    val_main_v40 (F := Ideal) A S x W1 b1 W2 b2 (ix2 i c) = outAt A S x W1 b1 W2 b2 i c := by
  rw [val_main_v40_apply, val_main_v37_apply, val_main_v39_apply, val_main_v38_apply]
  have eb : idx_main_v38 (idx_main_v39 (ix2 i c)) = ix1 c :=
    funext fun a => Fin.ext (by match a with | ⟨0, _⟩ => rfl)
  rw [eb, Ideal.addf_def]
  unfold outAt
  refine congrArg (· + b2 (ix1 c)) (Finset.sum_congr rfl fun k _ => ?_)
  have el : lidx_main_v37 (ix2 i c) k = ix2 i k :=
    funext fun a => Fin.ext (by match a with | ⟨0, _⟩ => rfl | ⟨1, _⟩ => rfl)
  have er : ridx_main_v37 (ix2 i c) k = ix2 k c :=
    funext fun a => Fin.ext (by match a with | ⟨0, _⟩ => rfl | ⟨1, _⟩ => rfl)
  rw [el, er, ref_norm, ref_hw]

end Cert.Proof.RefSpec

end
-- ==== Proof.Ref.Formula.lean ====
/-
  The reference's value is the closed formula: the program's result array equals `out` of its seven arguments.
-/
import proofs.«130698_j71897752535776_2_alg».proof.Proof.Gen.ReferenceIdeal.Read
import proofs.«130698_j71897752535776_2_alg».proof.Proof.Ref.Spec
import proofs.«130698_j71897752535776_2_alg».proof.Proof.Ref.Layer2

noncomputable section

open scoped BigOperators

namespace Cert.Proof.RefSpec

open Cert.ReferenceIdeal Cert.ReferenceIdeal.Gen Cert.ReferenceIdeal.Read
open Idealize.ShloMosaic Idealize.ShloMosaic.ValueIdx

/-- THE REFERENCE'S VALUE: the program's result array, as a function of its seven arguments, is the closed formula
    `out` — entry by entry, each stage of the program read at explicit coordinates. No finiteness is needed: every
    step is a reading of the operations at the exact values. -/
theorem ref_value (A S : FVec Ideal S8192x8192 .f32) (x : FVec Ideal S8192x512 .f32) (W1 : FVec Ideal S512x256 .f32)
    (b1 : FVec Ideal S256 .f32) (W2 : FVec Ideal S256x128 .f32) (b2 : FVec Ideal S128 .f32) :
    val_main_v40 (F := Ideal) A S x W1 b1 W2 b2 = out A S x W1 b1 W2 b2 := by
  funext idx
  obtain ⟨p, q, rfl⟩ : ∃ (p : Fin 8192) (q : Fin 128), idx = ix2 p q := ⟨idx 0, idx 1, eq_ix2 idx⟩
  rw [ref_outAt, out_ix2]

end Cert.Proof.RefSpec

end
-- ==== Proof.KI.Carry.lean ====
/-
  Buffers that cross several items of the kernel program unchanged: the row factor from the stretch that computes it to
  the last region that reads it, the staged blend from the region that writes it to the last region that reads it, a
  matrix product from its stretch to the stretch that adds its share back, and each argument up to the item that reads
  it.  A host stretch leaves alone what it does not write; a region leaves alone what is none of its windows' arrays, and
  an input window's array ends as it began.
-/
import proofs.«130698_j71897752535776_2_alg».proof.Proof.KI.Chain

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem W6_v8 (c : Dev nD) : W6 m c (Proc.devRef .tc main_v8) = W5 m c (Proc.devRef .tc main_v8) :=
  (W6_of m c main_v8 (by decide))
theorem W7_v8 (c : Dev nD) : W7 m c (Proc.devRef .tc main_v8) = W5 m c (Proc.devRef .tc main_v8) :=
  ((W7_arr m c 2).trans (((R1.dat (E6 m) c).arrAt_in 2 rfl _).trans (R1.A_eq (E6 m) c 2))).trans <|
    (W6_of m c main_v8 (by decide))
theorem W8_v8 (c : Dev nD) : W8 m c (Proc.devRef .tc main_v8) = W5 m c (Proc.devRef .tc main_v8) :=
  (W8_of m c main_v8 (by decide)).trans <|
    ((W7_arr m c 2).trans (((R1.dat (E6 m) c).arrAt_in 2 rfl _).trans (R1.A_eq (E6 m) c 2))).trans <|
    (W6_of m c main_v8 (by decide))
theorem W9_v8 (c : Dev nD) : W9 m c (Proc.devRef .tc main_v8) = W5 m c (Proc.devRef .tc main_v8) :=
  (W9_of m c main_v8 (by decide)).trans <|
    (W8_of m c main_v8 (by decide)).trans <|
    ((W7_arr m c 2).trans (((R1.dat (E6 m) c).arrAt_in 2 rfl _).trans (R1.A_eq (E6 m) c 2))).trans <|
    (W6_of m c main_v8 (by decide))
theorem W10_v8 (c : Dev nD) : W10 m c (Proc.devRef .tc main_v8) = W5 m c (Proc.devRef .tc main_v8) :=
  (W10_of m c main_v8 (by decide)).trans <|
    (W9_of m c main_v8 (by decide)).trans <|
    (W8_of m c main_v8 (by decide)).trans <|
    ((W7_arr m c 2).trans (((R1.dat (E6 m) c).arrAt_in 2 rfl _).trans (R1.A_eq (E6 m) c 2))).trans <|
    (W6_of m c main_v8 (by decide))
theorem W11_v8 (c : Dev nD) : W11 m c (Proc.devRef .tc main_v8) = W5 m c (Proc.devRef .tc main_v8) :=
  ((W11_arr m c 2).trans (((R2.dat (E10 m) c).arrAt_in 2 rfl _).trans (R2.A_eq (E10 m) c 2))).trans <|
    (W10_of m c main_v8 (by decide)).trans <|
    (W9_of m c main_v8 (by decide)).trans <|
    (W8_of m c main_v8 (by decide)).trans <|
    ((W7_arr m c 2).trans (((R1.dat (E6 m) c).arrAt_in 2 rfl _).trans (R1.A_eq (E6 m) c 2))).trans <|
    (W6_of m c main_v8 (by decide))
theorem W6_v0_1 (c : Dev nD) : W6 m c (Proc.devRef .tc main_v0_1) = W1 m c (Proc.devRef .tc main_v0_1) :=
  (W6_of m c main_v0_1 (by decide)).trans <|
    (W5_of m c main_v0_1 (by decide)).trans <|
    (W4_of m c main_v0_1 (by decide)).trans <|
    (W3_of m c main_v0_1 (by decide)).trans <|
    (W2_of m c main_v0_1 (by decide))
theorem W10_v0_1 (c : Dev nD) : W10 m c (Proc.devRef .tc main_v0_1) = W1 m c (Proc.devRef .tc main_v0_1) :=
  (W10_of m c main_v0_1 (by decide)).trans <|
    (W9_of m c main_v0_1 (by decide)).trans <|
    (W8_of m c main_v0_1 (by decide)).trans <|
    ((W7_arr m c 0).trans (((R1.dat (E6 m) c).arrAt_in 0 rfl _).trans (R1.A_eq (E6 m) c 0))).trans <|
    (W6_of m c main_v0_1 (by decide)).trans <|
    (W5_of m c main_v0_1 (by decide)).trans <|
    (W4_of m c main_v0_1 (by decide)).trans <|
    (W3_of m c main_v0_1 (by decide)).trans <|
    (W2_of m c main_v0_1 (by decide))
theorem W7_v9 (c : Dev nD) : W7 m c (Proc.devRef .tc main_v9) = W6 m c (Proc.devRef .tc main_v9) :=
  (W7_of_ne m c main_v9 (by decide))
theorem W11_v23 (c : Dev nD) : W11 m c (Proc.devRef .tc main_v23) = W10 m c (Proc.devRef .tc main_v23) :=
  (W11_of_ne m c main_v23 (by decide))
theorem W5_main_arg2 (c : Dev nD) : W5 m c (Proc.devRef .tc main_arg2) = m ((c : Thread nD τ).loc main_arg2) :=
  (W5_of m c main_arg2 (by decide)).trans <|
    (W4_of m c main_arg2 (by decide)).trans <|
    (W3_of m c main_arg2 (by decide)).trans <|
    (W2_of m c main_arg2 (by decide)).trans <|
    (W1_of_ne m c main_arg2 (by decide)).trans rfl
theorem W5_main_arg3 (c : Dev nD) : W5 m c (Proc.devRef .tc main_arg3) = m ((c : Thread nD τ).loc main_arg3) :=
  (W5_of m c main_arg3 (by decide)).trans <|
    (W4_of m c main_arg3 (by decide)).trans <|
    (W3_of m c main_arg3 (by decide)).trans <|
    (W2_of m c main_arg3 (by decide)).trans <|
    (W1_of_ne m c main_arg3 (by decide)).trans rfl
theorem W7_main_arg4 (c : Dev nD) : W7 m c (Proc.devRef .tc main_arg4) = m ((c : Thread nD τ).loc main_arg4) :=
  (W7_of_ne m c main_arg4 (by decide)).trans <|
    (W6_of m c main_arg4 (by decide)).trans <|
    (W5_of m c main_arg4 (by decide)).trans <|
    (W4_of m c main_arg4 (by decide)).trans <|
    (W3_of m c main_arg4 (by decide)).trans <|
    (W2_of m c main_arg4 (by decide)).trans <|
    (W1_of_ne m c main_arg4 (by decide)).trans rfl
theorem W9_main_arg5 (c : Dev nD) : W9 m c (Proc.devRef .tc main_arg5) = m ((c : Thread nD τ).loc main_arg5) :=
  (W9_of m c main_arg5 (by decide)).trans <|
    (W8_of m c main_arg5 (by decide)).trans <|
    (W7_of_ne m c main_arg5 (by decide)).trans <|
    (W6_of m c main_arg5 (by decide)).trans <|
    (W5_of m c main_arg5 (by decide)).trans <|
    (W4_of m c main_arg5 (by decide)).trans <|
    (W3_of m c main_arg5 (by decide)).trans <|
    (W2_of m c main_arg5 (by decide)).trans <|
    (W1_of_ne m c main_arg5 (by decide)).trans rfl
theorem W11_main_arg6 (c : Dev nD) : W11 m c (Proc.devRef .tc main_arg6) = m ((c : Thread nD τ).loc main_arg6) :=
  (W11_of_ne m c main_arg6 (by decide)).trans <|
    (W10_of m c main_arg6 (by decide)).trans <|
    (W9_of m c main_arg6 (by decide)).trans <|
    (W8_of m c main_arg6 (by decide)).trans <|
    (W7_of_ne m c main_arg6 (by decide)).trans <|
    (W6_of m c main_arg6 (by decide)).trans <|
    (W5_of m c main_arg6 (by decide)).trans <|
    (W4_of m c main_arg6 (by decide)).trans <|
    (W3_of m c main_arg6 (by decide)).trans <|
    (W2_of m c main_arg6 (by decide)).trans <|
    (W1_of_ne m c main_arg6 (by decide)).trans rfl

theorem W1_main_arg2 (c : Dev nD) : W1 m c (Proc.devRef .tc main_arg2) = m ((c : Thread nD τ).loc main_arg2) :=
  (W1_of_ne m c main_arg2 (by decide)).trans rfl
theorem W1_main_arg3 (c : Dev nD) : W1 m c (Proc.devRef .tc main_arg3) = m ((c : Thread nD τ).loc main_arg3) :=
  (W1_of_ne m c main_arg3 (by decide)).trans rfl
theorem W7_main_arg5 (c : Dev nD) : W7 m c (Proc.devRef .tc main_arg5) = m ((c : Thread nD τ).loc main_arg5) :=
  (W7_of_ne m c main_arg5 (by decide)).trans <|
    (W6_of m c main_arg5 (by decide)).trans <|
    (W5_of m c main_arg5 (by decide)).trans <|
    (W4_of m c main_arg5 (by decide)).trans <|
    (W3_of m c main_arg5 (by decide)).trans <|
    (W2_of m c main_arg5 (by decide)).trans <|
    (W1_of_ne m c main_arg5 (by decide)).trans rfl

end Cert.KernelIdeal.Whole

end
-- ==== Proof.KI.R0OutT.lean ====
/-
  Region 0's second output as a whole array: the blend A + β·S, entry by entry.

  The window's block at point t is the 1024 x 1024 block at (t / 8, t % 8), the same block of A and of S that the
  point reads; the body stores the blend of the two input blocks; every block of the array is some point's; so after
  the region the array holds the blend everywhere.  (At the exact instance the change to the narrower format is the
  identity.)
-/
import proofs.«130698_j71897752535776_2_alg».proof.Proof.KI.R0Data
import proofs.«130698_j71897752535776_2_alg».proof.Proof.Ref.Spec
import Idealize.ShloMosaic.Lib.Pipeline.Value
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat)
open Cert.Proof.RefSpec (beta)

variable (V : (c : Dev nD) → (b : Ref sig .tc) → Buf (Elt Ideal) ((c : Thread nD τ).loc b))

/-- The two argument arrays as the region finds them, as arrays of extended reals. -/
abbrev arrA (c : Dev nD) : S8192x8192.Idx → EReal := V c main_arg0
abbrev arrS (c : Dev nD) : S8192x8192.Idx → EReal := V c main_arg1

/-- The blend of two 8192 x 8192 arrays at an index. -/
abbrev blend (a0 a1 : S8192x8192.Idx → EReal) : S8192x8192.Idx → EReal := fun i => a0 i + beta * a1 i

/-- The body's stored value is the blend of its two input blocks, entry by entry. -/
theorem pay_blend (x0 x1 : Vec Ideal S1024x1024 .f32) (j : S1024x1024.Idx) :
    k0_pay4 (F := Ideal) x0 x1 j = x0 j + beta * x1 j := by
  unfold k0_pay4 k0_pay2; rfl

/-- The printed index maps over the grid: the two inputs' blocks move with the blend's, at block (t / 8, t % 8); the
    row-sum window's block is (t / 8, 0). -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_3.index t (0 : Fin 2) = t.val / 8 ∧ win0_3.index t (1 : Fin 2) = t.val % 8
    ∧ win0_2.index t (0 : Fin 2) = t.val / 8 ∧ win0_2.index t (1 : Fin 2) = 0 :=
  (by decide +kernel : ∀ t : Fin grid0.N, _)

/-- What point `t` writes back of the blend's window is block `t` of the blend of the two arrays as the region finds them. -/
theorem flushedT_eq (c : Dev nD) (t : Fin cfg0.N) :
    (dat V c).flushed 3 t = ((cfg0.win 3).blk t).view.read (Elt Ideal) (blend (arrA V c) (arrS V c)) := by
  show (cfg0.win 3).cut (grid0.coords t) ((dat V c).after 3 t) = _
  rw [after_T]
  obtain ⟨e0, e1, e2, e3, -, -, -, -⟩ := idx_facts t
  funext j
  show k0_pay4 (F := Ideal) (iblk V c 0 t) (iblk V c 1 t) j
    = arrA V c (((cfg0.win 3).blk t).view.emb j) + beta * arrS V c (((cfg0.win 3).blk t).view.emb j)
  rw [pay_blend]
  show arrA V c (((cfg0.win 0).blk t).view.emb j) + beta * arrS V c (((cfg0.win 1).blk t).view.emb j) = _
  have h0 : ((cfg0.win 0).blk t).view.emb j = ((cfg0.win 3).blk t).view.emb j := by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * (j 1).val = win0_3.index t (1 : Fin 2) * 1024 + 1 * (j 1).val; omega
  have h1 : ((cfg0.win 1).blk t).view.emb j = ((cfg0.win 3).blk t).view.emb j := by
    funext a; apply Fin.ext
    match a with
    | ⟨0, _⟩ => show win0_1.index t (0 : Fin 2) * 1024 + 1 * (j 0).val = win0_3.index t (0 : Fin 2) * 1024 + 1 * (j 0).val; omega
    | ⟨1, _⟩ => show win0_1.index t (1 : Fin 2) * 1024 + 1 * (j 1).val = win0_3.index t (1 : Fin 2) * 1024 + 1 * (j 1).val; omega
  rw [h0, h1]

/-- An index of the array is in point `t`'s block iff each coordinate is in the block's range on its axis. -/
theorem mem_blkT (t : Fin cfg0.N) (i : S8192x8192.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0_1).slice (win0_3.rect t)).set ↔ _
  rw [View.set_slice_whole, Rect.mem_set_unit]
  exact Iff.rfl

/-- Every index of the array is in the block of the point at its row block and column block. -/
theorem coverT (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  have hN : cfg0.N = 64 := N_0
  refine ⟨⟨8 * ((i 0).val / 1024) + (i 1).val / 1024, by omega⟩, flush0_3 _, ?_⟩
  rw [mem_blkT]
  obtain ⟨-, -, -, -, e4, e5, -, -⟩ := idx_facts ⟨8 * ((i 0).val / 1024) + (i 1).val / 1024, by omega⟩
  intro a
  match a with
  | ⟨0, _⟩ =>
    show win0_3.index _ (0 : Fin 2) * 1024 ≤ (i 0).val ∧ (i 0).val < win0_3.index _ (0 : Fin 2) * 1024 + 1024
    rw [e4]; dsimp only; omega
  | ⟨1, _⟩ =>
    show win0_3.index _ (1 : Fin 2) * 1024 ≤ (i 1).val ∧ (i 1).val < win0_3.index _ (1 : Fin 2) * 1024 + 1024
    rw [e5]; dsimp only; omega

/-- After the region the blend's array holds the blend of the two arrays as the region found them. -/
theorem tilde_array (c : Dev nD) : (dat V c).arrAt 3 cfg0.N = blend (arrA V c) (arrS V c) :=
  (dat V c).arrAt_eq_of_cover 3 (blend (arrA V c) (arrS V c)) (fun t _ => flushedT_eq V c t) coverT

theorem tilde_apply (c : Dev nD) (i j : Fin 8192) :
    (dat V c).arrAt 3 cfg0.N (ix2 i j) = arrA V c (ix2 i j) + beta * arrS V c (ix2 i j) := by
  rw [tilde_array]

end Cert.KernelIdeal.R0

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibBlockedSum.lean ====
/-
  A sum of a·b terms taken b at a time.

  In any commutative additive monoid — the extended reals included, where no cancellation or distributivity is
  available but addition is still associative and commutative — the sum of `f 0, …, f (a·b − 1)` equals the sum over
  the a consecutive stretches of length b of each stretch's own sum. This is the whole algebra behind a matrix product
  whose contraction axis is cut into blocks that are accumulated one after the other.
-/
import Idealize.ShloMosaic.Lib.ValueIdx

namespace Cert.Lib.BlockedSum

open scoped BigOperators

/-- Over ranges: the stretches `b·s, …, b·s + b − 1` for `s < a` exhaust `0, …, a·b − 1`. -/
theorem sum_range_blocks {M : Type*} [AddCommMonoid M] (f : ℕ → M) (b : ℕ) :
    ∀ a : ℕ, ∑ s ∈ Finset.range a, ∑ k ∈ Finset.range b, f (b * s + k) = ∑ k ∈ Finset.range (a * b), f k
  | 0 => by simp
  | a + 1 => by
    rw [Finset.sum_range_succ, sum_range_blocks f b a, Nat.succ_mul, Finset.sum_range_add, Nat.mul_comm b a]

/-- The same with the inner and the total sum over `Fin`: the form in which a block's inner product and the whole
    inner product are read off the two programs. -/
theorem sum_fin_blocks {M : Type*} [AddCommMonoid M] (f : ℕ → M) (a b : ℕ) :
    ∑ s ∈ Finset.range a, ∑ k : Fin b, f (b * s + k.val) = ∑ k : Fin (a * b), f k.val := by
  rw [Fin.sum_univ_eq_sum_range f (a * b), ← sum_range_blocks f b a]
  exact Finset.sum_congr rfl fun s _ => Fin.sum_univ_eq_sum_range (fun k => f (b * s + k)) b

end Cert.Lib.BlockedSum
-- ==== Proof.KI.R0OutD.lean ====
/-
  Region 0's first output as a whole array: the row sums of the blend A + β·S.

  At point t the body adds, to the accumulator, the row sums of the blend's 1024 x 1024 block at (t / 8, t % 8); the
  accumulator restarts from zero when the column block is 0.  By induction on the point, after point t the accumulator's
  entry p is the sum of the blend's row 1024·(t / 8) + p over the columns of blocks 0 to t % 8.  The output's window, the
  1024 x 1 block at row block t / 8, is written back only when the column block is 7, when that sum runs over all eight
  blocks, that is over all 8192 columns: sums of extended reals may be regrouped freely.  Every row is in the block of
  the last point of its row block; so after the region the array holds every row's full sum.
-/
import proofs.«130698_j71897752535776_2_alg».proof.Proof.KI.R0OutT
import proofs.«130698_j71897752535776_2_alg».proof.Proof.LibKeepdims
import proofs.«130698_j71897752535776_2_alg».proof.Proof.LibBlockedSum

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat)
open Cert.Proof.RefSpec (beta)

variable (V : (c : Dev nD) → (b : Ref sig .tc) → Buf (Elt Ideal) ((c : Thread nD τ).loc b))

/-! ## The body's arithmetic at an entry -/

/-- A lane sum with the zero initial word, at the exact instance, is the sum over the reduced axis. -/
theorem lane_sum (src : FVec Ideal S1024x1024 .f32) (hφ : FKind.Formats .f32)
    (hacc : (0x00000000#32 : BitVec 32) = 0x00000000#32) (p : Fin 1024) :
    multiReduction (F := Ideal) .add [1] S1024 src 0x00000000#32 reduces_S1024x1024_S1024 hφ hacc (ix1 p)
      = ∑ k : Fin 1024, src (reduces_S1024x1024_S1024.lift (ix1 p) k) :=
  Ideal.multiReduction_add_single src 0x00000000#32 reduces_S1024x1024_S1024 hφ hacc (ix1 p)

/-- The accumulator's new entry: its old entry plus the row's sum over the block's 1024 columns of the blend. -/
theorem pay_rowsum (x0 x1 : Vec Ideal S1024x1024 .f32) (acc : Vec Ideal S1024x1 .f32) (p : Fin 1024) :
    k0_pay3 (F := Ideal) x0 x1 acc (ix2 p (0 : Fin 1))
      = acc (ix2 p (0 : Fin 1)) + ∑ k : Fin 1024, (x0 (ix2 p k) + beta * x1 (ix2 p k)) := by
  unfold k0_pay3
  rw [shapeCast_self]
  show acc (ix2 p (0 : Fin 1)) + shapeCast S1024x1 _ shapeCasts_S1024_S1024x1 (ix2 p (0 : Fin 1)) = _
  rw [Cert.Lib.Keepdims.col_apply]
  refine congrArg (_ + ·) ((lane_sum _ _ _ p).trans (Finset.sum_congr rfl fun k _ => ?_))
  show k0_pay2 (F := Ideal) x0 x1 _ = _
  unfold k0_pay2
  exact congrArg₂ (fun a b => a + beta * b)
    (congrArg x0 (funext fun a => Fin.ext (by match a with | ⟨0, _⟩ => rfl | ⟨1, _⟩ => rfl)))
    (congrArg x1 (funext fun a => Fin.ext (by match a with | ⟨0, _⟩ => rfl | ⟨1, _⟩ => rfl)))

/-- The zero fill is zero at every entry. -/
theorem pay_zero (j : S1024x1.Idx) : k0_pay1 (F := Ideal) j = 0 := by
  unfold k0_pay1
  rw [shapeCast_self]
  exact Ideal.ofBits_zero_f32

/-! ## The blend at natural-number coordinates -/

/-- The blend of the two arrays as the region finds them, at row `i` and column `j`; zero outside the array. -/
def blendN (c : Dev nD) (i j : ℕ) : EReal :=
  if h : i < 8192 ∧ j < 8192 then blend (arrA V c) (arrS V c) (ix2 ⟨i, h.1⟩ ⟨j, h.2⟩) else 0

/-- The two input blocks at point `t`, as blocks of extended reals. -/
abbrev blkA (c : Dev nD) (t : Fin cfg0.N) : Vec Ideal S1024x1024 .f32 := iblk V c 0 t
abbrev blkS (c : Dev nD) (t : Fin cfg0.N) : Vec Ideal S1024x1024 .f32 := iblk V c 1 t

/-- The two input blocks at point `t`, blended at `(p, k)`, are the arrays' blend at row 1024·(t / 8) + p, column
    1024·(t % 8) + k. -/
theorem blk_blend (c : Dev nD) (t : Fin cfg0.N) (p k : Fin 1024) :
    blkA V c t (ix2 p k) + beta * blkS V c t (ix2 p k)
      = blendN V c (1024 * (t.val / 8) + p.val) (1024 * (t.val % 8) + k.val) := by
  have ht : t.val < 64 := lt_of_lt_of_eq t.isLt N_0
  have hp := p.isLt; have hk := k.isLt
  obtain ⟨e0, e1, e2, e3, e4, e5, -, -⟩ := idx_facts t
  unfold blendN
  rw [dif_pos ⟨by omega, by omega⟩]
  show arrA V c (((cfg0.win 0).blk t).view.emb (ix2 p k)) + beta * arrS V c (((cfg0.win 1).blk t).view.emb (ix2 p k)) = _
  have h0 : ((cfg0.win 0).blk t).view.emb (ix2 p k)
      = ix2 (⟨1024 * (t.val / 8) + p.val, by omega⟩ : Fin 8192) (⟨1024 * (t.val % 8) + k.val, by omega⟩ : Fin 8192) := by
    funext a; apply Fin.ext
    match a with
    | ⟨0, _⟩ => show win0_0.index t (0 : Fin 2) * 1024 + 1 * p.val = 1024 * (t.val / 8) + p.val; omega
    | ⟨1, _⟩ => show win0_0.index t (1 : Fin 2) * 1024 + 1 * k.val = 1024 * (t.val % 8) + k.val; omega
  have h1 : ((cfg0.win 1).blk t).view.emb (ix2 p k)
      = ix2 (⟨1024 * (t.val / 8) + p.val, by omega⟩ : Fin 8192) (⟨1024 * (t.val % 8) + k.val, by omega⟩ : Fin 8192) := by
    funext a; apply Fin.ext
    match a with
    | ⟨0, _⟩ => show win0_1.index t (0 : Fin 2) * 1024 + 1 * p.val = 1024 * (t.val / 8) + p.val; omega
    | ⟨1, _⟩ => show win0_1.index t (1 : Fin 2) * 1024 + 1 * k.val = 1024 * (t.val % 8) + k.val; omega
  rw [h0, h1]

/-! ## The accumulator in closed form -/

/-- After point `n` the accumulator's entry `p` is the sum of the blend's row 1024·(n / 8) + p over the columns of
    blocks 0 to n % 8. -/
theorem accAt_closed (c : Dev nD) : ∀ (n : ℕ) (hn : n < cfg0.N) (p : Fin 1024),
    accAt V c n hn (ix2 p (0 : Fin 1))
      = ∑ b ∈ Finset.range (n % 8 + 1), ∑ k : Fin 1024, blendN V c (1024 * (n / 8) + p.val) (1024 * b + k.val) := by
  intro n
  induction n with
  | zero =>
    intro hn p
    show k0_pay3 (F := Ideal) (iblk V c 0 ⟨0, hn⟩) (iblk V c 1 ⟨0, hn⟩) (k0_pay1 (F := Ideal)) (ix2 p (0 : Fin 1)) = _
    rw [pay_rowsum, pay_zero, zero_add, Finset.sum_range_one]
    exact Finset.sum_congr rfl fun k _ => blk_blend V c ⟨0, hn⟩ p k
  | succ n ih =>
    intro hn p
    by_cases h : (n + 1) % 8 = 0
    · rw [show accAt V c (n + 1) hn = k0_pay3 (F := Ideal) (iblk V c 0 ⟨n + 1, hn⟩) (iblk V c 1 ⟨n + 1, hn⟩) (k0_pay1 (F := Ideal)) from if_pos h,
        pay_rowsum, pay_zero, zero_add, h, Finset.sum_range_one]
      refine Finset.sum_congr rfl fun k _ => ?_
      have := blk_blend V c ⟨n + 1, hn⟩ p k
      rw [show (⟨n + 1, hn⟩ : Fin cfg0.N).val = n + 1 from rfl, h] at this
      exact this
    · have e1 : (n + 1) / 8 = n / 8 := by omega
      have e2 : (n + 1) % 8 = n % 8 + 1 := by omega
      rw [show accAt V c (n + 1) hn = k0_pay3 (F := Ideal) (iblk V c 0 ⟨n + 1, hn⟩) (iblk V c 1 ⟨n + 1, hn⟩)
            (accAt V c n (Nat.lt_of_succ_lt hn)) from if_neg h,
        pay_rowsum, ih (Nat.lt_of_succ_lt hn) p, e1, e2]
      conv_rhs => rw [Finset.sum_range_succ]
      refine congrArg (_ + ·) (Finset.sum_congr rfl fun k _ => ?_)
      have := blk_blend V c ⟨n + 1, hn⟩ p k
      rw [show (⟨n + 1, hn⟩ : Fin cfg0.N).val = n + 1 from rfl, e1, e2] at this
      exact this

/-! ## From blocks to the array -/

/-- The row sums of the blend of the two arrays as the region finds them, as a column. -/
def rowsum (c : Dev nD) : S8192x1.Idx → EReal :=
  fun i => ∑ j : Fin 8192, blend (arrA V c) (arrS V c) (ix2 (⟨(i 0).val, (i 0).isLt⟩ : Fin 8192) j)

/-- What a point whose column block is 7 writes back of the row-sum window is its block of the row sums. -/
theorem flushedD_eq (c : Dev nD) (t : Fin cfg0.N) (hf : t.val % 8 = 7) :
    (dat V c).flushed 2 t = ((cfg0.win 2).blk t).view.read (Elt Ideal) (rowsum V c) := by
  show (cfg0.win 2).cut (grid0.coords t) ((dat V c).after 2 t) = _
  rw [after_D]
  have ht : t.val < 64 := lt_of_lt_of_eq t.isLt N_0
  obtain ⟨-, -, -, -, -, -, e6, e7⟩ := idx_facts t
  funext j
  obtain ⟨p, u, rfl⟩ : ∃ (p : Fin 1024) (u : Fin 1), j = ix2 p u := ⟨j 0, j 1, eq_ix2 j⟩
  obtain rfl : u = 0 := Subsingleton.elim _ _
  have hp := p.isLt
  show accAt V c t.val t.isLt (ix2 p (0 : Fin 1)) = rowsum V c (((cfg0.win 2).blk t).view.emb (ix2 p (0 : Fin 1)))
  rw [accAt_closed, hf]
  have hrow : (((cfg0.win 2).blk t).view.emb (ix2 p (0 : Fin 1)) 0).val = 1024 * (t.val / 8) + p.val := by
    show win0_2.index t (0 : Fin 2) * 1024 + 1 * p.val = _
    omega
  unfold rowsum
  have hblocks := Cert.Lib.BlockedSum.sum_fin_blocks (fun j => blendN V c (1024 * (t.val / 8) + p.val) j) 8 1024
  refine hblocks.trans (Finset.sum_congr rfl fun j _ => ?_)
  have hj : j.val < 8192 := j.isLt
  unfold blendN
  rw [dif_pos ⟨by omega, hj⟩]
  exact congrArg (blend (arrA V c) (arrS V c))
    (funext fun a => Fin.ext (by match a with | ⟨0, _⟩ => exact hrow.symm | ⟨1, _⟩ => rfl))

/-- An index of the column is in point `t`'s block iff its row is in the block's range. -/
theorem mem_blkD (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0_0).slice (win0_2.rect t)).set ↔ _
  rw [View.set_slice_whole, Rect.mem_set_unit]
  exact Iff.rfl

/-- Every row is in the block of the last point of its row block. -/
theorem coverD (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 64 := N_0
  refine ⟨⟨8 * ((i 0).val / 1024) + 7, by omega⟩, (flush0_2 _).mpr (by dsimp only; omega), ?_⟩
  rw [mem_blkD]
  obtain ⟨-, -, -, -, -, -, e6, e7⟩ := idx_facts ⟨8 * ((i 0).val / 1024) + 7, by omega⟩
  intro a
  match a with
  | ⟨0, _⟩ =>
    show win0_2.index _ (0 : Fin 2) * 1024 ≤ (i 0).val ∧ (i 0).val < win0_2.index _ (0 : Fin 2) * 1024 + 1024
    rw [e6]; dsimp only; omega
  | ⟨1, _⟩ =>
    show win0_2.index _ (1 : Fin 2) * 1 ≤ (i 1).val ∧ (i 1).val < win0_2.index _ (1 : Fin 2) * 1 + 1
    rw [e7]; omega

/-- After the region the row-sum array holds every row's sum of the blend over all 8192 columns. -/
theorem rowsum_array (c : Dev nD) : (dat V c).arrAt 2 cfg0.N = rowsum V c :=
  (dat V c).arrAt_eq_of_cover 2 (rowsum V c) (fun t hf => flushedD_eq V c t ((flush0_2 t).mp hf)) coverD

theorem rowsum_apply (c : Dev nD) (i : Fin 8192) :
    (dat V c).arrAt 2 cfg0.N (ix2 i (0 : Fin 1)) = ∑ j : Fin 8192, (arrA V c (ix2 i j) + beta * arrS V c (ix2 i j)) := by
  rw [rowsum_array]; rfl

end Cert.KernelIdeal.R0

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.KI.R1Out.lean ====
/-
  Region 1: its output array as one function of what the region finds, at the exact values.

  The output array ends holding, at (i, q), the inner product of row i of the staged matrix with column q of the
  pre-scaled features (a sum over all 8192 positions), times row i's factor.  The road: each payload read at an index
  (the zero fill is 0; the accumulation step adds the 1024-term inner product of the two blocks; the scaling step
  multiplies by the row's factor); each window's block read as entries of its array; the accumulator after the point of
  row block r and column block b, by induction on the point, as the sum over column blocks 0 to b of those 1024-term
  sums; at column block 7 the eight of them joined into one sum over 8192 positions (sums of extended reals are
  associative and commutative, nothing more is needed); then what a point that writes the window back leaves there is
  its block of the whole-array function, every row is in the block written at the last point of its row block, and so
  the array is that function.
-/
import proofs.«130698_j71897752535776_2_alg».proof.Proof.KI.R1Data
import proofs.«130698_j71897752535776_2_alg».proof.Proof.LibPlainDot
import proofs.«130698_j71897752535776_2_alg».proof.Proof.LibBlockedSum
import proofs.«130698_j71897752535776_2_alg».proof.Proof.LibKeepdims
import Idealize.ShloMosaic.Lib.ValueIdx
import Idealize.ShloMosaic.Lib.Pipeline.Value
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The payloads at the exact values, read at an index -/

/-- The zero fill is zero everywhere. -/
theorem pay1_apply (p : Fin 1024) (q : Fin 256) : (k1_pay1 (F := Ideal)) (ix2 p q) = 0 :=
  (congrFun (shapeCast_self (broadcast S1024x256 (Scalar.ofBits (F := Ideal) .f32 0x00000000#32)) shapeCasts_S1024x256_S1024x256) (ix2 p q)).trans
    Ideal.ofBits_zero_f32

/-- The accumulation step: the accumulator's entry plus the row of the matrix block times the column of the
    features' block (the narrowing of the features is the identity at the exact values). -/
theorem pay2_apply (x1 : Vec Ideal S1024x256 .f32) (xs : Vec Ideal S1024x256 .f32) (x0 : Vec Ideal S1024x1024 .bf16)
    (p : Fin 1024) (q : Fin 256) :
    k1_pay2 x1 xs x0 (ix2 p q) = xs (ix2 p q) + ∑ k : Fin 1024, x0 (ix2 p k) * x1 (ix2 k q) := by
  unfold k1_pay2
  refine (congrFun (shapeCast_self _ _) (ix2 p q)).trans ?_
  refine congrArg (fun z => xs (ix2 p q) + z) ?_
  refine (Cert.Lib.PlainDot.matmul_zero_apply dot_S1024x1024_S1024x256_S1024x256_1_0_0_1_n_n_wf none _ _ p q).trans ?_
  refine Finset.sum_congr rfl fun k _ => ?_
  exact congr (congrArg _ (congrFun (shapeCast_self x0 _) (ix2 p k))) (congrFun (shapeCast_self x1 _) (ix2 k q))

/-- The scaling step: the entry times its row's factor. -/
theorem pay3_apply (a : Vec Ideal S1024x256 .f32) (r : Vec Ideal S1024x1 .f32) (p : Fin 1024) (q : Fin 256) :
    k1_pay3 a r (ix2 p q) = a (ix2 p q) * r (ix2 p (0 : Fin 1)) := by
  unfold k1_pay3
  refine congrArg (fun z => a (ix2 p q) * z) ?_
  refine (Cert.Lib.Keepdims.bcastCol_apply _ broadcasts_S1024x1_S1024x256 p q).trans ?_
  exact congrFun (shapeCast_self r _) (ix2 p (0 : Fin 1))

/-! ## The arrays the region reads, as it finds them -/

/-- The staged matrix. -/
abbrev arrM (c : Dev nD) : S8192x8192.Idx → Elt Ideal .bf16 := V c main_v0_1
/-- The pre-scaled features. -/
abbrev arrH (c : Dev nD) : S8192x256.Idx → Elt Ideal .f32 := V c main_v11
/-- The row factors. -/
abbrev arrR (c : Dev nD) : S8192x1.Idx → Elt Ideal .f32 := V c main_v8

/-! ## The windows' blocks, entry by entry -/

/-- The printed index maps over the grid: the matrix's block is (row block, column block), the features' block is
    the column block, the row factors' and the output's block is the row block. -/
theorem idx_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0 :=
  (by decide +kernel : ∀ t : Fin grid1.N, _)

/-- The matrix's block at point `t` is rows 1024·(t / 8) + p, columns 1024·(t % 8) + k of the matrix. -/
theorem iblk0_apply (c : Dev nD) (t : Fin cfg1.N) (p k : Fin 1024) (i j : Fin 8192)
    (hi : i.val = 1024 * (t.val / 8) + p.val) (hj : j.val = 1024 * (t.val % 8) + k.val) :
    (iblk V c 0 t : Vec Ideal S1024x1024 .bf16) (ix2 p k) = arrM V c (ix2 i j) := by
  obtain ⟨e0, e1, -⟩ := idx_facts t
  unfold iblk
  rw [View.read_apply]
  show V c main_v0_1 _ = V c main_v0_1 _
  congr 1
  funext a
  apply Fin.ext
  match a with
  | ⟨0, _⟩ => show win1_0.index t 0 * 1024 + 1 * p.val = i.val; rw [e0, hi]; omega
  | ⟨1, _⟩ => show win1_0.index t 1 * 1024 + 1 * k.val = j.val; rw [e1, hj]; omega

/-- The features' block at point `t` is rows 1024·(t % 8) + k of the features. -/
theorem iblk1_apply (c : Dev nD) (t : Fin cfg1.N) (k : Fin 1024) (q : Fin 256) (j : Fin 8192)
    (hj : j.val = 1024 * (t.val % 8) + k.val) :
    (iblk V c 1 t : Vec Ideal S1024x256 .f32) (ix2 k q) = arrH V c (ix2 j q) := by
  obtain ⟨-, -, e0, e1, -⟩ := idx_facts t
  unfold iblk
  rw [View.read_apply]
  show V c main_v11 _ = V c main_v11 _
  congr 1
  funext a
  apply Fin.ext
  match a with
  | ⟨0, _⟩ => show win1_1.index t 0 * 1024 + 1 * k.val = j.val; rw [e0, hj]; omega
  | ⟨1, _⟩ => show win1_1.index t 1 * 256 + 1 * q.val = q.val; rw [e1]; omega

/-- The row factors' block at point `t` is rows 1024·(t / 8) + p of the row factors. -/
theorem iblk2_apply (c : Dev nD) (t : Fin cfg1.N) (p : Fin 1024) (i : Fin 8192)
    (hi : i.val = 1024 * (t.val / 8) + p.val) :
    (iblk V c 2 t : Vec Ideal S1024x1 .f32) (ix2 p (0 : Fin 1)) = arrR V c (ix2 i (0 : Fin 1)) := by
  obtain ⟨-, -, -, -, e0, e1, -⟩ := idx_facts t
  unfold iblk
  rw [View.read_apply]
  show V c main_v8 _ = V c main_v8 _
  congr 1
  funext a
  apply Fin.ext
  match a with
  | ⟨0, _⟩ => show win1_2.index t 0 * 1024 + 1 * p.val = i.val; rw [e0, hi]; omega
  | ⟨1, _⟩ => show win1_2.index t 1 * 1 + 1 * 0 = 0; rw [e1]

/-! ## The accumulator in closed form -/

/-- Row `i` of the matrix times column `q` of the features at contraction position `j` (zero past the extent). -/
def term (c : Dev nD) (i : Fin 8192) (q : Fin 256) (j : ℕ) : Ideal .f32 :=
  if h : j < 8192 then arrM V c (ix2 i ⟨j, h⟩) * arrH V c (ix2 ⟨j, h⟩ q) else 0

/-- At the point of row block `r` and column block `b`, entry (p, k) of the matrix's block times entry (k, q) of the
    features' block is the term at contraction position 1024·b + k of row 1024·r + p. -/
theorem blockTerm (c : Dev nD) (t : Fin cfg1.N) (x0 : Vec Ideal S1024x1024 .bf16) (x1 : Vec Ideal S1024x256 .f32)
    (h0 : x0 = iblk V c 0 t) (h1 : x1 = iblk V c 1 t) (p k : Fin 1024) (q : Fin 256) (i : Fin 8192) (r b : ℕ)
    (ht : t.val = 8 * r + b) (hb : b < 8) (hi : i.val = 1024 * r + p.val) :
    x0 (ix2 p k) * x1 (ix2 k q) = term V c i q (1024 * b + k.val) := by
  have hj : 1024 * b + k.val < 8192 := by have := k.isLt; omega
  subst h0; subst h1
  unfold term
  rw [dif_pos hj]
  exact congrArg₂ (fun (a : Elt Ideal .bf16) (b : Elt Ideal .f32) => a * b)
    (iblk0_apply V c t p k i ⟨_, hj⟩ (by rw [hi]; omega) (by show 1024 * b + k.val = _; omega))
    (iblk1_apply V c t k q ⟨_, hj⟩ (by show 1024 * b + k.val = _; omega))

/-- After the point of row block `r` and column block `b` the accumulator holds, at (p, q), the terms of row
    1024·r + p and column q over the contraction positions of column blocks 0 to b. -/
theorem accAt_apply (c : Dev nD) : ∀ (n : ℕ) (hn : n < cfg1.N) (p : Fin 1024) (q : Fin 256) (i : Fin 8192) (r b : ℕ),
    n = 8 * r + b → b < 8 → i.val = 1024 * r + p.val →
    accAt V c n hn (ix2 p q) = ∑ s ∈ Finset.range (b + 1), ∑ k : Fin 1024, term V c i q (1024 * s + k.val)
  | 0, hn, p, q, i, r, b, hnb, hb, hi => by
    obtain rfl : b = 0 := by omega
    have e : accAt V c 0 hn = k1_pay2 (iblk V c 1 ⟨0, hn⟩) (k1_pay1 (F := Ideal)) (iblk V c 0 ⟨0, hn⟩) := rfl
    rw [e]
    refine (pay2_apply (iblk V c 1 ⟨0, hn⟩) (k1_pay1 (F := Ideal)) (iblk V c 0 ⟨0, hn⟩) p q).trans ?_
    rw [pay1_apply, zero_add, Finset.sum_range_one]
    exact Finset.sum_congr rfl fun k _ => blockTerm V c ⟨0, hn⟩ (iblk V c 0 ⟨0, hn⟩) (iblk V c 1 ⟨0, hn⟩) rfl rfl p k q i r 0 hnb hb hi
  | n + 1, hn, p, q, i, r, b, hnb, hb, hi => by
    cases b with
    | zero =>
      have h0 : (n + 1) % 8 = 0 := by omega
      have e : accAt V c (n + 1) hn = k1_pay2 (iblk V c 1 ⟨n + 1, hn⟩) (k1_pay1 (F := Ideal)) (iblk V c 0 ⟨n + 1, hn⟩) := if_pos h0
      rw [e]
      refine (pay2_apply (iblk V c 1 ⟨n + 1, hn⟩) (k1_pay1 (F := Ideal)) (iblk V c 0 ⟨n + 1, hn⟩) p q).trans ?_
      rw [pay1_apply, zero_add, Finset.sum_range_one]
      exact Finset.sum_congr rfl fun k _ => blockTerm V c ⟨n + 1, hn⟩ (iblk V c 0 ⟨n + 1, hn⟩) (iblk V c 1 ⟨n + 1, hn⟩) rfl rfl p k q i r 0 hnb hb hi
    | succ b =>
      have h0 : ¬(n + 1) % 8 = 0 := by omega
      have e : accAt V c (n + 1) hn
          = k1_pay2 (iblk V c 1 ⟨n + 1, hn⟩) (accAt V c n (Nat.lt_of_succ_lt hn)) (iblk V c 0 ⟨n + 1, hn⟩) := if_neg h0
      rw [e]
      refine (pay2_apply (iblk V c 1 ⟨n + 1, hn⟩) (accAt V c n (Nat.lt_of_succ_lt hn)) (iblk V c 0 ⟨n + 1, hn⟩) p q).trans ?_
      rw [accAt_apply c n (Nat.lt_of_succ_lt hn) p q i r b (by omega) (by omega) hi, Finset.sum_range_succ _ (b + 1)]
      refine congrArg (fun z => _ + z) ?_
      exact Finset.sum_congr rfl fun k _ => blockTerm V c ⟨n + 1, hn⟩ (iblk V c 0 ⟨n + 1, hn⟩) (iblk V c 1 ⟨n + 1, hn⟩) rfl rfl p k q i r (b + 1) hnb hb hi

/-- After the last point of row block `r` the accumulator holds the whole inner product of row 1024·r + p of the
    matrix with column q of the features: the eight blocks' sums joined into one sum over the 8192 positions. -/
theorem acc_last (c : Dev nD) (t : Fin cfg1.N) (r : ℕ) (ht : t.val = 8 * r + 7) (p : Fin 1024) (q : Fin 256)
    (i : Fin 8192) (hi : i.val = 1024 * r + p.val) :
    accAt V c t.val t.isLt (ix2 p q) = ∑ j : Fin 8192, arrM V c (ix2 i j) * arrH V c (ix2 j q) := by
  rw [accAt_apply V c t.val t.isLt p q i r 7 ht (by omega) hi]
  refine (Cert.Lib.BlockedSum.sum_fin_blocks (term V c i q) 8 1024).trans ?_
  exact Finset.sum_congr rfl fun j _ => dif_pos j.isLt

/-! ## From the blocks to the array -/

/-- Entry (i, q) of the product scaled by row i's factor. -/
def outAt (c : Dev nD) (i : Fin 8192) (q : Fin 256) : Ideal .f32 :=
  (∑ j : Fin 8192, arrM V c (ix2 i j) * arrH V c (ix2 j q)) * arrR V c (ix2 i (0 : Fin 1))

/-- The output array as one function of the region's entry contents. -/
def G (c : Dev nD) : S8192x256.Idx → Elt Ideal .f32 := fun y => outAt V c (y 0) (y 1)

/-- What the last point of row block `r` leaves in the output's window, at (p, q). -/
theorem out_point (c : Dev nD) (t : Fin cfg1.N) (r : ℕ) (ht : t.val = 8 * r + 7) (p : Fin 1024) (q : Fin 256)
    (i : Fin 8192) (hi : i.val = 1024 * r + p.val) :
    k1_pay3 (accAt V c t.val t.isLt) (iblk V c 2 t) (ix2 p q) = outAt V c i q := by
  refine (pay3_apply (accAt V c t.val t.isLt) (iblk V c 2 t) p q).trans ?_
  rw [acc_last V c t r ht p q i hi, iblk2_apply V c t p i (by rw [hi]; omega)]
  rfl

/-- What a point that writes the output's window back leaves there is its block of `G`. -/
theorem flushed_eq (c : Dev nD) (t : Fin cfg1.N) (hf : (cfg1.win 3).flush t = true) :
    (dat V c).flushed 3 t = ((cfg1.win 3).blk t).view.read (Elt Ideal) (G V c) := by
  have h7 : t.val % 8 = 7 := (flush1_3 t).mp hf
  have hN : cfg1.N = 64 := N_1
  have htlt : t.val < 64 := hN ▸ t.isLt
  obtain ⟨-, -, -, -, -, -, e0, e1⟩ := idx_facts t
  show (cfg1.win 3).cut (grid1.coords t) ((dat V c).after 3 t) = _
  rw [after_O]
  funext y
  obtain ⟨p, q, rfl⟩ : ∃ (p : Fin 1024) (q : Fin 256), y = (ix2 p q : S1024x256.Idx) :=
    ⟨(y : S1024x256.Idx) 0, (y : S1024x256.Idx) 1, eq_ix2 (y : S1024x256.Idx)⟩
  rw [View.read_apply]
  have hi : 1024 * (t.val / 8) + p.val < 8192 := by have := p.isLt; omega
  have hemb : ((cfg1.win 3).blk t).view.emb (ix2 p q : S1024x256.Idx)
      = (ix2 (⟨1024 * (t.val / 8) + p.val, hi⟩ : Fin 8192) q : S8192x256.Idx) := by
    funext a
    apply Fin.ext
    match a with
    | ⟨0, _⟩ => show win1_3.index t 0 * 1024 + 1 * p.val = 1024 * (t.val / 8) + p.val; rw [e0]; omega
    | ⟨1, _⟩ => show win1_3.index t 1 * 256 + 1 * q.val = q.val; rw [e1]; omega
  rw [hemb]
  exact out_point V c t (t.val / 8) (by omega) p q ⟨_, hi⟩ rfl

/-- Row i of the array is in the block written back at the last point of its row block. -/
theorem cover (i : S8192x256.Idx) :
    ∃ t : Fin cfg1.N, (cfg1.win 3).flush t = true ∧ i ∈ ((cfg1.win 3).blk t).view.set := by
  have hN : cfg1.N = 64 := N_1
  have h0 : (i 0).val < 8192 := idx2_lt0 i
  have h1 : (i 1).val < 256 := idx2_lt1 i
  let t : Fin cfg1.N := ⟨8 * ((i 0).val / 1024) + 7, by rw [hN]; omega⟩
  have ht : t.val = 8 * ((i 0).val / 1024) + 7 := rfl
  obtain ⟨-, -, -, -, -, -, e0, e1⟩ := idx_facts t
  refine ⟨t, (flush1_3 t).mpr (by rw [ht]; omega), ?_⟩
  show i ∈ ((View.whole main_v12).slice (win1_3.rect t)).set
  rw [View.set_slice_whole, Rect.mem_set_unit]
  intro a
  match a with
  | ⟨0, _⟩ =>
    show win1_3.index t 0 * 1024 ≤ (i 0).val ∧ (i 0).val < win1_3.index t 0 * 1024 + 1024
    rw [e0, ht]; omega
  | ⟨1, _⟩ =>
    show win1_3.index t 1 * 256 ≤ (i 1).val ∧ (i 1).val < win1_3.index t 1 * 256 + 256
    rw [e1]; omega

/-- The output array after the region: the product of the matrix and the features, each row scaled by its factor. -/
theorem final (c : Dev nD) : (dat V c).arrAt 3 cfg1.N = G V c :=
  (dat V c).arrAt_eq_of_cover 3 (G V c) (flushed_eq V c) (cover)

/-- Entry by entry. -/
theorem out_apply (c : Dev nD) (i : Fin 8192) (q : Fin 256) :
    (dat V c).arrAt 3 cfg1.N (ix2 i q)
      = (∑ j : Fin 8192, arrM V c (ix2 i j) * arrH V c (ix2 j q)) * arrR V c (ix2 i (0 : Fin 1)) :=
  congrFun (final V c) (ix2 i q)

end Cert.KernelIdeal.R1

end
-- ==== Proof.KI.R2Out.lean ====
/-
  Region 2: its output array as one function of what the region finds, at the exact values.

  The output array ends holding, at (i, q), the inner product of row i of the staged matrix with column q of the
  pre-scaled features (a sum over all 8192 positions), times row i's factor.  The road: each payload read at an index
  (the zero fill is 0; the accumulation step adds the 1024-term inner product of the two blocks; the scaling step
  multiplies by the row's factor); each window's block read as entries of its array; the accumulator after the point of
  row block r and column block b, by induction on the point, as the sum over column blocks 0 to b of those 1024-term
  sums; at column block 7 the eight of them joined into one sum over 8192 positions (sums of extended reals are
  associative and commutative, nothing more is needed); then what a point that writes the window back leaves there is
  its block of the whole-array function, every row is in the block written at the last point of its row block, and so
  the array is that function.
-/
import proofs.«130698_j71897752535776_2_alg».proof.Proof.KI.R2Data
import proofs.«130698_j71897752535776_2_alg».proof.Proof.LibPlainDot
import proofs.«130698_j71897752535776_2_alg».proof.Proof.LibBlockedSum
import proofs.«130698_j71897752535776_2_alg».proof.Proof.LibKeepdims
import Idealize.ShloMosaic.Lib.ValueIdx
import Idealize.ShloMosaic.Lib.Pipeline.Value
import Idealize.ShloMosaic.PureOps.Ideal.Laws

set_option maxRecDepth 16384

noncomputable section

namespace Cert.KernelIdeal.R2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The payloads at the exact values, read at an index -/

/-- The zero fill is zero everywhere. -/
theorem pay1_apply (p : Fin 1024) (q : Fin 128) : (k2_pay1 (F := Ideal)) (ix2 p q) = 0 :=
  (congrFun (shapeCast_self (broadcast S1024x128 (Scalar.ofBits (F := Ideal) .f32 0x00000000#32)) shapeCasts_S1024x128_S1024x128) (ix2 p q)).trans
    Ideal.ofBits_zero_f32

/-- The accumulation step: the accumulator's entry plus the row of the matrix block times the column of the
    features' block (the narrowing of the features is the identity at the exact values). -/
theorem pay2_apply (x1 : Vec Ideal S1024x128 .f32) (xs : Vec Ideal S1024x128 .f32) (x0 : Vec Ideal S1024x1024 .bf16)
    (p : Fin 1024) (q : Fin 128) :
    k2_pay2 x1 xs x0 (ix2 p q) = xs (ix2 p q) + ∑ k : Fin 1024, x0 (ix2 p k) * x1 (ix2 k q) := by
  unfold k2_pay2
  refine (congrFun (shapeCast_self _ _) (ix2 p q)).trans ?_
  refine congrArg (fun z => xs (ix2 p q) + z) ?_
  refine (Cert.Lib.PlainDot.matmul_zero_apply dot_S1024x1024_S1024x128_S1024x128_1_0_0_1_n_n_wf none _ _ p q).trans ?_
  refine Finset.sum_congr rfl fun k _ => ?_
  exact congr (congrArg _ (congrFun (shapeCast_self x0 _) (ix2 p k))) (congrFun (shapeCast_self x1 _) (ix2 k q))

/-- The scaling step: the entry times its row's factor. -/
theorem pay3_apply (a : Vec Ideal S1024x128 .f32) (r : Vec Ideal S1024x1 .f32) (p : Fin 1024) (q : Fin 128) :
    k2_pay3 a r (ix2 p q) = a (ix2 p q) * r (ix2 p (0 : Fin 1)) := by
  unfold k2_pay3
  refine congrArg (fun z => a (ix2 p q) * z) ?_
  refine (Cert.Lib.Keepdims.bcastCol_apply _ broadcasts_S1024x1_S1024x128 p q).trans ?_
  exact congrFun (shapeCast_self r _) (ix2 p (0 : Fin 1))

/-! ## The arrays the region reads, as it finds them -/

/-- The staged matrix. -/
abbrev arrM (c : Dev nD) : S8192x8192.Idx → Elt Ideal .bf16 := V c main_v0_1
/-- The pre-scaled features. -/
abbrev arrH (c : Dev nD) : S8192x128.Idx → Elt Ideal .f32 := V c main_v25
/-- The row factors. -/
abbrev arrR (c : Dev nD) : S8192x1.Idx → Elt Ideal .f32 := V c main_v8

/-! ## The windows' blocks, entry by entry -/

/-- The printed index maps over the grid: the matrix's block is (row block, column block), the features' block is
    the column block, the row factors' and the output's block is the row block. -/
theorem idx_facts : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = 0 :=
  (by decide +kernel : ∀ t : Fin grid2.N, _)

/-- The matrix's block at point `t` is rows 1024·(t / 8) + p, columns 1024·(t % 8) + k of the matrix. -/
theorem iblk0_apply (c : Dev nD) (t : Fin cfg2.N) (p k : Fin 1024) (i j : Fin 8192)
    (hi : i.val = 1024 * (t.val / 8) + p.val) (hj : j.val = 1024 * (t.val % 8) + k.val) :
    (iblk V c 0 t : Vec Ideal S1024x1024 .bf16) (ix2 p k) = arrM V c (ix2 i j) := by
  obtain ⟨e0, e1, -⟩ := idx_facts t
  unfold iblk
  rw [View.read_apply]
  show V c main_v0_1 _ = V c main_v0_1 _
  congr 1
  funext a
  apply Fin.ext
  match a with
  | ⟨0, _⟩ => show win2_0.index t 0 * 1024 + 1 * p.val = i.val; rw [e0, hi]; omega
  | ⟨1, _⟩ => show win2_0.index t 1 * 1024 + 1 * k.val = j.val; rw [e1, hj]; omega

/-- The features' block at point `t` is rows 1024·(t % 8) + k of the features. -/
theorem iblk1_apply (c : Dev nD) (t : Fin cfg2.N) (k : Fin 1024) (q : Fin 128) (j : Fin 8192)
    (hj : j.val = 1024 * (t.val % 8) + k.val) :
    (iblk V c 1 t : Vec Ideal S1024x128 .f32) (ix2 k q) = arrH V c (ix2 j q) := by
  obtain ⟨-, -, e0, e1, -⟩ := idx_facts t
  unfold iblk
  rw [View.read_apply]
  show V c main_v25 _ = V c main_v25 _
  congr 1
  funext a
  apply Fin.ext
  match a with
  | ⟨0, _⟩ => show win2_1.index t 0 * 1024 + 1 * k.val = j.val; rw [e0, hj]; omega
  | ⟨1, _⟩ => show win2_1.index t 1 * 128 + 1 * q.val = q.val; rw [e1]; omega

/-- The row factors' block at point `t` is rows 1024·(t / 8) + p of the row factors. -/
theorem iblk2_apply (c : Dev nD) (t : Fin cfg2.N) (p : Fin 1024) (i : Fin 8192)
    (hi : i.val = 1024 * (t.val / 8) + p.val) :
    (iblk V c 2 t : Vec Ideal S1024x1 .f32) (ix2 p (0 : Fin 1)) = arrR V c (ix2 i (0 : Fin 1)) := by
  obtain ⟨-, -, -, -, e0, e1, -⟩ := idx_facts t
  unfold iblk
  rw [View.read_apply]
  show V c main_v8 _ = V c main_v8 _
  congr 1
  funext a
  apply Fin.ext
  match a with
  | ⟨0, _⟩ => show win2_2.index t 0 * 1024 + 1 * p.val = i.val; rw [e0, hi]; omega
  | ⟨1, _⟩ => show win2_2.index t 1 * 1 + 1 * 0 = 0; rw [e1]

/-! ## The accumulator in closed form -/

/-- Row `i` of the matrix times column `q` of the features at contraction position `j` (zero past the extent). -/
def term (c : Dev nD) (i : Fin 8192) (q : Fin 128) (j : ℕ) : Ideal .f32 :=
  if h : j < 8192 then arrM V c (ix2 i ⟨j, h⟩) * arrH V c (ix2 ⟨j, h⟩ q) else 0

/-- At the point of row block `r` and column block `b`, entry (p, k) of the matrix's block times entry (k, q) of the
    features' block is the term at contraction position 1024·b + k of row 1024·r + p. -/
theorem blockTerm (c : Dev nD) (t : Fin cfg2.N) (x0 : Vec Ideal S1024x1024 .bf16) (x1 : Vec Ideal S1024x128 .f32)
    (h0 : x0 = iblk V c 0 t) (h1 : x1 = iblk V c 1 t) (p k : Fin 1024) (q : Fin 128) (i : Fin 8192) (r b : ℕ)
    (ht : t.val = 8 * r + b) (hb : b < 8) (hi : i.val = 1024 * r + p.val) :
    x0 (ix2 p k) * x1 (ix2 k q) = term V c i q (1024 * b + k.val) := by
  have hj : 1024 * b + k.val < 8192 := by have := k.isLt; omega
  subst h0; subst h1
  unfold term
  rw [dif_pos hj]
  exact congrArg₂ (fun (a : Elt Ideal .bf16) (b : Elt Ideal .f32) => a * b)
    (iblk0_apply V c t p k i ⟨_, hj⟩ (by rw [hi]; omega) (by show 1024 * b + k.val = _; omega))
    (iblk1_apply V c t k q ⟨_, hj⟩ (by show 1024 * b + k.val = _; omega))

/-- After the point of row block `r` and column block `b` the accumulator holds, at (p, q), the terms of row
    1024·r + p and column q over the contraction positions of column blocks 0 to b. -/
theorem accAt_apply (c : Dev nD) : ∀ (n : ℕ) (hn : n < cfg2.N) (p : Fin 1024) (q : Fin 128) (i : Fin 8192) (r b : ℕ),
    n = 8 * r + b → b < 8 → i.val = 1024 * r + p.val →
    accAt V c n hn (ix2 p q) = ∑ s ∈ Finset.range (b + 1), ∑ k : Fin 1024, term V c i q (1024 * s + k.val)
  | 0, hn, p, q, i, r, b, hnb, hb, hi => by
    obtain rfl : b = 0 := by omega
    have e : accAt V c 0 hn = k2_pay2 (iblk V c 1 ⟨0, hn⟩) (k2_pay1 (F := Ideal)) (iblk V c 0 ⟨0, hn⟩) := rfl
    rw [e]
    refine (pay2_apply (iblk V c 1 ⟨0, hn⟩) (k2_pay1 (F := Ideal)) (iblk V c 0 ⟨0, hn⟩) p q).trans ?_
    rw [pay1_apply, zero_add, Finset.sum_range_one]
    exact Finset.sum_congr rfl fun k _ => blockTerm V c ⟨0, hn⟩ (iblk V c 0 ⟨0, hn⟩) (iblk V c 1 ⟨0, hn⟩) rfl rfl p k q i r 0 hnb hb hi
  | n + 1, hn, p, q, i, r, b, hnb, hb, hi => by
    cases b with
    | zero =>
      have h0 : (n + 1) % 8 = 0 := by omega
      have e : accAt V c (n + 1) hn = k2_pay2 (iblk V c 1 ⟨n + 1, hn⟩) (k2_pay1 (F := Ideal)) (iblk V c 0 ⟨n + 1, hn⟩) := if_pos h0
      rw [e]
      refine (pay2_apply (iblk V c 1 ⟨n + 1, hn⟩) (k2_pay1 (F := Ideal)) (iblk V c 0 ⟨n + 1, hn⟩) p q).trans ?_
      rw [pay1_apply, zero_add, Finset.sum_range_one]
      exact Finset.sum_congr rfl fun k _ => blockTerm V c ⟨n + 1, hn⟩ (iblk V c 0 ⟨n + 1, hn⟩) (iblk V c 1 ⟨n + 1, hn⟩) rfl rfl p k q i r 0 hnb hb hi
    | succ b =>
      have h0 : ¬(n + 1) % 8 = 0 := by omega
      have e : accAt V c (n + 1) hn
          = k2_pay2 (iblk V c 1 ⟨n + 1, hn⟩) (accAt V c n (Nat.lt_of_succ_lt hn)) (iblk V c 0 ⟨n + 1, hn⟩) := if_neg h0
      rw [e]
      refine (pay2_apply (iblk V c 1 ⟨n + 1, hn⟩) (accAt V c n (Nat.lt_of_succ_lt hn)) (iblk V c 0 ⟨n + 1, hn⟩) p q).trans ?_
      rw [accAt_apply c n (Nat.lt_of_succ_lt hn) p q i r b (by omega) (by omega) hi, Finset.sum_range_succ _ (b + 1)]
      refine congrArg (fun z => _ + z) ?_
      exact Finset.sum_congr rfl fun k _ => blockTerm V c ⟨n + 1, hn⟩ (iblk V c 0 ⟨n + 1, hn⟩) (iblk V c 1 ⟨n + 1, hn⟩) rfl rfl p k q i r (b + 1) hnb hb hi

/-- After the last point of row block `r` the accumulator holds the whole inner product of row 1024·r + p of the
    matrix with column q of the features: the eight blocks' sums joined into one sum over the 8192 positions. -/
theorem acc_last (c : Dev nD) (t : Fin cfg2.N) (r : ℕ) (ht : t.val = 8 * r + 7) (p : Fin 1024) (q : Fin 128)
    (i : Fin 8192) (hi : i.val = 1024 * r + p.val) :
    accAt V c t.val t.isLt (ix2 p q) = ∑ j : Fin 8192, arrM V c (ix2 i j) * arrH V c (ix2 j q) := by
  rw [accAt_apply V c t.val t.isLt p q i r 7 ht (by omega) hi]
  refine (Cert.Lib.BlockedSum.sum_fin_blocks (term V c i q) 8 1024).trans ?_
  exact Finset.sum_congr rfl fun j _ => dif_pos j.isLt

/-! ## From the blocks to the array -/

/-- Entry (i, q) of the product scaled by row i's factor. -/
def outAt (c : Dev nD) (i : Fin 8192) (q : Fin 128) : Ideal .f32 :=
  (∑ j : Fin 8192, arrM V c (ix2 i j) * arrH V c (ix2 j q)) * arrR V c (ix2 i (0 : Fin 1))

/-- The output array as one function of the region's entry contents. -/
def G (c : Dev nD) : S8192x128.Idx → Elt Ideal .f32 := fun y => outAt V c (y 0) (y 1)

/-- What the last point of row block `r` leaves in the output's window, at (p, q). -/
theorem out_point (c : Dev nD) (t : Fin cfg2.N) (r : ℕ) (ht : t.val = 8 * r + 7) (p : Fin 1024) (q : Fin 128)
    (i : Fin 8192) (hi : i.val = 1024 * r + p.val) :
    k2_pay3 (accAt V c t.val t.isLt) (iblk V c 2 t) (ix2 p q) = outAt V c i q := by
  refine (pay3_apply (accAt V c t.val t.isLt) (iblk V c 2 t) p q).trans ?_
  rw [acc_last V c t r ht p q i hi, iblk2_apply V c t p i (by rw [hi]; omega)]
  rfl

/-- What a point that writes the output's window back leaves there is its block of `G`. -/
theorem flushed_eq (c : Dev nD) (t : Fin cfg2.N) (hf : (cfg2.win 3).flush t = true) :
    (dat V c).flushed 3 t = ((cfg2.win 3).blk t).view.read (Elt Ideal) (G V c) := by
  have h7 : t.val % 8 = 7 := (flush2_3 t).mp hf
  have hN : cfg2.N = 64 := N_2
  have htlt : t.val < 64 := hN ▸ t.isLt
  obtain ⟨-, -, -, -, -, -, e0, e1⟩ := idx_facts t
  show (cfg2.win 3).cut (grid2.coords t) ((dat V c).after 3 t) = _
  rw [after_O]
  funext y
  obtain ⟨p, q, rfl⟩ : ∃ (p : Fin 1024) (q : Fin 128), y = (ix2 p q : S1024x128.Idx) :=
    ⟨(y : S1024x128.Idx) 0, (y : S1024x128.Idx) 1, eq_ix2 (y : S1024x128.Idx)⟩
  rw [View.read_apply]
  have hi : 1024 * (t.val / 8) + p.val < 8192 := by have := p.isLt; omega
  have hemb : ((cfg2.win 3).blk t).view.emb (ix2 p q : S1024x128.Idx)
      = (ix2 (⟨1024 * (t.val / 8) + p.val, hi⟩ : Fin 8192) q : S8192x128.Idx) := by
    funext a
    apply Fin.ext
    match a with
    | ⟨0, _⟩ => show win2_3.index t 0 * 1024 + 1 * p.val = 1024 * (t.val / 8) + p.val; rw [e0]; omega
    | ⟨1, _⟩ => show win2_3.index t 1 * 128 + 1 * q.val = q.val; rw [e1]; omega
  rw [hemb]
  exact out_point V c t (t.val / 8) (by omega) p q ⟨_, hi⟩ rfl

/-- Row i of the array is in the block written back at the last point of its row block. -/
theorem cover (i : S8192x128.Idx) :
    ∃ t : Fin cfg2.N, (cfg2.win 3).flush t = true ∧ i ∈ ((cfg2.win 3).blk t).view.set := by
  have hN : cfg2.N = 64 := N_2
  have h0 : (i 0).val < 8192 := idx2_lt0 i
  have h1 : (i 1).val < 128 := idx2_lt1 i
  let t : Fin cfg2.N := ⟨8 * ((i 0).val / 1024) + 7, by rw [hN]; omega⟩
  have ht : t.val = 8 * ((i 0).val / 1024) + 7 := rfl
  obtain ⟨-, -, -, -, -, -, e0, e1⟩ := idx_facts t
  refine ⟨t, (flush2_3 t).mpr (by rw [ht]; omega), ?_⟩
  show i ∈ ((View.whole main_v26).slice (win2_3.rect t)).set
  rw [View.set_slice_whole, Rect.mem_set_unit]
  intro a
  match a with
  | ⟨0, _⟩ =>
    show win2_3.index t 0 * 1024 ≤ (i 0).val ∧ (i 0).val < win2_3.index t 0 * 1024 + 1024
    rw [e0, ht]; omega
  | ⟨1, _⟩ =>
    show win2_3.index t 1 * 128 ≤ (i 1).val ∧ (i 1).val < win2_3.index t 1 * 128 + 128
    rw [e1]; omega

/-- The output array after the region: the product of the matrix and the features, each row scaled by its factor. -/
theorem final (c : Dev nD) : (dat V c).arrAt 3 cfg2.N = G V c :=
  (dat V c).arrAt_eq_of_cover 3 (G V c) (flushed_eq V c) (cover)

/-- Entry by entry. -/
theorem out_apply (c : Dev nD) (i : Fin 8192) (q : Fin 128) :
    (dat V c).arrAt 3 cfg2.N (ix2 i q)
      = (∑ j : Fin 8192, arrM V c (ix2 i j) * arrH V c (ix2 j q)) * arrR V c (ix2 i (0 : Fin 1)) :=
  congrFun (final V c) (ix2 i q)

end Cert.KernelIdeal.R2

end
-- ==== Proof.KI.HostBase.lean ====
/-
  The host operations between the kernel program's three launches, read at an index: the shared vocabulary.

  The row factor of the normalisation on one element (`disOf`), the two layout operations the glue uses read at
  explicit coordinates (a column and a row broadcast over a matrix), and its two feature products read as finite sums
  over the shared coordinate.
-/
import proofs.«130698_j71897752535776_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HostRead

open Cert.KernelIdeal Cert.KernelIdeal.Gen
open Idealize.ShloMosaic Idealize.ShloMosaic.TcCoe Idealize.ShloMosaic.StableHlo Idealize.ShloMosaic.ValueIdx

/-! ## The row factor on one element -/

/-- `d ↦ d^(-1/2)`, replaced by zero where that power is infinite in magnitude — on one element, the chain the host
    operations apply: the power by the word of -0.5; its absolute value compared for equality with the word of +∞; the
    choice of the zero word where they are equal and of the power where they are not. -/
def disOf (d : EReal) : EReal :=
  Scalar.select
    (FloatOps.cmpf (F := Ideal) (φ := .f32) .oeq
      (FloatOps.hostAbsf (F := Ideal) (φ := .f32)
        (FloatOps.hostPowf (F := Ideal) (φ := .f32) d (FloatOps.ofBits (F := Ideal) .f32 0xBF000000#32)))
      (FloatOps.ofBits (F := Ideal) .f32 0x7F800000#32))
    (FloatOps.ofBits (F := Ideal) .f32 0x00000000#32)
    (FloatOps.hostPowf (F := Ideal) (φ := .f32) d (FloatOps.ofBits (F := Ideal) .f32 0xBF000000#32))

/-! ## Layout operations at coordinates -/

section Layout
variable {α : Type}

/-- A column `[a, 1]` broadcast to `[a, b]` reads, at `(p, c)`, the column's entry of row `p`. -/
theorem bcast_col_apply {a b : ℕ} (h : (⟨2, ![a, 1]⟩ : Shape).BroadcastsInDim ⟨2, ![a, b]⟩ (![0, 1] : Fin 2 → Fin 2))
    (y : (⟨2, ![a, 1]⟩ : Shape).Idx → α) (p : Fin a) (c : Fin b) :
    broadcastInDim ⟨2, ![a, b]⟩ ![0, 1] h y (ix2 p c) = y (ix2 p (0 : Fin 1)) := by
  refine broadcastInDim_apply _ h y (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, c)`, the row's entry of column `c`. -/
theorem bcast_row_apply {a b : ℕ} (h : (⟨2, ![1, b]⟩ : Shape).BroadcastsInDim ⟨2, ![a, b]⟩ (![0, 1] : Fin 2 → Fin 2))
    (y : (⟨2, ![1, b]⟩ : Shape).Idx → α) (p : Fin a) (c : Fin b) :
    broadcastInDim ⟨2, ![a, b]⟩ ![0, 1] h y (ix2 p c) = y (ix2 (0 : Fin 1) c) := by
  refine broadcastInDim_apply _ h y (ix2 p c) (ix2 (0 : Fin 1) c) fun ax => ?_
  match ax with
  | ⟨0, _⟩ => rfl
  | ⟨1, _⟩ =>
    show c.val = if b = 1 then 0 else c.val
    split
    · have := c.isLt; omega
    · rfl

end Layout

/-! ## The two feature products at coordinates

Each is a contraction over one shared axis: the left operand's index at result `(i, q)` and shared coordinate `k` is
`(i, k)`, the right operand's is `(k, q)`. -/

theorem dot512_lhs0 (j : S8192x256.Idx) (k : dot_S8192x512_S512x256_S8192x256_1_0_0_1_n_n.contr.Idx) : (dot_S8192x512_S512x256_S8192x256_1_0_0_1_n_n.lhsIdx j k 0).val = (j 0).val := by
  unfold DotDims.lhsIdx
  rw [dif_neg (show ¬(0 : Fin S8192x512.rank) ∈ dot_S8192x512_S512x256_S8192x256_1_0_0_1_n_n.lhsBatch by decide), dif_pos (show (0 : Fin S8192x512.rank) ∈ dot_S8192x512_S512x256_S8192x256_1_0_0_1_n_n.lhsNonContracting by decide)]
  rfl
theorem dot512_lhs1 (j : S8192x256.Idx) (k : dot_S8192x512_S512x256_S8192x256_1_0_0_1_n_n.contr.Idx) : (dot_S8192x512_S512x256_S8192x256_1_0_0_1_n_n.lhsIdx j k 1).val = (k ⟨0, by decide⟩).val :=
  dot_S8192x512_S512x256_S8192x256_1_0_0_1_n_n.lhsIdx_val_of_single rfl j k
theorem dot512_rhs0 (j : S8192x256.Idx) (k : dot_S8192x512_S512x256_S8192x256_1_0_0_1_n_n.contr.Idx) : (dot_S8192x512_S512x256_S8192x256_1_0_0_1_n_n.rhsIdx j k 0).val = (k ⟨0, by decide⟩).val :=
  dot_S8192x512_S512x256_S8192x256_1_0_0_1_n_n.rhsIdx_val_of_single rfl j k
theorem dot512_rhs1 (j : S8192x256.Idx) (k : dot_S8192x512_S512x256_S8192x256_1_0_0_1_n_n.contr.Idx) : (dot_S8192x512_S512x256_S8192x256_1_0_0_1_n_n.rhsIdx j k 1).val = (j 1).val := by
  unfold DotDims.rhsIdx
  rw [dif_neg (show ¬(1 : Fin S512x256.rank) ∈ dot_S8192x512_S512x256_S8192x256_1_0_0_1_n_n.rhsBatch by decide), dif_pos (show (1 : Fin S512x256.rank) ∈ dot_S8192x512_S512x256_S8192x256_1_0_0_1_n_n.rhsNonContracting by decide)]
  rfl

/-- The features times the first weights: entry `(i, q)` is the sum over the 512 shared coordinates. -/
theorem dot512_apply (x : FVec Ideal S8192x512 .f32) (w : FVec Ideal S512x256 .f32)
    (i : Fin 8192) (q : Fin 256) :
    Host.dotGeneral (F := Ideal) (φ₁ := .f32) (φ₂ := .f32) dot_S8192x512_S512x256_S8192x256_1_0_0_1_n_n none x w (ix2 i q) = ∑ k : Fin 512, x (ix2 i k) * w (ix2 k q) := by
  simp only [Host.dotGeneral]
  rw [Ideal.dotGeneral_apply, ← Equiv.sum_comp (contrEquiv1 dot_S8192x512_S512x256_S8192x256_1_0_0_1_n_n 512 rfl rfl).symm]
  refine Finset.sum_congr rfl fun k _ => ?_
  have hk := contrEquiv1_symm_val dot_S8192x512_S512x256_S8192x256_1_0_0_1_n_n 512 rfl rfl k
  have el : dot_S8192x512_S512x256_S8192x256_1_0_0_1_n_n.lhsIdx (ix2 i q) ((contrEquiv1 dot_S8192x512_S512x256_S8192x256_1_0_0_1_n_n 512 rfl rfl).symm k) = ix2 i k := funext fun a => Fin.ext (by
    match a with
    | ⟨0, _⟩ => exact dot512_lhs0 _ _
    | ⟨1, _⟩ => exact (dot512_lhs1 _ _).trans hk)
  have er : dot_S8192x512_S512x256_S8192x256_1_0_0_1_n_n.rhsIdx (ix2 i q) ((contrEquiv1 dot_S8192x512_S512x256_S8192x256_1_0_0_1_n_n 512 rfl rfl).symm k) = ix2 k q := funext fun a => Fin.ext (by
    match a with
    | ⟨0, _⟩ => exact (dot512_rhs0 _ _).trans hk
    | ⟨1, _⟩ => exact dot512_rhs1 _ _)
  rw [el, er]

theorem dot256_lhs0 (j : S8192x128.Idx) (k : dot_S8192x256_S256x128_S8192x128_1_0_0_1_n_n.contr.Idx) : (dot_S8192x256_S256x128_S8192x128_1_0_0_1_n_n.lhsIdx j k 0).val = (j 0).val := by
  unfold DotDims.lhsIdx
  rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
  rfl
theorem dot256_lhs1 (j : S8192x128.Idx) (k : dot_S8192x256_S256x128_S8192x128_1_0_0_1_n_n.contr.Idx) : (dot_S8192x256_S256x128_S8192x128_1_0_0_1_n_n.lhsIdx j k 1).val = (k ⟨0, by decide⟩).val :=
  dot_S8192x256_S256x128_S8192x128_1_0_0_1_n_n.lhsIdx_val_of_single rfl j k
theorem dot256_rhs0 (j : S8192x128.Idx) (k : dot_S8192x256_S256x128_S8192x128_1_0_0_1_n_n.contr.Idx) : (dot_S8192x256_S256x128_S8192x128_1_0_0_1_n_n.rhsIdx j k 0).val = (k ⟨0, by decide⟩).val :=
  dot_S8192x256_S256x128_S8192x128_1_0_0_1_n_n.rhsIdx_val_of_single rfl j k
theorem dot256_rhs1 (j : S8192x128.Idx) (k : dot_S8192x256_S256x128_S8192x128_1_0_0_1_n_n.contr.Idx) : (dot_S8192x256_S256x128_S8192x128_1_0_0_1_n_n.rhsIdx j k 1).val = (j 1).val := by
  unfold DotDims.rhsIdx
  rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
  rfl

/-- The hidden features times the second weights: entry `(i, q)` is the sum over the 256 shared coordinates. -/
theorem dot256_apply (x : FVec Ideal S8192x256 .f32) (w : FVec Ideal S256x128 .f32)
    (i : Fin 8192) (q : Fin 128) :
    Host.dotGeneral (F := Ideal) (φ₁ := .f32) (φ₂ := .f32) dot_S8192x256_S256x128_S8192x128_1_0_0_1_n_n none x w (ix2 i q) = ∑ k : Fin 256, x (ix2 i k) * w (ix2 k q) := by
  simp only [Host.dotGeneral]
  rw [Ideal.dotGeneral_apply, ← Equiv.sum_comp (contrEquiv1 dot_S8192x256_S256x128_S8192x128_1_0_0_1_n_n 256 rfl rfl).symm]
  refine Finset.sum_congr rfl fun k _ => ?_
  have hk := contrEquiv1_symm_val dot_S8192x256_S256x128_S8192x128_1_0_0_1_n_n 256 rfl rfl k
  have el : dot_S8192x256_S256x128_S8192x128_1_0_0_1_n_n.lhsIdx (ix2 i q) ((contrEquiv1 dot_S8192x256_S256x128_S8192x128_1_0_0_1_n_n 256 rfl rfl).symm k) = ix2 i k := funext fun a => Fin.ext (by
    match a with
    | ⟨0, _⟩ => exact dot256_lhs0 _ _
    | ⟨1, _⟩ => exact (dot256_lhs1 _ _).trans hk)
  have er : dot_S8192x256_S256x128_S8192x128_1_0_0_1_n_n.rhsIdx (ix2 i q) ((contrEquiv1 dot_S8192x256_S256x128_S8192x128_1_0_0_1_n_n 256 rfl rfl).symm k) = ix2 k q := funext fun a => Fin.ext (by
    match a with
    | ⟨0, _⟩ => exact (dot256_rhs0 _ _).trans hk
    | ⟨1, _⟩ => exact dot256_rhs1 _ _)
  rw [el, er]

end Cert.KernelIdeal.HostRead

end
-- ==== Proof.KI.Host1.lean ====
/-
  The host operations between the first and the second launch, read at an index.

  From the row sums `s` the first launch leaves (a column), with `ε` the word nearest 1e-8:
    dis(i)    = disOf(s(i) + ε)                         the row factor, a column
    xw(i, q)  = Σ_k x(i, k) · W1(k, q)                  the features times the first weights
    b1'(i, q) = dis(i) · xw(i, q)                       the product's rows scaled, the second launch's input
  stated over arbitrary contents `V` of the buffers before each stretch.
-/
import proofs.«130698_j71897752535776_2_alg».proof.Proof.KI.HostBase

set_option maxRecDepth 16384

noncomputable section

open scoped BigOperators

namespace Cert.KernelIdeal.HostRead

open Cert.KernelIdeal Cert.KernelIdeal.Gen
open Idealize.ShloMosaic Idealize.ShloMosaic.TcCoe Idealize.ShloMosaic.StableHlo Idealize.ShloMosaic.ValueIdx

/-- Sum and product of two extended reals with the operands' type fixed: a buffer's contents at an index is an extended
    real only once its reference's type is computed. -/
local notation:65 a:65 " +ₑ " b:66 => HAdd.hAdd (α := EReal) (β := EReal) (γ := EReal) a b
local notation:70 a:70 " *ₑ " b:71 => HMul.hMul (α := EReal) (β := EReal) (γ := EReal) a b

/-! ## The row factor: four stretches (the sum with ε and the power; the test for infinity; the power again and the
zero; the choice) -/

/-- After the four stretches the row factor's buffer holds, at every index of the column, `disOf` of the row sum
    plus `ε`. -/
theorem dis_at (V : Valuation τ sig (Elt Ideal)) (j : S8192x1.Idx) :
    (StableHlo.after hostOps1_3 (StableHlo.after hostOps1_2 (StableHlo.after hostOps1_1 (StableHlo.after hostOps1 V)))
      (Proc.devRef .tc main_v8) : S8192x1.Idx → EReal) j
      = disOf (V (Proc.devRef .tc main_v0_0) j +ₑ Ideal.ofBits .f32 0x322BCC77#32) := by
  dsimp only [hostOps1, hostOps1_1, hostOps1_2, hostOps1_3]
  after_results
  rfl

/-- The same at row `i`. -/
theorem dis_apply (V : Valuation τ sig (Elt Ideal)) (i : Fin 8192) :
    (StableHlo.after hostOps1_3 (StableHlo.after hostOps1_2 (StableHlo.after hostOps1_1 (StableHlo.after hostOps1 V)))
      (Proc.devRef .tc main_v8) : S8192x1.Idx → EReal) (ix2 i (0 : Fin 1))
      = disOf (V (Proc.devRef .tc main_v0_0) (ix2 i (0 : Fin 1)) +ₑ Ideal.ofBits .f32 0x322BCC77#32) :=
  dis_at V (ix2 i (0 : Fin 1))

/-! ## The fifth stretch: the features times the first weights, and its rows scaled -/

/-- The product's entry `(i, q)` is the sum over the 512 shared coordinates. -/
theorem xw_apply (V : Valuation τ sig (Elt Ideal)) (i : Fin 8192) (q : Fin 256) :
    (StableHlo.after hostOps1_4 V (Proc.devRef .tc main_v9) : S8192x256.Idx → EReal) (ix2 i q)
      = ∑ k : Fin 512, V (Proc.devRef .tc main_arg2) (ix2 i k) *ₑ V (Proc.devRef .tc main_arg3) (ix2 k q) := by
  dsimp only [hostOps1_4]
  after_results
  exact dot512_apply _ _ i q

/-- The scaled product's entry `(i, q)` is row `i`'s factor times the product's entry. -/
theorem b1_apply (V : Valuation τ sig (Elt Ideal)) (i : Fin 8192) (q : Fin 256) :
    (StableHlo.after hostOps1_4 V (Proc.devRef .tc main_v11) : S8192x256.Idx → EReal) (ix2 i q)
      = V (Proc.devRef .tc main_v8) (ix2 i (0 : Fin 1))
          *ₑ (StableHlo.after hostOps1_4 V (Proc.devRef .tc main_v9) : S8192x256.Idx → EReal) (ix2 i q) := by
  dsimp only [hostOps1_4]
  after_results
  exact congrArg₂ (· * ·) (bcast_col_apply _ _ i q) rfl

/-- The stretch leaves the row factor's buffer alone. -/
theorem v8_of_1_4 (V : Valuation τ sig (Elt Ideal)) :
    StableHlo.after hostOps1_4 V (Proc.devRef .tc main_v8) = V (Proc.devRef .tc main_v8) :=
  StableHlo.after_of_writes_sub hostOps1_4 V hostOps1_4_writes (by decide)

/-! ## The five stretches together -/

/-- The buffers after the five stretches between the first and the second launch. -/
abbrev after1 (V : Valuation τ sig (Elt Ideal)) : Valuation τ sig (Elt Ideal) :=
  StableHlo.after hostOps1_4 (StableHlo.after hostOps1_3 (StableHlo.after hostOps1_2 (StableHlo.after hostOps1_1 (StableHlo.after hostOps1 V))))

/-- A buffer none of the first four stretches writes holds after them what it held before. -/
theorem of_1_to_1_3 (V : Valuation τ sig (Elt Ideal)) (r : Ref sig .tc) (h0 : r ∉ hostOps1_W) (h1 : r ∉ hostOps1_1_W)
    (h2 : r ∉ hostOps1_2_W) (h3 : r ∉ hostOps1_3_W) :
    StableHlo.after hostOps1_3 (StableHlo.after hostOps1_2 (StableHlo.after hostOps1_1 (StableHlo.after hostOps1 V)))
      (Proc.devRef .tc r) = V (Proc.devRef .tc r) :=
  (StableHlo.after_of_writes_sub hostOps1_3 _ hostOps1_3_writes h3).trans <|
  (StableHlo.after_of_writes_sub hostOps1_2 _ hostOps1_2_writes h2).trans <|
  (StableHlo.after_of_writes_sub hostOps1_1 _ hostOps1_1_writes h1).trans <|
  StableHlo.after_of_writes_sub hostOps1 _ hostOps1_writes h0

/-- A buffer none of the five stretches writes holds after them what it held before. -/
theorem after1_of (V : Valuation τ sig (Elt Ideal)) (r : Ref sig .tc) (h0 : r ∉ hostOps1_W) (h1 : r ∉ hostOps1_1_W)
    (h2 : r ∉ hostOps1_2_W) (h3 : r ∉ hostOps1_3_W) (h4 : r ∉ hostOps1_4_W) :
    after1 V (Proc.devRef .tc r) = V (Proc.devRef .tc r) :=
  (StableHlo.after_of_writes_sub hostOps1_4 _ hostOps1_4_writes h4).trans (of_1_to_1_3 V r h0 h1 h2 h3)

/-- The row factor after the five stretches, at row `i`. -/
theorem blk1_dis (V : Valuation τ sig (Elt Ideal)) (i : Fin 8192) :
    (after1 V (Proc.devRef .tc main_v8) : S8192x1.Idx → EReal) (ix2 i (0 : Fin 1))
      = disOf (V (Proc.devRef .tc main_v0_0) (ix2 i (0 : Fin 1)) +ₑ Ideal.ofBits .f32 0x322BCC77#32) := by
  dsimp only [after1]
  rw [v8_of_1_4]
  exact dis_apply V i

/-- The features times the first weights after the five stretches, at `(i, q)`. -/
theorem blk1_xw (V : Valuation τ sig (Elt Ideal)) (i : Fin 8192) (q : Fin 256) :
    (after1 V (Proc.devRef .tc main_v9) : S8192x256.Idx → EReal) (ix2 i q)
      = ∑ k : Fin 512, V (Proc.devRef .tc main_arg2) (ix2 i k) *ₑ V (Proc.devRef .tc main_arg3) (ix2 k q) := by
  refine (xw_apply _ i q).trans ?_
  rw [of_1_to_1_3 V main_arg2 (by decide) (by decide) (by decide) (by decide),
    of_1_to_1_3 V main_arg3 (by decide) (by decide) (by decide) (by decide)]

/-- The second launch's input after the five stretches, at `(i, q)`: the row factor times the product. -/
theorem blk1_b1 (V : Valuation τ sig (Elt Ideal)) (i : Fin 8192) (q : Fin 256) :
    (after1 V (Proc.devRef .tc main_v11) : S8192x256.Idx → EReal) (ix2 i q)
      = disOf (V (Proc.devRef .tc main_v0_0) (ix2 i (0 : Fin 1)) +ₑ Ideal.ofBits .f32 0x322BCC77#32)
          *ₑ ∑ k : Fin 512, V (Proc.devRef .tc main_arg2) (ix2 i k) *ₑ V (Proc.devRef .tc main_arg3) (ix2 k q) := by
  refine (b1_apply _ i q).trans ?_
  exact congrArg₂ (· * ·) (dis_apply V i) (blk1_xw V i q)

end Cert.KernelIdeal.HostRead

end
-- ==== Proof.KI.Host2.lean ====
/-
  The host operations between the second and the third launch, read at an index.

  With `dis` the row factor (a column), `xw` the features times the first weights, `p` what the second launch leaves,
  `b1` the first bias and `ε` the word nearest 1e-8, each product and sum in the order the operations perform it:
    pre(i, q) = (p(i, q) + (ε · (dis(i) · dis(i))) · xw(i, q)) + b1(q)      the first layer before its activation
    h(i, q)   = max(pre(i, q), 0)                                           after it
    hw(i, q)  = Σ_k h(i, k) · W2(k, q)                                      the hidden features times the second weights
    b2'(i, q) = dis(i) · hw(i, q)                                           its rows scaled, the third launch's input
  stated over arbitrary contents `V` of the buffers before each stretch.
-/
import proofs.«130698_j71897752535776_2_alg».proof.Proof.KI.HostBase

set_option maxRecDepth 16384

noncomputable section

open scoped BigOperators

namespace Cert.KernelIdeal.HostRead

open Cert.KernelIdeal Cert.KernelIdeal.Gen
open Idealize.ShloMosaic Idealize.ShloMosaic.TcCoe Idealize.ShloMosaic.StableHlo Idealize.ShloMosaic.ValueIdx

/-- Sum and product of two extended reals with the operands' type fixed: a buffer's contents at an index is an extended
    real only once its reference's type is computed. -/
local notation:65 a:65 " +ₑ " b:66 => HAdd.hAdd (α := EReal) (β := EReal) (γ := EReal) a b
local notation:70 a:70 " *ₑ " b:71 => HMul.hMul (α := EReal) (β := EReal) (γ := EReal) a b

/-! ## The first layer before its activation -/

/-- Entry `(i, q)`: the launch's output, plus the diagonal's share `(ε · (dis i · dis i)) · xw (i, q)`, plus the bias. -/
theorem pre1_apply (V : Valuation τ sig (Elt Ideal)) (i : Fin 8192) (q : Fin 256) :
    (StableHlo.after hostOps2 V (Proc.devRef .tc main_v21) : S8192x256.Idx → EReal) (ix2 i q)
      = (V (Proc.devRef .tc main_v12) (ix2 i q)
          +ₑ (Ideal.ofBits .f32 0x322BCC77#32
                *ₑ (V (Proc.devRef .tc main_v8) (ix2 i (0 : Fin 1)) *ₑ V (Proc.devRef .tc main_v8) (ix2 i (0 : Fin 1))))
              *ₑ V (Proc.devRef .tc main_v9) (ix2 i q))
        +ₑ V (Proc.devRef .tc main_arg4) (ix1 q) := by
  dsimp only [hostOps2]
  after_results
  refine congrArg₂ (· + ·) (congrArg₂ (· + ·) rfl (congrArg₂ (· * ·) ?_ rfl)) ?_
  · exact bcast_col_apply _ _ i q
  · exact (bcast_row_apply _ _ i q).trans (shapeCast_a_1a_apply _ _ (0 : Fin 1) q)

/-! ## The activation -/

/-- The positive part, at every index. -/
theorem relu_at (V : Valuation τ sig (Elt Ideal)) (j : S8192x256.Idx) :
    (StableHlo.after hostOps2_1 V (Proc.devRef .tc main_v22) : S8192x256.Idx → EReal) j
      = max (α := EReal) (V (Proc.devRef .tc main_v21) j) 0 := by
  dsimp only [hostOps2_1]
  after_results
  show max (α := EReal) (V (Proc.devRef .tc main_v21) j) (Ideal.ofBits .f32 0x00000000#32) = _
  rw [Ideal.ofBits_zero_f32]

/-! ## The hidden features times the second weights, and its rows scaled -/

/-- The product's entry `(i, q)` is the sum over the 256 shared coordinates. -/
theorem hw_apply (V : Valuation τ sig (Elt Ideal)) (i : Fin 8192) (q : Fin 128) :
    (StableHlo.after hostOps2_2 V (Proc.devRef .tc main_v23) : S8192x128.Idx → EReal) (ix2 i q)
      = ∑ k : Fin 256, V (Proc.devRef .tc main_v22) (ix2 i k) *ₑ V (Proc.devRef .tc main_arg5) (ix2 k q) := by
  dsimp only [hostOps2_2]
  after_results
  exact dot256_apply _ _ i q

/-- The scaled product's entry `(i, q)` is row `i`'s factor times the product's entry. -/
theorem b2_apply (V : Valuation τ sig (Elt Ideal)) (i : Fin 8192) (q : Fin 128) :
    (StableHlo.after hostOps2_2 V (Proc.devRef .tc main_v25) : S8192x128.Idx → EReal) (ix2 i q)
      = V (Proc.devRef .tc main_v8) (ix2 i (0 : Fin 1))
          *ₑ (StableHlo.after hostOps2_2 V (Proc.devRef .tc main_v23) : S8192x128.Idx → EReal) (ix2 i q) := by
  dsimp only [hostOps2_2]
  after_results
  exact congrArg₂ (· * ·) (bcast_col_apply _ _ i q) rfl

/-! ## The three stretches together -/

/-- The buffers after the three stretches between the second and the third launch. -/
abbrev after2 (V : Valuation τ sig (Elt Ideal)) : Valuation τ sig (Elt Ideal) :=
  StableHlo.after hostOps2_2 (StableHlo.after hostOps2_1 (StableHlo.after hostOps2 V))

/-- A buffer neither of the first two stretches writes holds after them what it held before. -/
theorem of_2_to_2_1 (V : Valuation τ sig (Elt Ideal)) (r : Ref sig .tc) (h0 : r ∉ hostOps2_W) (h1 : r ∉ hostOps2_1_W) :
    StableHlo.after hostOps2_1 (StableHlo.after hostOps2 V) (Proc.devRef .tc r) = V (Proc.devRef .tc r) :=
  (StableHlo.after_of_writes_sub hostOps2_1 _ hostOps2_1_writes h1).trans <|
  StableHlo.after_of_writes_sub hostOps2 _ hostOps2_writes h0

/-- A buffer none of the three stretches writes holds after them what it held before. -/
theorem after2_of (V : Valuation τ sig (Elt Ideal)) (r : Ref sig .tc) (h0 : r ∉ hostOps2_W) (h1 : r ∉ hostOps2_1_W)
    (h2 : r ∉ hostOps2_2_W) : after2 V (Proc.devRef .tc r) = V (Proc.devRef .tc r) :=
  (StableHlo.after_of_writes_sub hostOps2_2 _ hostOps2_2_writes h2).trans (of_2_to_2_1 V r h0 h1)

/-- The first layer after its activation, at `(i, q)`. -/
theorem blk2_h (V : Valuation τ sig (Elt Ideal)) (i : Fin 8192) (q : Fin 256) :
    (StableHlo.after hostOps2_1 (StableHlo.after hostOps2 V) (Proc.devRef .tc main_v22) : S8192x256.Idx → EReal) (ix2 i q)
      = max (α := EReal)
          ((V (Proc.devRef .tc main_v12) (ix2 i q)
            +ₑ (Ideal.ofBits .f32 0x322BCC77#32
                  *ₑ (V (Proc.devRef .tc main_v8) (ix2 i (0 : Fin 1)) *ₑ V (Proc.devRef .tc main_v8) (ix2 i (0 : Fin 1))))
                *ₑ V (Proc.devRef .tc main_v9) (ix2 i q))
          +ₑ V (Proc.devRef .tc main_arg4) (ix1 q)) 0 :=
  (relu_at _ _).trans (congrArg (fun t : EReal => max t 0) (pre1_apply V i q))

/-- The hidden features times the second weights after the three stretches, at `(i, q)`. -/
theorem blk2_hw (V : Valuation τ sig (Elt Ideal)) (i : Fin 8192) (q : Fin 128) :
    (after2 V (Proc.devRef .tc main_v23) : S8192x128.Idx → EReal) (ix2 i q)
      = (∑ k : Fin 256, max (α := EReal)
          ((V (Proc.devRef .tc main_v12) (ix2 i k)
            +ₑ (Ideal.ofBits .f32 0x322BCC77#32
                  *ₑ (V (Proc.devRef .tc main_v8) (ix2 i (0 : Fin 1)) *ₑ V (Proc.devRef .tc main_v8) (ix2 i (0 : Fin 1))))
                *ₑ V (Proc.devRef .tc main_v9) (ix2 i k))
          +ₑ V (Proc.devRef .tc main_arg4) (ix1 k)) 0
          *ₑ V (Proc.devRef .tc main_arg5) (ix2 k q) : EReal) := by
  refine (hw_apply _ i q).trans ?_
  rw [of_2_to_2_1 V main_arg5 (by decide) (by decide)]
  show @Eq EReal _ _
  exact Finset.sum_congr rfl fun k _ => congrArg₂ (· * ·) (blk2_h V i k) rfl

/-- The three stretches leave the row factor's buffer alone. -/
theorem blk2_v8 (V : Valuation τ sig (Elt Ideal)) : after2 V (Proc.devRef .tc main_v8) = V (Proc.devRef .tc main_v8) :=
  after2_of V main_v8 (by decide) (by decide) (by decide)

/-- The third launch's input after the three stretches, at `(i, q)`: the row factor times the product. -/
theorem blk2_b2 (V : Valuation τ sig (Elt Ideal)) (i : Fin 8192) (q : Fin 128) :
    (after2 V (Proc.devRef .tc main_v25) : S8192x128.Idx → EReal) (ix2 i q)
      = V (Proc.devRef .tc main_v8) (ix2 i (0 : Fin 1))
          *ₑ (after2 V (Proc.devRef .tc main_v23) : S8192x128.Idx → EReal) (ix2 i q) := by
  refine (b2_apply _ i q).trans ?_
  rw [of_2_to_2_1 V main_v8 (by decide) (by decide)]

end Cert.KernelIdeal.HostRead

end
-- ==== Proof.KI.Host3.lean ====
/-
  The host operations after the third launch, read at an index: the program's result.

  With `dis` the row factor (a column), `hw` the hidden features times the second weights, `p` what the third launch
  leaves, `b2` the second bias and `ε` the word nearest 1e-8, each product and sum in the order the operations perform it:
    out(i, q) = (p(i, q) + (ε · (dis(i) · dis(i))) · hw(i, q)) + b2(q)
  stated over arbitrary contents `V` of the buffers before the stretch.
-/
import proofs.«130698_j71897752535776_2_alg».proof.Proof.KI.HostBase

set_option maxRecDepth 16384

noncomputable section

open scoped BigOperators

namespace Cert.KernelIdeal.HostRead

open Cert.KernelIdeal Cert.KernelIdeal.Gen
open Idealize.ShloMosaic Idealize.ShloMosaic.TcCoe Idealize.ShloMosaic.StableHlo Idealize.ShloMosaic.ValueIdx

/-- Sum and product of two extended reals with the operands' type fixed: a buffer's contents at an index is an extended
    real only once its reference's type is computed. -/
local notation:65 a:65 " +ₑ " b:66 => HAdd.hAdd (α := EReal) (β := EReal) (γ := EReal) a b
local notation:70 a:70 " *ₑ " b:71 => HMul.hMul (α := EReal) (β := EReal) (γ := EReal) a b

/-- The result's entry `(i, q)`: the launch's output, plus the diagonal's share `(ε · (dis i · dis i)) · hw (i, q)`,
    plus the bias. -/
theorem out_apply (V : Valuation τ sig (Elt Ideal)) (i : Fin 8192) (q : Fin 128) :
    (StableHlo.after hostOps3 V (Proc.devRef .tc main_v35) : S8192x128.Idx → EReal) (ix2 i q)
      = (V (Proc.devRef .tc main_v26) (ix2 i q)
          +ₑ (Ideal.ofBits .f32 0x322BCC77#32
                *ₑ (V (Proc.devRef .tc main_v8) (ix2 i (0 : Fin 1)) *ₑ V (Proc.devRef .tc main_v8) (ix2 i (0 : Fin 1))))
              *ₑ V (Proc.devRef .tc main_v23) (ix2 i q))
        +ₑ V (Proc.devRef .tc main_arg6) (ix1 q) := by
  dsimp only [hostOps3]
  after_results
  refine congrArg₂ (· + ·) (congrArg₂ (· + ·) rfl (congrArg₂ (· * ·) ?_ rfl)) ?_
  · exact bcast_col_apply _ _ i q
  · exact (bcast_row_apply _ _ i q).trans (shapeCast_a_1a_apply _ _ (0 : Fin 1) q)

end Cert.KernelIdeal.HostRead

end
-- ==== Proof.KI.KerValue.lean ====
/-
  The kernel program's result buffer, at the end of its run, is the kernel-side formula of its arguments.

  Stage by stage along the program: region 0 leaves the blend and its row sums; the first five host stretches turn the row
  sums into the row factor `dis`, form the features times the first weights, and scale its rows; region 1 leaves the
  blend times that, each row scaled; the next three stretches add the diagonal's share and the bias, take the positive
  part, multiply by the second weights and scale the rows; region 2 propagates again; the last stretch adds the
  diagonal's share and the bias.  Between the stages each buffer is carried unchanged to where it is read.
-/
import proofs.«130698_j71897752535776_2_alg».proof.Proof.KI.Carry
import proofs.«130698_j71897752535776_2_alg».proof.Proof.KI.R0OutD
import proofs.«130698_j71897752535776_2_alg».proof.Proof.KI.R1Out
import proofs.«130698_j71897752535776_2_alg».proof.Proof.KI.R2Out
import proofs.«130698_j71897752535776_2_alg».proof.Proof.KI.Host1
import proofs.«130698_j71897752535776_2_alg».proof.Proof.KI.Host2
import proofs.«130698_j71897752535776_2_alg».proof.Proof.KI.Host3
import proofs.«130698_j71897752535776_2_alg».proof.Proof.KI.KerSpec

set_option maxRecDepth 16384

noncomputable section

namespace Cert.Proof.KerVal

open Cert.KernelIdeal Cert.KernelIdeal.Gen Cert.KernelIdeal.Whole Cert.KernelIdeal.HostRead
open Idealize.ShloMosaic Idealize.ShloMosaic.TcCoe Idealize.ShloMosaic.ValueIdx Idealize.SL.Sem
open Cert.Proof.RefSpec (beta eps invSqrtOrZero tilde xw)

local notation:65 a:65 " +ₑ " b:66 => HAdd.hAdd (α := EReal) (β := EReal) (γ := EReal) a b
local notation:70 a:70 " *ₑ " b:71 => HMul.hMul (α := EReal) (β := EReal) (γ := EReal) a b

variable (m : (ℓ : Loc nD τ sig) → Buf (Elt Ideal) ℓ) (c : Dev nD)

/-! ## The seven arguments on core `c` -/

abbrev aA : FVec Ideal ⟨2, ![8192, 8192]⟩ .f32 := m ((c.tc : Thread nD τ).loc main_arg0)
abbrev aS : FVec Ideal ⟨2, ![8192, 8192]⟩ .f32 := m ((c.tc : Thread nD τ).loc main_arg1)
abbrev aX : FVec Ideal ⟨2, ![8192, 512]⟩ .f32 := m ((c.tc : Thread nD τ).loc main_arg2)
abbrev aW1 : FVec Ideal ⟨2, ![512, 256]⟩ .f32 := m ((c.tc : Thread nD τ).loc main_arg3)
abbrev aB1 : FVec Ideal ⟨1, ![256]⟩ .f32 := m ((c.tc : Thread nD τ).loc main_arg4)
abbrev aW2 : FVec Ideal ⟨2, ![256, 128]⟩ .f32 := m ((c.tc : Thread nD τ).loc main_arg5)
abbrev aB2 : FVec Ideal ⟨1, ![128]⟩ .f32 := m ((c.tc : Thread nD τ).loc main_arg6)

/-- The row factor on this core's arguments. -/
abbrev disK (i : Fin 8192) : EReal := KerSpec.dis (aA m c) (aS m c) i
abbrev tildeK (i j : Fin 8192) : EReal := tilde (aA m c) (aS m c) i j
abbrev xwK (i : Fin 8192) (q : Fin 256) : EReal := xw (aX m c) (aW1 m c) i q
abbrev hiddenK (i : Fin 8192) (q : Fin 256) : EReal := KerSpec.hidden (aA m c) (aS m c) (aX m c) (aW1 m c) (aB1 m c) i q
abbrev hwK (i : Fin 8192) (q : Fin 128) : EReal := KerSpec.hw (aA m c) (aS m c) (aX m c) (aW1 m c) (aB1 m c) (aW2 m c) i q

/-- The row-factor chain is the same function in both spellings. -/
theorem disOf_eq : disOf = invSqrtOrZero := rfl

/-! ## Region 0 -/

/-- The staged blend after region 0. -/
theorem st_tilde (i j : Fin 8192) : (W1 m c (Proc.devRef .tc main_v0_1) : S8192x8192.Idx → EReal) (ix2 i j) = tildeK m c i j :=
  (congrFun (W1_arr m c 3) (ix2 i j)).trans (R0.tilde_apply (E0 m) c i j)

/-- Its row sums after region 0. -/
theorem st_rowsum (i : Fin 8192) : (W1 m c (Proc.devRef .tc main_v0_0) : S8192x1.Idx → EReal) (ix2 i (0 : Fin 1)) = ∑ j : Fin 8192, tildeK m c i j :=
  (congrFun (W1_arr m c 2) (ix2 i (0 : Fin 1))).trans (R0.rowsum_apply (E0 m) c i)

/-! ## The first five host stretches -/

/-- The row factor formed from the row sums. -/
theorem st_disOf (i : Fin 8192) :
    disOf ((W1 m c (Proc.devRef .tc main_v0_0) : S8192x1.Idx → EReal) (ix2 i (0 : Fin 1)) +ₑ Ideal.ofBits .f32 0x322BCC77#32) = disK m c i := by
  rw [st_rowsum, disOf_eq]
  rfl

/-- The row factor where it is computed (boundary 5). -/
theorem st_dis5 (i : Fin 8192) : (W5 m c (Proc.devRef .tc main_v8) : S8192x1.Idx → EReal) (ix2 i (0 : Fin 1)) = disK m c i :=
  (dis_apply (W1 m c) i).trans (st_disOf m c i)

/-- The features times the first weights over the launch's arguments. -/
theorem st_xwsum (i : Fin 8192) (q : Fin 256) :
    (∑ k : Fin 512, (W1 m c (Proc.devRef .tc main_arg2) : S8192x512.Idx → EReal) (ix2 i k) *ₑ (W1 m c (Proc.devRef .tc main_arg3) : S512x256.Idx → EReal) (ix2 k q)) = xwK m c i q := by
  rw [W1_main_arg2, W1_main_arg3]
  rfl

theorem st_xw (i : Fin 8192) (q : Fin 256) : (W6 m c (Proc.devRef .tc main_v9) : S8192x256.Idx → EReal) (ix2 i q) = xwK m c i q :=
  (blk1_xw (W1 m c) i q).trans (st_xwsum m c i q)

/-- The scaled features region 1 reads. -/
theorem st_b1 (j : Fin 8192) (q : Fin 256) : (W6 m c (Proc.devRef .tc main_v11) : S8192x256.Idx → EReal) (ix2 j q) = disK m c j * xwK m c j q :=
  (blk1_b1 (W1 m c) j q).trans (congrArg₂ (· * ·) (st_disOf m c j) (st_xwsum m c j q))

/-! ## Region 1 -/

theorem st_v12 (i : Fin 8192) (q : Fin 256) :
    (W7 m c (Proc.devRef .tc main_v12) : S8192x256.Idx → EReal) (ix2 i q) = (∑ j : Fin 8192, tildeK m c i j * (disK m c j * xwK m c j q)) * disK m c i := by
  refine (congrFun (W7_arr m c 3) (ix2 i q)).trans ((R1.out_apply (E6 m) c i q).trans ?_)
  refine congrArg₂ (· * ·) (Finset.sum_congr rfl fun j _ => congrArg₂ (· * ·) ?_ (st_b1 m c j q)) ?_
  · exact (congrFun (W6_v0_1 m c) (ix2 i j)).trans (st_tilde m c i j)
  · exact (congrFun (W6_v8 m c) (ix2 i (0 : Fin 1))).trans (st_dis5 m c i)

/-! ## The next three host stretches -/

/-- The first layer after its activation, in the spelling the host stretches leave it. -/
theorem st_hexpr (i : Fin 8192) (q : Fin 256) :
    max (α := EReal)
      (((W7 m c (Proc.devRef .tc main_v12) : S8192x256.Idx → EReal) (ix2 i q)
        +ₑ (Ideal.ofBits .f32 0x322BCC77#32 *ₑ ((W7 m c (Proc.devRef .tc main_v8) : S8192x1.Idx → EReal) (ix2 i (0 : Fin 1)) *ₑ (W7 m c (Proc.devRef .tc main_v8) : S8192x1.Idx → EReal) (ix2 i (0 : Fin 1))))
            *ₑ (W7 m c (Proc.devRef .tc main_v9) : S8192x256.Idx → EReal) (ix2 i q))
      +ₑ (W7 m c (Proc.devRef .tc main_arg4) : S256.Idx → EReal) (ix1 q)) 0 = hiddenK m c i q := by
  have h8 : (W7 m c (Proc.devRef .tc main_v8) : S8192x1.Idx → EReal) (ix2 i (0 : Fin 1)) = disK m c i :=
    (congrFun (W7_v8 m c) (ix2 i (0 : Fin 1))).trans (st_dis5 m c i)
  have h9 : (W7 m c (Proc.devRef .tc main_v9) : S8192x256.Idx → EReal) (ix2 i q) = xwK m c i q :=
    (congrFun (W7_v9 m c) (ix2 i q)).trans (st_xw m c i q)
  rw [st_v12, h8, h9, W7_main_arg4]
  rfl

theorem st_hw (i : Fin 8192) (q : Fin 128) : (W10 m c (Proc.devRef .tc main_v23) : S8192x128.Idx → EReal) (ix2 i q) = hwK m c i q := by
  refine (blk2_hw (W7 m c) i q).trans ?_
  rw [W7_main_arg5]
  show @Eq EReal _ _
  exact Finset.sum_congr rfl fun k _ => congrArg₂ (· * ·) (st_hexpr m c i k) rfl

/-- The scaled hidden features region 2 reads. -/
theorem st_b2 (j : Fin 8192) (q : Fin 128) : (W10 m c (Proc.devRef .tc main_v25) : S8192x128.Idx → EReal) (ix2 j q) = disK m c j * hwK m c j q := by
  refine (blk2_b2 (W7 m c) j q).trans (congrArg₂ (· * ·) ?_ (st_hw m c j q))
  exact (congrFun (W7_v8 m c) (ix2 j (0 : Fin 1))).trans (st_dis5 m c j)

/-! ## Region 2 -/

theorem st_v26 (i : Fin 8192) (q : Fin 128) :
    (W11 m c (Proc.devRef .tc main_v26) : S8192x128.Idx → EReal) (ix2 i q) = (∑ j : Fin 8192, tildeK m c i j * (disK m c j * hwK m c j q)) * disK m c i := by
  refine (congrFun (W11_arr m c 3) (ix2 i q)).trans ((R2.out_apply (E10 m) c i q).trans ?_)
  refine congrArg₂ (· * ·) (Finset.sum_congr rfl fun j _ => congrArg₂ (· * ·) ?_ (st_b2 m c j q)) ?_
  · exact (congrFun (W10_v0_1 m c) (ix2 i j)).trans (st_tilde m c i j)
  · exact (congrFun (W10_v8 m c) (ix2 i (0 : Fin 1))).trans (st_dis5 m c i)

/-! ## The last host stretch, and the result -/

theorem st_out (i : Fin 8192) (q : Fin 128) :
    (W12 m c (Proc.devRef .tc main_v35) : S8192x128.Idx → EReal) (ix2 i q)
      = KerSpec.outAt (aA m c) (aS m c) (aX m c) (aW1 m c) (aB1 m c) (aW2 m c) (aB2 m c) i q := by
  refine (out_apply (W11 m c) i q).trans ?_
  have h8 : (W11 m c (Proc.devRef .tc main_v8) : S8192x1.Idx → EReal) (ix2 i (0 : Fin 1)) = disK m c i :=
    (congrFun (W11_v8 m c) (ix2 i (0 : Fin 1))).trans (st_dis5 m c i)
  have h23 : (W11 m c (Proc.devRef .tc main_v23) : S8192x128.Idx → EReal) (ix2 i q) = hwK m c i q :=
    (congrFun (W11_v23 m c) (ix2 i q)).trans (st_hw m c i q)
  rw [st_v26, h8, h23, W11_main_arg6]
  rfl

/-- The result buffer at the last boundary is the kernel-side formula of the arguments. -/
theorem ker_value :
    W12 m c (Proc.devRef .tc main_v35)
      = KerSpec.out (aA m c) (aS m c) (aX m c) (aW1 m c) (aB1 m c) (aW2 m c) (aB2 m c) := by
  funext idx
  obtain ⟨i, q, rfl⟩ : ∃ (i : Fin 8192) (q : Fin 128), idx = ix2 i q := ⟨idx 0, idx 1, eq_ix2 idx⟩
  exact (st_out m c i q).trans (KerSpec.out_ix2 _ _ _ _ _ _ _ i q).symm

end Cert.Proof.KerVal

end
-- ==== Proof.LibDiagNormalise.lean ====
/-
  Symmetric normalisation of an adjacency matrix with a constant added on the diagonal, in two arrangements.

  Let `a` be a square matrix over a commutative semiring, `e` a constant, `d` a vector of scale factors, and
  `adj i j = a i j + (if i = j then e else 0)` the matrix with `e` added on its diagonal.

  * Row sums.  Row `i` of `adj` sums to the row sum of `a` plus `e`: the diagonal contributes `e` exactly once.
  * One propagation step.  Scaling `adj` by `d` on both sides and multiplying by a vector `y`,
    `∑ j, ((d i * adj i j) * d j) * y j`, equals scaling `y` first, multiplying by the plain `a`, scaling the result, and
    adding the diagonal's share separately: `(∑ j, a i j * (d j * y j)) * d i + (e * (d i * d i)) * y i`.

  Both are distributivity, so they hold in a semiring and not on the extended reals at large; a user on the extended
  reals first shows every entry is a real number and applies these on the reals.
-/
import Mathlib.Algebra.BigOperators.Ring.Finset
import Mathlib.Algebra.BigOperators.Group.Finset.Piecewise
import Mathlib.Tactic.Ring

namespace Cert.Lib.DiagNormalise

variable {R : Type*} [CommSemiring R] {ι : Type*} [Fintype ι] [DecidableEq ι]

/-- The matrix `a` with the constant `e` added to each diagonal entry. -/
def withDiag (a : ι → ι → R) (e : R) (i j : ι) : R := a i j + (if i = j then e else 0)

/-- A row of the diagonally shifted matrix sums to the row of the matrix plus the shift. -/
theorem sum_withDiag (a : ι → ι → R) (e : R) (i : ι) :
    ∑ j, withDiag a e i j = (∑ j, a i j) + e := by
  simp only [withDiag, Finset.sum_add_distrib, Finset.sum_ite_eq, Finset.mem_univ, if_true]

/-- One propagation step through the doubly scaled, diagonally shifted matrix, against the step through the plain
    matrix with the input pre-scaled, the output post-scaled, and the diagonal's contribution added at the end. -/
theorem propagate (a : ι → ι → R) (e : R) (d y : ι → R) (i : ι) :
    ∑ j, ((d i * withDiag a e i j) * d j) * y j
      = (∑ j, a i j * (d j * y j)) * d i + (e * (d i * d i)) * y i := by
  have h1 : ∀ j, ((d i * withDiag a e i j) * d j) * y j
      = (a i j * (d j * y j)) * d i + (if i = j then (e * (d i * d j)) * y j else 0) := by
    intro j
    unfold withDiag
    split_ifs with h
    · ring
    · ring
  rw [Finset.sum_congr rfl (fun j _ => h1 j), Finset.sum_add_distrib, Finset.sum_ite_eq, if_pos (Finset.mem_univ i),
    ← Finset.sum_mul]

end Cert.Lib.DiagNormalise
-- ==== Proof.Law.lean ====
/-
  The reference's closed formula and the kernel's closed formula agree on arrays of real numbers.

  The two formulas differ in arrangement only. The reference shifts the blended adjacency by `ε` on the diagonal, sums
  its rows, scales it on both sides by the guarded inverse square roots of the row sums, and multiplies; the kernel sums
  the rows of the plain blend and adds `ε` once, scales the input of each product, multiplies by the plain blend, scales
  the output, and adds the diagonal's share `ε · dis(i)² · Y(i, c)` at the end.

  * The degrees agree with no assumption: a row of the shifted matrix sums to the row of the matrix plus `ε`, in any
    additive commutative monoid. Hence the scale factors agree.
  * The guarded inverse square root is a real number whatever its argument: where the power is infinite its absolute
    value is `+∞`, the comparison holds, and zero is chosen; elsewhere it is the power itself, a real.
  * With every entry of the seven arrays real, every intermediate quantity is real, and one propagation step through
    the doubly scaled, shifted matrix equals the kernel's arrangement by distributivity over the reals. The second
    layer repeats the first with the hidden features in place of the input features.
-/
import proofs.«130698_j71897752535776_2_alg».proof.Proof.Ref.Spec
import proofs.«130698_j71897752535776_2_alg».proof.Proof.KI.KerSpec
import proofs.«130698_j71897752535776_2_alg».proof.Proof.LibDiagNormalise
import Idealize.ShloMosaic.PureOps.Ideal.Laws

noncomputable section

open scoped BigOperators

namespace Cert.Proof.Law

open Idealize.ShloMosaic Idealize.ShloMosaic.ValueIdx
open Cert.Proof.RefSpec (beta eps invSqrtOrZero tilde xw)
open Cert.Lib.DiagNormalise

/-! ## Extended reals that are real numbers -/

/-- An extended real that is a real number. -/
def IsReal (x : EReal) : Prop := ∃ r : ℝ, x = (r : EReal)

/-- The inclusion of the reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem isReal_zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h
  · rw [h]; exact hx
  · rw [h]; exact hy

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-! ## The constants and the guarded inverse square root are real -/

/-- A word whose exponent field is not all ones denotes a real number. -/
theorem isReal_ieee_of_ne {e m w : Nat} (b : BitVec w) (h : (b.extractLsb' m e).toNat ≠ 2 ^ e - 1) :
    IsReal (Ideal.ieee e m b) := by
  unfold Ideal.ieee
  dsimp only
  rw [if_neg h]
  split_ifs <;> exact ⟨_, rfl⟩

theorem isReal_beta : IsReal beta := isReal_ieee_of_ne (e := 8) (m := 23) (0x3F4CCCCD#32) (by decide)

theorem isReal_eps : IsReal eps := isReal_ieee_of_ne (e := 8) (m := 23) (0x322BCC77#32) (by decide)

/-- The word of `+∞` denotes `+∞`. -/
theorem ofBits_inf_f32 : Ideal.ofBits .f32 0x7F800000#32 = ⊤ := by simp [Ideal.ofBits, Ideal.ieee]

/-- A choice on a decided proposition is the `if`. -/
theorem select_ofBool (c : Prop) [Decidable c] (a b : EReal) :
    Scalar.select (BitVec.ofBool (decide c)) a b = if c then a else b := by
  unfold Scalar.select
  by_cases h : c <;> simp [h]

/-- THE GUARDED INVERSE SQUARE ROOT IS A REAL NUMBER, whatever its argument. -/
theorem isReal_invSqrtOrZero (d : EReal) : IsReal (invSqrtOrZero d) := by
  rw [RefSpec.invSqrtOrZero_eq]
  generalize Ideal.pow d (Ideal.ofBits .f32 0xBF000000#32) = p
  rw [ofBits_inf_f32, Ideal.ofBits_zero_f32]
  show IsReal (Scalar.select (BitVec.ofBool (decide (max p (-p) = ⊤))) 0 p)
  rw [select_ofBool]
  induction p using EReal.rec with
  | bot =>
    rw [if_pos (by simp)]
    exact isReal_zero
  | top =>
    rw [if_pos (by simp)]
    exact isReal_zero
  | coe r =>
    rw [if_neg]
    · exact ⟨r, rfl⟩
    · intro h
      rcases max_choice (r : EReal) (-(r : EReal)) with h' | h'
      · rw [h'] at h; exact EReal.coe_ne_top r h
      · rw [h', ← EReal.coe_neg] at h; exact EReal.coe_ne_top (-r) h

section
variable (A S : FVec Ideal ⟨2, ![8192, 8192]⟩ .f32) (x : FVec Ideal ⟨2, ![8192, 512]⟩ .f32)
  (W1 : FVec Ideal ⟨2, ![512, 256]⟩ .f32) (b1 : FVec Ideal ⟨1, ![256]⟩ .f32)
  (W2 : FVec Ideal ⟨2, ![256, 128]⟩ .f32) (b2 : FVec Ideal ⟨1, ![128]⟩ .f32)

/-! ## The degrees and the scale factors agree, with no assumption -/

/-- The row sum of the shifted blend is the row sum of the blend plus `ε`: the diagonal contributes once. -/
theorem deg_eq (i : Fin 8192) : RefSpec.deg A S i = KerSpec.deg A S i := by
  unfold RefSpec.deg KerSpec.deg RefSpec.adj
  rw [Finset.sum_add_distrib, Finset.sum_ite_eq, if_pos (Finset.mem_univ i)]

theorem dis_eq (i : Fin 8192) : RefSpec.dis A S i = KerSpec.dis A S i := by
  unfold RefSpec.dis KerSpec.dis
  rw [deg_eq]

theorem isReal_dis (i : Fin 8192) : IsReal (KerSpec.dis A S i) := isReal_invSqrtOrZero _

/-! ## Real entries -/

section Real
variable (hA : ∀ idx, ∃ r : ℝ, A idx = (r : EReal)) (hS : ∀ idx, ∃ r : ℝ, S idx = (r : EReal))
include hA hS

theorem isReal_tilde (i j : Fin 8192) : IsReal (tilde A S i j) :=
  IsReal.add (hA _) (IsReal.mul isReal_beta (hS _))

/-- ONE PROPAGATION STEP: for a real feature matrix `Y`, the product with the reference's normalised adjacency is the
    kernel's step. -/
theorem step_agree {n : ℕ} (Y : Fin 8192 → Fin n → EReal) (hY : ∀ k c, IsReal (Y k c)) (i : Fin 8192) (c : Fin n) :
    ∑ k, RefSpec.norm A S i k * Y k c = KerSpec.step A S Y i c := by
  choose t ht using fun i j => isReal_tilde A S hA hS i j
  choose d hd using fun i => isReal_dis A S i
  choose y hy using hY
  obtain ⟨e, he⟩ := isReal_eps
  have hadj : ∀ i k, RefSpec.adj A S i k = ((withDiag t e i k : ℝ) : EReal) := by
    intro i k
    unfold RefSpec.adj withDiag
    rw [ht, he, EReal.coe_add]
    split_ifs
    · rfl
    · rw [EReal.coe_zero]
  have hdr : ∀ i, RefSpec.dis A S i = d i := fun i => (dis_eq A S i).trans (hd i)
  have hL : ∑ k, RefSpec.norm A S i k * Y k c
      = ((∑ k, ((d i * withDiag t e i k) * d k) * y k c : ℝ) : EReal) := by
    rw [coe_sum]
    refine Finset.sum_congr rfl fun k _ => ?_
    unfold RefSpec.norm
    rw [hdr, hdr, hadj, hy, EReal.coe_mul, EReal.coe_mul, EReal.coe_mul]
  have hR : KerSpec.step A S Y i c
      = (((∑ j, t i j * (d j * y j c)) * d i + (e * (d i * d i)) * y i c : ℝ) : EReal) := by
    unfold KerSpec.step
    simp only [ht, hd, hy, he, EReal.coe_add, EReal.coe_mul, coe_sum]
  rw [hL, hR]
  exact congrArg (fun r : ℝ => (r : EReal)) (propagate t e d (fun j => y j c) i)

/-- The kernel's step of a real feature matrix is real. -/
theorem isReal_step {n : ℕ} (Y : Fin 8192 → Fin n → EReal) (hY : ∀ k c, IsReal (Y k c)) (i : Fin 8192) (c : Fin n) :
    IsReal (KerSpec.step A S Y i c) := by
  unfold KerSpec.step
  exact IsReal.add
    (IsReal.mul (IsReal.sum _ fun j => IsReal.mul (isReal_tilde A S hA hS i j) (IsReal.mul (isReal_dis A S j) (hY j c)))
      (isReal_dis A S i))
    (IsReal.mul (IsReal.mul isReal_eps (IsReal.mul (isReal_dis A S i) (isReal_dis A S i))) (hY i c))

variable (hx : ∀ idx, ∃ r : ℝ, x idx = (r : EReal)) (hW1 : ∀ idx, ∃ r : ℝ, W1 idx = (r : EReal))
  (hb1 : ∀ idx, ∃ r : ℝ, b1 idx = (r : EReal))
include hx hW1 hb1

omit hA hS hb1 in
theorem isReal_xw (k : Fin 8192) (c : Fin 256) : IsReal (xw x W1 k c) :=
  IsReal.sum _ fun t => IsReal.mul (hx _) (hW1 _)

theorem layer1_agree (i : Fin 8192) (c : Fin 256) :
    RefSpec.layer1 A S x W1 b1 i c = KerSpec.layer1 A S x W1 b1 i c := by
  unfold RefSpec.layer1 KerSpec.layer1
  rw [step_agree A S hA hS (xw x W1) (isReal_xw x W1 hx hW1) i c]

theorem isReal_layer1 (i : Fin 8192) (c : Fin 256) : IsReal (KerSpec.layer1 A S x W1 b1 i c) :=
  IsReal.add (isReal_step A S hA hS (xw x W1) (isReal_xw x W1 hx hW1) i c) (hb1 _)

theorem hidden_agree (i : Fin 8192) (c : Fin 256) :
    RefSpec.hidden A S x W1 b1 i c = KerSpec.hidden A S x W1 b1 i c := by
  unfold RefSpec.hidden KerSpec.hidden
  rw [layer1_agree A S x W1 b1 hA hS hx hW1 hb1]

theorem isReal_hidden (i : Fin 8192) (c : Fin 256) : IsReal (KerSpec.hidden A S x W1 b1 i c) :=
  IsReal.max (isReal_layer1 A S x W1 b1 hA hS hx hW1 hb1 i c) isReal_zero

variable (hW2 : ∀ idx, ∃ r : ℝ, W2 idx = (r : EReal))
include hW2

omit hW2 in
theorem hw_agree (k : Fin 8192) (c : Fin 128) :
    RefSpec.hw A S x W1 b1 W2 k c = KerSpec.hw A S x W1 b1 W2 k c := by
  unfold RefSpec.hw KerSpec.hw
  refine Finset.sum_congr rfl fun t _ => ?_
  rw [hidden_agree A S x W1 b1 hA hS hx hW1 hb1]

theorem isReal_hw (k : Fin 8192) (c : Fin 128) : IsReal (KerSpec.hw A S x W1 b1 W2 k c) :=
  IsReal.sum _ fun t => IsReal.mul (isReal_hidden A S x W1 b1 hA hS hx hW1 hb1 k t) (hW2 _)

theorem outAt_agree (i : Fin 8192) (c : Fin 128) :
    RefSpec.outAt A S x W1 b1 W2 b2 i c = KerSpec.outAt A S x W1 b1 W2 b2 i c := by
  unfold RefSpec.outAt KerSpec.outAt
  have e : RefSpec.hw A S x W1 b1 W2 = KerSpec.hw A S x W1 b1 W2 :=
    funext fun k => funext fun c => hw_agree A S x W1 b1 W2 hA hS hx hW1 hb1 k c
  rw [e, step_agree A S hA hS (KerSpec.hw A S x W1 b1 W2) (isReal_hw A S x W1 b1 W2 hA hS hx hW1 hb1 hW2) i c]

end Real

/-- THE TWO FORMULAS AGREE on arrays whose entries are all real numbers. -/
theorem spec_agree (hA : ∀ idx, ∃ r : ℝ, A idx = (r : EReal)) (hS : ∀ idx, ∃ r : ℝ, S idx = (r : EReal))
    (hx : ∀ idx, ∃ r : ℝ, x idx = (r : EReal)) (hW1 : ∀ idx, ∃ r : ℝ, W1 idx = (r : EReal))
    (hb1 : ∀ idx, ∃ r : ℝ, b1 idx = (r : EReal)) (hW2 : ∀ idx, ∃ r : ℝ, W2 idx = (r : EReal))
    (hb2 : ∀ idx, ∃ r : ℝ, b2 idx = (r : EReal)) :
    RefSpec.out A S x W1 b1 W2 b2 = KerSpec.out A S x W1 b1 W2 b2 := by
  funext idx
  obtain ⟨p, q, rfl⟩ : ∃ (p : Fin 8192) (q : Fin 128), idx = ix2 p q := ⟨idx 0, idx 1, eq_ix2 idx⟩
  rw [RefSpec.out_ix2, KerSpec.out_ix2]
  exact outAt_agree A S x W1 b1 W2 b2 hA hS hx hW1 hb1 hW2 p q

end

end Cert.Proof.Law

end
-- ==== Proof.LibFiniteReal.lean ====
/-
  One element of an "every entry is finite" test, read on the extended reals.

  The test compares the absolute value `max x (-x)` with the f32 pattern of `+∞`, strictly. That pattern denotes the
  top element; the absolute value of `-∞` is `+∞`; so the test passes exactly at the reals. Also: the rank-0 shape
  has a single index (what reading a reduction over all axes at "its one result" needs).
-/
import Idealize.ShloMosaic.PureOps.Ideal.Laws

noncomputable section

namespace Cert.Lib.FiniteReal

open Idealize.ShloMosaic

/-- The f32 pattern `0x7F800000` denotes `+∞`. -/
theorem ofBits_inf_f32 : Ideal.ofBits .f32 0x7F800000#32 = ⊤ := by simp [Ideal.ofBits, Ideal.ieee]

/-- An extended real whose absolute value is strictly below the pattern of `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- Conversely every real passes the test. -/
theorem abs_lt_inf_of_real (r : ℝ) :
    Ideal.cmp .olt (max (r : EReal) (-(r : EReal))) (Ideal.ofBits .f32 0x7F800000#32) = 1#1 := by
  rw [ofBits_inf_f32]
  have h : max (r : EReal) (-(r : EReal)) < ⊤ := max_lt (EReal.coe_lt_top r) (by rw [← EReal.coe_neg]; exact EReal.coe_lt_top _)
  simp [Ideal.cmp, h]

/-- The rank-0 shape has exactly one index. -/
theorem subsingleton_idx0 : Subsingleton (⟨0, ![]⟩ : Shape).Idx := ⟨fun _ _ => funext fun d => d.elim0⟩

end Cert.Lib.FiniteReal

end
-- ==== Proof.Finite.lean ====
/-
  From the finiteness test of the seven arguments to "every entry is a real number".

  The test computes, for each of the seven argument arrays, whether every entry's absolute value is strictly below
  `+∞`, and takes the conjunction of the seven answers. If the conjunction is 1 then each answer is 1; an "every entry"
  answer that is 1 had a 1 at every entry; and an entry whose absolute value is strictly below `+∞` is neither infinity:
  it is a real number. Stated for any seven arrays of the argument shapes, and then for the arrays a memory of the
  kernel's program holds at its seven argument buffers.
-/
import proofs.«130698_j71897752535776_2_alg».proof.Defs
import proofs.«130698_j71897752535776_2_alg».proof.Proof.LibFiniteReal
import Idealize.ShloMosaic.Lib.ReduceAll
import Idealize.ShloMosaic.Lib.ValueIdx
import Idealize.ShloMosaic.Lib.Pipeline.Value

noncomputable section

namespace Cert.Proof.Finite

open Idealize.ShloMosaic Idealize.SL.Sem Idealize.ShloMosaic.ValueIdx

/-- The bound every entry is compared with — the word of `+∞` spread over the array — is `+∞`'s word at every index. -/
theorem bound_apply {s : Shape} (hb : (⟨0, ![]⟩ : Shape).BroadcastsInDim s (![] : Fin 0 → Fin s.rank)) (idx : s.Idx) :
    broadcastInDim s ![] hb (constant (F := Ideal) ⟨0, ![]⟩ .f32 0x7F800000#32) idx
      = Ideal.ofBits .f32 0x7F800000#32 :=
  broadcastInDim_apply _ hb _ idx (fun a => a.elim0) (fun a => a.elim0)

/-- ONE ARRAY: if "every entry's absolute value is strictly below the bound" is 1, every entry is a real number. -/
theorem entry_real {s : Shape} {axes : List (Fin s.rank)} (a bound : FVec Ideal s .f32)
    (hbound : ∀ idx, bound idx = Ideal.ofBits .f32 0x7F800000#32)
    (init : (⟨0, ![]⟩ : Shape).Idx → BitVec 1) (hr : s.ReducesTo axes ⟨0, ![]⟩)
    (hu : 0 < (⟨0, ![]⟩ : Shape).numel)
    (h : Host.reduce IntOp.andi (cmpf .olt (Host.absf a) bound) init hr hu ix0 = 1#1) (idx : s.Idx) :
    ∃ r : ℝ, a idx = (r : EReal) := by
  haveI := Cert.Lib.FiniteReal.subsingleton_idx0
  have e := Host.reduce_andi_all (cmpf .olt (Host.absf a) bound) init hr hu ix0 h idx
  refine Cert.Lib.FiniteReal.real_of_abs_lt_inf (a idx) ?_
  rw [← hbound idx]
  exact e

/-- THE SEVEN ARRAYS: if the finiteness test of seven arrays of the argument shapes is 1, every entry of each of them
    is a real number. -/
theorem reals_of_finite_inputs [Cert.Pre_finite_inputs.Facts]
    (a0 a1 : FVec Ideal Cert.Pre_finite_inputs.S8192x8192 .f32) (a2 : FVec Ideal Cert.Pre_finite_inputs.S8192x512 .f32)
    (a3 : FVec Ideal Cert.Pre_finite_inputs.S512x256 .f32) (a4 : FVec Ideal Cert.Pre_finite_inputs.S256 .f32)
    (a5 : FVec Ideal Cert.Pre_finite_inputs.S256x128 .f32) (a6 : FVec Ideal Cert.Pre_finite_inputs.S128 .f32)
    (h : Cert.Pre_finite_inputs.fn (F := Ideal) a0 a1 a2 a3 a4 a5 a6 = fun _ => 1#1) :
    (∀ idx, ∃ r : ℝ, a0 idx = (r : EReal)) ∧ (∀ idx, ∃ r : ℝ, a1 idx = (r : EReal))
      ∧ (∀ idx, ∃ r : ℝ, a2 idx = (r : EReal)) ∧ (∀ idx, ∃ r : ℝ, a3 idx = (r : EReal))
      ∧ (∀ idx, ∃ r : ℝ, a4 idx = (r : EReal)) ∧ (∀ idx, ∃ r : ℝ, a5 idx = (r : EReal))
      ∧ (∀ idx, ∃ r : ℝ, a6 idx = (r : EReal)) := by
  have h0 := congrFun h ix0
  dsimp only [Cert.Pre_finite_inputs.fn, Cert.Pre_finite_inputs.fn_part1] at h0
  obtain ⟨h0, h6⟩ := IntOp.andi_eq_one.mp h0
  obtain ⟨h0, h5⟩ := IntOp.andi_eq_one.mp h0
  obtain ⟨h0, h4⟩ := IntOp.andi_eq_one.mp h0
  obtain ⟨h0, h3⟩ := IntOp.andi_eq_one.mp h0
  obtain ⟨h0, h2⟩ := IntOp.andi_eq_one.mp h0
  obtain ⟨h0, h1⟩ := IntOp.andi_eq_one.mp h0
  exact ⟨entry_real a0 _ (bound_apply _) _ _ _ h0, entry_real a1 _ (bound_apply _) _ _ _ h1,
    entry_real a2 _ (bound_apply _) _ _ _ h2, entry_real a3 _ (bound_apply _) _ _ _ h3,
    entry_real a4 _ (bound_apply _) _ _ _ h4, entry_real a5 _ (bound_apply _) _ _ _ h5,
    entry_real a6 _ (bound_apply _) _ _ _ h6⟩

/-- THE KERNEL PROGRAM'S MEMORY: under the precondition, on every device, every entry of each of the seven argument
    buffers is a real number. -/
theorem reals_of_pre_kernel [Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    (∀ idx, ∃ r : ℝ, (m ((c.tc : Thread Cert.KernelIdeal.nD Cert.KernelIdeal.τ).loc Cert.KernelIdeal.main_arg0)
        : FVec Ideal Cert.Pre_finite_inputs.S8192x8192 .f32) idx = (r : EReal))
      ∧ (∀ idx, ∃ r : ℝ, (m ((c.tc : Thread Cert.KernelIdeal.nD Cert.KernelIdeal.τ).loc Cert.KernelIdeal.main_arg1)
        : FVec Ideal Cert.Pre_finite_inputs.S8192x8192 .f32) idx = (r : EReal))
      ∧ (∀ idx, ∃ r : ℝ, (m ((c.tc : Thread Cert.KernelIdeal.nD Cert.KernelIdeal.τ).loc Cert.KernelIdeal.main_arg2)
        : FVec Ideal Cert.Pre_finite_inputs.S8192x512 .f32) idx = (r : EReal))
      ∧ (∀ idx, ∃ r : ℝ, (m ((c.tc : Thread Cert.KernelIdeal.nD Cert.KernelIdeal.τ).loc Cert.KernelIdeal.main_arg3)
        : FVec Ideal Cert.Pre_finite_inputs.S512x256 .f32) idx = (r : EReal))
      ∧ (∀ idx, ∃ r : ℝ, (m ((c.tc : Thread Cert.KernelIdeal.nD Cert.KernelIdeal.τ).loc Cert.KernelIdeal.main_arg4)
        : FVec Ideal Cert.Pre_finite_inputs.S256 .f32) idx = (r : EReal))
      ∧ (∀ idx, ∃ r : ℝ, (m ((c.tc : Thread Cert.KernelIdeal.nD Cert.KernelIdeal.τ).loc Cert.KernelIdeal.main_arg5)
        : FVec Ideal Cert.Pre_finite_inputs.S256x128 .f32) idx = (r : EReal))
      ∧ (∀ idx, ∃ r : ℝ, (m ((c.tc : Thread Cert.KernelIdeal.nD Cert.KernelIdeal.τ).loc Cert.KernelIdeal.main_arg6)
        : FVec Ideal Cert.Pre_finite_inputs.S128 .f32) idx = (r : EReal)) :=
  reals_of_finite_inputs _ _ _ _ _ _ _ (hm c)

end Cert.Proof.Finite

end
-- ==== Proof.Alg.lean ====
/-
  The two idealized programs end with equal results.

  The kernel program's result buffer ends at the kernel-side formula of its arguments; the reference's at the
  reference-side formula of its own arguments, which are the kernel's by hypothesis; and under the precondition, every
  input a real number, the two formulas agree entry by entry.
-/
import proofs.«130698_j71897752535776_2_alg».proof.Defs
import proofs.«130698_j71897752535776_2_alg».proof.Proof.KI.Frame
import proofs.«130698_j71897752535776_2_alg».proof.Proof.KI.KerSpec
import proofs.«130698_j71897752535776_2_alg».proof.Proof.Ref.Formula
import proofs.«130698_j71897752535776_2_alg».proof.Proof.Gen.ReferenceIdeal.Run
import proofs.«130698_j71897752535776_2_alg».proof.Proof.Gen.ReferenceIdeal.Read
import proofs.«130698_j71897752535776_2_alg».proof.Proof.Gen.Pre_finite_inputs
import proofs.«130698_j71897752535776_2_alg».proof.Proof.KI.KerValue
import proofs.«130698_j71897752535776_2_alg».proof.Proof.Law
import proofs.«130698_j71897752535776_2_alg».proof.Proof.Finite

set_option maxRecDepth 16384

noncomputable section

open Idealize.ShloMosaic Idealize.ShloMosaic.TcCoe Idealize.SL.Sem

namespace Cert.Proof.Alg

open Cert.Proof

/-- The kernel program's result buffer at the end of its run is the kernel-side formula of its arguments. -/
theorem ker_value (m : (ℓ : Loc Cert.KernelIdeal.nD Cert.KernelIdeal.τ Cert.KernelIdeal.sig) → Buf (Elt Ideal) ℓ) (c : Dev Cert.KernelIdeal.nD) :
    Cert.KernelIdeal.Whole.W12 (F := Ideal) m c (Proc.devRef .tc Cert.KernelIdeal.main_v35)
      = KerSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := Cert.Proof.KerVal.ker_value m c

/-- Under the precondition the two formulas agree on the kernel program's arguments. -/
theorem agree (m : (ℓ : Loc Cert.KernelIdeal.nD Cert.KernelIdeal.τ Cert.KernelIdeal.sig) → Buf (Elt Ideal) ℓ)
    (hpre : Cert.Pre_KernelIdeal m) (c : Dev Cert.KernelIdeal.nD) :
    RefSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = KerSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  obtain ⟨h0, h1, h2, h3, h4, h5, h6⟩ := Cert.Proof.Finite.reals_of_pre_kernel m hpre c
  exact Cert.Proof.Law.spec_agree _ _ _ _ _ _ _ h0 h1 h2 h3 h4 h5 h6

theorem algebraic : Cert.algebraic_KernelIdeal_ReferenceIdeal := by
  intro m ρ m' ρ' hpre hagree
  refine ⟨fun c => KerSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run _ _ _).mono (fun r h c => ⟨(h c).1.trans (ker_value m c), (h c).2⟩)
      (Cert.KernelIdeal.Whole.result_run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v40_eq, RefSpec.ref_value, (hagree c).1, (hagree c).2.1, (hagree c).2.2.1,
      (hagree c).2.2.2.1, (hagree c).2.2.2.2.1, (hagree c).2.2.2.2.2.1, (hagree c).2.2.2.2.2.2]
    exact agree m hpre c

end Cert.Proof.Alg

end
-- ==== Proof.lean ====
/-
  The certificate's claim: the kernel program and its idealization run to the end, faulting nowhere and leaving their
  arguments unchanged; so does the reference; the idealization rewrote nothing; and at the exact instance the idealized
  kernel program and the idealized reference, run on the same arguments, end with equal results.

  The kernel program is three kernel regions among nine stretches of host operations.  Each region is a pipeline over an
  8 x 8 grid whose body keeps an accumulator across the eight points of a row block; Proof/KI holds, per region, the body's
  symbolic runs, what they leave, the proof data and the body's obligation, then the program as a list of segments and its
  run (Proof/KB is the same text for the word-level program, the two programs being one text in two namespaces).  The
  reference's run and its result as one formula are in Proof/RefSide and Proof/Ref; the kernel-side formula, and that the
  two formulas agree on real inputs, in Proof/KI/KerSpec, Proof/Law and Proof/Finite; Proof/Alg joins the two runs.
-/
import proofs.«130698_j71897752535776_2_alg».proof.Defs
import proofs.«130698_j71897752535776_2_alg».proof.Proof.RefSide
import proofs.«130698_j71897752535776_2_alg».proof.Proof.KI.Frame
import proofs.«130698_j71897752535776_2_alg».proof.Proof.KB.Frame
import proofs.«130698_j71897752535776_2_alg».proof.Proof.Alg
import proofs.«130698_j71897752535776_2_alg».proof.Proof.Gen.Kernel
import proofs.«130698_j71897752535776_2_alg».proof.Proof.Gen.KernelIdeal
import proofs.«130698_j71897752535776_2_alg».proof.Proof.Gen.ReferenceIdeal
import proofs.«130698_j71897752535776_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Whole.frame m ρ,
    fun m ρ _ => Cert.KernelIdeal.Whole.frame m ρ,
    Cert.Proof.RefSide.frame_ri,
    Cert.Proof.RefSide.preserves,
    Cert.Proof.Alg.algebraic⟩

end Cert.Proof

end
